-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S2x2048x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S2x2048x16x64 : Shape := ⟨4, ![2, 2048, 16, 64]⟩
abbrev S1x256x16x64 : Shape := ⟨4, ![1, 256, 16, 64]⟩
abbrev S16x256x1 : Shape := ⟨3, ![16, 256, 1]⟩
abbrev S16x256x64 : Shape := ⟨3, ![16, 256, 64]⟩
abbrev S256x16x64 : Shape := ⟨3, ![256, 16, 64]⟩
abbrev S16x256x256 : Shape := ⟨3, ![16, 256, 256]⟩
abbrev S16x256 : Shape := ⟨2, ![16, 256]⟩

abbrev nBuf : Space → Nat
  | .hbm => 130
  | .vmem => 29
  | .smem => 0
  | _ => 0

abbrev hbmTy0_0 (i : Nat) : BufTy := match i % 128 with
  | 0 => ⟨S2x2048x1024, .f32⟩
  | 1 => ⟨S2x2048x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1024x1024, .f32⟩
  | 17 => ⟨S1024x1024, .f32⟩
  | 18 => ⟨S1024x1024, .f32⟩
  | 19 => ⟨S_, .f32⟩
  | 20 => ⟨S_, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S1024x1024, .f32⟩
  | 33 => ⟨S1024x1024, .bf16⟩
  | 34 => ⟨S1024x1024, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S_, .f32⟩
  | 49 => ⟨S_, .f32⟩
  | 50 => ⟨S1024x1024, .f32⟩
  | 51 => ⟨S1024x1024, .f32⟩
  | 52 => ⟨S_, .f32⟩
  | 53 => ⟨S1024x1024, .f32⟩
  | 54 => ⟨S1024x1024, .f32⟩
  | 55 => ⟨S1024x1024, .f32⟩
  | 56 => ⟨S1024x1024, .f32⟩
  | 57 => ⟨S_, .f32⟩
  | 58 => ⟨S1024x1024, .f32⟩
  | 59 => ⟨S1024x1024, .f32⟩
  | 60 => ⟨S1024x1024, .f32⟩
  | 61 => ⟨S1024x1024, .bf16⟩
  | 62 => ⟨S1024x1024, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1024x1024, .f32⟩
  | 73 => ⟨S1024x1024, .f32⟩
  | 74 => ⟨S1024x1024, .f32⟩
  | 75 => ⟨S_, .f32⟩
  | 76 => ⟨S_, .f32⟩
  | 77 => ⟨S_, .f32⟩
  | 78 => ⟨S1024x1024, .f32⟩
  | 79 => ⟨S1024x1024, .f32⟩
  | 80 => ⟨S_, .f32⟩
  | 81 => ⟨S1024x1024, .f32⟩
  | 82 => ⟨S1024x1024, .f32⟩
  | 83 => ⟨S1024x1024, .f32⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S1024x1024, .bf16⟩
  | 90 => ⟨S1024x1024, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1024x1024, .f32⟩
  | 101 => ⟨S1024x1024, .f32⟩
  | 102 => ⟨S1024x1024, .f32⟩
  | 103 => ⟨S_, .f32⟩
  | 104 => ⟨S_, .f32⟩
  | 105 => ⟨S_, .f32⟩
  | 106 => ⟨S1024x1024, .f32⟩
  | 107 => ⟨S1024x1024, .f32⟩
  | 108 => ⟨S_, .f32⟩
  | 109 => ⟨S1024x1024, .f32⟩
  | 110 => ⟨S1024x1024, .f32⟩
  | 111 => ⟨S1024x1024, .f32⟩
  | 112 => ⟨S1024x1024, .f32⟩
  | 113 => ⟨S_, .f32⟩
  | 114 => ⟨S1024x1024, .f32⟩
  | 115 => ⟨S1024x1024, .f32⟩
  | 116 => ⟨S1024x1024, .f32⟩
  | 117 => ⟨S1024x1024, .bf16⟩
  | 118 => ⟨S4096x1024, .f32⟩
  | 119 => ⟨S4096x1024, .f32⟩
  | 120 => ⟨S4096x1024, .bf16⟩
  | 121 => ⟨S4096x1024, .bf16⟩
  | 122 => ⟨S4096x1024, .bf16⟩
  | 123 => ⟨S2x2048x16x64, .bf16⟩
  | 124 => ⟨S2x2048x16x64, .bf16⟩
  | 125 => ⟨S2x2048x16x64, .bf16⟩
  | 126 => ⟨S2x2048x16x64, .f32⟩
  | 127 => ⟨S4096x1024, .f32⟩
  | _ => ⟨S2x2048x1024, .f32⟩

abbrev hbmTy0_1 (i : Nat) : BufTy := match i % 128 with
  | 0 => ⟨S4096x1024, .f32⟩
  | 1 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x256x16x64, .bf16⟩
  | .local _ .vmem, ⟨14, _⟩ => ⟨S1x256x16x64, .bf16⟩
  | .local _ .vmem, ⟨15, _⟩ => ⟨S1x256x16x64, .bf16⟩
  | .local _ .vmem, ⟨16, _⟩ => ⟨S1x256x16x64, .bf16⟩
  | .local _ .vmem, ⟨17, _⟩ => ⟨S1x256x16x64, .bf16⟩
  | .local _ .vmem, ⟨18, _⟩ => ⟨S1x256x16x64, .bf16⟩
  | .local _ .vmem, ⟨19, _⟩ => ⟨S1x256x16x64, .f32⟩
  | .local _ .vmem, ⟨20, _⟩ => ⟨S1x256x16x64, .f32⟩
  | .local _ .vmem, ⟨21, _⟩ => ⟨S16x256x1, .f32⟩
  | .local _ .vmem, ⟨22, _⟩ => ⟨S16x256x1, .f32⟩
  | .local _ .vmem, ⟨23, _⟩ => ⟨S16x256x64, .f32⟩
  | .local _ .vmem, ⟨24, _⟩ => ⟨S512x1024, .f32⟩
  | .local _ .vmem, ⟨25, _⟩ => ⟨S512x1024, .f32⟩
  | .local _ .vmem, ⟨26, _⟩ => ⟨S1024x1024, .bf16⟩
  | .local _ .vmem, ⟨27, _⟩ => ⟨S512x1024, .f32⟩
  | .local _ .vmem, ⟨28, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_call0_v0 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_cst_8 : Ref sig .tc := ⟨.hbm, 39, rfl⟩
abbrev main_call3_v0 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_10 : Ref sig .tc := ⟨.hbm, 47, rfl⟩
abbrev main_cst_11 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_12 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_13 : Ref sig .tc := ⟨.hbm, 63, rfl⟩
abbrev main_v31 : Ref sig .tc := ⟨.hbm, 64, rfl⟩
abbrev main_cst_14 : Ref sig .tc := ⟨.hbm, 65, rfl⟩
abbrev main_v32 : Ref sig .tc := ⟨.hbm, 66, rfl⟩
abbrev main_cst_15 : Ref sig .tc := ⟨.hbm, 67, rfl⟩
abbrev main_call6_v0 : Ref sig .tc := ⟨.hbm, 68, rfl⟩
abbrev main_v33 : Ref sig .tc := ⟨.hbm, 69, rfl⟩
abbrev main_cst_16 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_17 : Ref sig .tc := ⟨.hbm, 75, rfl⟩
abbrev main_cst_18 : Ref sig .tc := ⟨.hbm, 76, rfl⟩
abbrev main_call8_v0 : Ref sig .tc := ⟨.hbm, 77, rfl⟩
abbrev main_call8_v1 : Ref sig .tc := ⟨.hbm, 78, rfl⟩
abbrev main_call8_v2 : Ref sig .tc := ⟨.hbm, 79, rfl⟩
abbrev main_call8_v3 : Ref sig .tc := ⟨.hbm, 80, rfl⟩
abbrev main_call8_v4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_19 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_20 : Ref sig .tc := ⟨.hbm, 91, rfl⟩
abbrev main_v46 : Ref sig .tc := ⟨.hbm, 92, rfl⟩
abbrev main_cst_21 : Ref sig .tc := ⟨.hbm, 93, rfl⟩
abbrev main_v47 : Ref sig .tc := ⟨.hbm, 94, rfl⟩
abbrev main_cst_22 : Ref sig .tc := ⟨.hbm, 95, rfl⟩
abbrev main_call9_v0 : Ref sig .tc := ⟨.hbm, 96, rfl⟩
abbrev main_v48 : Ref sig .tc := ⟨.hbm, 97, rfl⟩
abbrev main_cst_23 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_24 : Ref sig .tc := ⟨.hbm, 103, rfl⟩
abbrev main_cst_25 : Ref sig .tc := ⟨.hbm, 104, rfl⟩
abbrev main_call11_v0 : Ref sig .tc := ⟨.hbm, 105, rfl⟩
abbrev main_call11_v1 : Ref sig .tc := ⟨.hbm, 106, rfl⟩
abbrev main_call11_v2 : Ref sig .tc := ⟨.hbm, 107, rfl⟩
abbrev main_call11_v3 : Ref sig .tc := ⟨.hbm, 108, rfl⟩
abbrev main_call11_v4 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_26 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63_0 : Ref sig .tc := ⟨.hbm, 121, rfl⟩
abbrev main_v63_1 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc2_scratch1 : Ref sig .tc := ⟨.vmem, 22, rfl⟩
abbrev cc2_scratch2 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![2, 8, 8], ![false, false, false]⟩

def k2_cond2 (i : grid2.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_36 : BitVec 32 := 0#32
  let v45 : BitVec 1 := Scalar.cmpi .ne v44 c0_i32_36
  v45

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x256x16x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x256x16x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x256x16x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x256x16x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S1x256x16x64_S1x256x16x64_0_0_0_0 : ∀ a, (![0, 0, 0, 0] : Fin 4 → Nat) a + S1x256x16x64.size a ≤ S1x256x16x64.size a
  h_S1x256x16x64 : 0 < S1x256x16x64.numel
  shapeCasts_S1x256x16x64_S256x16x64 : S1x256x16x64.ShapeCasts S256x16x64
  transposes_S256x16x64_p1_0_2_S16x256x64 : S256x16x64.Transposes [1, 0, 2] S16x256x64
  reduces_S16x256x256_S16x256 : S16x256x256.Reduces [2] S16x256
  shapeCasts_S16x256_S16x256x1 : S16x256.ShapeCasts S16x256x1
  broadcasts_S16x256x1_S16x256x256 : S16x256x1.Broadcasts S16x256x256
  broadcasts_S16x256x1_S16x256x64 : S16x256x1.Broadcasts S16x256x64
  transposes_S16x256x64_p1_0_2_S256x16x64 : S16x256x64.Transposes [1, 0, 2] S256x16x64
  shapeCasts_S256x16x64_S1x256x16x64 : S256x16x64.ShapeCasts S1x256x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x1024.size a
  hwx1_4 : ∀ i : grid1.Coords, EltTy.bits .bf16 = 32 ∨ (Rect.block (s := S4096x1024) S512x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x16x64.size a ≤ S2x2048x16x64.size a
  hwx2_0 : ∀ i : grid2.Coords, EltTy.bits .bf16 = 32 ∨ (Rect.block (s := S2x2048x16x64) S1x256x16x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x16x64.size a ≤ S2x2048x16x64.size a
  hwx2_1 : ∀ i : grid2.Coords, EltTy.bits .bf16 = 32 ∨ (Rect.block (s := S2x2048x16x64) S1x256x16x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x16x64.size a ≤ S2x2048x16x64.size a
  hwx2_2 : ∀ i : grid2.Coords, EltTy.bits .bf16 = 32 ∨ (Rect.block (s := S2x2048x16x64) S1x256x16x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x16x64.size a ≤ S2x2048x16x64.size a
  hwx2_3 : ∀ i : grid2.Coords, EltTy.bits .f32 = 32 ∨ (Rect.block (s := S2x2048x16x64) S1x256x16x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .f32 = 32 ∨ (Rect.block (s := S4096x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x1024.size a
  hwx3_2 : ∀ i : grid3.Coords, EltTy.bits .f32 = 32 ∨ (Rect.block (s := S4096x1024) S512x1024.size (cc3_transform_2 i) (hinb3_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_v60) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v61) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v63_1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v64) S1x256x16x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x256x16x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x256x16x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x256x16x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v68) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 241
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1024x1024, .f32⟩
  | 17 => ⟨S1024x1024, .f32⟩
  | 18 => ⟨S1024x1024, .f32⟩
  | 19 => ⟨S_, .f32⟩
  | 20 => ⟨S_, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x1024, .f32⟩
  | 31 => ⟨S2x2048x1024, .f32⟩
  | 32 => ⟨S_, .f32⟩
  | 33 => ⟨S2x2048, .f32⟩
  | 34 => ⟨S2x2048x1, .f32⟩
  | 35 => ⟨S_, .f32⟩
  | 36 => ⟨S_, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1024, .f32⟩
  | 43 => ⟨S2x2048x1024, .f32⟩
  | 44 => ⟨S2x2048x1024, .f32⟩
  | 45 => ⟨S_, .f32⟩
  | 46 => ⟨S_, .f32⟩
  | 47 => ⟨S_, .f32⟩
  | 48 => ⟨S2x2048x1024, .f32⟩
  | 49 => ⟨S2x2048x1024, .f32⟩
  | 50 => ⟨S_, .f32⟩
  | 51 => ⟨S2x2048x1024, .f32⟩
  | 52 => ⟨S2x2048x1024, .f32⟩
  | 53 => ⟨S2x2048x1024, .f32⟩
  | 54 => ⟨S2x2048x1024, .f32⟩
  | 55 => ⟨S2x2048x1024, .f32⟩
  | 56 => ⟨S2x2048x1024, .f32⟩
  | 57 => ⟨S2x2048x1024, .f32⟩
  | 58 => ⟨S1024x1024, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1024x1024, .f32⟩
  | 69 => ⟨S1024x1024, .f32⟩
  | 70 => ⟨S1024x1024, .f32⟩
  | 71 => ⟨S_, .f32⟩
  | 72 => ⟨S_, .f32⟩
  | 73 => ⟨S_, .f32⟩
  | 74 => ⟨S1024x1024, .f32⟩
  | 75 => ⟨S1024x1024, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S1024x1024, .f32⟩
  | 82 => ⟨S1024x1024, .f32⟩
  | 83 => ⟨S2x2048x1024, .f32⟩
  | 84 => ⟨S_, .f32⟩
  | 85 => ⟨S2x2048, .f32⟩
  | 86 => ⟨S2x2048x1, .f32⟩
  | 87 => ⟨S_, .f32⟩
  | 88 => ⟨S_, .f32⟩
  | 89 => ⟨S2x2048x1, .f32⟩
  | 90 => ⟨S2x2048x1, .f32⟩
  | 91 => ⟨S_, .f32⟩
  | 92 => ⟨S2x2048x1, .f32⟩
  | 93 => ⟨S2x2048x1, .f32⟩
  | 94 => ⟨S2x2048x1024, .f32⟩
  | 95 => ⟨S2x2048x1024, .f32⟩
  | 96 => ⟨S2x2048x1024, .f32⟩
  | 97 => ⟨S_, .f32⟩
  | 98 => ⟨S_, .f32⟩
  | 99 => ⟨S_, .f32⟩
  | 100 => ⟨S2x2048x1024, .f32⟩
  | 101 => ⟨S2x2048x1024, .f32⟩
  | 102 => ⟨S_, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S2x2048x1024, .f32⟩
  | 110 => ⟨S1024x1024, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S1024x1024, .f32⟩
  | 121 => ⟨S1024x1024, .f32⟩
  | 122 => ⟨S1024x1024, .f32⟩
  | 123 => ⟨S_, .f32⟩
  | 124 => ⟨S_, .f32⟩
  | 125 => ⟨S_, .f32⟩
  | 126 => ⟨S1024x1024, .f32⟩
  | 127 => ⟨S1024x1024, .f32⟩
  | _ => ⟨S2x2048x1024, .f32⟩

abbrev hbmTy0_1 (i : Nat) : BufTy := match i % 128 with
  | 0 => ⟨S_, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1024, .f32⟩
  | 19 => ⟨S2x2048x1024, .f32⟩
  | 20 => ⟨S2x2048x1024, .f32⟩
  | 21 => ⟨S_, .f32⟩
  | 22 => ⟨S_, .f32⟩
  | 23 => ⟨S_, .f32⟩
  | 24 => ⟨S2x2048x1024, .f32⟩
  | 25 => ⟨S2x2048x1024, .f32⟩
  | 26 => ⟨S_, .f32⟩
  | 27 => ⟨S2x2048x1024, .f32⟩
  | 28 => ⟨S2x2048x1024, .f32⟩
  | 29 => ⟨S2x2048x1024, .f32⟩
  | 30 => ⟨S2x2048x1024, .f32⟩
  | 31 => ⟨S2x2048x1024, .f32⟩
  | 32 => ⟨S2x2048x1024, .f32⟩
  | 33 => ⟨S2x2048x1024, .f32⟩
  | 34 => ⟨S2x2048x16x64, .f32⟩
  | 35 => ⟨S2x16x2048x64, .f32⟩
  | 36 => ⟨S2x2048x16x64, .f32⟩
  | 37 => ⟨S2x16x2048x64, .f32⟩
  | 38 => ⟨S2x2048x16x64, .f32⟩
  | 39 => ⟨S2x16x2048x64, .f32⟩
  | 40 => ⟨S2x16x2048x2048, .f32⟩
  | 41 => ⟨S_, .f32⟩
  | 42 => ⟨S2x16x2048x2048, .f32⟩
  | 43 => ⟨S2x16x2048x2048, .f32⟩
  | 44 => ⟨S_, .f32⟩
  | 45 => ⟨S2x16x2048, .f32⟩
  | 46 => ⟨S_, .f32⟩
  | 47 => ⟨S2x16x2048, .f32⟩
  | 48 => ⟨S2x16x2048, .f32⟩
  | 49 => ⟨S2x16x2048x1, .f32⟩
  | 50 => ⟨S2x16x2048x2048, .f32⟩
  | 51 => ⟨S2x16x2048x2048, .f32⟩
  | 52 => ⟨S2x16x2048x2048, .f32⟩
  | 53 => ⟨S_, .f32⟩
  | 54 => ⟨S2x16x2048, .f32⟩
  | 55 => ⟨S2x16x2048x1, .f32⟩
  | 56 => ⟨S2x16x2048x2048, .f32⟩
  | 57 => ⟨S2x16x2048x2048, .f32⟩
  | 58 => ⟨S2x16x2048x64, .f32⟩
  | 59 => ⟨S2x2048x16x64, .f32⟩
  | 60 => ⟨S2x2048x1024, .f32⟩
  | 61 => ⟨S1024x1024, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1024x1024, .f32⟩
  | 72 => ⟨S1024x1024, .f32⟩
  | 73 => ⟨S1024x1024, .f32⟩
  | 74 => ⟨S_, .f32⟩
  | 75 => ⟨S_, .f32⟩
  | 76 => ⟨S_, .f32⟩
  | 77 => ⟨S1024x1024, .f32⟩
  | 78 => ⟨S1024x1024, .f32⟩
  | 79 => ⟨S_, .f32⟩
  | 80 => ⟨S1024x1024, .f32⟩
  | 81 => ⟨S1024x1024, .f32⟩
  | 82 => ⟨S1024x1024, .f32⟩
  | 83 => ⟨S1024x1024, .f32⟩
  | 84 => ⟨S1024x1024, .f32⟩
  | 85 => ⟨S1024x1024, .f32⟩
  | 86 => ⟨S2x2048x1024, .f32⟩
  | 87 => ⟨S_, .f32⟩
  | 88 => ⟨S2x2048, .f32⟩
  | 89 => ⟨S2x2048x1, .f32⟩
  | 90 => ⟨S_, .f32⟩
  | 91 => ⟨S_, .f32⟩
  | 92 => ⟨S2x2048x1, .f32⟩
  | 93 => ⟨S2x2048x1, .f32⟩
  | 94 => ⟨S_, .f32⟩
  | 95 => ⟨S2x2048x1, .f32⟩
  | 96 => ⟨S2x2048x1, .f32⟩
  | 97 => ⟨S2x2048x1024, .f32⟩
  | 98 => ⟨S2x2048x1024, .f32⟩
  | 99 => ⟨S2x2048x1024, .f32⟩
  | 100 => ⟨S_, .f32⟩
  | 101 => ⟨S_, .f32⟩
  | 102 => ⟨S_, .f32⟩
  | 103 => ⟨S2x2048x1024, .f32⟩
  | 104 => ⟨S2x2048x1024, .f32⟩
  | 105 => ⟨S_, .f32⟩
  | 106 => ⟨S2x2048x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S2x2048x1024, .f32⟩
  | 112 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_call0_v0 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_v16 : Ref sig .tc := ⟨.hbm, 38, rfl⟩
abbrev main_cst_7 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_cst_9 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_10 : Ref sig .tc := ⟨.hbm, 59, rfl⟩
abbrev main_v29 : Ref sig .tc := ⟨.hbm, 60, rfl⟩
abbrev main_cst_11 : Ref sig .tc := ⟨.hbm, 61, rfl⟩
abbrev main_v30 : Ref sig .tc := ⟨.hbm, 62, rfl⟩
abbrev main_cst_12 : Ref sig .tc := ⟨.hbm, 63, rfl⟩
abbrev main_call6_v0 : Ref sig .tc := ⟨.hbm, 64, rfl⟩
abbrev main_v31 : Ref sig .tc := ⟨.hbm, 65, rfl⟩
abbrev main_cst_13 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_14 : Ref sig .tc := ⟨.hbm, 71, rfl⟩
abbrev main_cst_15 : Ref sig .tc := ⟨.hbm, 72, rfl⟩
abbrev main_call8_v0 : Ref sig .tc := ⟨.hbm, 73, rfl⟩
abbrev main_call8_v1 : Ref sig .tc := ⟨.hbm, 74, rfl⟩
abbrev main_call8_v2 : Ref sig .tc := ⟨.hbm, 75, rfl⟩
abbrev main_call8_v3 : Ref sig .tc := ⟨.hbm, 76, rfl⟩
abbrev main_call8_v4 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_16 : Ref sig .tc := ⟨.hbm, 84, rfl⟩
abbrev main_v42 : Ref sig .tc := ⟨.hbm, 85, rfl⟩
abbrev main_v43 : Ref sig .tc := ⟨.hbm, 86, rfl⟩
abbrev main_cst_17 : Ref sig .tc := ⟨.hbm, 87, rfl⟩
abbrev main_call9_v0 : Ref sig .tc := ⟨.hbm, 88, rfl⟩
abbrev main_call9_v1 : Ref sig .tc := ⟨.hbm, 89, rfl⟩
abbrev main_v44 : Ref sig .tc := ⟨.hbm, 90, rfl⟩
abbrev main_cst_18 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_19 : Ref sig .tc := ⟨.hbm, 97, rfl⟩
abbrev main_cst_20 : Ref sig .tc := ⟨.hbm, 98, rfl⟩
abbrev main_call11_v0 : Ref sig .tc := ⟨.hbm, 99, rfl⟩
abbrev main_call11_v1 : Ref sig .tc := ⟨.hbm, 100, rfl⟩
abbrev main_call11_v2 : Ref sig .tc := ⟨.hbm, 101, rfl⟩
abbrev main_call11_v3 : Ref sig .tc := ⟨.hbm, 102, rfl⟩
abbrev main_call11_v4 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_21 : Ref sig .tc := ⟨.hbm, 111, rfl⟩
abbrev main_v57 : Ref sig .tc := ⟨.hbm, 112, rfl⟩
abbrev main_cst_22 : Ref sig .tc := ⟨.hbm, 113, rfl⟩
abbrev main_v58 : Ref sig .tc := ⟨.hbm, 114, rfl⟩
abbrev main_cst_23 : Ref sig .tc := ⟨.hbm, 115, rfl⟩
abbrev main_call12_v0 : Ref sig .tc := ⟨.hbm, 116, rfl⟩
abbrev main_v59 : Ref sig .tc := ⟨.hbm, 117, rfl⟩
abbrev main_cst_24 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_cst_25 : Ref sig .tc := ⟨.hbm, 123, rfl⟩
abbrev main_cst_26 : Ref sig .tc := ⟨.hbm, 124, rfl⟩
abbrev main_call14_v0 : Ref sig .tc := ⟨.hbm, 125, rfl⟩
abbrev main_call14_v1 : Ref sig .tc := ⟨.hbm, 126, rfl⟩
abbrev main_call14_v2 : Ref sig .tc := ⟨.hbm, 127, rfl⟩
abbrev main_call14_v3 : Ref sig .tc := ⟨.hbm, 128, rfl⟩
abbrev main_call14_v4 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_27 : Ref sig .tc := ⟨.hbm, 136, rfl⟩
abbrev main_v70 : Ref sig .tc := ⟨.hbm, 137, rfl⟩
abbrev main_v71 : Ref sig .tc := ⟨.hbm, 138, rfl⟩
abbrev main_cst_28 : Ref sig .tc := ⟨.hbm, 139, rfl⟩
abbrev main_call15_v0 : Ref sig .tc := ⟨.hbm, 140, rfl⟩
abbrev main_call15_v1 : Ref sig .tc := ⟨.hbm, 141, rfl⟩
abbrev main_v72 : Ref sig .tc := ⟨.hbm, 142, rfl⟩
abbrev main_cst_29 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_cst_30 : Ref sig .tc := ⟨.hbm, 149, rfl⟩
abbrev main_cst_31 : Ref sig .tc := ⟨.hbm, 150, rfl⟩
abbrev main_call17_v0 : Ref sig .tc := ⟨.hbm, 151, rfl⟩
abbrev main_call17_v1 : Ref sig .tc := ⟨.hbm, 152, rfl⟩
abbrev main_call17_v2 : Ref sig .tc := ⟨.hbm, 153, rfl⟩
abbrev main_call17_v3 : Ref sig .tc := ⟨.hbm, 154, rfl⟩
abbrev main_call17_v4 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_32 : Ref sig .tc := ⟨.hbm, 169, rfl⟩
abbrev main_v91 : Ref sig .tc := ⟨.hbm, 170, rfl⟩
abbrev main_v92 : Ref sig .tc := ⟨.hbm, 171, rfl⟩
abbrev main_cst_33 : Ref sig .tc := ⟨.hbm, 172, rfl⟩
abbrev main_v93 : Ref sig .tc := ⟨.hbm, 173, rfl⟩
abbrev main_cst_34 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_35 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_36 : Ref sig .tc := ⟨.hbm, 190, rfl⟩
abbrev main_v108 : Ref sig .tc := ⟨.hbm, 191, rfl⟩
abbrev main_cst_37 : Ref sig .tc := ⟨.hbm, 192, rfl⟩
abbrev main_v109 : Ref sig .tc := ⟨.hbm, 193, rfl⟩
abbrev main_cst_38 : Ref sig .tc := ⟨.hbm, 194, rfl⟩
abbrev main_call18_v0 : Ref sig .tc := ⟨.hbm, 195, rfl⟩
abbrev main_v110 : Ref sig .tc := ⟨.hbm, 196, rfl⟩
abbrev main_cst_39 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_40 : Ref sig .tc := ⟨.hbm, 202, rfl⟩
abbrev main_cst_41 : Ref sig .tc := ⟨.hbm, 203, rfl⟩
abbrev main_call20_v0 : Ref sig .tc := ⟨.hbm, 204, rfl⟩
abbrev main_call20_v1 : Ref sig .tc := ⟨.hbm, 205, rfl⟩
abbrev main_call20_v2 : Ref sig .tc := ⟨.hbm, 206, rfl⟩
abbrev main_call20_v3 : Ref sig .tc := ⟨.hbm, 207, rfl⟩
abbrev main_call20_v4 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_cst_42 : Ref sig .tc := ⟨.hbm, 215, rfl⟩
abbrev main_v121 : Ref sig .tc := ⟨.hbm, 216, rfl⟩
abbrev main_v122 : Ref sig .tc := ⟨.hbm, 217, rfl⟩
abbrev main_cst_43 : Ref sig .tc := ⟨.hbm, 218, rfl⟩
abbrev main_call21_v0 : Ref sig .tc := ⟨.hbm, 219, rfl⟩
abbrev main_call21_v1 : Ref sig .tc := ⟨.hbm, 220, rfl⟩
abbrev main_v123 : Ref sig .tc := ⟨.hbm, 221, rfl⟩
abbrev main_cst_44 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_cst_45 : Ref sig .tc := ⟨.hbm, 228, rfl⟩
abbrev main_cst_46 : Ref sig .tc := ⟨.hbm, 229, rfl⟩
abbrev main_call23_v0 : Ref sig .tc := ⟨.hbm, 230, rfl⟩
abbrev main_call23_v1 : Ref sig .tc := ⟨.hbm, 231, rfl⟩
abbrev main_call23_v2 : Ref sig .tc := ⟨.hbm, 232, rfl⟩
abbrev main_call23_v3 : Ref sig .tc := ⟨.hbm, 233, rfl⟩
abbrev main_call23_v4 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  reducesTo_S2x2048x1024_S2x2048_d2 : S2x2048x1024.ReducesTo [2] S2x2048
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S_S2x2048x1024 : S_.BroadcastsInDim S2x2048x1024 (![] : Fin 0 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Glue.lean ====
/-
  The four kernel regions of @main as segments of the program's run, over ANY proof data for the four pipelines that
  meets a short list of facts: each pipeline's arrays are read off the buffers' contents when its region is entered,
  every share is the full one, the body owes nothing, the body obligation holds, and the invariant at the first and
  the last grid point is (interchangeable with) the scoped buffers no window of the pipeline stages.

  Between two items of @main a core holds every unscoped buffer whole at a valuation — the launch contents pushed
  through the host stretches, updated at a region's output arrays by what that region's write-backs leave
  (`Dat.arrAt w N`) — beside the generator register at some state and nothing owed. A region is entered by splitting
  its windows' arrays out of the unscoped buffers, and left by putting them back at the updated valuation.
-/
import proofs.«161176_j6906307412019_2_alg».proof.Proof.Gen.KernelIdeal.Regions
import proofs.«161176_j6906307412019_2_alg».proof.Proof.Gen.KernelIdeal.Points
import Idealize.ShloMosaic.Lib.Pipeline.FrameBody
import Idealize.ShloMosaic.Lib.Pipeline.RegionsLoop
import Idealize.ShloMosaic.Lib.Tactic

-- regions 1 and 2 have five and four windows: splitting their arrays out of the unscoped buffers and putting them back
-- compares the pinned configuration with the printed one window by window, past the default budget

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed family of buffer contents: what a region's proof data is stated at. -/
abbrev Contents (F : FTy → Type) : Type := (c : Dev nD) → (b : Ref sig .tc) → Buf (Elt F) ((c : Thread nD τ).loc b)

/-- What the glue needs of one pipeline's proof data family. -/
structure RegionFacts (cfg : Cfg sig Λ₀) (D : Contents F → (c : Dev nD) → Dat τ (Elt F) Unit ℕ (UR sig nD τ) ℕ cfg c) : Prop where
  hA : ∀ V c w, (D V c).A w = V c (Pipeline.arrRef cfg.spec w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V c, (Pipeline.scopedRest (Ix := Unit) (Name := ℕ) (U := UR sig nD τ) (Lvl := ℕ) (Val := Elt F) cfg.spec c : sProp 𝕄) ⊢ (D V c).Φ 0
  hout : ∀ V c, (D V c).Φ (Fin.last cfg.N) ⊢ (Pipeline.scopedRest (Ix := Unit) (Name := ℕ) (U := UR sig nD τ) (Lvl := ℕ) (Val := Elt F) cfg.spec c : sProp 𝕄)

section Small

variable {cfg : Cfg sig Λ₀} {c : Dev nD} (dat : Dat τ (Elt F) Unit ℕ (UR sig nD τ) ℕ cfg c)

/-- A core that owes nothing enters a pipeline whose proof data owes nothing before the first point. -/
theorem owesAt_entry (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, HO⟩; iexists W; isplitr
  · ipureintro; exact fun _ _ => Or.inl (hr.symm ▸ Set.mem_univ _)
  iexact HO

/-- After the last point it still owes nothing. -/
theorem owesAt_exit (h0 : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- The third of three resources. -/
theorem sep_third (A B C : sProp 𝕄) : iprop(A ∗ B ∗ C) ⊢ C := by
  iintro ⟨-, -, H⟩; iexact H
/-- A resource beside two empty ones. -/
theorem emp_emp_sep (C : sProp 𝕄) : C ⊢ iprop(BI.emp ∗ BI.emp ∗ C) := by
  iintro H
  isplitr; · iempintro
  isplitr; · iempintro
  iexact H

end Small

section Run

variable (m : (ℓ : Loc nD τ sig) → Buf (Elt F) ℓ)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

/-! ## The buffers' contents at the boundaries after the first region -/

/-- After region 0: the first projection's output array at what the region's write-backs leave. -/
def W26 (c : Dev nD) : Valuation τ sig (Elt F) :=
  Function.update (V25 m c) main_v62 ((D0 (fun c b => V25 m c b) c).arrAt 2 cfg0.N)
/-- After region 1: the two arrays of the dual projection. -/
def W27 (c : Dev nD) : Valuation τ sig (Elt F) :=
  Function.update (Function.update (W26 m D0 c) main_v63_0 ((D1 (fun c b => W26 m D0 c b) c).arrAt 3 cfg1.N))
    main_v63_1 ((D1 (fun c b => W26 m D0 c b) c).arrAt 4 cfg1.N)
/-- After the reshapes into heads. -/
def W28 (c : Dev nD) : Valuation τ sig (Elt F) := StableHlo.after hostOps2 (W27 m D0 D1 c)
/-- After region 2: the attention output. -/
def W29 (c : Dev nD) : Valuation τ sig (Elt F) :=
  Function.update (W28 m D0 D1 c) main_v67 ((D2 (fun c b => W28 m D0 D1 c b) c).arrAt 3 cfg2.N)
/-- After the reshape merging the heads. -/
def W30 (c : Dev nD) : Valuation τ sig (Elt F) := StableHlo.after hostOps3 (W29 m D0 D1 D2 c)
/-- After region 3: the last projection's output. -/
def W31 (c : Dev nD) : Valuation τ sig (Elt F) :=
  Function.update (W30 m D0 D1 D2 c) main_v69 ((D3 (fun c b => W30 m D0 D1 D2 c b) c).arrAt 2 cfg3.N)

/-- What the regions leave, read at the points the program's run reads it. -/
def outs : Outs (F := F) := fun J r c =>
  match J with
  | 26 => W26 m D0 c r
  | 27 => W27 m D0 D1 c r
  | 29 => W29 m D0 D1 D2 c r
  | _ => W31 m D0 D1 D2 D3 c r

theorem V26_eq (c : Dev nD) : V26 m (outs m D0 D1 D2 D3) c = W26 m D0 c := by
  unfold V26 outs W26; simp only [Function.update_self]
theorem V27_eq (c : Dev nD) : V27 m (outs m D0 D1 D2 D3) c = W27 m D0 D1 c := by
  unfold V27; rw [V26_eq]; unfold outs W27
  simp only [Function.update_self, ne_eq, Function.update_of_ne (by decide : (main_v63_0 : DevRef τ sig) ≠ main_v63_1)]
theorem V28_eq (c : Dev nD) : V28 m (outs m D0 D1 D2 D3) c = W28 m D0 D1 c := by
  unfold V28 W28; rw [V27_eq]
theorem V29_eq (c : Dev nD) : V29 m (outs m D0 D1 D2 D3) c = W29 m D0 D1 D2 c := by
  unfold V29; rw [V28_eq]; unfold outs W29; simp only [Function.update_self]
theorem V30_eq (c : Dev nD) : V30 m (outs m D0 D1 D2 D3) c = W30 m D0 D1 D2 c := by
  unfold V30 W30; rw [V29_eq]
theorem V31_eq (c : Dev nD) : V31 m (outs m D0 D1 D2 D3) c = W31 m D0 D1 D2 D3 c := by
  unfold V31; rw [V30_eq]; unfold outs W31; simp only [Function.update_self]

/-! ## The proof data family and the thread state -/

/-- Every pipeline's proof data, each at the contents its region is entered from. -/
def pdats : (p : Fin 4) → (c : Dev nD) → Dat τ (Elt F) Unit ℕ (UR sig nD τ) ℕ (cfgs p) c
  | ⟨0, _⟩ => fun c => D0 (fun c b => V25 m c b) c
  | ⟨1, _⟩ => fun c => D1 (fun c b => W26 m D0 c b) c
  | ⟨2, _⟩ => fun c => D2 (fun c b => W28 m D0 D1 c b) c
  | ⟨3, _⟩ => fun c => D3 (fun c b => W30 m D0 D1 D2 c b) c

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Run

section Regs
variable (m : (ℓ : Loc nD τ sig) → Buf (Elt F) ℓ)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

/-- Region 0's arrays after its last point are what the next boundary holds: an input as entered, an output at its
    write-backs. -/
theorem hF0 (h : RegionFacts cfg0 D0) (c : Dev nD) (w : Fin cfg0.W) :
    (pdats m D0 D1 D2 D3 0 c).arrAt w cfg0.N = W26 m D0 c (Pipeline.arrRef spec0 w) := by
  fin_cases w
  · refine ((pdats m D0 D1 D2 D3 0 c).arrAt_in 0 rfl _).trans ?_
    rw [show (pdats m D0 D1 D2 D3 0 c).A 0 = _ from h.hA _ c 0]
    unfold W26; rw [Function.update_of_ne (by decide)]
  · refine ((pdats m D0 D1 D2 D3 0 c).arrAt_in 1 rfl _).trans ?_
    rw [show (pdats m D0 D1 D2 D3 0 c).A 1 = _ from h.hA _ c 1]
    unfold W26; rw [Function.update_of_ne (by decide)]
  · unfold W26; rw [Function.update_self]; rfl
/-- Off region 0's arrays the next boundary holds what the previous one did. -/
theorem hrest0 (c : Dev nD) : ∀ b : Ref sig .tc, b ∉ Finset.univ.image (Pipeline.arrRef spec0) → W26 m D0 c b = V25 m c b := fun b hb => by
  unfold W26; rw [Function.update_of_ne (StableHlo.devRef_ne_of_ne (fun e => hb (e ▸ Finset.mem_image.mpr ⟨2, Finset.mem_univ _, rfl⟩)) : (Proc.devRef .tc b : DevRef τ sig) ≠ Proc.devRef .tc main_v62)]

-- unifying a library lemma stated over the pinned configuration with the printed one takes unfolding plain definitions
-- in a metavariable's type
set_option backward.isDefEq.respectTransparency.types false in
/-- Region 0 over the thread state: entered from every unscoped buffer at the contents before it, left with them at the
    contents after it; its windows' arrays are split out of the unscoped buffers at entry and put back at exit, the
    generator register and the rest of the unscoped buffers pass by, nothing is owed and the kernel has no semaphore
    of its own. -/
def reg0 (h : RegionFacts cfg0 D0) :
    Pipeline.RegionSeg (pcfgs (F := F)) adm (pdats m D0 D1 D2 D3) () defs₀ Variants.none L lv 0 where
  win := launch0.win.to₀
  block_pos := launch0.block_pos
  stage_whole := launch0.stage_whole
  K := PEmpty
  osem k := k.elim
  ho := Pipeline.OwnSemFacts.none _
  hbody c := (h.hbody _ c).loose
  hwaits := Pipeline.hwaits_of_owed_zero _ _ _ _ L lv 0 fun c t => h.howed _ c t
  pre c := iprop(StableHlo.held (c : Thread nD τ) (Pipeline.ucRefs τ sig) (V25 m c) ∗ R c)
  post c := iprop(StableHlo.held (c : Thread nD τ) (Pipeline.ucRefs τ sig) (W26 m D0 c) ∗ R c)
  X _ := BI.emp
  Y _ := BI.emp
  Z c := iprop(Pipeline.unscopedRest (Ix := Unit) (Name := ℕ) (U := UR sig nD τ) (Lvl := ℕ) spec0 c (fun b => V25 m c b) ∗ ∃ r, prngReg c r)
  hentry c := by
    rw [Pipeline.ownSems0_none]
    have hsplit := Pipeline.arrays_of_unscopedBufs (p := 0) (pcfgs (F := F)) adm (pdats m D0 D1 D2 D3) launch0.win launch0.arr_whole c
      ((pdats m D0 D1 D2 D3 0 c).share_full fun w => h.hq _ c w) (fun b => V25 m c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 0 c) (h.howed _ c 0) (h.hrec _ c 0)); iexact HO
    isplitr; · iempintro
    isplitl [Hrest]; · iexact Hrest
    iexact Hp
  hin c := (sep_third _ _ _).trans (h.hin (fun c b => V25 m c b) c)
  hout c := by
    rw [Pipeline.ownSems0_none]
    exact (h.hout (fun c b => V25 m c b) c).trans (emp_emp_sep _)
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3) ((pdats m D0 D1 D2 D3 0 c).share_full fun w => h.hq _ c w)
      (fun b => V25 m c b) (fun b => W26 m D0 c b) ((pdats m D0 D1 D2 D3 0 c).arrAt · cfg0.N) (hF0 m D0 D1 D2 D3 h c) (hrest0 m D0 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 0 c) (h.howed _ c _)); iexact HO

set_option maxHeartbeats 4000000 in
/-- Region 1's arrays after its last point are what the next boundary holds: an input as entered, an output at its
    write-backs. -/
theorem hF1 (h : RegionFacts cfg1 D1) (c : Dev nD) (w : Fin cfg1.W) :
    (pdats m D0 D1 D2 D3 1 c).arrAt w cfg1.N = W27 m D0 D1 c (Pipeline.arrRef spec1 w) := by
  fin_cases w
  · refine ((pdats m D0 D1 D2 D3 1 c).arrAt_in 0 rfl _).trans ?_
    rw [show (pdats m D0 D1 D2 D3 1 c).A 0 = _ from h.hA _ c 0]
    unfold W27; rw [Function.update_of_ne (by decide), Function.update_of_ne (by decide)]
  · refine ((pdats m D0 D1 D2 D3 1 c).arrAt_in 1 rfl _).trans ?_
    rw [show (pdats m D0 D1 D2 D3 1 c).A 1 = _ from h.hA _ c 1]
    unfold W27; rw [Function.update_of_ne (by decide), Function.update_of_ne (by decide)]
  · refine ((pdats m D0 D1 D2 D3 1 c).arrAt_in 2 rfl _).trans ?_
    rw [show (pdats m D0 D1 D2 D3 1 c).A 2 = _ from h.hA _ c 2]
    unfold W27; rw [Function.update_of_ne (by decide), Function.update_of_ne (by decide)]
  · unfold W27; rw [Function.update_of_ne (by decide), Function.update_self]; rfl
  · unfold W27; rw [Function.update_self]; rfl
/-- Off region 1's arrays the next boundary holds what the previous one did. -/
theorem hrest1 (c : Dev nD) : ∀ b : Ref sig .tc, b ∉ Finset.univ.image (Pipeline.arrRef spec1) → W27 m D0 D1 c b = W26 m D0 c b := fun b hb => by
  unfold W27; rw [Function.update_of_ne (StableHlo.devRef_ne_of_ne (fun e => hb (e ▸ Finset.mem_image.mpr ⟨4, Finset.mem_univ _, rfl⟩)) : (Proc.devRef .tc b : DevRef τ sig) ≠ Proc.devRef .tc main_v63_1), Function.update_of_ne (StableHlo.devRef_ne_of_ne (fun e => hb (e ▸ Finset.mem_image.mpr ⟨3, Finset.mem_univ _, rfl⟩)) : (Proc.devRef .tc b : DevRef τ sig) ≠ Proc.devRef .tc main_v63_0)]

set_option maxHeartbeats 4000000 in
-- unifying a library lemma stated over the pinned configuration with the printed one takes unfolding plain definitions
-- in a metavariable's type
set_option backward.isDefEq.respectTransparency.types false in
/-- Region 1 over the thread state: entered from every unscoped buffer at the contents before it, left with them at the
    contents after it; its windows' arrays are split out of the unscoped buffers at entry and put back at exit, the
    generator register and the rest of the unscoped buffers pass by, nothing is owed and the kernel has no semaphore
    of its own. -/
def reg1 (h : RegionFacts cfg1 D1) :
    Pipeline.RegionSeg (pcfgs (F := F)) adm (pdats m D0 D1 D2 D3) () defs₀ Variants.none L lv 1 where
  win := launch1.win.to₀
  block_pos := launch1.block_pos
  stage_whole := launch1.stage_whole
  K := PEmpty
  osem k := k.elim
  ho := Pipeline.OwnSemFacts.none _
  hbody c := (h.hbody _ c).loose
  hwaits := Pipeline.hwaits_of_owed_zero _ _ _ _ L lv 1 fun c t => h.howed _ c t
  pre c := iprop(StableHlo.held (c : Thread nD τ) (Pipeline.ucRefs τ sig) (W26 m D0 c) ∗ R c)
  post c := iprop(StableHlo.held (c : Thread nD τ) (Pipeline.ucRefs τ sig) (W27 m D0 D1 c) ∗ R c)
  X _ := BI.emp
  Y _ := BI.emp
  Z c := iprop(Pipeline.unscopedRest (Ix := Unit) (Name := ℕ) (U := UR sig nD τ) (Lvl := ℕ) spec1 c (fun b => W26 m D0 c b) ∗ ∃ r, prngReg c r)
  hentry c := by
    rw [Pipeline.ownSems0_none]
    have hsplit := Pipeline.arrays_of_unscopedBufs (p := 1) (pcfgs (F := F)) adm (pdats m D0 D1 D2 D3) launch1.win launch1.arr_whole c
      ((pdats m D0 D1 D2 D3 1 c).share_full fun w => h.hq _ c w) (fun b => W26 m D0 c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 1 c) (h.howed _ c 0) (h.hrec _ c 0)); iexact HO
    isplitr; · iempintro
    isplitl [Hrest]; · iexact Hrest
    iexact Hp
  hin c := (sep_third _ _ _).trans (h.hin (fun c b => W26 m D0 c b) c)
  hout c := by
    rw [Pipeline.ownSems0_none]
    exact (h.hout (fun c b => W26 m D0 c b) c).trans (emp_emp_sep _)
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3) ((pdats m D0 D1 D2 D3 1 c).share_full fun w => h.hq _ c w)
      (fun b => W26 m D0 c b) (fun b => W27 m D0 D1 c b) ((pdats m D0 D1 D2 D3 1 c).arrAt · cfg1.N) (hF1 m D0 D1 D2 D3 h c) (hrest1 m D0 D1 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 1 c) (h.howed _ c _)); iexact HO

set_option maxHeartbeats 4000000 in
/-- Region 2's arrays after its last point are what the next boundary holds: an input as entered, an output at its
    write-backs. -/
theorem hF2 (h : RegionFacts cfg2 D2) (c : Dev nD) (w : Fin cfg2.W) :
    (pdats m D0 D1 D2 D3 2 c).arrAt w cfg2.N = W29 m D0 D1 D2 c (Pipeline.arrRef spec2 w) := by
  fin_cases w
  · refine ((pdats m D0 D1 D2 D3 2 c).arrAt_in 0 rfl _).trans ?_
    rw [show (pdats m D0 D1 D2 D3 2 c).A 0 = _ from h.hA _ c 0]
    unfold W29; rw [Function.update_of_ne (by decide)]
  · refine ((pdats m D0 D1 D2 D3 2 c).arrAt_in 1 rfl _).trans ?_
    rw [show (pdats m D0 D1 D2 D3 2 c).A 1 = _ from h.hA _ c 1]
    unfold W29; rw [Function.update_of_ne (by decide)]
  · refine ((pdats m D0 D1 D2 D3 2 c).arrAt_in 2 rfl _).trans ?_
    rw [show (pdats m D0 D1 D2 D3 2 c).A 2 = _ from h.hA _ c 2]
    unfold W29; rw [Function.update_of_ne (by decide)]
  · unfold W29; rw [Function.update_self]; rfl
/-- Off region 2's arrays the next boundary holds what the previous one did. -/
theorem hrest2 (c : Dev nD) : ∀ b : Ref sig .tc, b ∉ Finset.univ.image (Pipeline.arrRef spec2) → W29 m D0 D1 D2 c b = W28 m D0 D1 c b := fun b hb => by
  unfold W29; rw [Function.update_of_ne (StableHlo.devRef_ne_of_ne (fun e => hb (e ▸ Finset.mem_image.mpr ⟨3, Finset.mem_univ _, rfl⟩)) : (Proc.devRef .tc b : DevRef τ sig) ≠ Proc.devRef .tc main_v67)]

set_option maxHeartbeats 4000000 in
-- unifying a library lemma stated over the pinned configuration with the printed one takes unfolding plain definitions
-- in a metavariable's type
set_option backward.isDefEq.respectTransparency.types false in
/-- Region 2 over the thread state: entered from every unscoped buffer at the contents before it, left with them at the
    contents after it; its windows' arrays are split out of the unscoped buffers at entry and put back at exit, the
    generator register and the rest of the unscoped buffers pass by, nothing is owed and the kernel has no semaphore
    of its own. -/
def reg2 (h : RegionFacts cfg2 D2) :
    Pipeline.RegionSeg (pcfgs (F := F)) adm (pdats m D0 D1 D2 D3) () defs₀ Variants.none L lv 2 where
  win := launch2.win.to₀
  block_pos := launch2.block_pos
  stage_whole := launch2.stage_whole
  K := PEmpty
  osem k := k.elim
  ho := Pipeline.OwnSemFacts.none _
  hbody c := (h.hbody _ c).loose
  hwaits := Pipeline.hwaits_of_owed_zero _ _ _ _ L lv 2 fun c t => h.howed _ c t
  pre c := iprop(StableHlo.held (c : Thread nD τ) (Pipeline.ucRefs τ sig) (W28 m D0 D1 c) ∗ R c)
  post c := iprop(StableHlo.held (c : Thread nD τ) (Pipeline.ucRefs τ sig) (W29 m D0 D1 D2 c) ∗ R c)
  X _ := BI.emp
  Y _ := BI.emp
  Z c := iprop(Pipeline.unscopedRest (Ix := Unit) (Name := ℕ) (U := UR sig nD τ) (Lvl := ℕ) spec2 c (fun b => W28 m D0 D1 c b) ∗ ∃ r, prngReg c r)
  hentry c := by
    rw [Pipeline.ownSems0_none]
    have hsplit := Pipeline.arrays_of_unscopedBufs (p := 2) (pcfgs (F := F)) adm (pdats m D0 D1 D2 D3) launch2.win launch2.arr_whole c
      ((pdats m D0 D1 D2 D3 2 c).share_full fun w => h.hq _ c w) (fun b => W28 m D0 D1 c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 2 c) (h.howed _ c 0) (h.hrec _ c 0)); iexact HO
    isplitr; · iempintro
    isplitl [Hrest]; · iexact Hrest
    iexact Hp
  hin c := (sep_third _ _ _).trans (h.hin (fun c b => W28 m D0 D1 c b) c)
  hout c := by
    rw [Pipeline.ownSems0_none]
    exact (h.hout (fun c b => W28 m D0 D1 c b) c).trans (emp_emp_sep _)
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3) ((pdats m D0 D1 D2 D3 2 c).share_full fun w => h.hq _ c w)
      (fun b => W28 m D0 D1 c b) (fun b => W29 m D0 D1 D2 c b) ((pdats m D0 D1 D2 D3 2 c).arrAt · cfg2.N) (hF2 m D0 D1 D2 D3 h c) (hrest2 m D0 D1 D2 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 2 c) (h.howed _ c _)); iexact HO

/-- Region 3's arrays after its last point are what the next boundary holds: an input as entered, an output at its
    write-backs. -/
theorem hF3 (h : RegionFacts cfg3 D3) (c : Dev nD) (w : Fin cfg3.W) :
    (pdats m D0 D1 D2 D3 3 c).arrAt w cfg3.N = W31 m D0 D1 D2 D3 c (Pipeline.arrRef spec3 w) := by
  fin_cases w
  · refine ((pdats m D0 D1 D2 D3 3 c).arrAt_in 0 rfl _).trans ?_
    rw [show (pdats m D0 D1 D2 D3 3 c).A 0 = _ from h.hA _ c 0]
    unfold W31; rw [Function.update_of_ne (by decide)]
  · refine ((pdats m D0 D1 D2 D3 3 c).arrAt_in 1 rfl _).trans ?_
    rw [show (pdats m D0 D1 D2 D3 3 c).A 1 = _ from h.hA _ c 1]
    unfold W31; rw [Function.update_of_ne (by decide)]
  · unfold W31; rw [Function.update_self]; rfl
/-- Off region 3's arrays the next boundary holds what the previous one did. -/
theorem hrest3 (c : Dev nD) : ∀ b : Ref sig .tc, b ∉ Finset.univ.image (Pipeline.arrRef spec3) → W31 m D0 D1 D2 D3 c b = W30 m D0 D1 D2 c b := fun b hb => by
  unfold W31; rw [Function.update_of_ne (StableHlo.devRef_ne_of_ne (fun e => hb (e ▸ Finset.mem_image.mpr ⟨2, Finset.mem_univ _, rfl⟩)) : (Proc.devRef .tc b : DevRef τ sig) ≠ Proc.devRef .tc main_v69)]

-- unifying a library lemma stated over the pinned configuration with the printed one takes unfolding plain definitions
-- in a metavariable's type
set_option backward.isDefEq.respectTransparency.types false in
/-- Region 3 over the thread state: entered from every unscoped buffer at the contents before it, left with them at the
    contents after it; its windows' arrays are split out of the unscoped buffers at entry and put back at exit, the
    generator register and the rest of the unscoped buffers pass by, nothing is owed and the kernel has no semaphore
    of its own. -/
def reg3 (h : RegionFacts cfg3 D3) :
    Pipeline.RegionSeg (pcfgs (F := F)) adm (pdats m D0 D1 D2 D3) () defs₀ Variants.none L lv 3 where
  win := launch3.win.to₀
  block_pos := launch3.block_pos
  stage_whole := launch3.stage_whole
  K := PEmpty
  osem k := k.elim
  ho := Pipeline.OwnSemFacts.none _
  hbody c := (h.hbody _ c).loose
  hwaits := Pipeline.hwaits_of_owed_zero _ _ _ _ L lv 3 fun c t => h.howed _ c t
  pre c := iprop(StableHlo.held (c : Thread nD τ) (Pipeline.ucRefs τ sig) (W30 m D0 D1 D2 c) ∗ R c)
  post c := iprop(StableHlo.held (c : Thread nD τ) (Pipeline.ucRefs τ sig) (W31 m D0 D1 D2 D3 c) ∗ R c)
  X _ := BI.emp
  Y _ := BI.emp
  Z c := iprop(Pipeline.unscopedRest (Ix := Unit) (Name := ℕ) (U := UR sig nD τ) (Lvl := ℕ) spec3 c (fun b => W30 m D0 D1 D2 c b) ∗ ∃ r, prngReg c r)
  hentry c := by
    rw [Pipeline.ownSems0_none]
    have hsplit := Pipeline.arrays_of_unscopedBufs (p := 3) (pcfgs (F := F)) adm (pdats m D0 D1 D2 D3) launch3.win launch3.arr_whole c
      ((pdats m D0 D1 D2 D3 3 c).share_full fun w => h.hq _ c w) (fun b => W30 m D0 D1 D2 c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 3 c) (h.howed _ c 0) (h.hrec _ c 0)); iexact HO
    isplitr; · iempintro
    isplitl [Hrest]; · iexact Hrest
    iexact Hp
  hin c := (sep_third _ _ _).trans (h.hin (fun c b => W30 m D0 D1 D2 c b) c)
  hout c := by
    rw [Pipeline.ownSems0_none]
    exact (h.hout (fun c b => W30 m D0 D1 D2 c b) c).trans (emp_emp_sep _)
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3) ((pdats m D0 D1 D2 D3 3 c).share_full fun w => h.hq _ c w)
      (fun b => W30 m D0 D1 D2 c b) (fun b => W31 m D0 D1 D2 D3 c b) ((pdats m D0 D1 D2 D3 3 c).arrAt · cfg3.N) (hF3 m D0 D1 D2 D3 h c) (hrest3 m D0 D1 D2 D3 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 3 c) (h.howed _ c _)); iexact HO

end Regs

/-! ## The frame, from the four regions' facts -/

section Frame

variable (m : (ℓ : Loc nD τ sig) → Buf (Elt F) ℓ) (ρ : Dev nD → PrngReg)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

-- the run theorem's implicit arguments are found by unifying its conclusion with this one, which takes unfolding plain
-- definitions in a metavariable's type
set_option backward.isDefEq.respectTransparency.types false in
/-- Every weakly fair execution of @main terminates, faults nowhere and leaves the six argument arrays as launched:
    the program's conditional frame at the four regions' segments, each entered from and left at the boundary
    contents defined above, the generator register and "nothing owed" riding along. -/
theorem frame_of_facts (h0 : RegionFacts cfg0 D0) (h1 : RegionFacts cfg1 D1) (h2 : RegionFacts cfg2 D2) (h3 : RegionFacts cfg3 D3) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond (F := F) m (Ix := Unit) (U := UR sig nD τ) (Lvl := ℕ) emb₁ () Variants.none L lv (fun _ _ => rfl) ρ
    (outs m D0 D1 D2 D3) (pdats m D0 D1 D2 D3)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m D0 D1 D2 D3 h0) (hpre0 := fun c => .rfl)
    (hpost0 := fun c => by rw [V26_eq]; exact .rfl)
    (R1 := reg1 m D0 D1 D2 D3 h1) (hpre1 := fun c => by rw [V26_eq]; exact .rfl)
    (hpost1 := fun c => by rw [V27_eq]; exact .rfl)
    (R2 := reg2 m D0 D1 D2 D3 h2) (hpre2 := fun c => by rw [V28_eq]; exact .rfl)
    (hpost2 := fun c => by rw [V29_eq]; exact .rfl)
    (R3 := reg3 m D0 D1 D2 D3 h3) (hpre3 := fun c => by rw [V30_eq]; exact .rfl)
    (hpost3 := fun c => by rw [V31_eq]; exact .rfl)

end Frame

end Cert.KernelIdeal.Hand

end
-- ==== Proof.Region0.lean ====
import proofs.«161176_j6906307412019_2_alg».proof.Proof.Gen.KernelIdeal.Launch
import proofs.«161176_j6906307412019_2_alg».proof.Proof.Gen.KernelIdeal.Skeleton
import proofs.«161176_j6906307412019_2_alg».proof.Proof.Gen.KernelIdeal.Points
import Idealize.ShloMosaic.Lib.Pipeline.FrameBody
import Idealize.ShloMosaic.Lib.Tactic

-- membership of an index in a rectangle as long as a block's axes is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # Region 0: one row-block of a quantised linear layer per grid point

The grid has 8 points. At point `t` the body sees three windows: window 0, a block of 512 rows (all 1024 columns) of the
activations; window 1, the whole 1024 × 1024 weight matrix, the same block at every point and therefore brought in
only once; window 2, the block of 512 rows of the result. The body reads windows 0 and 1 whole, computes, and
overwrites window 2 whole. So what it leaves in window 2's buffer is a function of the two input blocks alone. -/

/-! ## The windows' blocks -/

/-- The block of window `w` at grid point `t`, read off the array behind the window as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the activations' block at every point: the window is an input, never idle, never
    clipped, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the weight matrix at every point although it is filled at the first point only: where
    no fetch happens the block index has not moved, and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rA0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-! ## What the body leaves in the result window's buffer -/

/-- The result buffer after the body, from the two input blocks: the one store, of the body's arithmetic
    (`k0_pay1`, kept closed) applied to the two blocks as the loads read them, laid over the whole buffer. -/
def out0_2 (x0 : Vec F S512x1024 .f32) (x1 : Vec F S1024x1024 .bf16) : Vec F S512x1024 .bf16 :=
  View.canon [⟨rA0, k0_pay1 (View.ld x0 rA0) (View.ld x1 rW0)⟩]

/-- The one store is of the whole buffer, so every index of the buffer is under it. -/
theorem cover0_2 (p0 : Vec F S512x1024 .bf16) (y : S512x1024.Idx) :
    ∃ pc ∈ ([⟨rA0, p0⟩] : List (View.Piece (Elt F) S512x1024 .bf16)), y ∈ pc.1.set :=
  View.cover_of_tiled [⟨rA0, p0⟩] S512x1024.size (by rfl) y

/-! ## The body's triple -/

set_option maxHeartbeats 1000000 in
/-- The body, on three whole buffers — the inputs' at read contents `x0`, `x1`, the result's at anything —, runs to
    its continuation with the inputs' buffers unchanged and the result's at `out0_2 x0 x1`. The grid coordinate it
    is passed is not used. -/
theorem sound_kernel0 (c : Dev nD) (E : Set ℕ) (i : grid0.Coords)
    (a0 : Memref sig .tc .vmem S512x1024 .f32) (h0 : a0.IsWhole) (a1 : Memref sig .tc .vmem S1024x1024 .bf16) (h1 : a1.IsWhole)
    (a2 : Memref sig .tc .vmem S512x1024 .bf16) (h2 : a2.IsWhole)
    (x0 : Vec F S512x1024 .f32) (x1 : Vec F S1024x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out0_2 x0 x1)) -∗ K ⟨⟩))
      ⊢ wp frame (wpE (defs₀ (F := F)) Variants.none c none) E (cc0__bitlinear_single_kernel i a0 h0 a1 h1 a2 h2) K := by
  simp only [cc0__bitlinear_single_kernel_eq_skeleton]; unfold cc0__bitlinear_single_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays behind the windows as the region finds them; after the body at point `t`
    each input's buffer still at its block and the result's at `out0_2` of the two input blocks; the invariant is the
    core's other scoped buffers, which the body does not touch; the arrays are held whole; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by
  dsimp only [dat0]

theorem Phi0 (c : Dev nD) (t : Fin (cfg0.N + 1)) :
    (dat0 V c).Φ t = Pipeline.scopedRest (Ix := Unit) (Name := ℕ) (U := UR sig nD τ) (Lvl := ℕ) (Val := Elt F) spec0 c := by
  dsimp only [dat0]

theorem owed0 (c : Dev nD) (t : Fin (cfg0.N + 1)) : (dat0 V c).owed t = 0 := rfl

theorem q0 (c : Dev nD) (w : Fin cfg0.W) : (dat0 V c).q w = fullShare := rfl

theorem recorded0 (c : Dev nD) (t : Fin (cfg0.N + 1)) : (dat0 V c).recorded t = Set.univ := rfl

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is entered with at point `t`: the invariant, what the core owes, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
import proofs.«161176_j6906307412019_2_alg».proof.Proof.Gen.KernelIdeal.Launch
import proofs.«161176_j6906307412019_2_alg».proof.Proof.Gen.KernelIdeal.Skeleton
import proofs.«161176_j6906307412019_2_alg».proof.Proof.Gen.KernelIdeal.Points
import Idealize.ShloMosaic.Lib.Pipeline.FrameBody
import Idealize.ShloMosaic.Lib.Tactic

-- membership of an index in a rectangle as long as a block's axes is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # Region 1: one row-block of two quantised linear layers sharing their input, per grid point

The grid has 8 points. At point `t` the body sees five windows: window 0, a block of 512 rows (all 1024 columns) of the
context activations; windows 1 and 2, the two whole 1024 × 1024 weight matrices, the same blocks at every point and
therefore brought in only once; windows 3 and 4, the blocks of 512 rows of the two results. The body reads window 0
and window 1 whole and overwrites window 3 whole, then reads window 2 whole and overwrites window 4 whole. So what it
leaves in each result buffer is a function of the input blocks alone. -/

/-! ## The windows' blocks -/

/-- The block of window `w` at grid point `t`, read off the array behind the window as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' buffer holds the activations' block at every point: the window is an input, never idle, never
    clipped, and the body leaves it as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each weight buffer holds its weight matrix at every point although it is filled at the first point only: where
    no fetch happens the block index has not moved, and the body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rA1 : Rect S512x1024 := Rect.unit (s := S512x1024) ![0, 0] S512x1024.size inb_S512x1024_S512x1024_0_0
abbrev rW1 : Rect S1024x1024 := Rect.unit (s := S1024x1024) ![0, 0] S1024x1024.size inb_S1024x1024_S1024x1024_0_0

/-! ## What the body leaves in the result windows' buffers -/

/-- The first result buffer after the body, from the activations' block and the first weight matrix: its one store, of
    the body's arithmetic (`k1_pay2`, kept closed) applied to the two blocks as the loads read them, laid over the
    whole buffer. -/
def out1_3 (x0 : Vec F S512x1024 .f32) (x1 : Vec F S1024x1024 .bf16) : Vec F S512x1024 .bf16 :=
  View.canon [⟨rA1, k1_pay2 (View.ld x0 rA1) (View.ld x1 rW1)⟩]

/-- The second result buffer after the body, likewise from the activations' block and the second weight matrix
    (`k1_pay3`). -/
def out1_4 (x0 : Vec F S512x1024 .f32) (x2 : Vec F S1024x1024 .bf16) : Vec F S512x1024 .bf16 :=
  View.canon [⟨rA1, k1_pay3 (View.ld x0 rA1) (View.ld x2 rW1)⟩]

/-- A store of the whole buffer has every index of the buffer under it. -/
theorem cover1 (p0 : Vec F S512x1024 .bf16) (y : S512x1024.Idx) :
    ∃ pc ∈ ([⟨rA1, p0⟩] : List (View.Piece (Elt F) S512x1024 .bf16)), y ∈ pc.1.set :=
  View.cover_of_tiled [⟨rA1, p0⟩] S512x1024.size (by rfl) y

/-! ## The body's triple -/

set_option maxHeartbeats 1000000 in
/-- The body, on five whole buffers — the inputs' at read contents `x0`, `x1`, `x2`, the results' at anything —, runs
    to its continuation with the inputs' buffers unchanged and the results' at `out1_3 x0 x1` and `out1_4 x0 x2`.
    The grid coordinate it is passed is not used. -/
theorem sound_kernel1 (c : Dev nD) (E : Set ℕ) (i : grid1.Coords)
    (a0 : Memref sig .tc .vmem S512x1024 .f32) (h0 : a0.IsWhole) (a1 : Memref sig .tc .vmem S1024x1024 .bf16) (h1 : a1.IsWhole)
    (a2 : Memref sig .tc .vmem S1024x1024 .bf16) (h2 : a2.IsWhole)
    (a3 : Memref sig .tc .vmem S512x1024 .bf16) (h3 : a3.IsWhole) (a4 : Memref sig .tc .vmem S512x1024 .bf16) (h4 : a4.IsWhole)
    (x0 : Vec F S512x1024 .f32) (x1 x2 : Vec F S1024x1024 .bf16) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1) ∗ owns (c : Thread nD τ) a4 fullShare (out1_4 x0 x2)) -∗ K ⟨⟩))
      ⊢ wp frame (wpE (defs₀ (F := F)) Variants.none c none) E (cc1__bitlinear_dual_kernel i a0 h0 a1 h1 a2 h2 a3 h3 a4 h4) K := by
  simp only [cc1__bitlinear_dual_kernel_eq_skeleton]; unfold cc1__bitlinear_dual_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data on core `c`: the arrays behind the windows as the region finds them; after the body at point `t`
    each input's buffer still at its block and each result's at its `out1_W` of the input blocks; the invariant is
    the core's other scoped buffers, which the body does not touch; the arrays are held whole; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by
  dsimp only [dat1]
theorem after1_4 (c : Dev nD) (t : Fin cfg1.N) : (dat1 V c).after 4 t = out1_4 (iblk1 V c 0 t) (iblk1 V c 2 t) := by
  dsimp only [dat1]

theorem Phi1 (c : Dev nD) (t : Fin (cfg1.N + 1)) :
    (dat1 V c).Φ t = Pipeline.scopedRest (Ix := Unit) (Name := ℕ) (U := UR sig nD τ) (Lvl := ℕ) (Val := Elt F) spec1 c := by
  dsimp only [dat1]

theorem owed1 (c : Dev nD) (t : Fin (cfg1.N + 1)) : (dat1 V c).owed t = 0 := rfl

theorem q1 (c : Dev nD) (w : Fin cfg1.W) : (dat1 V c).q w = fullShare := rfl

theorem recorded1 (c : Dev nD) (t : Fin (cfg1.N + 1)) : (dat1 V c).recorded t = Set.univ := rfl

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is entered with at point `t`: the invariant, what the core owes, and the five current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple applies; the invariant and what the
    core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2Runs.lean ====
import proofs.«161176_j6906307412019_2_alg».proof.Proof.Gen.KernelIdeal.Launch
import proofs.«161176_j6906307412019_2_alg».proof.Proof.Gen.KernelIdeal.Skeleton
import proofs.«161176_j6906307412019_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the flash-attention kernel: what the body does at one grid point

The grid is (batch, q-tile, kv-tile) with the kv-tile fastest. At each point the kernel advances an online softmax
over the kv-tiles of one (batch, q-tile) row: a running row maximum `m`, a normaliser `l` and an accumulator `acc`,
held in three scratch buffers that survive from point to point. At kv = 0 they are reset to −∞, 0, 0 before the step;
at kv = 7 the row's output block `acc / l` is stored. This module runs the body once per control case. -/

/-- The reset branch is taken exactly when the kv coordinate is 0 (the kernel's own scalar chain). -/
abbrev cond2_0 (i : grid2.Coords) : Prop := (Scalar.cmpi .ne (Scalar.extui (Scalar.cmpi .eq (BitVec.ofNat 32 (i 2).val) 0#32)) 0#32) = 1#1
/-- The output branch is taken exactly when the kv coordinate is 7. -/
abbrev cond2_1 (i : grid2.Coords) : Prop := k2_cond2 i = 1#1

/-- The reset happens at the points whose index is ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)
/-- The output store happens at the points whose index is ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output window is idle exactly where the output store is not made, -/
theorem idleAt2_3 : ∀ t : Fin cfg2.N, ¬cond2_1 (grid2.coords t) → cfg2.idle 3 (grid2.coords t) = true := by decide +kernel
theorem liveAt2_3 : ∀ t : Fin cfg2.N, cond2_1 (grid2.coords t) → cfg2.idle 3 (grid2.coords t) = false := by decide +kernel
/-- and it is not written back there. -/
theorem noFlush2_3 (t : Fin cfg2.N) (h : ¬t.val % 8 = 7) : (cfg2.win 3).flush t = false :=
  Bool.eq_false_iff.mpr fun hf => h ((flush2_3 t).mp hf)

/-! ## One online-softmax step, as pure functions of the blocks

With q-block `x0`, k-block `x1`, v-block `x2` and the running maximum `m`, normaliser `l`, accumulator `acc`:
the score block is `s = q·kᵀ`; the new maximum is `m' = max m (rowmax s)`; with `α = exp (m − m')` and
`p = exp (s − m')` the new normaliser is `l' = α·l + rowsum p` and the new accumulator `acc' = α·acc + p·v`.
The arithmetic stays inside the generated payload terms. -/

/-- The new running maximum `m'`. -/
def mNew2 (x0 x1 : Vec F S1x256x16x64 .bf16) (m : Vec F S16x256x1 .f32) : Vec F S16x256x1 .f32 :=
  k2_pay3 (k2_pay10 x0 x1 m)

/-- The new normaliser `l'`. -/
def lNew2 (x0 x1 : Vec F S1x256x16x64 .bf16) (m l : Vec F S16x256x1 .f32) : Vec F S16x256x1 .f32 :=
  k2_pay1 (k2_pay13 x0 x1 m m l)

/-- The new accumulator `acc'`. -/
def accNew2 (x0 x1 x2 : Vec F S1x256x16x64 .bf16) (m : Vec F S16x256x1 .f32) (acc : Vec F S16x256x64 .f32) : Vec F S16x256x64 .f32 :=
  k2_pay2 (k2_pay8 x2) (k2_pay11 x0 x1 m m) (k2_pay12 x0 x1 m) acc

/-- The output block of a (batch, q-tile) row: the accumulator divided by the normaliser, heads and rows transposed back. -/
def outNew2 (acc : Vec F S16x256x64 .f32) (l : Vec F S16x256x1 .f32) : Vec F S1x256x16x64 .f32 :=
  k2_pay4 acc l

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A store through the whole-shape rectangle, made last, decides what the buffer reads: its payload, whatever the
    earlier stores and the prior contents were. -/
theorem read_writes_whole_last {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- A FIRST point of a row (kv = 0): the reset stores −∞, 0, 0 into the scratch, whatever it held, and the step then
    starts from those. The output's buffer, at contents `xi3`, is handed back untouched. -/
theorem run2_A (c : Dev nD) (i : grid2.Coords) (arg3 : Memref sig .tc .vmem S1x256x16x64 .bf16) (harg3 : arg3.IsWhole) (arg4 : Memref sig .tc .vmem S1x256x16x64 .bf16) (harg4 : arg4.IsWhole) (arg5 : Memref sig .tc .vmem S1x256x16x64 .bf16) (harg5 : arg5.IsWhole) (arg6 : Memref sig .tc .vmem S1x256x16x64 .f32) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : cond2_0 i) (hc1 : ¬cond2_1 i)
    (x0 x1 x2 : Vec F S1x256x16x64 .bf16) (xi3 : Vec F S1x256x16x64 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (mNew2 x0 x1 k2_pay5) ∗ owns (c : Thread nD τ) arg8 fullShare (lNew2 x0 x1 k2_pay5 k2_pay6)
            ∗ owns (c : Thread nD τ) arg9 fullShare (accNew2 x0 x1 x2 k2_pay5 k2_pay7)) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    refine (read_writes_whole_last _ _ hz3 _ _ _).trans ?_
    try dsimp only
    try sl_unfold_words
    simp only [View.readAt_eq_ld, harg3.read_unread, harg4.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  isplitl [HS1]
  · iexists _; isplitr
    swap; · iexact HS1
    ipureintro
    refine (read_writes_whole_last _ _ hz3 _ _ _).trans ?_
    try dsimp only
    try sl_unfold_words
    simp only [View.readAt_eq_ld, harg3.read_unread, harg4.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  · iexists _; isplitr
    swap; · iexact HS2
    ipureintro
    refine (read_writes_whole_last _ _ hz3 _ _ _).trans ?_
    try dsimp only
    try sl_unfold_words
    simp only [View.readAt_eq_ld, harg3.read_unread, harg4.read_unread, harg5.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl

set_option maxHeartbeats 1000000 in
/-- A MIDDLE point (0 < kv < 7): no reset, no output store. On whole memrefs — the inputs at their blocks, the output's
    buffer at contents `xi3` handed back untouched, the scratch at what the point before left — the body runs to the
    continuation with the scratch advanced by one step. -/
theorem run2_B (c : Dev nD) (i : grid2.Coords) (arg3 : Memref sig .tc .vmem S1x256x16x64 .bf16) (harg3 : arg3.IsWhole) (arg4 : Memref sig .tc .vmem S1x256x16x64 .bf16) (harg4 : arg4.IsWhole) (arg5 : Memref sig .tc .vmem S1x256x16x64 .bf16) (harg5 : arg5.IsWhole) (arg6 : Memref sig .tc .vmem S1x256x16x64 .f32) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : ¬cond2_0 i) (hc1 : ¬cond2_1 i)
    (x0 x1 x2 : Vec F S1x256x16x64 .bf16) (xi3 : Vec F S1x256x16x64 .f32) (xs0 xs1 : Vec F S16x256x1 .f32) (xs2 : Vec F S16x256x64 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (mNew2 x0 x1 xs0) ∗ owns (c : Thread nD τ) arg8 fullShare (lNew2 x0 x1 xs0 xs1)
            ∗ owns (c : Thread nD τ) arg9 fullShare (accNew2 x0 x1 x2 xs0 xs2)) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    refine (read_writes_whole_last _ _ hz3 _ _ _).trans ?_
    dsimp only
    simp only [View.readAt_eq_ld, harg3.read_unread, harg4.read_unread, harg7.read_unread,
      View.ld_unit_zero (S := S1x256x16x64) hz4, View.ld_unit_zero (S := S16x256x1) hz3]
    rfl
  isplitl [HS1]
  · iexists _; isplitr
    swap; · iexact HS1
    ipureintro
    refine (read_writes_whole_last _ _ hz3 _ _ _).trans ?_
    dsimp only
    simp only [View.readAt_eq_ld, harg3.read_unread, harg4.read_unread, harg7.read_unread, harg8.read_unread,
      View.ld_unit_zero (S := S1x256x16x64) hz4, View.ld_unit_zero (S := S16x256x1) hz3]
    rfl
  · iexists _; isplitr
    swap; · iexact HS2
    ipureintro
    refine (read_writes_whole_last _ _ hz3 _ _ _).trans ?_
    dsimp only
    simp only [View.readAt_eq_ld, harg3.read_unread, harg4.read_unread, harg5.read_unread, harg7.read_unread, harg9.read_unread,
      View.ld_unit_zero (S := S1x256x16x64) hz4, View.ld_unit_zero (S := S16x256x1) hz3, View.ld_unit_zero (S := S16x256x64) hz3]
    rfl

set_option maxHeartbeats 1000000 in
/-- A LAST point of a row (kv = 7): no reset; after the step the body divides the accumulator by the normaliser and
    stores the output block whole, whatever the output's buffer held. -/
theorem run2_C (c : Dev nD) (i : grid2.Coords) (arg3 : Memref sig .tc .vmem S1x256x16x64 .bf16) (harg3 : arg3.IsWhole) (arg4 : Memref sig .tc .vmem S1x256x16x64 .bf16) (harg4 : arg4.IsWhole) (arg5 : Memref sig .tc .vmem S1x256x16x64 .bf16) (harg5 : arg5.IsWhole) (arg6 : Memref sig .tc .vmem S1x256x16x64 .f32) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : ¬cond2_0 i) (hc1 : cond2_1 i)
    (x0 x1 x2 : Vec F S1x256x16x64 .bf16) (xs0 xs1 : Vec F S16x256x1 .f32) (xs2 : Vec F S16x256x64 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2
            ∗ owns (c : Thread nD τ) arg6 fullShare (outNew2 (accNew2 x0 x1 x2 xs0 xs2) (lNew2 x0 x1 xs0 xs1))
            ∗ owns (c : Thread nD τ) arg7 fullShare (mNew2 x0 x1 xs0) ∗ owns (c : Thread nD τ) arg8 fullShare (lNew2 x0 x1 xs0 xs1)
            ∗ owns (c : Thread nD τ) arg9 fullShare (accNew2 x0 x1 x2 xs0 xs2)) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_writes_whole_last _ _ hz4 _ _ _).trans ?_
    try dsimp only
    try sl_unfold_words
    simp only [View.readAt_eq_ld, harg3.read_unread, harg4.read_unread, harg5.read_unread, harg7.read_unread, harg8.read_unread, harg9.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  isplitl [HS0]
  · iexists _; isplitr
    swap; · iexact HS0
    ipureintro
    refine (read_writes_whole_last _ _ hz3 _ _ _).trans ?_
    try dsimp only
    try sl_unfold_words
    simp only [View.readAt_eq_ld, harg3.read_unread, harg4.read_unread, harg7.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  isplitl [HS1]
  · iexists _; isplitr
    swap; · iexact HS1
    ipureintro
    refine (read_writes_whole_last _ _ hz3 _ _ _).trans ?_
    try dsimp only
    try sl_unfold_words
    simp only [View.readAt_eq_ld, harg3.read_unread, harg4.read_unread, harg7.read_unread, harg8.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  · iexists _; isplitr
    swap; · iexact HS2
    ipureintro
    refine (read_writes_whole_last _ _ hz3 _ _ _).trans ?_
    try dsimp only
    try sl_unfold_words
    simp only [View.readAt_eq_ld, harg3.read_unread, harg4.read_unread, harg5.read_unread, harg7.read_unread, harg9.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl

end Cert.KernelIdeal.Hand

end
-- ==== Proof.Region2.lean ====
import proofs.«161176_j6906307412019_2_alg».proof.Proof.Gen.KernelIdeal.Launch
import proofs.«161176_j6906307412019_2_alg».proof.Proof.Gen.KernelIdeal.Skeleton
import proofs.«161176_j6906307412019_2_alg».proof.Proof.Gen.KernelIdeal.Points
import Idealize.ShloMosaic.Lib.Pipeline.FrameBody
import Idealize.ShloMosaic.Lib.Pipeline.Value
import Idealize.ShloMosaic.Lib.Tactic
import proofs.«161176_j6906307412019_2_alg».proof.Proof.Region2Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the flash-attention kernel: the proof data of its pipeline and the body obligation

The scratch buffers carry the online softmax's state `(m, l, acc)` from point to point; the pipeline does not stage
them, so the invariant `Φ` holds them, at contents named point by point (`sAt2`). -/

-- the TensorCore's buffer contents when the region is entered: a parameter
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block at every point

The q-window is fetched only at kv = 0 and keeps its block over the row (its block index does not move while kv
advances); the k- and v-windows are fetched at every point. Either way the buffer holds the point's block. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The scratch state, point by point -/

/-- The state `(m, l, acc)`. -/
abbrev SV2 (F : FTy → Type) : Type := Vec F S16x256x1 .f32 × Vec F S16x256x1 .f32 × Vec F S16x256x64 .f32

/-- The state the reset writes: `(−∞, 0, 0)`. -/
def reset2 : SV2 F := (k2_pay5, k2_pay6, k2_pay7)

/-- One step of the online softmax on the blocks `x0` (q), `x1` (k), `x2` (v). -/
def stepS2 (x0 x1 x2 : Vec F S1x256x16x64 .bf16) (s : SV2 F) : SV2 F :=
  (mNew2 x0 x1 s.1, lNew2 x0 x1 s.1 s.2.1, accNew2 x0 x1 x2 s.1 s.2.2)

/-- The state before point `n` (after point `n − 1`): the step at point `n − 1`, started from the reset state when that
    point opens a row (kv = 0) and from the state before it otherwise. Before the first point the value is immaterial
    (the first point resets before it reads). -/
def sAtN2 (c : Dev nD) : (n : ℕ) → n ≤ cfg2.N → SV2 F
  | 0, _ => reset2
  | n + 1, hn =>
    stepS2 (iblk2 V c 0 ⟨n, hn⟩) (iblk2 V c 1 ⟨n, hn⟩) (iblk2 V c 2 ⟨n, hn⟩)
      (if n % 8 = 0 then reset2 else sAtN2 c n (Nat.le_of_succ_le hn))

theorem sAtN2_succ (c : Dev nD) (n : ℕ) (hn : n + 1 ≤ cfg2.N) :
    sAtN2 V c (n + 1) hn = stepS2 (iblk2 V c 0 ⟨n, hn⟩) (iblk2 V c 1 ⟨n, hn⟩) (iblk2 V c 2 ⟨n, hn⟩)
      (if n % 8 = 0 then reset2 else sAtN2 V c n (Nat.le_of_succ_le hn)) := rfl

/-- The three scratch buffers' contents before point `t`. -/
def sAt2 (c : Dev nD) (t : Fin (cfg2.N + 1)) : (Vec F S16x256x1 .f32) × (Vec F S16x256x1 .f32) × (Vec F S16x256x64 .f32) :=
  sAtN2 V c t.val (Nat.le_of_lt_succ t.isLt)

/-- After a point that opens a row: one step from the reset state. -/
theorem sAt2_succ_first (c : Dev nD) (t : Fin cfg2.N) (h : t.val % 8 = 0) :
    sAt2 V c t.succ = stepS2 (iblk2 V c 0 t) (iblk2 V c 1 t) (iblk2 V c 2 t) reset2 := by
  show sAtN2 V c (t.val + 1) t.isLt = _
  rw [sAtN2_succ, if_pos h]

/-- After any other point: one step from the state before it. -/
theorem sAt2_succ_next (c : Dev nD) (t : Fin cfg2.N) (h : ¬t.val % 8 = 0) :
    sAt2 V c t.succ = stepS2 (iblk2 V c 0 t) (iblk2 V c 1 t) (iblk2 V c 2 t) (sAt2 V c t.castSucc) := by
  show sAtN2 V c (t.val + 1) t.isLt = _
  rw [sAtN2_succ, if_neg h]; rfl

/-! ## The invariant -/

/-- The scratch operands: whole scoped buffers of the kernel's own. -/
abbrev scM2_0 : Memref sig .tc .vmem S16x256x1 .f32 := Memref.whole cc2_scratch0
abbrev scM2_1 : Memref sig .tc .vmem S16x256x1 .f32 := Memref.whole cc2_scratch1
abbrev scM2_2 : Memref sig .tc .vmem S16x256x64 .f32 := Memref.whole cc2_scratch2

/-- The core's scoped buffers that are neither a staging buffer of this pipeline nor its scratch (the other
    pipelines' staging buffers), each whole at some contents: untouched by the body. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg0_1), ((c : Thread nD τ).loc cc3_stg0_1) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg2_0), ((c : Thread nD τ).loc cc3_stg2_0) ↦{fullShare} f)
      ∗ (∃ f : Buf (Elt F) ((c : Thread nD τ).loc cc3_stg2_1), ((c : Thread nD τ).loc cc3_stg2_1) ↦{fullShare} f))

/-- The invariant before point `n`: the three scratch buffers at the state `sAtN2` names — at anything before the
    first point —, and the other scoped buffers. -/
def Phi2 (c : Dev nD) (n : ℕ) (hn : n ≤ cfg2.N) : sProp 𝕄 :=
  iprop(∃ (s0 : Vec F S16x256x1 .f32) (s1 : Vec F S16x256x1 .f32) (s2 : Vec F S16x256x64 .f32),
      ⌜n ≠ 0 → s0 = (sAtN2 V c n hn).1 ∧ s1 = (sAtN2 V c n hn).2.1 ∧ s2 = (sAtN2 V c n hn).2.2⌝
      ∗ owns (c : Thread nD τ) scM2_0 fullShare s0 ∗ owns (c : Thread nD τ) scM2_1 fullShare s1
      ∗ owns (c : Thread nD τ) scM2_2 fullShare s2 ∗ rest2 c)

/-! ## The proof data -/

/-- The proof data of the pipeline on core `c`: the arrays as the region finds them; after the body each input's buffer
    at its block, the output's at `acc / l` of the state the point leaves (what the kv = 7 store writes; at the other
    points the window is idle and nothing consults the value); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outNew2 (sAtN2 V c (t.val + 1) t.isLt).2.2 (sAtN2 V c (t.val + 1) t.isLt).2.1
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem owed2 (c : Dev nD) (t : Fin (cfg2.N + 1)) : (dat2 V c).owed t = 0 := rfl
theorem q2 (c : Dev nD) (w : Fin cfg2.W) : (dat2 V c).q w = fullShare := rfl
theorem recorded2 (c : Dev nD) (t : Fin (cfg2.N + 1)) : (dat2 V c).recorded t = Set.univ := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) :
    (dat2 V c).after 3 t = outNew2 (sAtN2 V c (t.val + 1) t.isLt).2.2 (sAtN2 V c (t.val + 1) t.isLt).2.1 := by dsimp only [dat2]

/-- The output block a row's last point writes: the FINAL accumulator of the row divided by its final normaliser
    (`k2_pay4`), the state being the one after that point. -/
theorem after2_3 (c : Dev nD) (t : Fin cfg2.N) (h : t.val % 8 = 7) :
    (dat2 V c).after 3 t = k2_pay4 (sAt2 V c t.succ).2.2 (sAt2 V c t.succ).2.1 := by
  rw [after2_3']; rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = Phi2 V c t.val (Nat.le_of_lt t.isLt) := by
  dsimp only [dat2]; simp only [Fin.coe_castSucc]

/-! ## Entering and leaving the region -/

/-- What the launch hands the region — every scoped buffer that is no staging buffer of this pipeline, at some
    contents — is the invariant before the first point: the scratch at anything, the others as they are. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, scopedRest2_eq]
  unfold Phi2 rest2
  simp only [scM2_0, scM2_1, scM2_2, owns_whole]
  iintro ⟨A0, A1, A2, A3, A4, A5, A6, A7, A8, A9, A10, A11, A12, ⟨%g0, S0⟩, ⟨%g1, S1⟩, ⟨%g2, S2⟩, B⟩
  iexists g0, g1, g2
  isplitr
  · ipureintro; intro h; exact absurd rfl h
  isplitl [S0]; · iexact S0
  isplitl [S1]; · iexact S1
  isplitl [S2]; · iexact S2
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  iexact B

/-- After the last point the invariant gives those buffers back, the scratch's named contents forgotten. -/
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl, scopedRest2_eq]
  unfold Phi2 rest2
  simp only [scM2_0, scM2_1, scM2_2, owns_whole]
  iintro ⟨%s0, %s1, %s2, -, S0, S1, S2, A0, A1, A2, A3, A4, A5, A6, A7, A8, A9, A10, A11, A12, B⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [S0]; · iexists s0; iexact S0
  isplitl [S1]; · iexists s1; iexact S1
  isplitl [S2]; · iexists s2; iexact S2
  iexact B

/-! ## The body obligation, at a generic point -/

/-- The staging memref each window is on at point `t` (which of its two buffers the schedule selects there). -/
abbrev ms2_0 (t : Fin cfg2.N) : Memref sig .tc .vmem S1x256x16x64 .bf16 := win2_0.stage (cfg2.slots t 0)
abbrev ms2_1 (t : Fin cfg2.N) : Memref sig .tc .vmem S1x256x16x64 .bf16 := win2_1.stage (cfg2.slots t 1)
abbrev ms2_2 (t : Fin cfg2.N) : Memref sig .tc .vmem S1x256x16x64 .bf16 := win2_2.stage (cfg2.slots t 2)
abbrev ms2_3 (t : Fin cfg2.N) : Memref sig .tc .vmem S1x256x16x64 .f32 := win2_3.stage (cfg2.slots t 3)

/-- The body's precondition at point `t`: the invariant, what the core owes, and every window's buffer at what it
    holds when the body starts. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- Its postcondition: the invariant one point on, the same debts, and every window's buffer at what the body leaves. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's index mod 8 says which control case it is
    in; the invariant hands the body the scratch at the state before the point (at anything where the row opens: the
    reset overwrites it) and takes it back one step further; where the output store is not made the output's buffer is
    handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  unfold Phi2
  by_cases h0 : t.val % 8 = 0
  · -- the row opens: reset, then one step
    have h7 : ¬t.val % 8 = 7 := by omega
    rw [Dat.leavesExact_idle (dat2 V c) 3 t (idleAt2_3 t (fun h => h7 ((hcond2_1 t).mp h))) (noFlush2_3 t h7)]
    iintro ⟨⟨%s0, %s1, %s2, -, HS0, HS1, HS2, HR⟩, Ho, ⟨%d0, H0⟩, ⟨%d1, H1⟩, ⟨%d2, H2⟩, ⟨%d3, H3⟩⟩
    iapply (run2_A c (grid2.coords t) _ _ _ _ _ _ _ _ _ _ _ _ _ _ ((hcond2_0 t).mpr h0) (fun h => h7 ((hcond2_1 t).mp h)) (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, HS0, HS1, HS2⟩
    isplitl [HS0 HS1 HS2 HR]
    · iexists _, _, _
      isplitr
      · ipureintro; intro _
        rw [sAtN2_succ, if_pos h0]
        exact ⟨rfl, rfl, rfl⟩
      isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    iexists d3; iexact H3
  · by_cases h7 : t.val % 8 = 7
    · -- the row closes: one step, then the output store
      have hz : t.val ≠ 0 := fun e => h0 (by rw [e])
      rw [show (dat2 V c).leavesExact 3 t = owns (c : Thread nD τ) (ms2_3 t) fullShare ((dat2 V c).after 3 t) from by
        unfold Dat.leavesExact; rw [liveAt2_3 t ((hcond2_1 t).mpr h7)], after2_3']
      iintro ⟨⟨%s0, %s1, %s2, %hs, HS0, HS1, HS2, HR⟩, Ho, ⟨%d0, H0⟩, ⟨%d1, H1⟩, ⟨%d2, H2⟩, ⟨%d3, H3⟩⟩
      obtain ⟨rfl, rfl, rfl⟩ := hs hz
      iapply (run2_C c (grid2.coords t) _ _ _ _ _ _ _ _ _ _ _ _ _ _ (fun h => h0 ((hcond2_0 t).mp h)) ((hcond2_1 t).mpr h7) (iblk2 V c 0 t) (iblk2 V c 1 t) (iblk2 V c 2 t) (sAtN2 V c t.val (Nat.le_of_lt t.isLt)).1 (sAtN2 V c t.val (Nat.le_of_lt t.isLt)).2.1 (sAtN2 V c t.val (Nat.le_of_lt t.isLt)).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR]
      · iexists _, _, _
        isplitr
        · ipureintro; intro _
          rw [sAtN2_succ, if_neg h0]
          exact ⟨rfl, rfl, rfl⟩
        isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      rw [sAtN2_succ, if_neg h0]
      iexact H3
    · -- inside the row: one step
      have hz : t.val ≠ 0 := fun e => h0 (by rw [e])
      rw [Dat.leavesExact_idle (dat2 V c) 3 t (idleAt2_3 t (fun h => h7 ((hcond2_1 t).mp h))) (noFlush2_3 t h7)]
      iintro ⟨⟨%s0, %s1, %s2, %hs, HS0, HS1, HS2, HR⟩, Ho, ⟨%d0, H0⟩, ⟨%d1, H1⟩, ⟨%d2, H2⟩, ⟨%d3, H3⟩⟩
      obtain ⟨rfl, rfl, rfl⟩ := hs hz
      iapply (run2_B c (grid2.coords t) _ _ _ _ _ _ _ _ _ _ _ _ _ _ (fun h => h0 ((hcond2_0 t).mp h)) (fun h => h7 ((hcond2_1 t).mp h)) (iblk2 V c 0 t) (iblk2 V c 1 t) (iblk2 V c 2 t) ((dat2 V c).before 3 t d3) (sAtN2 V c t.val (Nat.le_of_lt t.isLt)).1 (sAtN2 V c t.val (Nat.le_of_lt t.isLt)).2.1 (sAtN2 V c t.val (Nat.le_of_lt t.isLt)).2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR]
      · iexists _, _, _
        isplitr
        · ipureintro; intro _
          rw [sAtN2_succ, if_neg h0]
          exact ⟨rfl, rfl, rfl⟩
        isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      iexists d3; iexact H3

/-- Hence the body obligation of the pipeline rule, point by point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3.lean ====
import proofs.«161176_j6906307412019_2_alg».proof.Proof.Gen.KernelIdeal.Launch
import proofs.«161176_j6906307412019_2_alg».proof.Proof.Gen.KernelIdeal.Skeleton
import proofs.«161176_j6906307412019_2_alg».proof.Proof.Gen.KernelIdeal.Points
import Idealize.ShloMosaic.Lib.Pipeline.FrameBody
import Idealize.ShloMosaic.Lib.Tactic

-- membership of an index in a rectangle as long as a block's axes is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # Region 3: one row-block of a quantised linear layer per grid point

The grid has 8 points. At point `t` the body sees three windows: window 0, a block of 512 rows (all 1024 columns) of the
activations; window 1, the whole 1024 × 1024 weight matrix, the same block at every point and therefore brought in
only once; window 2, the block of 512 rows of the result. The body reads windows 0 and 1 whole, computes, and
overwrites window 2 whole. So what it leaves in window 2's buffer is a function of the two input blocks alone. -/

/-! ## The windows' blocks -/

/-- The block of window `w` at grid point `t`, read off the array behind the window as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' buffer holds the activations' block at every point: the window is an input, never idle, never
    clipped, and the body leaves it as found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' buffer holds the weight matrix at every point although it is filled at the first point only: where
    no fetch happens the block index has not moved, and the body left the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev rA3 : Rect S512x1024 := Rect.unit (s := S512x1024) ![0, 0] S512x1024.size inb_S512x1024_S512x1024_0_0
abbrev rW3 : Rect S1024x1024 := Rect.unit (s := S1024x1024) ![0, 0] S1024x1024.size inb_S1024x1024_S1024x1024_0_0

/-! ## What the body leaves in the result window's buffer -/

/-- The result buffer after the body, from the two input blocks: the one store, of the body's arithmetic
    (`k3_pay1`, kept closed) applied to the two blocks as the loads read them, laid over the whole buffer. -/
def out3_2 (x0 : Vec F S512x1024 .f32) (x1 : Vec F S1024x1024 .bf16) : Vec F S512x1024 .f32 :=
  View.canon [⟨rA3, k3_pay1 (View.ld x0 rA3) (View.ld x1 rW3)⟩]

/-- The one store is of the whole buffer, so every index of the buffer is under it. -/
theorem cover3_2 (p0 : Vec F S512x1024 .f32) (y : S512x1024.Idx) :
    ∃ pc ∈ ([⟨rA3, p0⟩] : List (View.Piece (Elt F) S512x1024 .f32)), y ∈ pc.1.set :=
  View.cover_of_tiled [⟨rA3, p0⟩] S512x1024.size (by rfl) y

/-! ## The body's triple -/

set_option maxHeartbeats 1000000 in
/-- The body, on three whole buffers — the inputs' at read contents `x0`, `x1`, the result's at anything —, runs to
    its continuation with the inputs' buffers unchanged and the result's at `out3_2 x0 x1`. The grid coordinate it
    is passed is not used. -/
theorem sound_kernel3 (c : Dev nD) (E : Set ℕ) (i : grid3.Coords)
    (a0 : Memref sig .tc .vmem S512x1024 .f32) (h0 : a0.IsWhole) (a1 : Memref sig .tc .vmem S1024x1024 .bf16) (h1 : a1.IsWhole)
    (a2 : Memref sig .tc .vmem S512x1024 .f32) (h2 : a2.IsWhole)
    (x0 : Vec F S512x1024 .f32) (x1 : Vec F S1024x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out3_2 x0 x1)) -∗ K ⟨⟩))
      ⊢ wp frame (wpE (defs₀ (F := F)) Variants.none c none) E (cc3__bitlinear_single_kernel i a0 h0 a1 h1 a2 h2) K := by
  simp only [cc3__bitlinear_single_kernel_eq_skeleton]; unfold cc3__bitlinear_single_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data on core `c`: the arrays behind the windows as the region finds them; after the body at point `t`
    each input's buffer still at its block and the result's at `out3_2` of the two input blocks; the invariant is the
    core's other scoped buffers, which the body does not touch; the arrays are held whole; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.scopedRest (Ix := Unit) (Name := ℕ) (U := UR sig nD τ) (Lvl := ℕ) (Val := Elt F) spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by
  dsimp only [dat3]

theorem Phi3 (c : Dev nD) (t : Fin (cfg3.N + 1)) :
    (dat3 V c).Φ t = Pipeline.scopedRest (Ix := Unit) (Name := ℕ) (U := UR sig nD τ) (Lvl := ℕ) (Val := Elt F) spec3 c := by
  dsimp only [dat3]

theorem owed3 (c : Dev nD) (t : Fin (cfg3.N + 1)) : (dat3 V c).owed t = 0 := rfl

theorem q3 (c : Dev nD) (w : Fin cfg3.W) : (dat3 V c).q w = fullShare := rfl

theorem recorded3 (c : Dev nD) (t : Fin (cfg3.N + 1)) : (dat3 V c).recorded t = Set.univ := rfl

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is entered with at point `t`: the invariant, what the core owes, and the three current buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the triple applies; the invariant and what the
    core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Facts.lean ====
/-
  The four kernel regions' proof data meet what the run of @main asks of them: each pipeline's arrays are read off the
  contents its region is entered from, every share is full, nothing is owed or recorded, the body obligation holds, and
  the invariant at the first and last grid point is the scoped buffers the pipeline does not stage (for the attention
  kernel: with its three scratch buffers among them, whatever they hold).  Hence the program's frame.
-/
import proofs.«161176_j6906307412019_2_alg».proof.Proof.Glue
import proofs.«161176_j6906307412019_2_alg».proof.Proof.Region0
import proofs.«161176_j6906307412019_2_alg».proof.Proof.Region1
import proofs.«161176_j6906307412019_2_alg».proof.Proof.Region2
import proofs.«161176_j6906307412019_2_alg».proof.Proof.Region3

noncomputable section

namespace Cert.KernelIdeal.Hand

open Cert.KernelIdeal Cert.KernelIdeal.Gen
open Idealize.ShloMosaic Idealize.ShloMosaic.TcCoe
open Idealize.SL Idealize.SL.BI Idealize.SL.Sem
open scoped Idealize.SL.BI
open Idealize.ShloMosaic.Pipeline (Dat Cfg BodyObligation)

variable {F : FTy → Type} [FloatOps F]

/-- Region 0 (a projection kernel: no invariant beyond the scoped rest). -/
theorem facts0 : RegionFacts (F := F) cfg0 (fun V c => dat0 V c) where
  hA := A_eq0
  hq := q0
  howed := owed0
  hrec := recorded0
  hbody := body_obligation0
  hin V c := by rw [Phi0]
  hout V c := by rw [Phi0]

/-- Region 1 (a projection kernel: no invariant beyond the scoped rest). -/
theorem facts1 : RegionFacts (F := F) cfg1 (fun V c => dat1 V c) where
  hA := A_eq1
  hq := q1
  howed := owed1
  hrec := recorded1
  hbody := body_obligation1
  hin V c := by rw [Phi1]
  hout V c := by rw [Phi1]

/-- Region 3 (a projection kernel: no invariant beyond the scoped rest). -/
theorem facts3 : RegionFacts (F := F) cfg3 (fun V c => dat3 V c) where
  hA := A_eq3
  hq := q3
  howed := owed3
  hrec := recorded3
  hbody := body_obligation3
  hin V c := by rw [Phi3]
  hout V c := by rw [Phi3]

/-- Region 2 (the attention kernel: its invariant pins the three scratch buffers point by point). -/
theorem facts2 : RegionFacts (F := F) cfg2 (fun V c => dat2 V c) where
  hA := A_eq2
  hq := q2
  howed := owed2
  hrec := recorded2
  hbody := body_obligation2
  hin := hin2
  hout := hout2

/-- The program runs to the end, faults nowhere and leaves its six argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_facts m ρ _ _ _ _ (facts0 (F := F)) facts1 facts2 facts3

end Cert.KernelIdeal.Hand

end
-- ==== Proof.KGlue.lean ====
/-
  The four kernel regions of @main as segments of the program's run, over ANY proof data for the four pipelines that
  meets a short list of facts: each pipeline's arrays are read off the buffers' contents when its region is entered,
  every share is the full one, the body owes nothing, the body obligation holds, and the invariant at the first and
  the last grid point is (interchangeable with) the scoped buffers no window of the pipeline stages.

  Between two items of @main a core holds every unscoped buffer whole at a valuation — the launch contents pushed
  through the host stretches, updated at a region's output arrays by what that region's write-backs leave
  (`Dat.arrAt w N`) — beside the generator register at some state and nothing owed. A region is entered by splitting
  its windows' arrays out of the unscoped buffers, and left by putting them back at the updated valuation.
-/
import proofs.«161176_j6906307412019_2_alg».proof.Proof.Gen.Kernel.Regions
import proofs.«161176_j6906307412019_2_alg».proof.Proof.Gen.Kernel.Points
import Idealize.ShloMosaic.Lib.Pipeline.FrameBody
import Idealize.ShloMosaic.Lib.Pipeline.RegionsLoop
import Idealize.ShloMosaic.Lib.Tactic

-- regions 1 and 2 have five and four windows: splitting their arrays out of the unscoped buffers and putting them back
-- compares the pinned configuration with the printed one window by window, past the default budget

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed family of buffer contents: what a region's proof data is stated at. -/
abbrev Contents (F : FTy → Type) : Type := (c : Dev nD) → (b : Ref sig .tc) → Buf (Elt F) ((c : Thread nD τ).loc b)

/-- What the glue needs of one pipeline's proof data family. -/
structure RegionFacts (cfg : Cfg sig Λ₀) (D : Contents F → (c : Dev nD) → Dat τ (Elt F) Unit ℕ (UR sig nD τ) ℕ cfg c) : Prop where
  hA : ∀ V c w, (D V c).A w = V c (Pipeline.arrRef cfg.spec w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V c, (Pipeline.scopedRest (Ix := Unit) (Name := ℕ) (U := UR sig nD τ) (Lvl := ℕ) (Val := Elt F) cfg.spec c : sProp 𝕄) ⊢ (D V c).Φ 0
  hout : ∀ V c, (D V c).Φ (Fin.last cfg.N) ⊢ (Pipeline.scopedRest (Ix := Unit) (Name := ℕ) (U := UR sig nD τ) (Lvl := ℕ) (Val := Elt F) cfg.spec c : sProp 𝕄)

section Small

variable {cfg : Cfg sig Λ₀} {c : Dev nD} (dat : Dat τ (Elt F) Unit ℕ (UR sig nD τ) ℕ cfg c)

/-- A core that owes nothing enters a pipeline whose proof data owes nothing before the first point. -/
theorem owesAt_entry (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, HO⟩; iexists W; isplitr
  · ipureintro; exact fun _ _ => Or.inl (hr.symm ▸ Set.mem_univ _)
  iexact HO

/-- After the last point it still owes nothing. -/
theorem owesAt_exit (h0 : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- The third of three resources. -/
theorem sep_third (A B C : sProp 𝕄) : iprop(A ∗ B ∗ C) ⊢ C := by
  iintro ⟨-, -, H⟩; iexact H
/-- A resource beside two empty ones. -/
theorem emp_emp_sep (C : sProp 𝕄) : C ⊢ iprop(BI.emp ∗ BI.emp ∗ C) := by
  iintro H
  isplitr; · iempintro
  isplitr; · iempintro
  iexact H

end Small

section Run

variable (m : (ℓ : Loc nD τ sig) → Buf (Elt F) ℓ)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

/-! ## The buffers' contents at the boundaries after the first region -/

/-- After region 0: the first projection's output array at what the region's write-backs leave. -/
def W26 (c : Dev nD) : Valuation τ sig (Elt F) :=
  Function.update (V25 m c) main_v62 ((D0 (fun c b => V25 m c b) c).arrAt 2 cfg0.N)
/-- After region 1: the two arrays of the dual projection. -/
def W27 (c : Dev nD) : Valuation τ sig (Elt F) :=
  Function.update (Function.update (W26 m D0 c) main_v63_0 ((D1 (fun c b => W26 m D0 c b) c).arrAt 3 cfg1.N))
    main_v63_1 ((D1 (fun c b => W26 m D0 c b) c).arrAt 4 cfg1.N)
/-- After the reshapes into heads. -/
def W28 (c : Dev nD) : Valuation τ sig (Elt F) := StableHlo.after hostOps2 (W27 m D0 D1 c)
/-- After region 2: the attention output. -/
def W29 (c : Dev nD) : Valuation τ sig (Elt F) :=
  Function.update (W28 m D0 D1 c) main_v67 ((D2 (fun c b => W28 m D0 D1 c b) c).arrAt 3 cfg2.N)
/-- After the reshape merging the heads. -/
def W30 (c : Dev nD) : Valuation τ sig (Elt F) := StableHlo.after hostOps3 (W29 m D0 D1 D2 c)
/-- After region 3: the last projection's output. -/
def W31 (c : Dev nD) : Valuation τ sig (Elt F) :=
  Function.update (W30 m D0 D1 D2 c) main_v69 ((D3 (fun c b => W30 m D0 D1 D2 c b) c).arrAt 2 cfg3.N)

/-- What the regions leave, read at the points the program's run reads it. -/
def outs : Outs (F := F) := fun J r c =>
  match J with
  | 26 => W26 m D0 c r
  | 27 => W27 m D0 D1 c r
  | 29 => W29 m D0 D1 D2 c r
  | _ => W31 m D0 D1 D2 D3 c r

theorem V26_eq (c : Dev nD) : V26 m (outs m D0 D1 D2 D3) c = W26 m D0 c := by
  unfold V26 outs W26; simp only [Function.update_self]
theorem V27_eq (c : Dev nD) : V27 m (outs m D0 D1 D2 D3) c = W27 m D0 D1 c := by
  unfold V27; rw [V26_eq]; unfold outs W27
  simp only [Function.update_self, ne_eq, Function.update_of_ne (by decide : (main_v63_0 : DevRef τ sig) ≠ main_v63_1)]
theorem V28_eq (c : Dev nD) : V28 m (outs m D0 D1 D2 D3) c = W28 m D0 D1 c := by
  unfold V28 W28; rw [V27_eq]
theorem V29_eq (c : Dev nD) : V29 m (outs m D0 D1 D2 D3) c = W29 m D0 D1 D2 c := by
  unfold V29; rw [V28_eq]; unfold outs W29; simp only [Function.update_self]
theorem V30_eq (c : Dev nD) : V30 m (outs m D0 D1 D2 D3) c = W30 m D0 D1 D2 c := by
  unfold V30 W30; rw [V29_eq]
theorem V31_eq (c : Dev nD) : V31 m (outs m D0 D1 D2 D3) c = W31 m D0 D1 D2 D3 c := by
  unfold V31; rw [V30_eq]; unfold outs W31; simp only [Function.update_self]

/-! ## The proof data family and the thread state -/

/-- Every pipeline's proof data, each at the contents its region is entered from. -/
def pdats : (p : Fin 4) → (c : Dev nD) → Dat τ (Elt F) Unit ℕ (UR sig nD τ) ℕ (cfgs p) c
  | ⟨0, _⟩ => fun c => D0 (fun c b => V25 m c b) c
  | ⟨1, _⟩ => fun c => D1 (fun c b => W26 m D0 c b) c
  | ⟨2, _⟩ => fun c => D2 (fun c b => W28 m D0 D1 c b) c
  | ⟨3, _⟩ => fun c => D3 (fun c b => W30 m D0 D1 D2 c b) c

/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Run

section Regs
variable (m : (ℓ : Loc nD τ sig) → Buf (Elt F) ℓ)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

/-- Region 0's arrays after its last point are what the next boundary holds: an input as entered, an output at its
    write-backs. -/
theorem hF0 (h : RegionFacts cfg0 D0) (c : Dev nD) (w : Fin cfg0.W) :
    (pdats m D0 D1 D2 D3 0 c).arrAt w cfg0.N = W26 m D0 c (Pipeline.arrRef spec0 w) := by
  fin_cases w
  · refine ((pdats m D0 D1 D2 D3 0 c).arrAt_in 0 rfl _).trans ?_
    rw [show (pdats m D0 D1 D2 D3 0 c).A 0 = _ from h.hA _ c 0]
    unfold W26; rw [Function.update_of_ne (by decide)]
  · refine ((pdats m D0 D1 D2 D3 0 c).arrAt_in 1 rfl _).trans ?_
    rw [show (pdats m D0 D1 D2 D3 0 c).A 1 = _ from h.hA _ c 1]
    unfold W26; rw [Function.update_of_ne (by decide)]
  · unfold W26; rw [Function.update_self]; rfl
/-- Off region 0's arrays the next boundary holds what the previous one did. -/
theorem hrest0 (c : Dev nD) : ∀ b : Ref sig .tc, b ∉ Finset.univ.image (Pipeline.arrRef spec0) → W26 m D0 c b = V25 m c b := fun b hb => by
  unfold W26; rw [Function.update_of_ne (StableHlo.devRef_ne_of_ne (fun e => hb (e ▸ Finset.mem_image.mpr ⟨2, Finset.mem_univ _, rfl⟩)) : (Proc.devRef .tc b : DevRef τ sig) ≠ Proc.devRef .tc main_v62)]

-- unifying a library lemma stated over the pinned configuration with the printed one takes unfolding plain definitions
-- in a metavariable's type
set_option backward.isDefEq.respectTransparency.types false in
/-- Region 0 over the thread state: entered from every unscoped buffer at the contents before it, left with them at the
    contents after it; its windows' arrays are split out of the unscoped buffers at entry and put back at exit, the
    generator register and the rest of the unscoped buffers pass by, nothing is owed and the kernel has no semaphore
    of its own. -/
def reg0 (h : RegionFacts cfg0 D0) :
    Pipeline.RegionSeg (pcfgs (F := F)) adm (pdats m D0 D1 D2 D3) () defs₀ Variants.none L lv 0 where
  win := launch0.win.to₀
  block_pos := launch0.block_pos
  stage_whole := launch0.stage_whole
  K := PEmpty
  osem k := k.elim
  ho := Pipeline.OwnSemFacts.none _
  hbody c := (h.hbody _ c).loose
  hwaits := Pipeline.hwaits_of_owed_zero _ _ _ _ L lv 0 fun c t => h.howed _ c t
  pre c := iprop(StableHlo.held (c : Thread nD τ) (Pipeline.ucRefs τ sig) (V25 m c) ∗ R c)
  post c := iprop(StableHlo.held (c : Thread nD τ) (Pipeline.ucRefs τ sig) (W26 m D0 c) ∗ R c)
  X _ := BI.emp
  Y _ := BI.emp
  Z c := iprop(Pipeline.unscopedRest (Ix := Unit) (Name := ℕ) (U := UR sig nD τ) (Lvl := ℕ) spec0 c (fun b => V25 m c b) ∗ ∃ r, prngReg c r)
  hentry c := by
    rw [Pipeline.ownSems0_none]
    have hsplit := Pipeline.arrays_of_unscopedBufs (p := 0) (pcfgs (F := F)) adm (pdats m D0 D1 D2 D3) launch0.win launch0.arr_whole c
      ((pdats m D0 D1 D2 D3 0 c).share_full fun w => h.hq _ c w) (fun b => V25 m c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 0 c) (h.howed _ c 0) (h.hrec _ c 0)); iexact HO
    isplitr; · iempintro
    isplitl [Hrest]; · iexact Hrest
    iexact Hp
  hin c := (sep_third _ _ _).trans (h.hin (fun c b => V25 m c b) c)
  hout c := by
    rw [Pipeline.ownSems0_none]
    exact (h.hout (fun c b => V25 m c b) c).trans (emp_emp_sep _)
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3) ((pdats m D0 D1 D2 D3 0 c).share_full fun w => h.hq _ c w)
      (fun b => V25 m c b) (fun b => W26 m D0 c b) ((pdats m D0 D1 D2 D3 0 c).arrAt · cfg0.N) (hF0 m D0 D1 D2 D3 h c) (hrest0 m D0 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 0 c) (h.howed _ c _)); iexact HO

set_option maxHeartbeats 4000000 in
/-- Region 1's arrays after its last point are what the next boundary holds: an input as entered, an output at its
    write-backs. -/
theorem hF1 (h : RegionFacts cfg1 D1) (c : Dev nD) (w : Fin cfg1.W) :
    (pdats m D0 D1 D2 D3 1 c).arrAt w cfg1.N = W27 m D0 D1 c (Pipeline.arrRef spec1 w) := by
  fin_cases w
  · refine ((pdats m D0 D1 D2 D3 1 c).arrAt_in 0 rfl _).trans ?_
    rw [show (pdats m D0 D1 D2 D3 1 c).A 0 = _ from h.hA _ c 0]
    unfold W27; rw [Function.update_of_ne (by decide), Function.update_of_ne (by decide)]
  · refine ((pdats m D0 D1 D2 D3 1 c).arrAt_in 1 rfl _).trans ?_
    rw [show (pdats m D0 D1 D2 D3 1 c).A 1 = _ from h.hA _ c 1]
    unfold W27; rw [Function.update_of_ne (by decide), Function.update_of_ne (by decide)]
  · refine ((pdats m D0 D1 D2 D3 1 c).arrAt_in 2 rfl _).trans ?_
    rw [show (pdats m D0 D1 D2 D3 1 c).A 2 = _ from h.hA _ c 2]
    unfold W27; rw [Function.update_of_ne (by decide), Function.update_of_ne (by decide)]
  · unfold W27; rw [Function.update_of_ne (by decide), Function.update_self]; rfl
  · unfold W27; rw [Function.update_self]; rfl
/-- Off region 1's arrays the next boundary holds what the previous one did. -/
theorem hrest1 (c : Dev nD) : ∀ b : Ref sig .tc, b ∉ Finset.univ.image (Pipeline.arrRef spec1) → W27 m D0 D1 c b = W26 m D0 c b := fun b hb => by
  unfold W27; rw [Function.update_of_ne (StableHlo.devRef_ne_of_ne (fun e => hb (e ▸ Finset.mem_image.mpr ⟨4, Finset.mem_univ _, rfl⟩)) : (Proc.devRef .tc b : DevRef τ sig) ≠ Proc.devRef .tc main_v63_1), Function.update_of_ne (StableHlo.devRef_ne_of_ne (fun e => hb (e ▸ Finset.mem_image.mpr ⟨3, Finset.mem_univ _, rfl⟩)) : (Proc.devRef .tc b : DevRef τ sig) ≠ Proc.devRef .tc main_v63_0)]

set_option maxHeartbeats 4000000 in
-- unifying a library lemma stated over the pinned configuration with the printed one takes unfolding plain definitions
-- in a metavariable's type
set_option backward.isDefEq.respectTransparency.types false in
/-- Region 1 over the thread state: entered from every unscoped buffer at the contents before it, left with them at the
    contents after it; its windows' arrays are split out of the unscoped buffers at entry and put back at exit, the
    generator register and the rest of the unscoped buffers pass by, nothing is owed and the kernel has no semaphore
    of its own. -/
def reg1 (h : RegionFacts cfg1 D1) :
    Pipeline.RegionSeg (pcfgs (F := F)) adm (pdats m D0 D1 D2 D3) () defs₀ Variants.none L lv 1 where
  win := launch1.win.to₀
  block_pos := launch1.block_pos
  stage_whole := launch1.stage_whole
  K := PEmpty
  osem k := k.elim
  ho := Pipeline.OwnSemFacts.none _
  hbody c := (h.hbody _ c).loose
  hwaits := Pipeline.hwaits_of_owed_zero _ _ _ _ L lv 1 fun c t => h.howed _ c t
  pre c := iprop(StableHlo.held (c : Thread nD τ) (Pipeline.ucRefs τ sig) (W26 m D0 c) ∗ R c)
  post c := iprop(StableHlo.held (c : Thread nD τ) (Pipeline.ucRefs τ sig) (W27 m D0 D1 c) ∗ R c)
  X _ := BI.emp
  Y _ := BI.emp
  Z c := iprop(Pipeline.unscopedRest (Ix := Unit) (Name := ℕ) (U := UR sig nD τ) (Lvl := ℕ) spec1 c (fun b => W26 m D0 c b) ∗ ∃ r, prngReg c r)
  hentry c := by
    rw [Pipeline.ownSems0_none]
    have hsplit := Pipeline.arrays_of_unscopedBufs (p := 1) (pcfgs (F := F)) adm (pdats m D0 D1 D2 D3) launch1.win launch1.arr_whole c
      ((pdats m D0 D1 D2 D3 1 c).share_full fun w => h.hq _ c w) (fun b => W26 m D0 c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 1 c) (h.howed _ c 0) (h.hrec _ c 0)); iexact HO
    isplitr; · iempintro
    isplitl [Hrest]; · iexact Hrest
    iexact Hp
  hin c := (sep_third _ _ _).trans (h.hin (fun c b => W26 m D0 c b) c)
  hout c := by
    rw [Pipeline.ownSems0_none]
    exact (h.hout (fun c b => W26 m D0 c b) c).trans (emp_emp_sep _)
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3) ((pdats m D0 D1 D2 D3 1 c).share_full fun w => h.hq _ c w)
      (fun b => W26 m D0 c b) (fun b => W27 m D0 D1 c b) ((pdats m D0 D1 D2 D3 1 c).arrAt · cfg1.N) (hF1 m D0 D1 D2 D3 h c) (hrest1 m D0 D1 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 1 c) (h.howed _ c _)); iexact HO

set_option maxHeartbeats 4000000 in
/-- Region 2's arrays after its last point are what the next boundary holds: an input as entered, an output at its
    write-backs. -/
theorem hF2 (h : RegionFacts cfg2 D2) (c : Dev nD) (w : Fin cfg2.W) :
    (pdats m D0 D1 D2 D3 2 c).arrAt w cfg2.N = W29 m D0 D1 D2 c (Pipeline.arrRef spec2 w) := by
  fin_cases w
  · refine ((pdats m D0 D1 D2 D3 2 c).arrAt_in 0 rfl _).trans ?_
    rw [show (pdats m D0 D1 D2 D3 2 c).A 0 = _ from h.hA _ c 0]
    unfold W29; rw [Function.update_of_ne (by decide)]
  · refine ((pdats m D0 D1 D2 D3 2 c).arrAt_in 1 rfl _).trans ?_
    rw [show (pdats m D0 D1 D2 D3 2 c).A 1 = _ from h.hA _ c 1]
    unfold W29; rw [Function.update_of_ne (by decide)]
  · refine ((pdats m D0 D1 D2 D3 2 c).arrAt_in 2 rfl _).trans ?_
    rw [show (pdats m D0 D1 D2 D3 2 c).A 2 = _ from h.hA _ c 2]
    unfold W29; rw [Function.update_of_ne (by decide)]
  · unfold W29; rw [Function.update_self]; rfl
/-- Off region 2's arrays the next boundary holds what the previous one did. -/
theorem hrest2 (c : Dev nD) : ∀ b : Ref sig .tc, b ∉ Finset.univ.image (Pipeline.arrRef spec2) → W29 m D0 D1 D2 c b = W28 m D0 D1 c b := fun b hb => by
  unfold W29; rw [Function.update_of_ne (StableHlo.devRef_ne_of_ne (fun e => hb (e ▸ Finset.mem_image.mpr ⟨3, Finset.mem_univ _, rfl⟩)) : (Proc.devRef .tc b : DevRef τ sig) ≠ Proc.devRef .tc main_v67)]

set_option maxHeartbeats 4000000 in
-- unifying a library lemma stated over the pinned configuration with the printed one takes unfolding plain definitions
-- in a metavariable's type
set_option backward.isDefEq.respectTransparency.types false in
/-- Region 2 over the thread state: entered from every unscoped buffer at the contents before it, left with them at the
    contents after it; its windows' arrays are split out of the unscoped buffers at entry and put back at exit, the
    generator register and the rest of the unscoped buffers pass by, nothing is owed and the kernel has no semaphore
    of its own. -/
def reg2 (h : RegionFacts cfg2 D2) :
    Pipeline.RegionSeg (pcfgs (F := F)) adm (pdats m D0 D1 D2 D3) () defs₀ Variants.none L lv 2 where
  win := launch2.win.to₀
  block_pos := launch2.block_pos
  stage_whole := launch2.stage_whole
  K := PEmpty
  osem k := k.elim
  ho := Pipeline.OwnSemFacts.none _
  hbody c := (h.hbody _ c).loose
  hwaits := Pipeline.hwaits_of_owed_zero _ _ _ _ L lv 2 fun c t => h.howed _ c t
  pre c := iprop(StableHlo.held (c : Thread nD τ) (Pipeline.ucRefs τ sig) (W28 m D0 D1 c) ∗ R c)
  post c := iprop(StableHlo.held (c : Thread nD τ) (Pipeline.ucRefs τ sig) (W29 m D0 D1 D2 c) ∗ R c)
  X _ := BI.emp
  Y _ := BI.emp
  Z c := iprop(Pipeline.unscopedRest (Ix := Unit) (Name := ℕ) (U := UR sig nD τ) (Lvl := ℕ) spec2 c (fun b => W28 m D0 D1 c b) ∗ ∃ r, prngReg c r)
  hentry c := by
    rw [Pipeline.ownSems0_none]
    have hsplit := Pipeline.arrays_of_unscopedBufs (p := 2) (pcfgs (F := F)) adm (pdats m D0 D1 D2 D3) launch2.win launch2.arr_whole c
      ((pdats m D0 D1 D2 D3 2 c).share_full fun w => h.hq _ c w) (fun b => W28 m D0 D1 c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 2 c) (h.howed _ c 0) (h.hrec _ c 0)); iexact HO
    isplitr; · iempintro
    isplitl [Hrest]; · iexact Hrest
    iexact Hp
  hin c := (sep_third _ _ _).trans (h.hin (fun c b => W28 m D0 D1 c b) c)
  hout c := by
    rw [Pipeline.ownSems0_none]
    exact (h.hout (fun c b => W28 m D0 D1 c b) c).trans (emp_emp_sep _)
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3) ((pdats m D0 D1 D2 D3 2 c).share_full fun w => h.hq _ c w)
      (fun b => W28 m D0 D1 c b) (fun b => W29 m D0 D1 D2 c b) ((pdats m D0 D1 D2 D3 2 c).arrAt · cfg2.N) (hF2 m D0 D1 D2 D3 h c) (hrest2 m D0 D1 D2 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 2 c) (h.howed _ c _)); iexact HO

/-- Region 3's arrays after its last point are what the next boundary holds: an input as entered, an output at its
    write-backs. -/
theorem hF3 (h : RegionFacts cfg3 D3) (c : Dev nD) (w : Fin cfg3.W) :
    (pdats m D0 D1 D2 D3 3 c).arrAt w cfg3.N = W31 m D0 D1 D2 D3 c (Pipeline.arrRef spec3 w) := by
  fin_cases w
  · refine ((pdats m D0 D1 D2 D3 3 c).arrAt_in 0 rfl _).trans ?_
    rw [show (pdats m D0 D1 D2 D3 3 c).A 0 = _ from h.hA _ c 0]
    unfold W31; rw [Function.update_of_ne (by decide)]
  · refine ((pdats m D0 D1 D2 D3 3 c).arrAt_in 1 rfl _).trans ?_
    rw [show (pdats m D0 D1 D2 D3 3 c).A 1 = _ from h.hA _ c 1]
    unfold W31; rw [Function.update_of_ne (by decide)]
  · unfold W31; rw [Function.update_self]; rfl
/-- Off region 3's arrays the next boundary holds what the previous one did. -/
theorem hrest3 (c : Dev nD) : ∀ b : Ref sig .tc, b ∉ Finset.univ.image (Pipeline.arrRef spec3) → W31 m D0 D1 D2 D3 c b = W30 m D0 D1 D2 c b := fun b hb => by
  unfold W31; rw [Function.update_of_ne (StableHlo.devRef_ne_of_ne (fun e => hb (e ▸ Finset.mem_image.mpr ⟨2, Finset.mem_univ _, rfl⟩)) : (Proc.devRef .tc b : DevRef τ sig) ≠ Proc.devRef .tc main_v69)]

-- unifying a library lemma stated over the pinned configuration with the printed one takes unfolding plain definitions
-- in a metavariable's type
set_option backward.isDefEq.respectTransparency.types false in
/-- Region 3 over the thread state: entered from every unscoped buffer at the contents before it, left with them at the
    contents after it; its windows' arrays are split out of the unscoped buffers at entry and put back at exit, the
    generator register and the rest of the unscoped buffers pass by, nothing is owed and the kernel has no semaphore
    of its own. -/
def reg3 (h : RegionFacts cfg3 D3) :
    Pipeline.RegionSeg (pcfgs (F := F)) adm (pdats m D0 D1 D2 D3) () defs₀ Variants.none L lv 3 where
  win := launch3.win.to₀
  block_pos := launch3.block_pos
  stage_whole := launch3.stage_whole
  K := PEmpty
  osem k := k.elim
  ho := Pipeline.OwnSemFacts.none _
  hbody c := (h.hbody _ c).loose
  hwaits := Pipeline.hwaits_of_owed_zero _ _ _ _ L lv 3 fun c t => h.howed _ c t
  pre c := iprop(StableHlo.held (c : Thread nD τ) (Pipeline.ucRefs τ sig) (W30 m D0 D1 D2 c) ∗ R c)
  post c := iprop(StableHlo.held (c : Thread nD τ) (Pipeline.ucRefs τ sig) (W31 m D0 D1 D2 D3 c) ∗ R c)
  X _ := BI.emp
  Y _ := BI.emp
  Z c := iprop(Pipeline.unscopedRest (Ix := Unit) (Name := ℕ) (U := UR sig nD τ) (Lvl := ℕ) spec3 c (fun b => W30 m D0 D1 D2 c b) ∗ ∃ r, prngReg c r)
  hentry c := by
    rw [Pipeline.ownSems0_none]
    have hsplit := Pipeline.arrays_of_unscopedBufs (p := 3) (pcfgs (F := F)) adm (pdats m D0 D1 D2 D3) launch3.win launch3.arr_whole c
      ((pdats m D0 D1 D2 D3 3 c).share_full fun w => h.hq _ c w) (fun b => W30 m D0 D1 D2 c b) fun w => h.hA _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (pdats m D0 D1 D2 D3 3 c) (h.howed _ c 0) (h.hrec _ c 0)); iexact HO
    isplitr; · iempintro
    isplitl [Hrest]; · iexact Hrest
    iexact Hp
  hin c := (sep_third _ _ _).trans (h.hin (fun c b => W30 m D0 D1 D2 c b) c)
  hout c := by
    rw [Pipeline.ownSems0_none]
    exact (h.hout (fun c b => W30 m D0 D1 D2 c b) c).trans (emp_emp_sep _)
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3) ((pdats m D0 D1 D2 D3 3 c).share_full fun w => h.hq _ c w)
      (fun b => W30 m D0 D1 D2 c b) (fun b => W31 m D0 D1 D2 D3 c b) ((pdats m D0 D1 D2 D3 3 c).arrAt · cfg3.N) (hF3 m D0 D1 D2 D3 h c) (hrest3 m D0 D1 D2 D3 c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (owesAt_exit (pdats m D0 D1 D2 D3 3 c) (h.howed _ c _)); iexact HO

end Regs

/-! ## The frame, from the four regions' facts -/

section Frame

variable (m : (ℓ : Loc nD τ sig) → Buf (Elt F) ℓ) (ρ : Dev nD → PrngReg)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

-- the run theorem's implicit arguments are found by unifying its conclusion with this one, which takes unfolding plain
-- definitions in a metavariable's type
set_option backward.isDefEq.respectTransparency.types false in
/-- Every weakly fair execution of @main terminates, faults nowhere and leaves the six argument arrays as launched:
    the program's conditional frame at the four regions' segments, each entered from and left at the boundary
    contents defined above, the generator register and "nothing owed" riding along. -/
theorem frame_of_facts (h0 : RegionFacts cfg0 D0) (h1 : RegionFacts cfg1 D1) (h2 : RegionFacts cfg2 D2) (h3 : RegionFacts cfg3 D3) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond (F := F) m (Ix := Unit) (U := UR sig nD τ) (Lvl := ℕ) emb₁ () Variants.none L lv (fun _ _ => rfl) ρ
    (outs m D0 D1 D2 D3) (pdats m D0 D1 D2 D3)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m D0 D1 D2 D3 h0) (hpre0 := fun c => .rfl)
    (hpost0 := fun c => by rw [V26_eq]; exact .rfl)
    (R1 := reg1 m D0 D1 D2 D3 h1) (hpre1 := fun c => by rw [V26_eq]; exact .rfl)
    (hpost1 := fun c => by rw [V27_eq]; exact .rfl)
    (R2 := reg2 m D0 D1 D2 D3 h2) (hpre2 := fun c => by rw [V28_eq]; exact .rfl)
    (hpost2 := fun c => by rw [V29_eq]; exact .rfl)
    (R3 := reg3 m D0 D1 D2 D3 h3) (hpre3 := fun c => by rw [V30_eq]; exact .rfl)
    (hpost3 := fun c => by rw [V31_eq]; exact .rfl)

end Frame

end Cert.Kernel.Hand

end
-- ==== Proof.KRegion0.lean ====
import proofs.«161176_j6906307412019_2_alg».proof.Proof.Gen.Kernel.Launch
import proofs.«161176_j6906307412019_2_alg».proof.Proof.Gen.Kernel.Skeleton
import proofs.«161176_j6906307412019_2_alg».proof.Proof.Gen.Kernel.Points
import Idealize.ShloMosaic.Lib.Pipeline.FrameBody
import Idealize.ShloMosaic.Lib.Tactic

-- membership of an index in a rectangle as long as a block's axes is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # Region 0: one row-block of a quantised linear layer per grid point

The grid has 8 points. At point `t` the body sees three windows: window 0, a block of 512 rows (all 1024 columns) of the
activations; window 1, the whole 1024 × 1024 weight matrix, the same block at every point and therefore brought in
only once; window 2, the block of 512 rows of the result. The body reads windows 0 and 1 whole, computes, and
overwrites window 2 whole. So what it leaves in window 2's buffer is a function of the two input blocks alone. -/

/-! ## The windows' blocks -/

/-- The block of window `w` at grid point `t`, read off the array behind the window as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the activations' block at every point: the window is an input, never idle, never
    clipped, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the weight matrix at every point although it is filled at the first point only: where
    no fetch happens the block index has not moved, and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rA0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-! ## What the body leaves in the result window's buffer -/

/-- The result buffer after the body, from the two input blocks: the one store, of the body's arithmetic
    (`k0_pay1`, kept closed) applied to the two blocks as the loads read them, laid over the whole buffer. -/
def out0_2 (x0 : Vec F S512x1024 .f32) (x1 : Vec F S1024x1024 .bf16) : Vec F S512x1024 .bf16 :=
  View.canon [⟨rA0, k0_pay1 (View.ld x0 rA0) (View.ld x1 rW0)⟩]

/-- The one store is of the whole buffer, so every index of the buffer is under it. -/
theorem cover0_2 (p0 : Vec F S512x1024 .bf16) (y : S512x1024.Idx) :
    ∃ pc ∈ ([⟨rA0, p0⟩] : List (View.Piece (Elt F) S512x1024 .bf16)), y ∈ pc.1.set :=
  View.cover_of_tiled [⟨rA0, p0⟩] S512x1024.size (by rfl) y

/-! ## The body's triple -/

set_option maxHeartbeats 1000000 in
/-- The body, on three whole buffers — the inputs' at read contents `x0`, `x1`, the result's at anything —, runs to
    its continuation with the inputs' buffers unchanged and the result's at `out0_2 x0 x1`. The grid coordinate it
    is passed is not used. -/
theorem sound_kernel0 (c : Dev nD) (E : Set ℕ) (i : grid0.Coords)
    (a0 : Memref sig .tc .vmem S512x1024 .f32) (h0 : a0.IsWhole) (a1 : Memref sig .tc .vmem S1024x1024 .bf16) (h1 : a1.IsWhole)
    (a2 : Memref sig .tc .vmem S512x1024 .bf16) (h2 : a2.IsWhole)
    (x0 : Vec F S512x1024 .f32) (x1 : Vec F S1024x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out0_2 x0 x1)) -∗ K ⟨⟩))
      ⊢ wp frame (wpE (defs₀ (F := F)) Variants.none c none) E (cc0__bitlinear_single_kernel i a0 h0 a1 h1 a2 h2) K := by
  simp only [cc0__bitlinear_single_kernel_eq_skeleton]; unfold cc0__bitlinear_single_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays behind the windows as the region finds them; after the body at point `t`
    each input's buffer still at its block and the result's at `out0_2` of the two input blocks; the invariant is the
    core's other scoped buffers, which the body does not touch; the arrays are held whole; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by
  dsimp only [dat0]

theorem Phi0 (c : Dev nD) (t : Fin (cfg0.N + 1)) :
    (dat0 V c).Φ t = Pipeline.scopedRest (Ix := Unit) (Name := ℕ) (U := UR sig nD τ) (Lvl := ℕ) (Val := Elt F) spec0 c := by
  dsimp only [dat0]

theorem owed0 (c : Dev nD) (t : Fin (cfg0.N + 1)) : (dat0 V c).owed t = 0 := rfl

theorem q0 (c : Dev nD) (w : Fin cfg0.W) : (dat0 V c).q w = fullShare := rfl

theorem recorded0 (c : Dev nD) (t : Fin (cfg0.N + 1)) : (dat0 V c).recorded t = Set.univ := rfl

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is entered with at point `t`: the invariant, what the core owes, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«161176_j6906307412019_2_alg».proof.Proof.Gen.Kernel.Launch
import proofs.«161176_j6906307412019_2_alg».proof.Proof.Gen.Kernel.Skeleton
import proofs.«161176_j6906307412019_2_alg».proof.Proof.Gen.Kernel.Points
import Idealize.ShloMosaic.Lib.Pipeline.FrameBody
import Idealize.ShloMosaic.Lib.Tactic

-- membership of an index in a rectangle as long as a block's axes is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # Region 1: one row-block of two quantised linear layers sharing their input, per grid point

The grid has 8 points. At point `t` the body sees five windows: window 0, a block of 512 rows (all 1024 columns) of the
context activations; windows 1 and 2, the two whole 1024 × 1024 weight matrices, the same blocks at every point and
therefore brought in only once; windows 3 and 4, the blocks of 512 rows of the two results. The body reads window 0
and window 1 whole and overwrites window 3 whole, then reads window 2 whole and overwrites window 4 whole. So what it
leaves in each result buffer is a function of the input blocks alone. -/

/-! ## The windows' blocks -/

/-- The block of window `w` at grid point `t`, read off the array behind the window as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' buffer holds the activations' block at every point: the window is an input, never idle, never
    clipped, and the body leaves it as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each weight buffer holds its weight matrix at every point although it is filled at the first point only: where
    no fetch happens the block index has not moved, and the body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rA1 : Rect S512x1024 := Rect.unit (s := S512x1024) ![0, 0] S512x1024.size inb_S512x1024_S512x1024_0_0
abbrev rW1 : Rect S1024x1024 := Rect.unit (s := S1024x1024) ![0, 0] S1024x1024.size inb_S1024x1024_S1024x1024_0_0

/-! ## What the body leaves in the result windows' buffers -/

/-- The first result buffer after the body, from the activations' block and the first weight matrix: its one store, of
    the body's arithmetic (`k1_pay2`, kept closed) applied to the two blocks as the loads read them, laid over the
    whole buffer. -/
def out1_3 (x0 : Vec F S512x1024 .f32) (x1 : Vec F S1024x1024 .bf16) : Vec F S512x1024 .bf16 :=
  View.canon [⟨rA1, k1_pay2 (View.ld x0 rA1) (View.ld x1 rW1)⟩]

/-- The second result buffer after the body, likewise from the activations' block and the second weight matrix
    (`k1_pay3`). -/
def out1_4 (x0 : Vec F S512x1024 .f32) (x2 : Vec F S1024x1024 .bf16) : Vec F S512x1024 .bf16 :=
  View.canon [⟨rA1, k1_pay3 (View.ld x0 rA1) (View.ld x2 rW1)⟩]

/-- A store of the whole buffer has every index of the buffer under it. -/
theorem cover1 (p0 : Vec F S512x1024 .bf16) (y : S512x1024.Idx) :
    ∃ pc ∈ ([⟨rA1, p0⟩] : List (View.Piece (Elt F) S512x1024 .bf16)), y ∈ pc.1.set :=
  View.cover_of_tiled [⟨rA1, p0⟩] S512x1024.size (by rfl) y

/-! ## The body's triple -/

set_option maxHeartbeats 1000000 in
/-- The body, on five whole buffers — the inputs' at read contents `x0`, `x1`, `x2`, the results' at anything —, runs
    to its continuation with the inputs' buffers unchanged and the results' at `out1_3 x0 x1` and `out1_4 x0 x2`.
    The grid coordinate it is passed is not used. -/
theorem sound_kernel1 (c : Dev nD) (E : Set ℕ) (i : grid1.Coords)
    (a0 : Memref sig .tc .vmem S512x1024 .f32) (h0 : a0.IsWhole) (a1 : Memref sig .tc .vmem S1024x1024 .bf16) (h1 : a1.IsWhole)
    (a2 : Memref sig .tc .vmem S1024x1024 .bf16) (h2 : a2.IsWhole)
    (a3 : Memref sig .tc .vmem S512x1024 .bf16) (h3 : a3.IsWhole) (a4 : Memref sig .tc .vmem S512x1024 .bf16) (h4 : a4.IsWhole)
    (x0 : Vec F S512x1024 .f32) (x1 x2 : Vec F S1024x1024 .bf16) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1) ∗ owns (c : Thread nD τ) a4 fullShare (out1_4 x0 x2)) -∗ K ⟨⟩))
      ⊢ wp frame (wpE (defs₀ (F := F)) Variants.none c none) E (cc1__bitlinear_dual_kernel i a0 h0 a1 h1 a2 h2 a3 h3 a4 h4) K := by
  simp only [cc1__bitlinear_dual_kernel_eq_skeleton]; unfold cc1__bitlinear_dual_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data on core `c`: the arrays behind the windows as the region finds them; after the body at point `t`
    each input's buffer still at its block and each result's at its `out1_W` of the input blocks; the invariant is
    the core's other scoped buffers, which the body does not touch; the arrays are held whole; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by
  dsimp only [dat1]
theorem after1_4 (c : Dev nD) (t : Fin cfg1.N) : (dat1 V c).after 4 t = out1_4 (iblk1 V c 0 t) (iblk1 V c 2 t) := by
  dsimp only [dat1]

theorem Phi1 (c : Dev nD) (t : Fin (cfg1.N + 1)) :
    (dat1 V c).Φ t = Pipeline.scopedRest (Ix := Unit) (Name := ℕ) (U := UR sig nD τ) (Lvl := ℕ) (Val := Elt F) spec1 c := by
  dsimp only [dat1]

theorem owed1 (c : Dev nD) (t : Fin (cfg1.N + 1)) : (dat1 V c).owed t = 0 := rfl

theorem q1 (c : Dev nD) (w : Fin cfg1.W) : (dat1 V c).q w = fullShare := rfl

theorem recorded1 (c : Dev nD) (t : Fin (cfg1.N + 1)) : (dat1 V c).recorded t = Set.univ := rfl

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is entered with at point `t`: the invariant, what the core owes, and the five current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple applies; the invariant and what the
    core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2Runs.lean ====
import proofs.«161176_j6906307412019_2_alg».proof.Proof.Gen.Kernel.Launch
import proofs.«161176_j6906307412019_2_alg».proof.Proof.Gen.Kernel.Skeleton
import proofs.«161176_j6906307412019_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the flash-attention kernel: what the body does at one grid point

The grid is (batch, q-tile, kv-tile) with the kv-tile fastest. At each point the kernel advances an online softmax
over the kv-tiles of one (batch, q-tile) row: a running row maximum `m`, a normaliser `l` and an accumulator `acc`,
held in three scratch buffers that survive from point to point. At kv = 0 they are reset to −∞, 0, 0 before the step;
at kv = 7 the row's output block `acc / l` is stored. This module runs the body once per control case. -/

/-- The reset branch is taken exactly when the kv coordinate is 0 (the kernel's own scalar chain). -/
abbrev cond2_0 (i : grid2.Coords) : Prop := (Scalar.cmpi .ne (Scalar.extui (Scalar.cmpi .eq (BitVec.ofNat 32 (i 2).val) 0#32)) 0#32) = 1#1
/-- The output branch is taken exactly when the kv coordinate is 7. -/
abbrev cond2_1 (i : grid2.Coords) : Prop := k2_cond2 i = 1#1

/-- The reset happens at the points whose index is ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)
/-- The output store happens at the points whose index is ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output window is idle exactly where the output store is not made, -/
theorem idleAt2_3 : ∀ t : Fin cfg2.N, ¬cond2_1 (grid2.coords t) → cfg2.idle 3 (grid2.coords t) = true := by decide +kernel
theorem liveAt2_3 : ∀ t : Fin cfg2.N, cond2_1 (grid2.coords t) → cfg2.idle 3 (grid2.coords t) = false := by decide +kernel
/-- and it is not written back there. -/
theorem noFlush2_3 (t : Fin cfg2.N) (h : ¬t.val % 8 = 7) : (cfg2.win 3).flush t = false :=
  Bool.eq_false_iff.mpr fun hf => h ((flush2_3 t).mp hf)

/-! ## One online-softmax step, as pure functions of the blocks

With q-block `x0`, k-block `x1`, v-block `x2` and the running maximum `m`, normaliser `l`, accumulator `acc`:
the score block is `s = q·kᵀ`; the new maximum is `m' = max m (rowmax s)`; with `α = exp (m − m')` and
`p = exp (s − m')` the new normaliser is `l' = α·l + rowsum p` and the new accumulator `acc' = α·acc + p·v`.
The arithmetic stays inside the generated payload terms. -/

/-- The new running maximum `m'`. -/
def mNew2 (x0 x1 : Vec F S1x256x16x64 .bf16) (m : Vec F S16x256x1 .f32) : Vec F S16x256x1 .f32 :=
  k2_pay3 (k2_pay10 x0 x1 m)

/-- The new normaliser `l'`. -/
def lNew2 (x0 x1 : Vec F S1x256x16x64 .bf16) (m l : Vec F S16x256x1 .f32) : Vec F S16x256x1 .f32 :=
  k2_pay1 (k2_pay13 x0 x1 m m l)

/-- The new accumulator `acc'`. -/
def accNew2 (x0 x1 x2 : Vec F S1x256x16x64 .bf16) (m : Vec F S16x256x1 .f32) (acc : Vec F S16x256x64 .f32) : Vec F S16x256x64 .f32 :=
  k2_pay2 (k2_pay8 x2) (k2_pay11 x0 x1 m m) (k2_pay12 x0 x1 m) acc

/-- The output block of a (batch, q-tile) row: the accumulator divided by the normaliser, heads and rows transposed back. -/
def outNew2 (acc : Vec F S16x256x64 .f32) (l : Vec F S16x256x1 .f32) : Vec F S1x256x16x64 .f32 :=
  k2_pay4 acc l

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A store through the whole-shape rectangle, made last, decides what the buffer reads: its payload, whatever the
    earlier stores and the prior contents were. -/
theorem read_writes_whole_last {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- A FIRST point of a row (kv = 0): the reset stores −∞, 0, 0 into the scratch, whatever it held, and the step then
    starts from those. The output's buffer, at contents `xi3`, is handed back untouched. -/
theorem run2_A (c : Dev nD) (i : grid2.Coords) (arg3 : Memref sig .tc .vmem S1x256x16x64 .bf16) (harg3 : arg3.IsWhole) (arg4 : Memref sig .tc .vmem S1x256x16x64 .bf16) (harg4 : arg4.IsWhole) (arg5 : Memref sig .tc .vmem S1x256x16x64 .bf16) (harg5 : arg5.IsWhole) (arg6 : Memref sig .tc .vmem S1x256x16x64 .f32) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : cond2_0 i) (hc1 : ¬cond2_1 i)
    (x0 x1 x2 : Vec F S1x256x16x64 .bf16) (xi3 : Vec F S1x256x16x64 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (mNew2 x0 x1 k2_pay5) ∗ owns (c : Thread nD τ) arg8 fullShare (lNew2 x0 x1 k2_pay5 k2_pay6)
            ∗ owns (c : Thread nD τ) arg9 fullShare (accNew2 x0 x1 x2 k2_pay5 k2_pay7)) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    refine (read_writes_whole_last _ _ hz3 _ _ _).trans ?_
    try dsimp only
    try sl_unfold_words
    simp only [View.readAt_eq_ld, harg3.read_unread, harg4.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  isplitl [HS1]
  · iexists _; isplitr
    swap; · iexact HS1
    ipureintro
    refine (read_writes_whole_last _ _ hz3 _ _ _).trans ?_
    try dsimp only
    try sl_unfold_words
    simp only [View.readAt_eq_ld, harg3.read_unread, harg4.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  · iexists _; isplitr
    swap; · iexact HS2
    ipureintro
    refine (read_writes_whole_last _ _ hz3 _ _ _).trans ?_
    try dsimp only
    try sl_unfold_words
    simp only [View.readAt_eq_ld, harg3.read_unread, harg4.read_unread, harg5.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl

set_option maxHeartbeats 1000000 in
/-- A MIDDLE point (0 < kv < 7): no reset, no output store. On whole memrefs — the inputs at their blocks, the output's
    buffer at contents `xi3` handed back untouched, the scratch at what the point before left — the body runs to the
    continuation with the scratch advanced by one step. -/
theorem run2_B (c : Dev nD) (i : grid2.Coords) (arg3 : Memref sig .tc .vmem S1x256x16x64 .bf16) (harg3 : arg3.IsWhole) (arg4 : Memref sig .tc .vmem S1x256x16x64 .bf16) (harg4 : arg4.IsWhole) (arg5 : Memref sig .tc .vmem S1x256x16x64 .bf16) (harg5 : arg5.IsWhole) (arg6 : Memref sig .tc .vmem S1x256x16x64 .f32) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : ¬cond2_0 i) (hc1 : ¬cond2_1 i)
    (x0 x1 x2 : Vec F S1x256x16x64 .bf16) (xi3 : Vec F S1x256x16x64 .f32) (xs0 xs1 : Vec F S16x256x1 .f32) (xs2 : Vec F S16x256x64 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (mNew2 x0 x1 xs0) ∗ owns (c : Thread nD τ) arg8 fullShare (lNew2 x0 x1 xs0 xs1)
            ∗ owns (c : Thread nD τ) arg9 fullShare (accNew2 x0 x1 x2 xs0 xs2)) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    refine (read_writes_whole_last _ _ hz3 _ _ _).trans ?_
    dsimp only
    simp only [View.readAt_eq_ld, harg3.read_unread, harg4.read_unread, harg7.read_unread,
      View.ld_unit_zero (S := S1x256x16x64) hz4, View.ld_unit_zero (S := S16x256x1) hz3]
    rfl
  isplitl [HS1]
  · iexists _; isplitr
    swap; · iexact HS1
    ipureintro
    refine (read_writes_whole_last _ _ hz3 _ _ _).trans ?_
    dsimp only
    simp only [View.readAt_eq_ld, harg3.read_unread, harg4.read_unread, harg7.read_unread, harg8.read_unread,
      View.ld_unit_zero (S := S1x256x16x64) hz4, View.ld_unit_zero (S := S16x256x1) hz3]
    rfl
  · iexists _; isplitr
    swap; · iexact HS2
    ipureintro
    refine (read_writes_whole_last _ _ hz3 _ _ _).trans ?_
    dsimp only
    simp only [View.readAt_eq_ld, harg3.read_unread, harg4.read_unread, harg5.read_unread, harg7.read_unread, harg9.read_unread,
      View.ld_unit_zero (S := S1x256x16x64) hz4, View.ld_unit_zero (S := S16x256x1) hz3, View.ld_unit_zero (S := S16x256x64) hz3]
    rfl

set_option maxHeartbeats 1000000 in
/-- A LAST point of a row (kv = 7): no reset; after the step the body divides the accumulator by the normaliser and
    stores the output block whole, whatever the output's buffer held. -/
theorem run2_C (c : Dev nD) (i : grid2.Coords) (arg3 : Memref sig .tc .vmem S1x256x16x64 .bf16) (harg3 : arg3.IsWhole) (arg4 : Memref sig .tc .vmem S1x256x16x64 .bf16) (harg4 : arg4.IsWhole) (arg5 : Memref sig .tc .vmem S1x256x16x64 .bf16) (harg5 : arg5.IsWhole) (arg6 : Memref sig .tc .vmem S1x256x16x64 .f32) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : ¬cond2_0 i) (hc1 : cond2_1 i)
    (x0 x1 x2 : Vec F S1x256x16x64 .bf16) (xs0 xs1 : Vec F S16x256x1 .f32) (xs2 : Vec F S16x256x64 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2
            ∗ owns (c : Thread nD τ) arg6 fullShare (outNew2 (accNew2 x0 x1 x2 xs0 xs2) (lNew2 x0 x1 xs0 xs1))
            ∗ owns (c : Thread nD τ) arg7 fullShare (mNew2 x0 x1 xs0) ∗ owns (c : Thread nD τ) arg8 fullShare (lNew2 x0 x1 xs0 xs1)
            ∗ owns (c : Thread nD τ) arg9 fullShare (accNew2 x0 x1 x2 xs0 xs2)) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_writes_whole_last _ _ hz4 _ _ _).trans ?_
    try dsimp only
    try sl_unfold_words
    simp only [View.readAt_eq_ld, harg3.read_unread, harg4.read_unread, harg5.read_unread, harg7.read_unread, harg8.read_unread, harg9.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  isplitl [HS0]
  · iexists _; isplitr
    swap; · iexact HS0
    ipureintro
    refine (read_writes_whole_last _ _ hz3 _ _ _).trans ?_
    try dsimp only
    try sl_unfold_words
    simp only [View.readAt_eq_ld, harg3.read_unread, harg4.read_unread, harg7.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  isplitl [HS1]
  · iexists _; isplitr
    swap; · iexact HS1
    ipureintro
    refine (read_writes_whole_last _ _ hz3 _ _ _).trans ?_
    try dsimp only
    try sl_unfold_words
    simp only [View.readAt_eq_ld, harg3.read_unread, harg4.read_unread, harg7.read_unread, harg8.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl
  · iexists _; isplitr
    swap; · iexact HS2
    ipureintro
    refine (read_writes_whole_last _ _ hz3 _ _ _).trans ?_
    try dsimp only
    try sl_unfold_words
    simp only [View.readAt_eq_ld, harg3.read_unread, harg4.read_unread, harg5.read_unread, harg7.read_unread, harg9.read_unread,
      View.readCov_unit_zero (S := S16x256x1) _ hz3, View.readCov_unit_zero (S := S16x256x64) _ hz3,
      View.ld_unit_zero (S := S1x256x16x64) hz4, View.ld_unit_zero (S := S16x256x1) hz3, View.ld_unit_zero (S := S16x256x64) hz3]
    rfl

end Cert.Kernel.Hand

end
-- ==== Proof.KRegion2.lean ====
import proofs.«161176_j6906307412019_2_alg».proof.Proof.Gen.Kernel.Launch
import proofs.«161176_j6906307412019_2_alg».proof.Proof.Gen.Kernel.Skeleton
import proofs.«161176_j6906307412019_2_alg».proof.Proof.Gen.Kernel.Points
import Idealize.ShloMosaic.Lib.Pipeline.FrameBody
import Idealize.ShloMosaic.Lib.Pipeline.Value
import Idealize.ShloMosaic.Lib.Tactic
import proofs.«161176_j6906307412019_2_alg».proof.Proof.KRegion2Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the flash-attention kernel: the proof data of its pipeline and the body obligation

The scratch buffers carry the online softmax's state `(m, l, acc)` from point to point; the pipeline does not stage
them, so the invariant `Φ` holds them, at contents named point by point (`sAt2`). -/

-- the TensorCore's buffer contents when the region is entered: a parameter
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block at every point

The q-window is fetched only at kv = 0 and keeps its block over the row (its block index does not move while kv
advances); the k- and v-windows are fetched at every point. Either way the buffer holds the point's block. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The scratch state, point by point -/

/-- The state `(m, l, acc)`. -/
abbrev SV2 (F : FTy → Type) : Type := Vec F S16x256x1 .f32 × Vec F S16x256x1 .f32 × Vec F S16x256x64 .f32

/-- The state the reset writes: `(−∞, 0, 0)`. -/
def reset2 : SV2 F := (k2_pay5, k2_pay6, k2_pay7)

/-- One step of the online softmax on the blocks `x0` (q), `x1` (k), `x2` (v). -/
def stepS2 (x0 x1 x2 : Vec F S1x256x16x64 .bf16) (s : SV2 F) : SV2 F :=
  (mNew2 x0 x1 s.1, lNew2 x0 x1 s.1 s.2.1, accNew2 x0 x1 x2 s.1 s.2.2)

/-- The state before point `n` (after point `n − 1`): the step at point `n − 1`, started from the reset state when that
    point opens a row (kv = 0) and from the state before it otherwise. Before the first point the value is immaterial
    (the first point resets before it reads). -/
def sAtN2 (c : Dev nD) : (n : ℕ) → n ≤ cfg2.N → SV2 F
  | 0, _ => reset2
  | n + 1, hn =>
    stepS2 (iblk2 V c 0 ⟨n, hn⟩) (iblk2 V c 1 ⟨n, hn⟩) (iblk2 V c 2 ⟨n, hn⟩)
      (if n % 8 = 0 then reset2 else sAtN2 c n (Nat.le_of_succ_le hn))

theorem sAtN2_succ (c : Dev nD) (n : ℕ) (hn : n + 1 ≤ cfg2.N) :
    sAtN2 V c (n + 1) hn = stepS2 (iblk2 V c 0 ⟨n, hn⟩) (iblk2 V c 1 ⟨n, hn⟩) (iblk2 V c 2 ⟨n, hn⟩)
      (if n % 8 = 0 then reset2 else sAtN2 V c n (Nat.le_of_succ_le hn)) := rfl

/-- The three scratch buffers' contents before point `t`. -/
def sAt2 (c : Dev nD) (t : Fin (cfg2.N + 1)) : (Vec F S16x256x1 .f32) × (Vec F S16x256x1 .f32) × (Vec F S16x256x64 .f32) :=
  sAtN2 V c t.val (Nat.le_of_lt_succ t.isLt)

/-- After a point that opens a row: one step from the reset state. -/
theorem sAt2_succ_first (c : Dev nD) (t : Fin cfg2.N) (h : t.val % 8 = 0) :
    sAt2 V c t.succ = stepS2 (iblk2 V c 0 t) (iblk2 V c 1 t) (iblk2 V c 2 t) reset2 := by
  show sAtN2 V c (t.val + 1) t.isLt = _
  rw [sAtN2_succ, if_pos h]

/-- After any other point: one step from the state before it. -/
theorem sAt2_succ_next (c : Dev nD) (t : Fin cfg2.N) (h : ¬t.val % 8 = 0) :
    sAt2 V c t.succ = stepS2 (iblk2 V c 0 t) (iblk2 V c 1 t) (iblk2 V c 2 t) (sAt2 V c t.castSucc) := by
  show sAtN2 V c (t.val + 1) t.isLt = _
  rw [sAtN2_succ, if_neg h]; rfl

/-! ## The invariant -/

/-- The scratch operands: whole scoped buffers of the kernel's own. -/
abbrev scM2_0 : Memref sig .tc .vmem S16x256x1 .f32 := Memref.whole cc2_scratch0
abbrev scM2_1 : Memref sig .tc .vmem S16x256x1 .f32 := Memref.whole cc2_scratch1
abbrev scM2_2 : Memref sig .tc .vmem S16x256x64 .f32 := Memref.whole cc2_scratch2

/-- The core's scoped buffers that are neither a staging buffer of this pipeline nor its scratch (the other
    pipelines' staging buffers), each whole at some contents: untouched by the body. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg0_1), ((c : Thread nD τ).loc cc3_stg0_1) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg2_0), ((c : Thread nD τ).loc cc3_stg2_0) ↦{fullShare} f)
      ∗ (∃ f : Buf (Elt F) ((c : Thread nD τ).loc cc3_stg2_1), ((c : Thread nD τ).loc cc3_stg2_1) ↦{fullShare} f))

/-- The invariant before point `n`: the three scratch buffers at the state `sAtN2` names — at anything before the
    first point —, and the other scoped buffers. -/
def Phi2 (c : Dev nD) (n : ℕ) (hn : n ≤ cfg2.N) : sProp 𝕄 :=
  iprop(∃ (s0 : Vec F S16x256x1 .f32) (s1 : Vec F S16x256x1 .f32) (s2 : Vec F S16x256x64 .f32),
      ⌜n ≠ 0 → s0 = (sAtN2 V c n hn).1 ∧ s1 = (sAtN2 V c n hn).2.1 ∧ s2 = (sAtN2 V c n hn).2.2⌝
      ∗ owns (c : Thread nD τ) scM2_0 fullShare s0 ∗ owns (c : Thread nD τ) scM2_1 fullShare s1
      ∗ owns (c : Thread nD τ) scM2_2 fullShare s2 ∗ rest2 c)

/-! ## The proof data -/

/-- The proof data of the pipeline on core `c`: the arrays as the region finds them; after the body each input's buffer
    at its block, the output's at `acc / l` of the state the point leaves (what the kv = 7 store writes; at the other
    points the window is idle and nothing consults the value); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outNew2 (sAtN2 V c (t.val + 1) t.isLt).2.2 (sAtN2 V c (t.val + 1) t.isLt).2.1
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem owed2 (c : Dev nD) (t : Fin (cfg2.N + 1)) : (dat2 V c).owed t = 0 := rfl
theorem q2 (c : Dev nD) (w : Fin cfg2.W) : (dat2 V c).q w = fullShare := rfl
theorem recorded2 (c : Dev nD) (t : Fin (cfg2.N + 1)) : (dat2 V c).recorded t = Set.univ := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) :
    (dat2 V c).after 3 t = outNew2 (sAtN2 V c (t.val + 1) t.isLt).2.2 (sAtN2 V c (t.val + 1) t.isLt).2.1 := by dsimp only [dat2]

/-- The output block a row's last point writes: the FINAL accumulator of the row divided by its final normaliser
    (`k2_pay4`), the state being the one after that point. -/
theorem after2_3 (c : Dev nD) (t : Fin cfg2.N) (h : t.val % 8 = 7) :
    (dat2 V c).after 3 t = k2_pay4 (sAt2 V c t.succ).2.2 (sAt2 V c t.succ).2.1 := by
  rw [after2_3']; rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = Phi2 V c t.val (Nat.le_of_lt t.isLt) := by
  dsimp only [dat2]; simp only [Fin.coe_castSucc]

/-! ## Entering and leaving the region -/

/-- What the launch hands the region — every scoped buffer that is no staging buffer of this pipeline, at some
    contents — is the invariant before the first point: the scratch at anything, the others as they are. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, scopedRest2_eq]
  unfold Phi2 rest2
  simp only [scM2_0, scM2_1, scM2_2, owns_whole]
  iintro ⟨A0, A1, A2, A3, A4, A5, A6, A7, A8, A9, A10, A11, A12, ⟨%g0, S0⟩, ⟨%g1, S1⟩, ⟨%g2, S2⟩, B⟩
  iexists g0, g1, g2
  isplitr
  · ipureintro; intro h; exact absurd rfl h
  isplitl [S0]; · iexact S0
  isplitl [S1]; · iexact S1
  isplitl [S2]; · iexact S2
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  iexact B

/-- After the last point the invariant gives those buffers back, the scratch's named contents forgotten. -/
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl, scopedRest2_eq]
  unfold Phi2 rest2
  simp only [scM2_0, scM2_1, scM2_2, owns_whole]
  iintro ⟨%s0, %s1, %s2, -, S0, S1, S2, A0, A1, A2, A3, A4, A5, A6, A7, A8, A9, A10, A11, A12, B⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [S0]; · iexists s0; iexact S0
  isplitl [S1]; · iexists s1; iexact S1
  isplitl [S2]; · iexists s2; iexact S2
  iexact B

/-! ## The body obligation, at a generic point -/

/-- The staging memref each window is on at point `t` (which of its two buffers the schedule selects there). -/
abbrev ms2_0 (t : Fin cfg2.N) : Memref sig .tc .vmem S1x256x16x64 .bf16 := win2_0.stage (cfg2.slots t 0)
abbrev ms2_1 (t : Fin cfg2.N) : Memref sig .tc .vmem S1x256x16x64 .bf16 := win2_1.stage (cfg2.slots t 1)
abbrev ms2_2 (t : Fin cfg2.N) : Memref sig .tc .vmem S1x256x16x64 .bf16 := win2_2.stage (cfg2.slots t 2)
abbrev ms2_3 (t : Fin cfg2.N) : Memref sig .tc .vmem S1x256x16x64 .f32 := win2_3.stage (cfg2.slots t 3)

/-- The body's precondition at point `t`: the invariant, what the core owes, and every window's buffer at what it
    holds when the body starts. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- Its postcondition: the invariant one point on, the same debts, and every window's buffer at what the body leaves. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's index mod 8 says which control case it is
    in; the invariant hands the body the scratch at the state before the point (at anything where the row opens: the
    reset overwrites it) and takes it back one step further; where the output store is not made the output's buffer is
    handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  unfold Phi2
  by_cases h0 : t.val % 8 = 0
  · -- the row opens: reset, then one step
    have h7 : ¬t.val % 8 = 7 := by omega
    rw [Dat.leavesExact_idle (dat2 V c) 3 t (idleAt2_3 t (fun h => h7 ((hcond2_1 t).mp h))) (noFlush2_3 t h7)]
    iintro ⟨⟨%s0, %s1, %s2, -, HS0, HS1, HS2, HR⟩, Ho, ⟨%d0, H0⟩, ⟨%d1, H1⟩, ⟨%d2, H2⟩, ⟨%d3, H3⟩⟩
    iapply (run2_A c (grid2.coords t) _ _ _ _ _ _ _ _ _ _ _ _ _ _ ((hcond2_0 t).mpr h0) (fun h => h7 ((hcond2_1 t).mp h)) (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, HS0, HS1, HS2⟩
    isplitl [HS0 HS1 HS2 HR]
    · iexists _, _, _
      isplitr
      · ipureintro; intro _
        rw [sAtN2_succ, if_pos h0]
        exact ⟨rfl, rfl, rfl⟩
      isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    iexists d3; iexact H3
  · by_cases h7 : t.val % 8 = 7
    · -- the row closes: one step, then the output store
      have hz : t.val ≠ 0 := fun e => h0 (by rw [e])
      rw [show (dat2 V c).leavesExact 3 t = owns (c : Thread nD τ) (ms2_3 t) fullShare ((dat2 V c).after 3 t) from by
        unfold Dat.leavesExact; rw [liveAt2_3 t ((hcond2_1 t).mpr h7)], after2_3']
      iintro ⟨⟨%s0, %s1, %s2, %hs, HS0, HS1, HS2, HR⟩, Ho, ⟨%d0, H0⟩, ⟨%d1, H1⟩, ⟨%d2, H2⟩, ⟨%d3, H3⟩⟩
      obtain ⟨rfl, rfl, rfl⟩ := hs hz
      iapply (run2_C c (grid2.coords t) _ _ _ _ _ _ _ _ _ _ _ _ _ _ (fun h => h0 ((hcond2_0 t).mp h)) ((hcond2_1 t).mpr h7) (iblk2 V c 0 t) (iblk2 V c 1 t) (iblk2 V c 2 t) (sAtN2 V c t.val (Nat.le_of_lt t.isLt)).1 (sAtN2 V c t.val (Nat.le_of_lt t.isLt)).2.1 (sAtN2 V c t.val (Nat.le_of_lt t.isLt)).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR]
      · iexists _, _, _
        isplitr
        · ipureintro; intro _
          rw [sAtN2_succ, if_neg h0]
          exact ⟨rfl, rfl, rfl⟩
        isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      rw [sAtN2_succ, if_neg h0]
      iexact H3
    · -- inside the row: one step
      have hz : t.val ≠ 0 := fun e => h0 (by rw [e])
      rw [Dat.leavesExact_idle (dat2 V c) 3 t (idleAt2_3 t (fun h => h7 ((hcond2_1 t).mp h))) (noFlush2_3 t h7)]
      iintro ⟨⟨%s0, %s1, %s2, %hs, HS0, HS1, HS2, HR⟩, Ho, ⟨%d0, H0⟩, ⟨%d1, H1⟩, ⟨%d2, H2⟩, ⟨%d3, H3⟩⟩
      obtain ⟨rfl, rfl, rfl⟩ := hs hz
      iapply (run2_B c (grid2.coords t) _ _ _ _ _ _ _ _ _ _ _ _ _ _ (fun h => h0 ((hcond2_0 t).mp h)) (fun h => h7 ((hcond2_1 t).mp h)) (iblk2 V c 0 t) (iblk2 V c 1 t) (iblk2 V c 2 t) ((dat2 V c).before 3 t d3) (sAtN2 V c t.val (Nat.le_of_lt t.isLt)).1 (sAtN2 V c t.val (Nat.le_of_lt t.isLt)).2.1 (sAtN2 V c t.val (Nat.le_of_lt t.isLt)).2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR]
      · iexists _, _, _
        isplitr
        · ipureintro; intro _
          rw [sAtN2_succ, if_neg h0]
          exact ⟨rfl, rfl, rfl⟩
        isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      iexists d3; iexact H3

/-- Hence the body obligation of the pipeline rule, point by point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
import proofs.«161176_j6906307412019_2_alg».proof.Proof.Gen.Kernel.Launch
import proofs.«161176_j6906307412019_2_alg».proof.Proof.Gen.Kernel.Skeleton
import proofs.«161176_j6906307412019_2_alg».proof.Proof.Gen.Kernel.Points
import Idealize.ShloMosaic.Lib.Pipeline.FrameBody
import Idealize.ShloMosaic.Lib.Tactic

-- membership of an index in a rectangle as long as a block's axes is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # Region 3: one row-block of a quantised linear layer per grid point

The grid has 8 points. At point `t` the body sees three windows: window 0, a block of 512 rows (all 1024 columns) of the
activations; window 1, the whole 1024 × 1024 weight matrix, the same block at every point and therefore brought in
only once; window 2, the block of 512 rows of the result. The body reads windows 0 and 1 whole, computes, and
overwrites window 2 whole. So what it leaves in window 2's buffer is a function of the two input blocks alone. -/

/-! ## The windows' blocks -/

/-- The block of window `w` at grid point `t`, read off the array behind the window as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' buffer holds the activations' block at every point: the window is an input, never idle, never
    clipped, and the body leaves it as found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' buffer holds the weight matrix at every point although it is filled at the first point only: where
    no fetch happens the block index has not moved, and the body left the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev rA3 : Rect S512x1024 := Rect.unit (s := S512x1024) ![0, 0] S512x1024.size inb_S512x1024_S512x1024_0_0
abbrev rW3 : Rect S1024x1024 := Rect.unit (s := S1024x1024) ![0, 0] S1024x1024.size inb_S1024x1024_S1024x1024_0_0

/-! ## What the body leaves in the result window's buffer -/

/-- The result buffer after the body, from the two input blocks: the one store, of the body's arithmetic
    (`k3_pay1`, kept closed) applied to the two blocks as the loads read them, laid over the whole buffer. -/
def out3_2 (x0 : Vec F S512x1024 .f32) (x1 : Vec F S1024x1024 .bf16) : Vec F S512x1024 .f32 :=
  View.canon [⟨rA3, k3_pay1 (View.ld x0 rA3) (View.ld x1 rW3)⟩]

/-- The one store is of the whole buffer, so every index of the buffer is under it. -/
theorem cover3_2 (p0 : Vec F S512x1024 .f32) (y : S512x1024.Idx) :
    ∃ pc ∈ ([⟨rA3, p0⟩] : List (View.Piece (Elt F) S512x1024 .f32)), y ∈ pc.1.set :=
  View.cover_of_tiled [⟨rA3, p0⟩] S512x1024.size (by rfl) y

/-! ## The body's triple -/

set_option maxHeartbeats 1000000 in
/-- The body, on three whole buffers — the inputs' at read contents `x0`, `x1`, the result's at anything —, runs to
    its continuation with the inputs' buffers unchanged and the result's at `out3_2 x0 x1`. The grid coordinate it
    is passed is not used. -/
theorem sound_kernel3 (c : Dev nD) (E : Set ℕ) (i : grid3.Coords)
    (a0 : Memref sig .tc .vmem S512x1024 .f32) (h0 : a0.IsWhole) (a1 : Memref sig .tc .vmem S1024x1024 .bf16) (h1 : a1.IsWhole)
    (a2 : Memref sig .tc .vmem S512x1024 .f32) (h2 : a2.IsWhole)
    (x0 : Vec F S512x1024 .f32) (x1 : Vec F S1024x1024 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out3_2 x0 x1)) -∗ K ⟨⟩))
      ⊢ wp frame (wpE (defs₀ (F := F)) Variants.none c none) E (cc3__bitlinear_single_kernel i a0 h0 a1 h1 a2 h2) K := by
  simp only [cc3__bitlinear_single_kernel_eq_skeleton]; unfold cc3__bitlinear_single_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data on core `c`: the arrays behind the windows as the region finds them; after the body at point `t`
    each input's buffer still at its block and the result's at `out3_2` of the two input blocks; the invariant is the
    core's other scoped buffers, which the body does not touch; the arrays are held whole; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.scopedRest (Ix := Unit) (Name := ℕ) (U := UR sig nD τ) (Lvl := ℕ) (Val := Elt F) spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by
  dsimp only [dat3]

theorem Phi3 (c : Dev nD) (t : Fin (cfg3.N + 1)) :
    (dat3 V c).Φ t = Pipeline.scopedRest (Ix := Unit) (Name := ℕ) (U := UR sig nD τ) (Lvl := ℕ) (Val := Elt F) spec3 c := by
  dsimp only [dat3]

theorem owed3 (c : Dev nD) (t : Fin (cfg3.N + 1)) : (dat3 V c).owed t = 0 := rfl

theorem q3 (c : Dev nD) (w : Fin cfg3.W) : (dat3 V c).q w = fullShare := rfl

theorem recorded3 (c : Dev nD) (t : Fin (cfg3.N + 1)) : (dat3 V c).recorded t = Set.univ := rfl

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is entered with at point `t`: the invariant, what the core owes, and the three current buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the triple applies; the invariant and what the
    core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFacts.lean ====
/-
  The four kernel regions' proof data meet what the run of @main asks of them: each pipeline's arrays are read off the
  contents its region is entered from, every share is full, nothing is owed or recorded, the body obligation holds, and
  the invariant at the first and last grid point is the scoped buffers the pipeline does not stage (for the attention
  kernel: with its three scratch buffers among them, whatever they hold).  Hence the program's frame.
-/
import proofs.«161176_j6906307412019_2_alg».proof.Proof.KGlue
import proofs.«161176_j6906307412019_2_alg».proof.Proof.KRegion0
import proofs.«161176_j6906307412019_2_alg».proof.Proof.KRegion1
import proofs.«161176_j6906307412019_2_alg».proof.Proof.KRegion2
import proofs.«161176_j6906307412019_2_alg».proof.Proof.KRegion3

noncomputable section

namespace Cert.Kernel.Hand

open Cert.Kernel Cert.Kernel.Gen
open Idealize.ShloMosaic Idealize.ShloMosaic.TcCoe
open Idealize.SL Idealize.SL.BI Idealize.SL.Sem
open scoped Idealize.SL.BI
open Idealize.ShloMosaic.Pipeline (Dat Cfg BodyObligation)

variable {F : FTy → Type} [FloatOps F]

/-- Region 0 (a projection kernel: no invariant beyond the scoped rest). -/
theorem facts0 : RegionFacts (F := F) cfg0 (fun V c => dat0 V c) where
  hA := A_eq0
  hq := q0
  howed := owed0
  hrec := recorded0
  hbody := body_obligation0
  hin V c := by rw [Phi0]
  hout V c := by rw [Phi0]

/-- Region 1 (a projection kernel: no invariant beyond the scoped rest). -/
theorem facts1 : RegionFacts (F := F) cfg1 (fun V c => dat1 V c) where
  hA := A_eq1
  hq := q1
  howed := owed1
  hrec := recorded1
  hbody := body_obligation1
  hin V c := by rw [Phi1]
  hout V c := by rw [Phi1]

/-- Region 3 (a projection kernel: no invariant beyond the scoped rest). -/
theorem facts3 : RegionFacts (F := F) cfg3 (fun V c => dat3 V c) where
  hA := A_eq3
  hq := q3
  howed := owed3
  hrec := recorded3
  hbody := body_obligation3
  hin V c := by rw [Phi3]
  hout V c := by rw [Phi3]

/-- Region 2 (the attention kernel: its invariant pins the three scratch buffers point by point). -/
theorem facts2 : RegionFacts (F := F) cfg2 (fun V c => dat2 V c) where
  hA := A_eq2
  hq := q2
  howed := owed2
  hrec := recorded2
  hbody := body_obligation2
  hin := hin2
  hout := hout2

/-- The program runs to the end, faults nowhere and leaves its six argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_facts m ρ _ _ _ _ (facts0 (F := F)) facts1 facts2 facts3

end Cert.Kernel.Hand

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Boundaries.lean ====
/-
  What the buffers hold at the boundaries between @main's items, at the buffers the value chain reads: each region's
  output array at what the region's write-backs leave (`Dat.arrAt w N`), each reshape's result as the reshape of its
  operand, and every other buffer as the boundary before held it.  Then the three reshapes read at an entry: splitting
  1024 columns into 16 heads of 64, merging them back, and splitting 4096 rows into 2 batches of 2048 — in row-major
  order entry (b·2048 + n, h·64 + d) of the flat array is entry (b, n, h, d) of the stack.
-/
import proofs.«161176_j6906307412019_2_alg».proof.Proof.Glue
import proofs.«161176_j6906307412019_2_alg».proof.Proof.LibLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]

section Bd
variable (m : (ℓ : Loc nD τ sig) → Buf (Elt F) ℓ)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

/-! ## Region outputs -/

theorem W26_v62 (c : Dev nD) : W26 m D0 c main_v62 = (D0 (fun c b => V25 m c b) c).arrAt 2 cfg0.N := by
  unfold W26; rw [Function.update_self]
theorem W26_of (c : Dev nD) (r : Ref sig .tc) (h : r ≠ main_v62) : W26 m D0 c r = V25 m c r := by
  unfold W26; rw [Function.update_of_ne (StableHlo.devRef_ne_of_ne h)]
theorem W27_v63_0 (c : Dev nD) : W27 m D0 D1 c main_v63_0 = (D1 (fun c b => W26 m D0 c b) c).arrAt 3 cfg1.N := by
  unfold W27; rw [Function.update_of_ne (by decide), Function.update_self]
theorem W27_v63_1 (c : Dev nD) : W27 m D0 D1 c main_v63_1 = (D1 (fun c b => W26 m D0 c b) c).arrAt 4 cfg1.N := by
  unfold W27; rw [Function.update_self]
theorem W27_of (c : Dev nD) (r : Ref sig .tc) (h0 : r ≠ main_v63_0) (h1 : r ≠ main_v63_1) : W27 m D0 D1 c r = W26 m D0 c r := by
  unfold W27; rw [Function.update_of_ne (StableHlo.devRef_ne_of_ne h1), Function.update_of_ne (StableHlo.devRef_ne_of_ne h0)]
theorem W28_of (c : Dev nD) (r : Ref sig .tc) (h : r ∉ hostOps2_W) : W28 m D0 D1 c r = W27 m D0 D1 c r :=
  StableHlo.after_of_writes_sub hostOps2 _ hostOps2_writes h
theorem W29_v67 (c : Dev nD) : W29 m D0 D1 D2 c main_v67 = (D2 (fun c b => W28 m D0 D1 c b) c).arrAt 3 cfg2.N := by
  unfold W29; rw [Function.update_self]
theorem W29_of (c : Dev nD) (r : Ref sig .tc) (h : r ≠ main_v67) : W29 m D0 D1 D2 c r = W28 m D0 D1 c r := by
  unfold W29; rw [Function.update_of_ne (StableHlo.devRef_ne_of_ne h)]
theorem W30_of (c : Dev nD) (r : Ref sig .tc) (h : r ∉ hostOps3_W) : W30 m D0 D1 D2 c r = W29 m D0 D1 D2 c r :=
  StableHlo.after_of_writes_sub hostOps3 _ hostOps3_writes h
theorem W31_v69 (c : Dev nD) : W31 m D0 D1 D2 D3 c main_v69 = (D3 (fun c b => W30 m D0 D1 D2 c b) c).arrAt 2 cfg3.N := by
  unfold W31; rw [Function.update_self]

/-! ## The reshapes between the regions -/

set_option maxHeartbeats 1000000 in
/-- The queries split into heads. -/
theorem W28_v64 (c : Dev nD) : W28 m D0 D1 c main_v64
    = fun i => shapeCast S2x2048x16x64 (W27 m D0 D1 c main_v62) shapeCasts_S4096x1024_S2x2048x16x64 i := by
  show StableHlo.after hostOps2 (W27 m D0 D1 c) (Proc.devRef .tc main_v64) = _
  after_results
  rfl
set_option maxHeartbeats 1000000 in
/-- The keys split into heads. -/
theorem W28_v65 (c : Dev nD) : W28 m D0 D1 c main_v65
    = fun i => shapeCast S2x2048x16x64 (W27 m D0 D1 c main_v63_0) shapeCasts_S4096x1024_S2x2048x16x64 i := by
  show StableHlo.after hostOps2 (W27 m D0 D1 c) (Proc.devRef .tc main_v65) = _
  after_results
  rfl
set_option maxHeartbeats 1000000 in
/-- The values split into heads. -/
theorem W28_v66 (c : Dev nD) : W28 m D0 D1 c main_v66
    = fun i => shapeCast S2x2048x16x64 (W27 m D0 D1 c main_v63_1) shapeCasts_S4096x1024_S2x2048x16x64 i := by
  show StableHlo.after hostOps2 (W27 m D0 D1 c) (Proc.devRef .tc main_v66) = _
  after_results
  rfl
set_option maxHeartbeats 1000000 in
/-- The attention output with its heads merged. -/
theorem W30_v68 (c : Dev nD) : W30 m D0 D1 D2 c main_v68
    = fun i => shapeCast S4096x1024 (W29 m D0 D1 D2 c main_v67) shapeCasts_S2x2048x16x64_S4096x1024 i := by
  show StableHlo.after hostOps3 (W29 m D0 D1 D2 c) (Proc.devRef .tc main_v68) = _
  after_results
  rfl
set_option maxHeartbeats 1000000 in
/-- The result: the last projection's rows split into batches. -/
theorem V32_v70 (c : Dev nD) : V32 m (outs m D0 D1 D2 D3) c main_v70
    = fun i => shapeCast S2x2048x1024 (W31 m D0 D1 D2 D3 c main_v69) shapeCasts_S4096x1024_S2x2048x1024 i := by
  unfold V32; rw [V31_eq]
  show StableHlo.after hostOps4 (W31 m D0 D1 D2 D3 c) (Proc.devRef .tc main_v70) = _
  after_results
  rfl

end Bd

/-! ## The reshapes at an entry -/

variable {α : Type}

/-- [4096, 1024] split to [2, 2048, 16, 64]: entry (b, n, h, d) is entry (b·2048 + n, h·64 + d). -/
theorem split_heads_apply (x : (⟨2, ![4096, 1024]⟩ : Shape).Idx → α)
    (hc : (⟨2, ![4096, 1024]⟩ : Shape).ShapeCasts ⟨4, ![2, 2048, 16, 64]⟩) (b : Fin 2) (n : Fin 2048) (h : Fin 16) (d : Fin 64)
    (r : Fin 4096) (k : Fin 1024) (hr : r.val = b.val * 2048 + n.val) (hk : k.val = h.val * 64 + d.val) :
    shapeCast ⟨4, ![2, 2048, 16, 64]⟩ x hc (ix4 b n h d) = x (ix2 r k) :=
  shapeCast_apply x hc _ _ (by
    rw [Shape.rowMajor_val_four, Shape.rowMajor_val_two]
    show r.val * 1024 + k.val = ((b.val * 2048 + n.val) * 16 + h.val) * 64 + d.val
    rw [hr, hk]; ring)

/-- [2, 2048, 16, 64] merged to [4096, 1024]: entry (b·2048 + n, h·64 + d) is entry (b, n, h, d). -/
theorem merge_heads_apply (x : (⟨4, ![2, 2048, 16, 64]⟩ : Shape).Idx → α)
    (hc : (⟨4, ![2, 2048, 16, 64]⟩ : Shape).ShapeCasts ⟨2, ![4096, 1024]⟩) (b : Fin 2) (n : Fin 2048) (h : Fin 16) (d : Fin 64)
    (r : Fin 4096) (k : Fin 1024) (hr : r.val = b.val * 2048 + n.val) (hk : k.val = h.val * 64 + d.val) :
    shapeCast ⟨2, ![4096, 1024]⟩ x hc (ix2 r k) = x (ix4 b n h d) :=
  shapeCast_apply x hc _ _ (by
    rw [Shape.rowMajor_val_four, Shape.rowMajor_val_two]
    show ((b.val * 2048 + n.val) * 16 + h.val) * 64 + d.val = r.val * 1024 + k.val
    rw [hr, hk]; ring)

end Cert.KernelIdeal.Hand

end
-- ==== Proof.HostShapes.lean ====
/-
  The two flattenings of the activations that the first two kernels read: [2, 2048, 1024] laid out as [4096, 1024], row
  b·2048 + n of the flat array being row n of batch b.  No host operation before the first kernel writes an argument.
-/
import proofs.«161176_j6906307412019_2_alg».proof.Proof.Gen.KernelIdeal.Regions
import proofs.«161176_j6906307412019_2_alg».proof.Proof.LibLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- Before the last stretch of host operations the first activation array is as launched. -/
theorem V24_arg0 (c : Dev nD) : V24 m c main_arg0 = m ((c : Thread nD τ).loc main_arg0) := by
  rw [V24_of m c _ (by decide), V23_of m c _ (by decide), V22_of m c _ (by decide), V21_of m c _ (by decide), V20_of m c _ (by decide), V19_of m c _ (by decide), V18_of m c _ (by decide), V17_of m c _ (by decide), V16_of m c _ (by decide), V15_of m c _ (by decide), V14_of m c _ (by decide), V13_of m c _ (by decide), V12_of m c _ (by decide), V11_of m c _ (by decide), V10_of m c _ (by decide), V9_of m c _ (by decide), V8_of m c _ (by decide), V7_of m c _ (by decide), V6_of m c _ (by decide), V5_of m c _ (by decide), V4_of m c _ (by decide), V3_of m c _ (by decide), V2_of m c _ (by decide), V1_of m c _ (by decide)]
/-- And the second. -/
theorem V24_arg1 (c : Dev nD) : V24 m c main_arg1 = m ((c : Thread nD τ).loc main_arg1) := by
  rw [V24_of m c _ (by decide), V23_of m c _ (by decide), V22_of m c _ (by decide), V21_of m c _ (by decide), V20_of m c _ (by decide), V19_of m c _ (by decide), V18_of m c _ (by decide), V17_of m c _ (by decide), V16_of m c _ (by decide), V15_of m c _ (by decide), V14_of m c _ (by decide), V13_of m c _ (by decide), V12_of m c _ (by decide), V11_of m c _ (by decide), V10_of m c _ (by decide), V9_of m c _ (by decide), V8_of m c _ (by decide), V7_of m c _ (by decide), V6_of m c _ (by decide), V5_of m c _ (by decide), V4_of m c _ (by decide), V3_of m c _ (by decide), V2_of m c _ (by decide), V1_of m c _ (by decide)]

set_option maxHeartbeats 1000000 in
/-- The first kernel's activation operand is the first argument flattened. -/
theorem v60_eq (c : Dev nD) :
    V25 m c main_v60 = fun i => shapeCast S4096x1024 (m ((c : Thread nD τ).loc main_arg0)) shapeCasts_S2x2048x1024_S4096x1024 i := by
  show StableHlo.after hostOps0_24 (V24 m c) (Proc.devRef .tc main_v60) = _
  after_results
  rfl
set_option maxHeartbeats 1000000 in
/-- The second kernel's activation operand is the second argument flattened. -/
theorem v61_eq (c : Dev nD) :
    V25 m c main_v61 = fun i => shapeCast S4096x1024 (m ((c : Thread nD τ).loc main_arg1)) shapeCasts_S2x2048x1024_S4096x1024 i := by
  show StableHlo.after hostOps0_24 (V24 m c) (Proc.devRef .tc main_v61) = _
  after_results
  rfl

/-- Row b·2048 + n of the flattened first argument is row n of batch b. -/
theorem v60_apply (c : Dev nD) (r : Fin 4096) (b : Fin 2) (n : Fin 2048) (k : Fin 1024) (hr : r.val = b.val * 2048 + n.val) :
    V25 m c main_v60 (ix2 r k) = m ((c : Thread nD τ).loc main_arg0) (ix3 b n k) := by
  rw [v60_eq]
  exact Cert.LibLayout.shapeCast_abc_mc_apply _ _ r b n k hr
theorem v61_apply (c : Dev nD) (r : Fin 4096) (b : Fin 2) (n : Fin 2048) (k : Fin 1024) (hr : r.val = b.val * 2048 + n.val) :
    V25 m c main_v61 (ix2 r k) = m ((c : Thread nD τ).loc main_arg1) (ix3 b n k) := by
  rw [v61_eq]
  exact Cert.LibLayout.shapeCast_abc_mc_apply _ _ r b n k hr

end Cert.KernelIdeal.Hand

end
-- ==== Proof.Spec.lean ====
/-
  The specification of the quantised cross-attention block, over the real numbers.

  Every projection is a "bit-linear" map.  A weight matrix `W` (1024 × 1024, rows = outputs) is replaced by
  its ternary quantisation `wq W`: with the scale `s = 1 / max ε (mean |W|)` (the mean over all 2²⁰ entries),
  an entry `w` becomes `clamp (roundeven (w · s)) (−1) 1 / s`.  An activation array `X` (any family of rows of
  1024 reals) is replaced by its eight-bit quantisation `aq X`: with the per-row scale
  `t r = 127 / max ε (max_c |X r c|)`, an entry `x` of row `r` becomes
  `clamp (roundeven (x · t r)) (−128) 127 / t r`.  The projection of `X` by `W` is the matrix product
  `aq X · (wq W)ᵀ`.

  The block: `q`, `k`, `v` are the projections of `x`, `ctx`, `ctx` by `Wq`, `Wk`, `Wv`; each of the sixteen
  heads owns sixty-four consecutive columns; per head the scores are `q · kᵀ / 8`, each row of scores goes
  through the softmax (written with the row maximum subtracted, which is how both programs compute it) and
  multiplies `v`; the heads' outputs, side by side again, are projected by `Wo`.
-/
import Idealize.ShloMosaic.PureOps.Ideal

noncomputable section

namespace Cert.Spec

open Idealize.ShloMosaic

/-- The clamp floor `ε` of both quantisers: the real number the single-precision word `0x3727C5AC`
    (`9.99999974e-6`) denotes, `(2²³ + 0x27C5AC) · 2⁻⁴⁰`. -/
def eps : ℝ := 10995116 / 2 ^ 40

theorem eps_pos : 0 < eps := by unfold eps; positivity

/-- Rounding to the nearest integer, ties to even, as a real number. -/
def rne (r : ℝ) : ℝ := ((Ideal.roundHalfEven r : ℤ) : ℝ)

/-- `clamp lo hi r`: `r` brought into `[lo, hi]`, in the order the programs do it (first from below). -/
def clamp (lo hi r : ℝ) : ℝ := min hi (max lo r)

/-- The weight scale `1 / max ε (Σ|W| / 2²⁰)`. -/
def wscale (W : Fin 1024 → Fin 1024 → ℝ) : ℝ := 1 / max eps ((∑ o, ∑ c, |W o c|) / 2 ^ 20)

/-- The ternary weight quantisation. -/
def wq (W : Fin 1024 → Fin 1024 → ℝ) : Fin 1024 → Fin 1024 → ℝ :=
  fun o c => clamp (-1) 1 (rne (W o c * wscale W)) / wscale W

/-- The largest absolute value of a row of 1024 reals. -/
def absmax (x : Fin 1024 → ℝ) : ℝ := Finset.univ.sup' Finset.univ_nonempty fun c => |x c|

/-- The activation scale of a row, `127 / max ε (max_c |x c|)`. -/
def ascale (x : Fin 1024 → ℝ) : ℝ := 127 / max eps (absmax x)

/-- The eight-bit activation quantisation, row by row. -/
def aq {R : Type} (X : R → Fin 1024 → ℝ) : R → Fin 1024 → ℝ :=
  fun r c => clamp (-128) 127 (rne (X r c * ascale (X r))) / ascale (X r)

/-- The bit-linear projection `aq X · (wq W)ᵀ`. -/
def proj {R : Type} (X : R → Fin 1024 → ℝ) (W : Fin 1024 → Fin 1024 → ℝ) (r : R) (o : Fin 1024) : ℝ :=
  ∑ c, aq X r c * wq W o c

/-- The head that owns column `o`. -/
def hd (o : Fin 1024) : Fin 16 := ⟨o.val / 64, by omega⟩

/-- Column `d` of head `h`. -/
def col (h : Fin 16) (d : Fin 64) : Fin 1024 := ⟨64 * h.val + d.val, by omega⟩

/-- The scaled scores of head `h`: `(Σ_d q[b,i,64h+d] · k[b,j,64h+d]) · (1/8)`. -/
def dots (q k : Fin 2 → Fin 2048 → Fin 1024 → ℝ) (b : Fin 2) (h : Fin 16) (i j : Fin 2048) : ℝ :=
  (∑ d : Fin 64, q b i (col h d) * k b j (col h d)) * (1 / 8)

/-- The largest entry of a row of 2048 scores. -/
def rowmax (s : Fin 2048 → ℝ) : ℝ := Finset.univ.sup' Finset.univ_nonempty s

/-- The softmax of a row of scores, with the row maximum subtracted. -/
def softmax (s : Fin 2048 → ℝ) (j : Fin 2048) : ℝ :=
  Real.exp (s j - rowmax s) / ∑ j', Real.exp (s j' - rowmax s)

/-- The softmax attention of head `o / 64` at column `o % 64`. -/
def attn (q k v : Fin 2 → Fin 2048 → Fin 1024 → ℝ) (b : Fin 2) (i : Fin 2048) (o : Fin 1024) : ℝ :=
  ∑ j, softmax (dots q k b (hd o) i) j * v b j o

/-- The whole block as one function of the six argument arrays. -/
def GR (x ctx : Fin 2 → Fin 2048 → Fin 1024 → ℝ) (Wq Wk Wv Wo : Fin 1024 → Fin 1024 → ℝ) :
    Fin 2 → Fin 2048 → Fin 1024 → ℝ :=
  fun b n o =>
    proj (fun (r : Fin 2 × Fin 2048) c =>
        attn (fun b n => proj (fun (r : Fin 2 × Fin 2048) c => x r.1 r.2 c) Wq (b, n))
             (fun b n => proj (fun (r : Fin 2 × Fin 2048) c => ctx r.1 r.2 c) Wk (b, n))
             (fun b n => proj (fun (r : Fin 2 × Fin 2048) c => ctx r.1 r.2 c) Wv (b, n)) r.1 r.2 c)
      Wo (b, n) o

end Cert.Spec

end
-- ==== Proof.KSpecAttn.lean ====
import proofs.«161176_j6906307412019_2_alg».proof.Proof.Spec

noncomputable section

namespace Cert.KSpec

/-- Plain softmax attention of one head over real arrays laid out [batch, position, head, feature]: the scores of query
    row `i` against every key row `j` are the feature-wise dot products (the query already carries its scale); each
    row of scores goes through the softmax and weighs the value rows. -/
def attnPlain (q k v : Fin 2 → Fin 2048 → Fin 16 → Fin 64 → ℝ) (b : Fin 2) (i : Fin 2048) (h : Fin 16) (d : Fin 64) : ℝ :=
  ∑ j : Fin 2048, Cert.Spec.softmax (fun j => ∑ e : Fin 64, q b i h e * k b j h e) j * v b j h d

end Cert.KSpec

end
-- ==== Proof.KAlgebra.lean ====
/-
  The kernel's arrangement of the computation, over the reals, is the specification.

  The kernel works on flat arrays of 4096 rows (row b·2048 + n is token n of batch b) and 1024 columns (column h·64 + d
  is lane d of head h); it multiplies the quantised query weight by 1/8 once instead of scaling every score, and it forms
  the attention output head by head.  The specification works on [2, 2048, 1024] arrays and scales the scores.  Three
  facts join them: a row's quantisation depends on that row only; Σ_k a_k·(w_k·⅛) = (Σ_k a_k·w_k)·⅛, so the scaled
  queries give the scaled scores; and the row / column arithmetic (b·2048 + n) ÷ 2048 = b, 64·(c ÷ 64) + c mod 64 = c.
-/
import proofs.«161176_j6906307412019_2_alg».proof.Proof.Spec
import proofs.«161176_j6906307412019_2_alg».proof.Proof.KSpecAttn

noncomputable section

namespace Cert.KSpec

open Cert.Spec

/-! ## Rows and columns -/

def rowOf (b : Fin 2) (n : Fin 2048) : Fin 4096 := ⟨b.val * 2048 + n.val, by omega⟩
def colOf (h : Fin 16) (d : Fin 64) : Fin 1024 := ⟨h.val * 64 + d.val, by omega⟩
def bOf (r : Fin 4096) : Fin 2 := ⟨r.val / 2048, by omega⟩
def nOf (r : Fin 4096) : Fin 2048 := ⟨r.val % 2048, Nat.mod_lt _ (by norm_num)⟩
def hOf (k : Fin 1024) : Fin 16 := ⟨k.val / 64, by omega⟩
def dOf (k : Fin 1024) : Fin 64 := ⟨k.val % 64, Nat.mod_lt _ (by norm_num)⟩

theorem bOf_rowOf (b : Fin 2) (n : Fin 2048) : bOf (rowOf b n) = b := Fin.ext (by simp only [bOf, rowOf]; omega)
theorem nOf_rowOf (b : Fin 2) (n : Fin 2048) : nOf (rowOf b n) = n := Fin.ext (by simp only [nOf, rowOf]; omega)
theorem colOf_eq_col (h : Fin 16) (d : Fin 64) : colOf h d = col h d := Fin.ext (by simp only [colOf, col]; omega)
theorem hOf_eq_hd (c : Fin 1024) : hOf c = hd c := rfl
theorem col_hOf_dOf (c : Fin 1024) : col (hOf c) (dOf c) = c := Fin.ext (by simp only [col, hOf, dOf]; omega)

/-! ## The kernel's arrangement -/

/-- [2, 2048, 1024] as 4096 rows. -/
def flat (x : Fin 2 → Fin 2048 → Fin 1024 → ℝ) : Fin 4096 → Fin 1024 → ℝ := fun r k => x (bOf r) (nOf r) k
/-- A projection kernel: the rows quantised, against a weight operand given as (input column, output column). -/
def projK (X : Fin 4096 → Fin 1024 → ℝ) (Wr : Fin 1024 → Fin 1024 → ℝ) : Fin 4096 → Fin 1024 → ℝ :=
  fun r o => ∑ k, aq X r k * Wr k o
/-- The flat array's 1024 columns as 16 heads of 64. -/
def heads (Y : Fin 4096 → Fin 1024 → ℝ) : Fin 2 → Fin 2048 → Fin 16 → Fin 64 → ℝ := fun b n h d => Y (rowOf b n) (colOf h d)
/-- And back. -/
def unheads (A : Fin 2 → Fin 2048 → Fin 16 → Fin 64 → ℝ) : Fin 4096 → Fin 1024 → ℝ := fun r k => A (bOf r) (nOf r) (hOf k) (dOf k)

/-- The whole kernel program over the reals. -/
def KR (x ctx : Fin 2 → Fin 2048 → Fin 1024 → ℝ) (Wq Wk Wv Wo : Fin 1024 → Fin 1024 → ℝ) : Fin 2 → Fin 2048 → Fin 1024 → ℝ :=
  fun b n o =>
    projK (unheads (attnPlain (heads (projK (flat x) (fun k o => wq Wq o k * (1 / 8))))
                              (heads (projK (flat ctx) (fun k o => wq Wk o k)))
                              (heads (projK (flat ctx) (fun k o => wq Wv o k)))))
      (fun k o => wq Wo o k) (rowOf b n) o

/-! ## It is the specification -/

/-- A row's quantisation depends on that row only. -/
theorem aq_row {R R' : Type} (X : R → Fin 1024 → ℝ) (X' : R' → Fin 1024 → ℝ) (r : R) (r' : R') (h : X r = X' r') :
    aq X r = aq X' r' := by
  funext c
  simp only [aq, h]

theorem flat_rowOf (x : Fin 2 → Fin 2048 → Fin 1024 → ℝ) (b : Fin 2) (n : Fin 2048) : flat x (rowOf b n) = x b n := by
  funext k; simp only [flat, bOf_rowOf, nOf_rowOf]

/-- A head entry of a flat projection is the specification's projection at that head's column. -/
theorem heads_projK (x : Fin 2 → Fin 2048 → Fin 1024 → ℝ) (W : Fin 1024 → Fin 1024 → ℝ) (b : Fin 2) (n : Fin 2048)
    (h : Fin 16) (d : Fin 64) :
    heads (projK (flat x) (fun k o => wq W o k)) b n h d = proj (fun (r : Fin 2 × Fin 2048) c => x r.1 r.2 c) W (b, n) (col h d) := by
  simp only [heads, projK, proj, colOf_eq_col]
  rw [aq_row (flat x) (fun (r : Fin 2 × Fin 2048) c => x r.1 r.2 c) (rowOf b n) (b, n) (flat_rowOf x b n)]

/-- With the weight scaled by 1/8 the projection is scaled by 1/8. -/
theorem heads_projK_scaled (x : Fin 2 → Fin 2048 → Fin 1024 → ℝ) (W : Fin 1024 → Fin 1024 → ℝ) (b : Fin 2) (n : Fin 2048)
    (h : Fin 16) (d : Fin 64) :
    heads (projK (flat x) (fun k o => wq W o k * (1 / 8))) b n h d
      = proj (fun (r : Fin 2 × Fin 2048) c => x r.1 r.2 c) W (b, n) (col h d) * (1 / 8) := by
  rw [← heads_projK]
  simp only [heads, projK]
  rw [Finset.sum_mul]
  exact Finset.sum_congr rfl fun k _ => (mul_assoc _ _ _).symm

theorem KR_eq_GR (x ctx : Fin 2 → Fin 2048 → Fin 1024 → ℝ) (Wq Wk Wv Wo : Fin 1024 → Fin 1024 → ℝ) :
    KR x ctx Wq Wk Wv Wo = GR x ctx Wq Wk Wv Wo := by
  funext b n o
  simp only [KR, GR, projK, proj]
  refine Finset.sum_congr rfl fun c _ => ?_
  congr 1
  refine congrFun (aq_row _ _ (rowOf b n) ((b, n) : Fin 2 × Fin 2048) ?_) c
  funext c'
  simp only [unheads, bOf_rowOf, nOf_rowOf, attnPlain, attn]
  refine Finset.sum_congr rfl fun j _ => ?_
  have hs : (fun j => ∑ e : Fin 64,
        heads (projK (flat x) (fun k o => wq Wq o k * (1 / 8))) b n (hOf c') e
          * heads (projK (flat ctx) (fun k o => wq Wk o k)) b j (hOf c') e)
      = dots (fun b n => proj (fun (r : Fin 2 × Fin 2048) c => x r.1 r.2 c) Wq (b, n))
          (fun b n => proj (fun (r : Fin 2 × Fin 2048) c => ctx r.1 r.2 c) Wk (b, n)) b (hd c') n := by
    funext j
    simp only [dots, heads_projK_scaled, heads_projK, hOf_eq_hd]
    rw [Finset.sum_mul]
    exact Finset.sum_congr rfl fun e _ => by ring
  rw [hs, heads_projK, col_hOf_dOf]

end Cert.KSpec

end
-- ==== Proof.KSpec.lean ====
/-
  One quantised projection as a function on the extended reals.

  A row `x` of 1024 activations is quantised to eight bits: with the row's scale
  `t = 127 / max ε (max_k |x k|)` an entry becomes `clamp (round (x k · t)) (−128) 127 / t`, the rounding to the nearest
  integer with ties to even. The projection of an array of 4096 such rows by a 1024 × 1024 matrix `Wt` (rows = inputs,
  columns = outputs) is the matrix product of the quantised rows with `Wt`.

  Everything is spelt in the order and with the operations the kernel body uses: the maximum of the absolute values is
  folded from −∞, the floor `ε`, 127 and −128 are kept as the single-precision words the body names, the quotient is the
  ideal instance's, and the clamp is taken from below first.
-/
import Idealize.ShloMosaic.PureOps.Ideal
import Idealize.ShloMosaic.Lib.ValueIdx

noncomputable section

namespace Cert.KSpec

open Idealize.ShloMosaic Idealize.ShloMosaic.ValueIdx

/-- The scale of a row: 127 over the row's largest absolute value, that value floored at `ε`. -/
def scaleE (x : Fin 1024 → EReal) : EReal :=
  Ideal.div (Ideal.ofBits .f32 0x42FE0000#32)
    (max (Ideal.ofBits .f32 0x3727C5AC#32)
      ((Finset.univ : Finset (Fin 1024)).fold max (Ideal.ofBits .f32 0xFF800000#32) (fun k => max (x k) (-(x k)))))

/-- The eight-bit quantisation of a row: scale, round to the nearest integer (ties to even), clamp to [−128, 127]
    from below first, and divide the scale out again. -/
def aqE (x : Fin 1024 → EReal) : Fin 1024 → EReal := fun k =>
  Ideal.div
    (min (Ideal.ofBits .f32 0x42FE0000#32)
      (max (Ideal.ofBits .f32 0xC3000000#32) (Ideal.liftRound Ideal.roundHalfEven (x k * scaleE x))))
    (scaleE x)

/-- The projection: entry (r, o) is the sum over `k` of the quantised row `r` at `k` times `Wt` at (k, o). -/
def projE (X : (⟨2, ![4096, 1024]⟩ : Shape).Idx → EReal) (Wt : (⟨2, ![1024, 1024]⟩ : Shape).Idx → EReal) :
    (⟨2, ![4096, 1024]⟩ : Shape).Idx → EReal :=
  fun i => ∑ k : Fin 1024, aqE (fun k => X (ix2 (n0 := 4096) (n1 := 1024) (i 0) k)) k * Wt (ix2 (n0 := 1024) (n1 := 1024) k (i 1))

/-- The projection at an index given by its two coordinates. -/
theorem projE_ix2 (X : (⟨2, ![4096, 1024]⟩ : Shape).Idx → EReal) (Wt : (⟨2, ![1024, 1024]⟩ : Shape).Idx → EReal)
    (r : Fin 4096) (o : Fin 1024) :
    projE X Wt (ix2 r o) = ∑ k : Fin 1024, aqE (fun k => X (ix2 r k)) k * Wt (ix2 k o) := rfl

end Cert.KSpec

end
-- ==== Proof.Consts.lean ====
/-
  The single-precision words the two programs spell, as the extended reals they denote.

  Both programs use the same few constants: `0`, `1`, `−1`, `2²⁰` (the number of entries of a weight matrix),
  the clamp floor `ε`, `127`, `−128`, `1/8` (the score scale at head width 64) and `−∞` (where a row maximum starts).
  Each word is unfolded here once; everything else cites these equations.
-/
import Idealize.ShloMosaic.PureOps.Ideal.Laws
import proofs.«161176_j6906307412019_2_alg».proof.Proof.Spec

noncomputable section

namespace Cert.Consts

open Idealize.ShloMosaic

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two_pow_20 : Ideal.ofBits .f32 0x49800000#32 = ((2 ^ 20 : ℝ) : EReal) := by
  rw [show ((2 ^ 20 : ℝ) : EReal) = ((1048576 : ℝ) : EReal) by norm_num]
  simp [Ideal.ofBits, Ideal.ieee, -EReal.coe_mul]; norm_num

theorem ofBits_eps : Ideal.ofBits .f32 0x3727C5AC#32 = ((Cert.Spec.eps : ℝ) : EReal) := by
  simp [Ideal.ofBits, Ideal.ieee, -EReal.coe_mul, Cert.Spec.eps]; norm_num

theorem ofBits_127 : Ideal.ofBits .f32 0x42FE0000#32 = ((127 : ℝ) : EReal) := by
  simp [Ideal.ofBits, Ideal.ieee, -EReal.coe_mul]; norm_num

theorem ofBits_neg_128 : Ideal.ofBits .f32 0xC3000000#32 = ((-128 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

end Cert.Consts

end
-- ==== Proof.LibRealCast.lean ====
/-
  The operations of the ideal float instance on casts of real numbers.

  At the ideal instance a float is an extended real and every operation is the exact one.  When the operands are
  casts of real numbers (and, for a quotient, the divisor is not zero) the result is again the cast of a real
  number, namely of the same operation done in the reals.  This file states that, operation by operation, in the
  spelling the instance's fields have inside a printed program (`FloatOps.addf`, `FloatOps.hostDivf`,
  `FloatOps.hostUnary .roundeven`, …): sum, difference, product, quotient by a nonzero real, maximum, minimum,
  absolute value, rounding to nearest-even, the exponential, a finite sum, and a maximum folded from −∞ over a
  nonempty finite family.  It ends with the one cancellation law the extended reals keep for a finite first term,
  `x + (y − x) = y`, which fails for an infinite `x`.
-/
import Mathlib.Data.EReal.Operations
import Mathlib.Data.EReal.Inv
import Mathlib.Algebra.BigOperators.Ring.Finset
import Mathlib.Data.Finset.Lattice.Fold
import Idealize.ShloMosaic.PureOps.Ideal

noncomputable section

namespace Cert.Lib.RealCast

open Idealize.ShloMosaic

variable {φ : FTy}

/-! ## The order operations on casts -/

/-- The cast of a maximum of reals is the maximum of the casts. -/
theorem coe_max (a b : ℝ) : ((max a b : ℝ) : EReal) = max (a : EReal) (b : EReal) :=
  EReal.coe_strictMono.monotone.map_max

/-- The cast of a minimum of reals is the minimum of the casts. -/
theorem coe_min (a b : ℝ) : ((min a b : ℝ) : EReal) = min (a : EReal) (b : EReal) :=
  EReal.coe_strictMono.monotone.map_min

/-! ## The arithmetic operations, as the instance's fields -/

theorem addf_coe (a b : ℝ) : FloatOps.addf (F := Ideal) (φ := φ) (a : EReal) (b : EReal) = ((a + b : ℝ) : EReal) :=
  (EReal.coe_add a b).symm

theorem subf_coe (a b : ℝ) : FloatOps.subf (F := Ideal) (φ := φ) (a : EReal) (b : EReal) = ((a - b : ℝ) : EReal) :=
  (EReal.coe_sub a b).symm

theorem mulf_coe (a b : ℝ) : FloatOps.mulf (F := Ideal) (φ := φ) (a : EReal) (b : EReal) = ((a * b : ℝ) : EReal) :=
  (EReal.coe_mul a b).symm

/-- The ideal quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem divf_coe (a : ℝ) {b : ℝ} (hb : b ≠ 0) :
    FloatOps.divf (F := Ideal) (φ := φ) (a : EReal) (b : EReal) = ((a / b : ℝ) : EReal) :=
  div_coe_coe a hb

theorem hostDivf_coe (a : ℝ) {b : ℝ} (hb : b ≠ 0) :
    FloatOps.hostDivf (F := Ideal) (φ := φ) (a : EReal) (b : EReal) = ((a / b : ℝ) : EReal) :=
  div_coe_coe a hb

theorem maximumf_coe (a b : ℝ) :
    FloatOps.maximumf (F := Ideal) (φ := φ) (a : EReal) (b : EReal) = ((max a b : ℝ) : EReal) :=
  (coe_max a b).symm

theorem minimumf_coe (a b : ℝ) :
    FloatOps.minimumf (F := Ideal) (φ := φ) (a : EReal) (b : EReal) = ((min a b : ℝ) : EReal) :=
  (coe_min a b).symm

/-- The absolute value, which the instance spells `max x (−x)`. -/
theorem abs_coe (a : ℝ) : max (a : EReal) (-(a : EReal)) = ((|a| : ℝ) : EReal) := by
  rw [← EReal.coe_neg, ← coe_max, abs_eq_max_neg]

theorem absf_coe (a : ℝ) : FloatOps.absf (F := Ideal) (φ := φ) (a : EReal) = ((|a| : ℝ) : EReal) :=
  abs_coe a

theorem hostAbsf_coe (a : ℝ) : FloatOps.hostAbsf (F := Ideal) (φ := φ) (a : EReal) = ((|a| : ℝ) : EReal) :=
  abs_coe a

/-- Rounding to the nearest integer, ties to even. -/
theorem roundeven_coe (a : ℝ) :
    FloatOps.roundeven (F := Ideal) (φ := φ) (a : EReal) = (((Ideal.roundHalfEven a : ℤ) : ℝ) : EReal) := rfl

theorem hostRoundeven_coe (a : ℝ) :
    FloatOps.hostUnary (F := Ideal) (φ := φ) .roundeven (a : EReal) = (((Ideal.roundHalfEven a : ℤ) : ℝ) : EReal) := rfl

/-- The exponential. -/
theorem exp_coe (a : ℝ) : FloatOps.exp (F := Ideal) (φ := φ) (a : EReal) = ((Real.exp a : ℝ) : EReal) := rfl

theorem hostExp_coe (a : ℝ) :
    FloatOps.hostUnary (F := Ideal) (φ := φ) .exp (a : EReal) = ((Real.exp a : ℝ) : EReal) := rfl

/-! ## Finite sums and folded maxima -/

/-- The sum of the casts of finitely many reals is the cast of their sum. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- A maximum folded from `−∞` over a nonempty finite family of casts is the cast of the family's largest member. -/
theorem fold_max_bot_coe {ι : Type*} (s : Finset ι) (hs : s.Nonempty) (f : ι → ℝ) :
    s.fold max (⊥ : EReal) (fun i => (f i : EReal)) = ((s.sup' hs f : ℝ) : EReal) := by
  classical
  induction hs using Finset.Nonempty.cons_induction with
  | singleton a => rw [Finset.fold_singleton, Finset.sup'_singleton, max_bot_right]
  | cons a s ha hs ih => rw [Finset.fold_cons, ih, Finset.sup'_cons hs, ← coe_max]

/-- The same with the instance's `maximumf` as the folded operation, whatever witnesses of its commutativity and
    associativity the fold was given. -/
theorem fold_maximumf_bot_coe {ι : Type*} (s : Finset ι) (hs : s.Nonempty) (f : ι → ℝ)
    [hc : Std.Commutative (FloatOps.maximumf (F := Ideal) (φ := φ))]
    [ha : Std.Associative (FloatOps.maximumf (F := Ideal) (φ := φ))] :
    s.fold (FloatOps.maximumf (F := Ideal) (φ := φ)) (⊥ : EReal) (fun i => (f i : EReal))
      = ((s.sup' hs f : ℝ) : EReal) :=
  fold_max_bot_coe s hs f

/-! ## The cancellation law that survives -/

/-- For a finite `x`, `x + (y − x) = y` whatever `y` is (for `x = ±∞` the left side is `−∞`). -/
theorem add_sub_cancel_coe (a : ℝ) (y : EReal) : (a : EReal) + (y - (a : EReal)) = y := by
  induction y using EReal.rec with
  | bot => simp
  | coe r => rw [← EReal.coe_sub, ← EReal.coe_add]; congr 1; ring
  | top => simp

theorem addf_subf_cancel_coe (a : ℝ) (y : EReal) :
    FloatOps.addf (F := Ideal) (φ := φ) (a : EReal) (FloatOps.subf (F := Ideal) (φ := φ) y (a : EReal)) = y :=
  add_sub_cancel_coe a y

end Cert.Lib.RealCast

end
-- ==== Proof.KSpecCast.lean ====
/-
  The quantised projection on casts of real numbers.

  When every activation and every weight is the cast of a real number, so is every entry of the projection, and
  the real number is the specification's: the row's largest absolute value folded from −∞ is the real maximum (the
  row is not empty), the floor `ε` is positive so neither quotient divides by zero, and rounding, clamping, products
  and the finite sum are the real operations on casts.
-/
import proofs.«161176_j6906307412019_2_alg».proof.Proof.KSpec
import proofs.«161176_j6906307412019_2_alg».proof.Proof.Spec
import proofs.«161176_j6906307412019_2_alg».proof.Proof.Consts
import proofs.«161176_j6906307412019_2_alg».proof.Proof.LibRealCast

noncomputable section

namespace Cert.KSpec

open Idealize.ShloMosaic Idealize.ShloMosaic.ValueIdx
open Cert.Lib.RealCast

/-- The floored maximum under the scale is positive. -/
theorem floor_pos (x : Fin 1024 → ℝ) : 0 < max Cert.Spec.eps (Cert.Spec.absmax x) :=
  lt_max_of_lt_left Cert.Spec.eps_pos

/-- The real scale of a row is positive. -/
theorem ascale_pos (x : Fin 1024 → ℝ) : 0 < Cert.Spec.ascale x := by
  unfold Cert.Spec.ascale
  exact div_pos (by norm_num) (floor_pos x)

/-- The scale of a row of casts is the cast of the real scale. -/
theorem scaleE_coe (x : Fin 1024 → ℝ) : scaleE (fun k => ((x k : ℝ) : EReal)) = ((Cert.Spec.ascale x : ℝ) : EReal) := by
  have hne : max Cert.Spec.eps (Finset.univ.sup' Finset.univ_nonempty fun k => |x k|) ≠ 0 :=
    (lt_max_of_lt_left Cert.Spec.eps_pos).ne'
  unfold scaleE Cert.Spec.ascale Cert.Spec.absmax
  simp only [abs_coe]
  rw [Cert.Consts.ofBits_127, Cert.Consts.ofBits_eps, Cert.Consts.ofBits_neg_inf,
    fold_max_bot_coe Finset.univ Finset.univ_nonempty (fun k => |x k|), ← coe_max, div_coe_coe 127 hne]

/-- The quantisation of a row of casts, entry by entry, is the cast of the real quantisation. -/
theorem aqE_coe (x : Fin 1024 → ℝ) (k : Fin 1024) :
    aqE (fun k => ((x k : ℝ) : EReal)) k
      = ((Cert.Spec.clamp (-128) 127 (Cert.Spec.rne (x k * Cert.Spec.ascale x)) / Cert.Spec.ascale x : ℝ) : EReal) := by
  unfold aqE
  rw [scaleE_coe, ← EReal.coe_mul, Ideal.liftRound_coe, Cert.Consts.ofBits_127, Cert.Consts.ofBits_neg_128,
    ← coe_max, ← coe_min, div_coe_coe _ (ascale_pos x).ne']
  unfold Cert.Spec.clamp Cert.Spec.rne
  rfl

/-- The projection of casts is the cast of the real projection: the sum over `k` of the quantised row times the
    matrix column. -/
theorem projE_coe (Xr : Fin 4096 → Fin 1024 → ℝ) (Wr : Fin 1024 → Fin 1024 → ℝ)
    (X : (⟨2, ![4096, 1024]⟩ : Shape).Idx → EReal) (Wt : (⟨2, ![1024, 1024]⟩ : Shape).Idx → EReal)
    (hX : ∀ i, X i = ((Xr (i 0) (i 1) : ℝ) : EReal)) (hW : ∀ i, Wt i = ((Wr (i 0) (i 1) : ℝ) : EReal))
    (i : (⟨2, ![4096, 1024]⟩ : Shape).Idx) :
    projE X Wt i = ((∑ k, Cert.Spec.aq Xr (i 0) k * Wr k (i 1) : ℝ) : EReal) := by
  unfold projE
  have hrow : (fun k : Fin 1024 => X (ix2 (n0 := 4096) (n1 := 1024) (i 0) k)) = fun k => ((Xr (i 0) k : ℝ) : EReal) :=
    funext fun k => hX _
  have hcol : ∀ k : Fin 1024, Wt (ix2 (n0 := 1024) (n1 := 1024) k (i 1)) = ((Wr k (i 1) : ℝ) : EReal) := fun k => hW _
  rw [hrow]
  simp only [hcol, aqE_coe, ← EReal.coe_mul]
  rw [sum_coe]
  exact congrArg (fun r : ℝ => (r : EReal)) (Finset.sum_congr rfl fun k _ => rfl)

end Cert.KSpec

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.AttnIdx.lean ====
import proofs.«161176_j6906307412019_2_alg».proof.Proof.Region2Runs
import Idealize.ShloMosaic.Lib.ValueIdx
import Idealize.ShloMosaic.Lib.ValueLayout
import Idealize.ShloMosaic.PureOps.Ideal.Laws
import proofs.«161176_j6906307412019_2_alg».proof.Proof.LibGroupedLanes
import proofs.«161176_j6906307412019_2_alg».proof.Proof.Consts
set_option maxRecDepth 16384

noncomputable section

namespace Cert.KernelIdeal.Hand

open Cert.KernelIdeal Cert.KernelIdeal.Gen
open Idealize.ShloMosaic Idealize.ShloMosaic.ValueIdx

/-! # The attention step read at an index, over the extended reals

Each value the kernel's step computes — the score block, the running maximum, the rescaling factor, the tile's
weights, the normaliser, the accumulator and the output block — read at one index given by coordinates
(head h, query row n, key row k, feature d). -/

/-- A [1,256,16,64] block read heads-first, [16,256,64]: entry (h, n, e) is the block's (0, n, h, e). -/
theorem heads_apply {α : Type} (x : S1x256x16x64.Idx → α) (h : Fin 16) (n : Fin 256) (e : Fin 64) :
    transpose S16x256x64 [1, 0, 2] (shapeCast S256x16x64 x shapeCasts_S1x256x16x64_S256x16x64)
      transposes_S256x16x64_p1_0_2_S16x256x64 (ix3 h n e) = x (ix4 (0 : Fin 1) n h e) := by
  refine (transpose_apply _ _ _ (ix3 h n e) (ix3 n h e) (fun b => ?_)).trans ?_
  · match b with
    | ⟨0, _⟩ => rfl
    | ⟨1, _⟩ => rfl
    | ⟨2, _⟩ => rfl
  · refine shapeCast_apply _ _ _ _ ?_
    rw [Shape.rowMajor_val_four, Shape.rowMajor_val_three]
    show ((0 * 256 + n.val) * 16 + h.val) * 64 + e.val = (n.val * 16 + h.val) * 64 + e.val
    omega

/-! ## The two matrix products' operand indices, axis by axis -/
theorem qk_lhs0 (j : S16x256x256.Idx) (q : dot_S16x256x64_S16x256x64_S16x256x256_2_2_1_1_0_0.contr.Idx) :
    (dot_S16x256x64_S16x256x64_S16x256x256_2_2_1_1_0_0.lhsIdx j q 0).val = (j 0).val := by
  unfold DotDims.lhsIdx
  rw [dif_pos (show (0 : Fin S16x256x64.rank) ∈ dot_S16x256x64_S16x256x64_S16x256x256_2_2_1_1_0_0.lhsBatch by decide)]
  rfl
theorem qk_lhs1 (j : S16x256x256.Idx) (q : dot_S16x256x64_S16x256x64_S16x256x256_2_2_1_1_0_0.contr.Idx) :
    (dot_S16x256x64_S16x256x64_S16x256x256_2_2_1_1_0_0.lhsIdx j q 1).val = (j 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem qk_lhs2 (j : S16x256x256.Idx) (q : dot_S16x256x64_S16x256x64_S16x256x256_2_2_1_1_0_0.contr.Idx) :
    (dot_S16x256x64_S16x256x64_S16x256x256_2_2_1_1_0_0.lhsIdx j q 2).val = (q ⟨0, by decide⟩).val :=
  dot_S16x256x64_S16x256x64_S16x256x256_2_2_1_1_0_0.lhsIdx_val_of_single rfl j q
theorem qk_rhs0 (j : S16x256x256.Idx) (q : dot_S16x256x64_S16x256x64_S16x256x256_2_2_1_1_0_0.contr.Idx) :
    (dot_S16x256x64_S16x256x64_S16x256x256_2_2_1_1_0_0.rhsIdx j q 0).val = (j 0).val := by
  unfold DotDims.rhsIdx
  rw [dif_pos (show (0 : Fin S16x256x64.rank) ∈ dot_S16x256x64_S16x256x64_S16x256x256_2_2_1_1_0_0.rhsBatch by decide)]
  rfl
theorem qk_rhs1 (j : S16x256x256.Idx) (q : dot_S16x256x64_S16x256x64_S16x256x256_2_2_1_1_0_0.contr.Idx) :
    (dot_S16x256x64_S16x256x64_S16x256x256_2_2_1_1_0_0.rhsIdx j q 1).val = (j 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem qk_rhs2 (j : S16x256x256.Idx) (q : dot_S16x256x64_S16x256x64_S16x256x256_2_2_1_1_0_0.contr.Idx) :
    (dot_S16x256x64_S16x256x64_S16x256x256_2_2_1_1_0_0.rhsIdx j q 2).val = (q ⟨0, by decide⟩).val :=
  dot_S16x256x64_S16x256x64_S16x256x256_2_2_1_1_0_0.rhsIdx_val_of_single rfl j q
theorem pv_lhs0 (j : S16x256x64.Idx) (q : dot_S16x256x256_S16x256x64_S16x256x64_2_1_1_2_0_0.contr.Idx) :
    (dot_S16x256x256_S16x256x64_S16x256x64_2_1_1_2_0_0.lhsIdx j q 0).val = (j 0).val := by
  unfold DotDims.lhsIdx
  rw [dif_pos (show (0 : Fin S16x256x256.rank) ∈ dot_S16x256x256_S16x256x64_S16x256x64_2_1_1_2_0_0.lhsBatch by decide)]
  rfl
theorem pv_lhs1 (j : S16x256x64.Idx) (q : dot_S16x256x256_S16x256x64_S16x256x64_2_1_1_2_0_0.contr.Idx) :
    (dot_S16x256x256_S16x256x64_S16x256x64_2_1_1_2_0_0.lhsIdx j q 1).val = (j 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem pv_lhs2 (j : S16x256x64.Idx) (q : dot_S16x256x256_S16x256x64_S16x256x64_2_1_1_2_0_0.contr.Idx) :
    (dot_S16x256x256_S16x256x64_S16x256x64_2_1_1_2_0_0.lhsIdx j q 2).val = (q ⟨0, by decide⟩).val :=
  dot_S16x256x256_S16x256x64_S16x256x64_2_1_1_2_0_0.lhsIdx_val_of_single rfl j q
theorem pv_rhs0 (j : S16x256x64.Idx) (q : dot_S16x256x256_S16x256x64_S16x256x64_2_1_1_2_0_0.contr.Idx) :
    (dot_S16x256x256_S16x256x64_S16x256x64_2_1_1_2_0_0.rhsIdx j q 0).val = (j 0).val := by
  unfold DotDims.rhsIdx
  rw [dif_pos (show (0 : Fin S16x256x64.rank) ∈ dot_S16x256x256_S16x256x64_S16x256x64_2_1_1_2_0_0.rhsBatch by decide)]
  rfl
theorem pv_rhs1 (j : S16x256x64.Idx) (q : dot_S16x256x256_S16x256x64_S16x256x64_2_1_1_2_0_0.contr.Idx) :
    (dot_S16x256x256_S16x256x64_S16x256x64_2_1_1_2_0_0.rhsIdx j q 1).val = (q ⟨0, by decide⟩).val :=
  dot_S16x256x256_S16x256x64_S16x256x64_2_1_1_2_0_0.rhsIdx_val_of_single rfl j q
theorem pv_rhs2 (j : S16x256x64.Idx) (q : dot_S16x256x256_S16x256x64_S16x256x64_2_1_1_2_0_0.contr.Idx) :
    (dot_S16x256x256_S16x256x64_S16x256x64_2_1_1_2_0_0.rhsIdx j q 2).val = (j 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-- The scores of one tile: (h, n, k) ↦ Σ_e q(0,n,h,e) · k(0,k,h,e). -/
def sc2 (x0 x1 : Vec Ideal S1x256x16x64 .bf16) (h : Fin 16) (n k : Fin 256) : EReal :=
  ∑ e : Fin 64, x0 (ix4 (0 : Fin 1) n h e) * x1 (ix4 (0 : Fin 1) k h e)

/-- The score block is the batched product q · kᵀ, head by head. -/
theorem pay9_apply (x0 x1 : Vec Ideal S1x256x16x64 .bf16) (h : Fin 16) (n k : Fin 256) :
    k2_pay9 (F := Ideal) x0 x1 (ix3 h n k) = sc2 x0 x1 h n k := by
  unfold k2_pay9 sc2
  simp only [matmul]
  rw [Ideal.matmul_constant_zero_apply,
    ← Equiv.sum_comp (contrEquiv1 dot_S16x256x64_S16x256x64_S16x256x256_2_2_1_1_0_0 64 rfl rfl).symm]
  refine Finset.sum_congr rfl fun e _ => ?_
  have he := contrEquiv1_symm_val dot_S16x256x64_S16x256x64_S16x256x256_2_2_1_1_0_0 64 rfl rfl e
  have el : dot_S16x256x64_S16x256x64_S16x256x256_2_2_1_1_0_0.lhsIdx (ix3 h n k) ((contrEquiv1 dot_S16x256x64_S16x256x64_S16x256x256_2_2_1_1_0_0 64 rfl rfl).symm e) = ix3 h n e :=
    funext fun a => Fin.ext (by
      match a with
      | ⟨0, _⟩ => exact qk_lhs0 _ _
      | ⟨1, _⟩ => exact qk_lhs1 _ _
      | ⟨2, _⟩ => exact (qk_lhs2 _ _).trans he)
  have er : dot_S16x256x64_S16x256x64_S16x256x256_2_2_1_1_0_0.rhsIdx (ix3 h n k) ((contrEquiv1 dot_S16x256x64_S16x256x64_S16x256x256_2_2_1_1_0_0 64 rfl rfl).symm e) = ix3 h k e :=
    funext fun a => Fin.ext (by
      match a with
      | ⟨0, _⟩ => exact qk_rhs0 _ _
      | ⟨1, _⟩ => exact qk_rhs1 _ _
      | ⟨2, _⟩ => exact (qk_rhs2 _ _).trans he)
  rw [el, er, heads_apply, heads_apply]

/-! ## The reductions over the key axis, kept as a unit axis -/

/-- The row maximum of a [16,256,256] block, kept as [16,256,1]: at (h, n, ·) the fold of `max` over the 256 keys. -/
theorem rowmax3_apply (src : FVec Ideal S16x256x256 .f32) (hφ : FKind.Formats .f32)
    (hacc : (0xFF800000#32 : BitVec 32) = 0xFF800000#32) (h : Fin 16) (n : Fin 256) (u : Fin 1) :
    shapeCast S16x256x1 (multiReduction .maximumf [2] S16x256 src 0xFF800000#32 reduces_S16x256x256_S16x256 hφ hacc)
        shapeCasts_S16x256_S16x256x1 (ix3 h n u)
      = (Finset.univ : Finset (Fin 256)).fold max (Ideal.ofBits .f32 0xFF800000#32) (fun k => src (ix3 h n k)) := by
  refine (Cert.Lib.GroupedLanes.keep_apply _ shapeCasts_S16x256_S16x256x1 h n u).trans ?_
  refine (Ideal.multiReduction_maximumf_single src 0xFF800000#32 reduces_S16x256x256_S16x256 hφ hacc (ix2 h n)).trans ?_
  refine Finset.fold_congr fun k _ => congrArg src (funext fun c => Fin.ext ?_)
  rw [reduces_S16x256x256_S16x256.lift_val]
  match c with
  | ⟨0, _⟩ => rfl
  | ⟨1, _⟩ => rfl
  | ⟨2, _⟩ => rfl

/-- The row sum of a [16,256,256] block, kept as [16,256,1]: at (h, n, ·) the sum over the 256 keys. -/
theorem rowsum3_apply (src : FVec Ideal S16x256x256 .f32) (hφ : FKind.Formats .f32)
    (hacc : (0x00000000#32 : BitVec 32) = 0x00000000#32) (h : Fin 16) (n : Fin 256) (u : Fin 1) :
    shapeCast S16x256x1 (multiReduction .add [2] S16x256 src 0x00000000#32 reduces_S16x256x256_S16x256 hφ hacc)
        shapeCasts_S16x256_S16x256x1 (ix3 h n u)
      = ∑ k : Fin 256, src (ix3 h n k) :=
  (Cert.Lib.GroupedLanes.keep_apply _ shapeCasts_S16x256_S16x256x1 h n u).trans
    (Cert.Lib.GroupedLanes.lanesum_apply src reduces_S16x256x256_S16x256 hφ hacc h n)

/-! ## The step's payloads at an index -/

/-- The new running maximum: the old one against the tile's row maximum. -/
theorem pay10_apply (x0 x1 : Vec Ideal S1x256x16x64 .bf16) (m : Vec Ideal S16x256x1 .f32) (h : Fin 16) (n : Fin 256) (u : Fin 1) :
    k2_pay10 (F := Ideal) x0 x1 m (ix3 h n u)
      = max (m (ix3 h n u)) ((Finset.univ : Finset (Fin 256)).fold max (Ideal.ofBits .f32 0xFF800000#32) (fun k => sc2 x0 x1 h n k)) := by
  unfold k2_pay10
  refine (maximumf_apply _ _ _).trans (congrArg (max (m (ix3 h n u))) ?_)
  refine (rowmax3_apply _ _ _ h n u).trans ?_
  exact Finset.fold_congr fun k _ => pay9_apply x0 x1 h n k

/-- The rescaling factor exp (m_old − m_new). -/
theorem pay11_apply (x0 x1 : Vec Ideal S1x256x16x64 .bf16) (m m' : Vec Ideal S16x256x1 .f32) (h : Fin 16) (n : Fin 256) (u : Fin 1) :
    k2_pay11 (F := Ideal) x0 x1 m m' (ix3 h n u) = Ideal.exp (m' (ix3 h n u) - k2_pay10 (F := Ideal) x0 x1 m (ix3 h n u)) := rfl

/-- The tile's weights exp (score − m_new). -/
theorem pay12_apply (x0 x1 : Vec Ideal S1x256x16x64 .bf16) (m : Vec Ideal S16x256x1 .f32) (h : Fin 16) (n k : Fin 256) :
    k2_pay12 (F := Ideal) x0 x1 m (ix3 h n k)
      = Ideal.exp (sc2 x0 x1 h n k - k2_pay10 (F := Ideal) x0 x1 m (ix3 h n (0 : Fin 1))) := by
  unfold k2_pay12
  show Ideal.exp (subf (k2_pay9 (F := Ideal) x0 x1) _ (ix3 h n k)) = _
  rw [subf_apply, pay9_apply, Cert.Lib.GroupedLanes.spread_apply]

/-- The new normaliser: the old one rescaled, plus the tile's weights summed. -/
theorem pay13_apply (x0 x1 : Vec Ideal S1x256x16x64 .bf16) (m m' l : Vec Ideal S16x256x1 .f32) (h : Fin 16) (n : Fin 256) (u : Fin 1) :
    k2_pay13 (F := Ideal) x0 x1 m m' l (ix3 h n u)
      = k2_pay11 (F := Ideal) x0 x1 m m' (ix3 h n u) * l (ix3 h n u) + ∑ k : Fin 256, k2_pay12 (F := Ideal) x0 x1 m (ix3 h n k) := by
  unfold k2_pay13
  refine (addf_apply _ _ _).trans ?_
  rw [mulf_apply]
  exact congrArg (_ + ·) (rowsum3_apply _ _ _ h n u)

/-- The value block read heads-first. -/
theorem pay8_apply (x2 : Vec Ideal S1x256x16x64 .bf16) (h : Fin 16) (k : Fin 256) (d : Fin 64) :
    k2_pay8 (F := Ideal) x2 (ix3 h k d) = x2 (ix4 (0 : Fin 1) k h d) := by
  unfold k2_pay8
  exact heads_apply x2 h k d

/-- The new accumulator: the old one rescaled, plus the tile's weights times the values. -/
theorem pay2_apply (v11 : FVec Ideal S16x256x64 .bf16) (v19 : FVec Ideal S16x256x1 .f32) (v22 : FVec Ideal S16x256x256 .f32)
    (v31 : Vec Ideal S16x256x64 .f32) (h : Fin 16) (n : Fin 256) (d : Fin 64) :
    k2_pay2 (F := Ideal) v11 v19 v22 v31 (ix3 h n d)
      = v19 (ix3 h n (0 : Fin 1)) * v31 (ix3 h n d) + ∑ k : Fin 256, v22 (ix3 h n k) * v11 (ix3 h k d) := by
  unfold k2_pay2
  simp only [shapeCast_self, matmul]
  rw [addf_apply, mulf_apply, Cert.Lib.GroupedLanes.spread_apply, Ideal.matmul_constant_zero_apply,
    ← Equiv.sum_comp (contrEquiv1 dot_S16x256x256_S16x256x64_S16x256x64_2_1_1_2_0_0 256 rfl rfl).symm]
  refine congrArg (_ + ·) (Finset.sum_congr rfl fun k _ => ?_)
  have hk := contrEquiv1_symm_val dot_S16x256x256_S16x256x64_S16x256x64_2_1_1_2_0_0 256 rfl rfl k
  have el : dot_S16x256x256_S16x256x64_S16x256x64_2_1_1_2_0_0.lhsIdx (ix3 h n d) ((contrEquiv1 dot_S16x256x256_S16x256x64_S16x256x64_2_1_1_2_0_0 256 rfl rfl).symm k) = ix3 h n k :=
    funext fun a => Fin.ext (by
      match a with
      | ⟨0, _⟩ => exact pv_lhs0 _ _
      | ⟨1, _⟩ => exact pv_lhs1 _ _
      | ⟨2, _⟩ => exact (pv_lhs2 _ _).trans hk)
  have er : dot_S16x256x256_S16x256x64_S16x256x64_2_1_1_2_0_0.rhsIdx (ix3 h n d) ((contrEquiv1 dot_S16x256x256_S16x256x64_S16x256x64_2_1_1_2_0_0 256 rfl rfl).symm k) = ix3 h k d :=
    funext fun a => Fin.ext (by
      match a with
      | ⟨0, _⟩ => exact pv_rhs0 _ _
      | ⟨1, _⟩ => exact (pv_rhs1 _ _).trans hk
      | ⟨2, _⟩ => exact pv_rhs2 _ _)
  rw [el, er, truncf_apply]

/-- The output block: accumulator over normaliser, rows and heads transposed back. -/
theorem pay4_apply (acc : Vec Ideal S16x256x64 .f32) (l : Vec Ideal S16x256x1 .f32) (z : Fin 1) (n : Fin 256) (h : Fin 16) (d : Fin 64) :
    k2_pay4 (F := Ideal) acc l (ix4 z n h d) = Ideal.div (acc (ix3 h n d)) (l (ix3 h n (0 : Fin 1))) := by
  unfold k2_pay4
  have hz : z.val = 0 := by omega
  refine (shapeCast_apply _ shapeCasts_S256x16x64_S1x256x16x64 (ix4 z n h d) (ix3 n h d) ?_).trans ?_
  · rw [Shape.rowMajor_val_four, Shape.rowMajor_val_three]
    show (n.val * 16 + h.val) * 64 + d.val = ((z.val * 256 + n.val) * 16 + h.val) * 64 + d.val
    rw [hz]; omega
  refine (transpose_apply _ _ transposes_S16x256x64_p1_0_2_S256x16x64 (ix3 n h d) (ix3 h n d) (fun b => ?_)).trans ?_
  · match b with
    | ⟨0, _⟩ => rfl
    | ⟨1, _⟩ => rfl
    | ⟨2, _⟩ => rfl
  rw [divf_apply, Cert.Lib.GroupedLanes.spread_apply]

end Cert.KernelIdeal.Hand

end
-- ==== Proof.LibOnlineSoftmax.lean ====
/-
  The streaming ("online") softmax equals the plain softmax.

  A row of `n * b` real scores is read in `n` consecutive tiles of width `b`, with a real value attached to
  each score. The streaming form keeps a running maximum `m` (an extended real, `⊥` before the first tile), a
  running normaliser `l` and a running weighted sum `a`; at each tile the maximum is raised to cover the tile,
  `l` and `a` are rescaled by `exp (m_old - m_new)` and the tile's terms `exp (s - m_new)` are added. After
  `n ≥ 1` tiles of width `b ≥ 1` the quotient `a / l` is the plain softmax-weighted sum of the values over the
  whole row, the plain form subtracting the whole row's maximum. Everything is stated over the extended reals with
  the extended exponential (`exp ⊥ = 0`) and division; the inputs are real.

  Contents:
  * `coe_sum`: the cast of a finite real sum is the sum of the casts;
  * `exists_greatest`, `fold_max_coe_eq`: the fold of `max` from `⊥` over casts of reals is the cast of the
    greatest attained value;
  * `sum_tiles_nat`: a sum over `Fin (n * b)` cut into `n` tiles of width `b`;
  * `run`, `run_real`: the streaming state, and its closed form in the reals after at least one tile;
  * `softmax_real`: the plain form as one real quotient;
  * `flash_eq_softmax`: the two agree.
-/
import Idealize.ShloMosaic.PureOps.Ideal

noncomputable section

namespace Cert.Lib.OnlineSoftmax

open Idealize.ShloMosaic

/-! ### Casts of finite real sums -/

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast of the larger of two reals is the larger of the casts. -/
theorem coe_max (x y : ℝ) : ((max x y : ℝ) : EReal) = max (x : EReal) (y : EReal) :=
  EReal.coe_strictMono.monotone.map_max

/-- A sum of extended exponentials of real differences is the cast of the real sum. -/
theorem sum_exp_coe {ι : Type*} [Fintype ι] (t : ι → ℝ) (M : ℝ) :
    ∑ k, Ideal.exp ((t k : EReal) - (M : EReal)) = ((∑ k, Real.exp (t k - M) : ℝ) : EReal) := by
  rw [coe_sum]
  refine Finset.sum_congr rfl fun k _ => ?_
  rw [← EReal.coe_sub, Ideal.exp_coe]

/-- The same with a real weight on each term. -/
theorem sum_exp_mul_coe {ι : Type*} [Fintype ι] (t u : ι → ℝ) (M : ℝ) :
    ∑ k, Ideal.exp ((t k : EReal) - (M : EReal)) * (u k : EReal)
      = ((∑ k, Real.exp (t k - M) * u k : ℝ) : EReal) := by
  rw [coe_sum]
  refine Finset.sum_congr rfl fun k _ => ?_
  rw [← EReal.coe_sub, Ideal.exp_coe, ← EReal.coe_mul]

/-! ### The greatest value of finitely many reals -/

/-- Finitely many reals, at least one, have a greatest value, and it is attained. -/
theorem exists_greatest {ι : Type*} [Fintype ι] [Nonempty ι] (f : ι → ℝ) :
    ∃ M : ℝ, (∀ k, f k ≤ M) ∧ ∃ k, f k = M := by
  obtain ⟨k0, -, hk0⟩ := Finset.exists_max_image Finset.univ f Finset.univ_nonempty
  exact ⟨f k0, fun k => hk0 k (Finset.mem_univ k), k0, rfl⟩

/-- The fold of `max` from `⊥` over the casts of finitely many reals is the cast of their greatest value. -/
theorem fold_max_coe_eq {ι : Type*} [Fintype ι] (f : ι → ℝ) (M : ℝ)
    (hle : ∀ k, f k ≤ M) (hex : ∃ k, f k = M) :
    Finset.univ.fold max ⊥ (fun k => (f k : EReal)) = (M : EReal) := by
  apply le_antisymm
  · rw [Finset.fold_max_le]
    exact ⟨bot_le, fun k _ => EReal.coe_le_coe_iff.mpr (hle k)⟩
  · rw [Finset.le_fold_max]
    obtain ⟨k, hk⟩ := hex
    exact Or.inr ⟨k, Finset.mem_univ k, by rw [hk]⟩

/-! ### A row cut into tiles -/

/-- A sum over the first `n * b` naturals is the sum over `n` tiles of the sums over each tile's `b` elements. -/
theorem sum_range_tiles {A : Type*} [AddCommMonoid A] (n b : ℕ) (g : ℕ → A) :
    ∑ i ∈ Finset.range (n * b), g i = ∑ i ∈ Finset.range n, ∑ k ∈ Finset.range b, g (i * b + k) := by
  induction n with
  | zero => simp
  | succ n ih => rw [Nat.succ_mul, Finset.sum_range_add, ih, Finset.sum_range_succ]

/-- The same with the row indexed by `Fin (n * b)` and each tile by `Fin b`. -/
theorem sum_tiles_nat {A : Type*} [AddCommMonoid A] (n b : ℕ) (g : ℕ → A) :
    ∑ i : Fin (n * b), g i.val = ∑ i ∈ Finset.range n, ∑ k : Fin b, g (i * b + k.val) := by
  rw [← Finset.sum_range (fun i => g i), sum_range_tiles]
  refine Finset.sum_congr rfl fun i _ => ?_
  rw [Finset.sum_range (fun k => g (i * b + k))]

/-! ### The streaming state -/

/-- The streaming state after j tiles: (running maximum, running normaliser, running weighted sum). -/
def run {b : ℕ} (s v : ℕ → Fin b → ℝ) : ℕ → EReal × EReal × EReal
  | 0 => (⊥, 0, 0)
  | j + 1 =>
    let st := run s v j
    let m' : EReal := max st.1 (Finset.univ.fold max ⊥ fun k => (s j k : EReal))
    let α : EReal := Ideal.exp (st.1 - m')
    (m', α * st.2.1 + ∑ k, Ideal.exp ((s j k : EReal) - m'),
         α * st.2.2 + ∑ k, Ideal.exp ((s j k : EReal) - m') * (v j k : EReal))

theorem run_zero {b : ℕ} (s v : ℕ → Fin b → ℝ) : run s v 0 = (⊥, 0, 0) := rfl

/-- The running maximum after one more tile. -/
theorem run_succ_max {b : ℕ} (s v : ℕ → Fin b → ℝ) (j : ℕ) :
    (run s v (j + 1)).1 = max (run s v j).1 (Finset.univ.fold max ⊥ fun k => (s j k : EReal)) := rfl

/-- The running normaliser after one more tile. -/
theorem run_succ_norm {b : ℕ} (s v : ℕ → Fin b → ℝ) (j : ℕ) :
    (run s v (j + 1)).2.1 =
      Ideal.exp ((run s v j).1 - (run s v (j + 1)).1) * (run s v j).2.1
        + ∑ k, Ideal.exp ((s j k : EReal) - (run s v (j + 1)).1) := rfl

/-- The running weighted sum after one more tile. -/
theorem run_succ_acc {b : ℕ} (s v : ℕ → Fin b → ℝ) (j : ℕ) :
    (run s v (j + 1)).2.2 =
      Ideal.exp ((run s v j).1 - (run s v (j + 1)).1) * (run s v j).2.2
        + ∑ k, Ideal.exp ((s j k : EReal) - (run s v (j + 1)).1) * (v j k : EReal) := rfl

/-- Raising the subtracted maximum from `M` to `M'` rescales the sum by `exp (M - M')`; with the next tile's
    terms added this is the sum over one more tile. -/
theorem rescale_sum {b : ℕ} (s c : ℕ → Fin b → ℝ) (j : ℕ) (M M' : ℝ) :
    Real.exp (M - M') * (∑ i ∈ Finset.range j, ∑ k, Real.exp (s i k - M) * c i k)
        + ∑ k, Real.exp (s j k - M') * c j k
      = ∑ i ∈ Finset.range (j + 1), ∑ k, Real.exp (s i k - M') * c i k := by
  rw [Finset.sum_range_succ, Finset.mul_sum]
  congr 1
  refine Finset.sum_congr rfl fun i _ => ?_
  rw [Finset.mul_sum]
  refine Finset.sum_congr rfl fun k _ => ?_
  rw [← mul_assoc, ← Real.exp_add]
  congr 2
  ring

/-- The same without weights. -/
theorem rescale_sum_one {b : ℕ} (s : ℕ → Fin b → ℝ) (j : ℕ) (M M' : ℝ) :
    Real.exp (M - M') * (∑ i ∈ Finset.range j, ∑ k, Real.exp (s i k - M))
        + ∑ k, Real.exp (s j k - M')
      = ∑ i ∈ Finset.range (j + 1), ∑ k, Real.exp (s i k - M') := by
  simpa using rescale_sum s (fun _ _ => 1) j M M'

/-- After at least one tile of positive width the streaming state is real: the running maximum is the greatest score
    read so far, and the normaliser and the weighted sum are the sums, over all scores read so far, of
    `exp (score - maximum)` and of that times the value. -/
theorem run_real {b : ℕ} (hb : 0 < b) (s v : ℕ → Fin b → ℝ) (j : ℕ) (hj : 0 < j) :
    ∃ M : ℝ, (run s v j).1 = (M : EReal) ∧ (∀ i < j, ∀ k, s i k ≤ M) ∧ (∃ i < j, ∃ k, s i k = M) ∧
      (run s v j).2.1 = ((∑ i ∈ Finset.range j, ∑ k, Real.exp (s i k - M) : ℝ) : EReal) ∧
      (run s v j).2.2 = ((∑ i ∈ Finset.range j, ∑ k, Real.exp (s i k - M) * v i k : ℝ) : EReal) := by
  haveI : Nonempty (Fin b) := ⟨⟨0, hb⟩⟩
  obtain ⟨j, rfl⟩ : ∃ j', j = j' + 1 := ⟨j - 1, by omega⟩
  clear hj
  induction j with
  | zero =>
    obtain ⟨Mt, hMle, hMex⟩ := exists_greatest (s 0)
    have hfold := fold_max_coe_eq (s 0) Mt hMle hMex
    have hm : (run s v (0 + 1)).1 = (Mt : EReal) := by
      rw [run_succ_max, run_zero, hfold]
      exact max_eq_right bot_le
    refine ⟨Mt, hm, ?_, ?_, ?_, ?_⟩
    · intro i hi k
      obtain rfl : i = 0 := by omega
      exact hMle k
    · obtain ⟨k, hk⟩ := hMex
      exact ⟨0, by omega, k, hk⟩
    · rw [run_succ_norm, hm, run_zero]
      show Ideal.exp (⊥ - (Mt : EReal)) * 0 + _ = _
      rw [mul_zero, zero_add, sum_exp_coe, Finset.sum_range_one]
    · rw [run_succ_acc, hm, run_zero]
      show Ideal.exp (⊥ - (Mt : EReal)) * 0 + _ = _
      rw [mul_zero, zero_add, sum_exp_mul_coe, Finset.sum_range_one]
  | succ j ih =>
    obtain ⟨M, h1, hle, hex, h2, h3⟩ := ih
    obtain ⟨Mt, hMle, hMex⟩ := exists_greatest (s (j + 1))
    have hfold := fold_max_coe_eq (s (j + 1)) Mt hMle hMex
    have hm : (run s v (j + 1 + 1)).1 = ((max M Mt : ℝ) : EReal) := by
      rw [run_succ_max, h1, hfold, coe_max]
    refine ⟨max M Mt, hm, ?_, ?_, ?_, ?_⟩
    · intro i hi k
      rcases Nat.lt_succ_iff_lt_or_eq.mp hi with h | rfl
      · exact (hle i h k).trans (le_max_left _ _)
      · exact (hMle k).trans (le_max_right _ _)
    · rcases le_total M Mt with h | h
      · obtain ⟨k, hk⟩ := hMex
        exact ⟨j + 1, by omega, k, by rw [hk, max_eq_right h]⟩
      · obtain ⟨i, hi, k, hk⟩ := hex
        exact ⟨i, by omega, k, by rw [hk, max_eq_left h]⟩
    · rw [run_succ_norm, hm, h1, h2, ← EReal.coe_sub, Ideal.exp_coe, ← EReal.coe_mul, sum_exp_coe,
        ← EReal.coe_add, rescale_sum_one]
    · rw [run_succ_acc, hm, h1, h3, ← EReal.coe_sub, Ideal.exp_coe, ← EReal.coe_mul, sum_exp_mul_coe,
        ← EReal.coe_add, rescale_sum]

/-! ### The plain form -/

/-- The plain softmax-weighted sum over `N` real scores, `M` their greatest value, is one real quotient. -/
theorem softmax_real {N : ℕ} (x w : Fin N → ℝ) (M : ℝ) (hle : ∀ i, x i ≤ M) (hex : ∃ i, x i = M) :
    (∑ i : Fin N,
        Ideal.div (Ideal.exp ((x i : EReal) - max ⊥ (Finset.univ.fold max ⊥ fun i' : Fin N => (x i' : EReal))))
                  (0 + ∑ i' : Fin N, Ideal.exp ((x i' : EReal)
                      - max ⊥ (Finset.univ.fold max ⊥ fun i'' : Fin N => (x i'' : EReal))))
          * (w i : EReal))
      = (((∑ i, Real.exp (x i - M) * w i) / (∑ i, Real.exp (x i - M)) : ℝ) : EReal) := by
  haveI : Nonempty (Fin N) := let ⟨i, _⟩ := hex; ⟨i⟩
  have hmax : max ⊥ (Finset.univ.fold max ⊥ fun i' : Fin N => (x i' : EReal)) = (M : EReal) := by
    rw [fold_max_coe_eq x M hle hex]
    exact max_eq_right bot_le
  have hL : 0 < ∑ i, Real.exp (x i - M) :=
    Finset.sum_pos (fun i _ => Real.exp_pos _) Finset.univ_nonempty
  rw [hmax, Finset.sum_div, coe_sum, sum_exp_coe, zero_add]
  refine Finset.sum_congr rfl fun i _ => ?_
  rw [Ideal.div_coe hL.ne', ← EReal.coe_sub, Ideal.exp_coe, ← EReal.coe_mul, ← EReal.coe_mul]
  congr 1
  ring

/-! ### The two forms agree -/

/-- After `n ≥ 1` tiles of width `b ≥ 1` the streaming quotient is the plain softmax-weighted sum over the row. -/
theorem flash_eq_softmax (n b : ℕ) (hn : 0 < n) (hb : 0 < b) (x w : ℕ → ℝ) :
    Ideal.div (run (fun j (k : Fin b) => x (j * b + k.val)) (fun j (k : Fin b) => w (j * b + k.val)) n).2.2
              (run (fun j (k : Fin b) => x (j * b + k.val)) (fun j (k : Fin b) => w (j * b + k.val)) n).2.1
      = ∑ i : Fin (n * b),
          Ideal.div (Ideal.exp ((x i.val : EReal) - max ⊥ (Finset.univ.fold max ⊥ fun i' : Fin (n * b) => (x i'.val : EReal))))
                    (0 + ∑ i' : Fin (n * b), Ideal.exp ((x i'.val : EReal) - max ⊥ (Finset.univ.fold max ⊥ fun i'' : Fin (n * b) => (x i''.val : EReal))))
            * (w i.val : EReal) := by
  obtain ⟨M, -, hle, hex, h2, h3⟩ :=
    run_real hb (fun j (k : Fin b) => x (j * b + k.val)) (fun j (k : Fin b) => w (j * b + k.val)) n hn
  have hle' : ∀ i : Fin (n * b), x i.val ≤ M := by
    intro i
    have hi : i.val / b < n := Nat.div_lt_of_lt_mul (lt_of_lt_of_eq i.isLt (Nat.mul_comm n b))
    have h := hle (i.val / b) hi ⟨i.val % b, Nat.mod_lt _ hb⟩
    simpa [Nat.div_add_mod'] using h
  have hex' : ∃ i : Fin (n * b), x i.val = M := by
    obtain ⟨i, hi, k, hk⟩ := hex
    have hlt : i * b + k.val < n * b :=
      calc i * b + k.val < i * b + b := Nat.add_lt_add_left k.isLt _
        _ = (i + 1) * b := (Nat.succ_mul _ _).symm
        _ ≤ n * b := Nat.mul_le_mul_right b hi
    exact ⟨⟨i * b + k.val, hlt⟩, hk⟩
  have hL : 0 < ∑ i ∈ Finset.range n, ∑ k : Fin b, Real.exp (x (i * b + k.val) - M) := by
    haveI : Nonempty (Fin b) := ⟨⟨0, hb⟩⟩
    exact Finset.sum_pos (fun i _ => Finset.sum_pos (fun k _ => Real.exp_pos _) Finset.univ_nonempty)
      (Finset.nonempty_range_iff.mpr hn.ne')
  refine Eq.trans ?_ (softmax_real (fun i : Fin (n * b) => x i.val) (fun i => w i.val) M hle' hex').symm
  rw [h2, h3, Ideal.div_coe hL.ne', ← EReal.coe_mul,
    sum_tiles_nat n b (fun i => Real.exp (x i - M) * w i), sum_tiles_nat n b (fun i => Real.exp (x i - M))]
  congr 1
  ring

end Cert.Lib.OnlineSoftmax

end
-- ==== Proof.AttnLaw.lean ====
import proofs.«161176_j6906307412019_2_alg».proof.Proof.LibOnlineSoftmax
import proofs.«161176_j6906307412019_2_alg».proof.Proof.KSpecAttn

noncomputable section

namespace Cert.KSpec

open Idealize.ShloMosaic Cert.Lib.OnlineSoftmax

/-- Key row number `m`, read modulo the 2048 rows so that it is defined for every natural number. -/
def keyRow (m : ℕ) : Fin 2048 := ⟨m % 2048, Nat.mod_lt _ (by decide)⟩

theorem keyRow_val (j : Fin 2048) : keyRow j.val = j := Fin.ext (Nat.mod_eq_of_lt j.isLt)

/-- The score of query row (b, i) of head h against key row m. -/
def scoreN (qr kr : Fin 2 → Fin 2048 → Fin 16 → Fin 64 → ℝ) (b : Fin 2) (i : Fin 2048) (h : Fin 16) (m : ℕ) : ℝ :=
  ∑ e : Fin 64, qr b i h e * kr b (keyRow m) h e

/-- Feature d of value row m of head h. -/
def valN (vr : Fin 2 → Fin 2048 → Fin 16 → Fin 64 → ℝ) (b : Fin 2) (h : Fin 16) (d : Fin 64) (m : ℕ) : ℝ :=
  vr b (keyRow m) h d

/-- The scores of a query row cut into tiles of 256 keys, and the values likewise: what the streaming recursion reads. -/
abbrev sT (qr kr : Fin 2 → Fin 2048 → Fin 16 → Fin 64 → ℝ) (b : Fin 2) (i : Fin 2048) (h : Fin 16) : ℕ → Fin 256 → ℝ :=
  fun j k => scoreN qr kr b i h (j * 256 + k.val)
abbrev vT (vr : Fin 2 → Fin 2048 → Fin 16 → Fin 64 → ℝ) (b : Fin 2) (h : Fin 16) (d : Fin 64) : ℕ → Fin 256 → ℝ :=
  fun j k => valN vr b h d (j * 256 + k.val)

/-- Eight tiles of 256 keys streamed through the running (maximum, normaliser, weighted sum): the final quotient is the
    plain softmax attention of the row. -/
theorem flash_attn (qr kr vr : Fin 2 → Fin 2048 → Fin 16 → Fin 64 → ℝ) (b : Fin 2) (i : Fin 2048) (h : Fin 16) (d : Fin 64) :
    Ideal.div (run (sT qr kr b i h) (vT vr b h d) 8).2.2 (run (sT qr kr b i h) (vT vr b h d) 8).2.1
      = ((attnPlain qr kr vr b i h d : ℝ) : EReal) := by
  have hfl := flash_eq_softmax 8 256 (by decide) (by decide) (scoreN qr kr b i h) (valN vr b h d)
  refine hfl.trans ?_
  -- the whole row's scores, indexed by the 2048 keys
  set s : Fin 2048 → ℝ := fun j => ∑ e : Fin 64, qr b i h e * kr b j h e with hs
  have hx : ∀ j : Fin (8 * 256), scoreN qr kr b i h j.val = s j := fun j => by
    unfold scoreN; rw [keyRow_val]
  have hw : ∀ j : Fin (8 * 256), valN vr b h d j.val = vr b j h d := fun j => by
    unfold valN; rw [keyRow_val]
  have hle : ∀ j : Fin (8 * 256), scoreN qr kr b i h j.val ≤ Cert.Spec.rowmax s := fun j => by
    rw [hx]; exact Finset.le_sup' s (Finset.mem_univ j)
  have hex : ∃ j : Fin (8 * 256), scoreN qr kr b i h j.val = Cert.Spec.rowmax s := by
    obtain ⟨j, -, hj⟩ := Finset.exists_mem_eq_sup' Finset.univ_nonempty s
    exact ⟨j, (hx j).trans hj.symm⟩
  refine (softmax_real (fun j : Fin (8 * 256) => scoreN qr kr b i h j.val) (fun j => valN vr b h d j.val)
    (Cert.Spec.rowmax s) hle hex).trans ?_
  refine congrArg (fun r : ℝ => (r : EReal)) ?_
  unfold attnPlain Cert.Spec.softmax
  rw [Finset.sum_div]
  refine Finset.sum_congr rfl fun j _ => ?_
  rw [hx j, hw j]
  have e2 : (∑ j' : Fin (8 * 256), Real.exp (scoreN qr kr b i h j'.val - Cert.Spec.rowmax s))
      = ∑ j' : Fin 2048, Real.exp (s j' - Cert.Spec.rowmax s) :=
    Finset.sum_congr rfl fun j' _ => by rw [hx j']
  rw [e2]
  ring

end Cert.KSpec

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.AttnState.lean ====
import proofs.«161176_j6906307412019_2_alg».proof.Proof.Region2
import proofs.«161176_j6906307412019_2_alg».proof.Proof.AttnIdx
import proofs.«161176_j6906307412019_2_alg».proof.Proof.AttnLaw
import proofs.«161176_j6906307412019_2_alg».proof.Proof.LibRealSums
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KSpec Cert.Lib.OnlineSoftmax

/-! # The scratch state is the streaming softmax's state

With the three arrays the region reads holding casts of reals, the scratch buffers after the j-th key tile of a
(batch, query-tile) row hold, at head h and query row n, the running (maximum, normaliser, weighted sum) of the
streaming recursion over the row's scores. -/

variable (V : (c : Dev nD) → (b : Ref sig .tc) → Buf (Elt Ideal) ((c : Thread nD τ).loc b))

/-! ## The blocks the windows stage, as entries of the arrays -/

theorem idx2_0 : ∀ t : Fin cfg2.N, win2_0.index t (0 : Fin 4) = t.val / 64 ∧ win2_0.index t (1 : Fin 4) = t.val / 8 % 8
    ∧ win2_0.index t (2 : Fin 4) = 0 ∧ win2_0.index t (3 : Fin 4) = 0 :=
  (by decide +kernel : ∀ t : Fin grid2.N, win2_0.index t (0 : Fin 4) = t.val / 64 ∧ win2_0.index t (1 : Fin 4) = t.val / 8 % 8
    ∧ win2_0.index t (2 : Fin 4) = 0 ∧ win2_0.index t (3 : Fin 4) = 0)
theorem idx2_1 : ∀ t : Fin cfg2.N, win2_1.index t (0 : Fin 4) = t.val / 64 ∧ win2_1.index t (1 : Fin 4) = t.val % 8
    ∧ win2_1.index t (2 : Fin 4) = 0 ∧ win2_1.index t (3 : Fin 4) = 0 :=
  (by decide +kernel : ∀ t : Fin grid2.N, win2_1.index t (0 : Fin 4) = t.val / 64 ∧ win2_1.index t (1 : Fin 4) = t.val % 8
    ∧ win2_1.index t (2 : Fin 4) = 0 ∧ win2_1.index t (3 : Fin 4) = 0)
theorem idx2_2 : ∀ t : Fin cfg2.N, win2_2.index t (0 : Fin 4) = t.val / 64 ∧ win2_2.index t (1 : Fin 4) = t.val % 8
    ∧ win2_2.index t (2 : Fin 4) = 0 ∧ win2_2.index t (3 : Fin 4) = 0 :=
  (by decide +kernel : ∀ t : Fin grid2.N, win2_2.index t (0 : Fin 4) = t.val / 64 ∧ win2_2.index t (1 : Fin 4) = t.val % 8
    ∧ win2_2.index t (2 : Fin 4) = 0 ∧ win2_2.index t (3 : Fin 4) = 0)

theorem iblk2_0_apply (c : Dev nD) (t : Fin cfg2.N) (n : Fin 256) (h : Fin 16) (e : Fin 64) (bb : Fin 2) (i : Fin 2048)
    (hb : bb.val = t.val / 64) (hi : i.val = 256 * (t.val / 8 % 8) + n.val) :
    (iblk2 V c 0 t : Vec Ideal S1x256x16x64 .bf16) (ix4 (0 : Fin 1) n h e) = V c main_v64 (ix4 bb i h e) := by
  unfold iblk2
  rw [View.read_apply]
  show V c main_v64 _ = V c main_v64 _
  refine congrArg (V c main_v64) (funext fun a => Fin.ext ?_)
  match a with
  | ⟨0, _⟩ => show win2_0.index t 0 * 1 + 1 * 0 = bb.val; rw [(idx2_0 t).1, hb]; omega
  | ⟨1, _⟩ => show win2_0.index t 1 * 256 + 1 * n.val = i.val; rw [(idx2_0 t).2.1, hi]; omega
  | ⟨2, _⟩ => show win2_0.index t 2 * 16 + 1 * h.val = h.val; rw [(idx2_0 t).2.2.1]; omega
  | ⟨3, _⟩ => show win2_0.index t 3 * 64 + 1 * e.val = e.val; rw [(idx2_0 t).2.2.2]; omega

theorem iblk2_1_apply (c : Dev nD) (t : Fin cfg2.N) (n : Fin 256) (h : Fin 16) (e : Fin 64) (bb : Fin 2) (i : Fin 2048)
    (hb : bb.val = t.val / 64) (hi : i.val = 256 * (t.val % 8) + n.val) :
    (iblk2 V c 1 t : Vec Ideal S1x256x16x64 .bf16) (ix4 (0 : Fin 1) n h e) = V c main_v65 (ix4 bb i h e) := by
  unfold iblk2
  rw [View.read_apply]
  show V c main_v65 _ = V c main_v65 _
  refine congrArg (V c main_v65) (funext fun a => Fin.ext ?_)
  match a with
  | ⟨0, _⟩ => show win2_1.index t 0 * 1 + 1 * 0 = bb.val; rw [(idx2_1 t).1, hb]; omega
  | ⟨1, _⟩ => show win2_1.index t 1 * 256 + 1 * n.val = i.val; rw [(idx2_1 t).2.1, hi]; omega
  | ⟨2, _⟩ => show win2_1.index t 2 * 16 + 1 * h.val = h.val; rw [(idx2_1 t).2.2.1]; omega
  | ⟨3, _⟩ => show win2_1.index t 3 * 64 + 1 * e.val = e.val; rw [(idx2_1 t).2.2.2]; omega

theorem iblk2_2_apply (c : Dev nD) (t : Fin cfg2.N) (n : Fin 256) (h : Fin 16) (e : Fin 64) (bb : Fin 2) (i : Fin 2048)
    (hb : bb.val = t.val / 64) (hi : i.val = 256 * (t.val % 8) + n.val) :
    (iblk2 V c 2 t : Vec Ideal S1x256x16x64 .bf16) (ix4 (0 : Fin 1) n h e) = V c main_v66 (ix4 bb i h e) := by
  unfold iblk2
  rw [View.read_apply]
  show V c main_v66 _ = V c main_v66 _
  refine congrArg (V c main_v66) (funext fun a => Fin.ext ?_)
  match a with
  | ⟨0, _⟩ => show win2_2.index t 0 * 1 + 1 * 0 = bb.val; rw [(idx2_2 t).1, hb]; omega
  | ⟨1, _⟩ => show win2_2.index t 1 * 256 + 1 * n.val = i.val; rw [(idx2_2 t).2.1, hi]; omega
  | ⟨2, _⟩ => show win2_2.index t 2 * 16 + 1 * h.val = h.val; rw [(idx2_2 t).2.2.1]; omega
  | ⟨3, _⟩ => show win2_2.index t 3 * 64 + 1 * e.val = e.val; rw [(idx2_2 t).2.2.2]; omega

/-! ## One step of the kernel is one step of the recursion -/

/-- The reset state is the recursion's initial state `(⊥, 0, 0)`. -/
theorem reset2_apply (h : Fin 16) (n : Fin 256) (d : Fin 64) :
    (reset2 (F := Ideal)).1 (ix3 h n (0 : Fin 1)) = (⊥ : EReal) ∧ (reset2 (F := Ideal)).2.1 (ix3 h n (0 : Fin 1)) = 0
      ∧ (reset2 (F := Ideal)).2.2 (ix3 h n d) = 0 :=
  ⟨Cert.Consts.ofBits_neg_inf, Ideal.ofBits_zero_f32, Ideal.ofBits_zero_f32⟩

theorem step_run (x0 x1 x2 : Vec Ideal S1x256x16x64 .bf16) (st : SV2 Ideal) (s v : ℕ → Fin 256 → ℝ) (j : ℕ)
    (h : Fin 16) (n : Fin 256) (d : Fin 64)
    (hs : ∀ k, sc2 x0 x1 h n k = ((s j k : ℝ) : EReal)) (hv : ∀ k, x2 (ix4 (0 : Fin 1) k h d) = ((v j k : ℝ) : EReal))
    (h1 : st.1 (ix3 h n (0 : Fin 1)) = (run s v j).1) (h2 : st.2.1 (ix3 h n (0 : Fin 1)) = (run s v j).2.1)
    (h3 : st.2.2 (ix3 h n d) = (run s v j).2.2) :
    (stepS2 x0 x1 x2 st).1 (ix3 h n (0 : Fin 1)) = (run s v (j + 1)).1
      ∧ (stepS2 x0 x1 x2 st).2.1 (ix3 h n (0 : Fin 1)) = (run s v (j + 1)).2.1
      ∧ (stepS2 x0 x1 x2 st).2.2 (ix3 h n d) = (run s v (j + 1)).2.2 := by
  have hm : k2_pay10 (F := Ideal) x0 x1 st.1 (ix3 h n (0 : Fin 1)) = (run s v (j + 1)).1 := by
    rw [pay10_apply, h1, Cert.Consts.ofBits_neg_inf, run_succ_max]
    simp only [hs]
  refine ⟨?_, ?_, ?_⟩
  · show mNew2 x0 x1 st.1 (ix3 h n (0 : Fin 1)) = _
    unfold mNew2 k2_pay3
    simp only [shapeCast_self]
    exact hm
  · show lNew2 x0 x1 st.1 st.2.1 (ix3 h n (0 : Fin 1)) = _
    unfold lNew2 k2_pay1
    simp only [shapeCast_self]
    rw [pay13_apply, pay11_apply, hm, h1, h2, run_succ_norm]
    refine congrArg (_ + ·) (Finset.sum_congr rfl fun k _ => ?_)
    rw [pay12_apply, hm, hs]
  · show accNew2 x0 x1 x2 st.1 st.2.2 (ix3 h n d) = _
    unfold accNew2
    rw [pay2_apply, pay11_apply, hm, h1, h3, run_succ_acc]
    refine congrArg (_ + ·) (Finset.sum_congr rfl fun k _ => ?_)
    rw [pay12_apply, hm, hs, pay8_apply, hv]

/-! ## A tile's scores and values are the row's, cut at the tile -/

theorem keyRow_tile (j : ℕ) (hj : j < 8) (k : Fin 256) : (keyRow (j * 256 + k.val)).val = 256 * j + k.val := by
  show (j * 256 + k.val) % 2048 = _
  have := k.isLt; omega

theorem tile_scores (c : Dev nD) (qr kr : Fin 2 → Fin 2048 → Fin 16 → Fin 64 → ℝ)
    (hq : ∀ i, V c main_v64 i = ((qr (i 0) (i 1) (i 2) (i 3) : ℝ) : EReal))
    (hk : ∀ i, V c main_v65 i = ((kr (i 0) (i 1) (i 2) (i 3) : ℝ) : EReal))
    (t : Fin cfg2.N) (h : Fin 16) (n : Fin 256) (bb : Fin 2) (i : Fin 2048)
    (hb : bb.val = t.val / 64) (hi : i.val = 256 * (t.val / 8 % 8) + n.val) (k : Fin 256) :
    sc2 (iblk2 V c 0 t) (iblk2 V c 1 t) h n k = ((sT qr kr bb i h (t.val % 8) k : ℝ) : EReal) := by
  unfold sc2
  show _ = ((scoreN qr kr bb i h (t.val % 8 * 256 + k.val) : ℝ) : EReal)
  unfold scoreN
  rw [Cert.Lib.OnlineSoftmax.coe_sum]
  refine Finset.sum_congr rfl fun e _ => ?_
  rw [iblk2_0_apply V c t n h e bb i hb hi,
    iblk2_1_apply V c t k h e bb (keyRow (t.val % 8 * 256 + k.val)) hb (keyRow_tile _ (Nat.mod_lt _ (by decide)) k),
    hq, hk, EReal.coe_mul]
  rfl

theorem tile_vals (c : Dev nD) (vr : Fin 2 → Fin 2048 → Fin 16 → Fin 64 → ℝ)
    (hv : ∀ i, V c main_v66 i = ((vr (i 0) (i 1) (i 2) (i 3) : ℝ) : EReal))
    (t : Fin cfg2.N) (h : Fin 16) (bb : Fin 2) (hb : bb.val = t.val / 64) (d : Fin 64) (k : Fin 256) :
    (iblk2 V c 2 t : Vec Ideal S1x256x16x64 .bf16) (ix4 (0 : Fin 1) k h d) = ((vT vr bb h d (t.val % 8) k : ℝ) : EReal) := by
  rw [iblk2_2_apply V c t k h d bb (keyRow (t.val % 8 * 256 + k.val)) hb (keyRow_tile _ (Nat.mod_lt _ (by decide)) k), hv]
  rfl

/-! ## The state after every point -/

/-- One point: if the state before it is the recursion's after the row's earlier tiles (nothing to ask where the
    row opens), the state after it is the recursion's one tile further. -/
theorem state_step (c : Dev nD) (qr kr vr : Fin 2 → Fin 2048 → Fin 16 → Fin 64 → ℝ)
    (hq : ∀ i, V c main_v64 i = ((qr (i 0) (i 1) (i 2) (i 3) : ℝ) : EReal))
    (hk : ∀ i, V c main_v65 i = ((kr (i 0) (i 1) (i 2) (i 3) : ℝ) : EReal))
    (hv : ∀ i, V c main_v66 i = ((vr (i 0) (i 1) (i 2) (i 3) : ℝ) : EReal))
    (t : Fin cfg2.N) (h : Fin 16) (n : Fin 256) (d : Fin 64) (bb : Fin 2) (i : Fin 2048)
    (hb : bb.val = t.val / 64) (hi : i.val = 256 * (t.val / 8 % 8) + n.val)
    (hprev : ¬t.val % 8 = 0 →
      (sAt2 V c t.castSucc).1 (ix3 h n (0 : Fin 1)) = (run (sT qr kr bb i h) (vT vr bb h d) (t.val % 8)).1
      ∧ (sAt2 V c t.castSucc).2.1 (ix3 h n (0 : Fin 1)) = (run (sT qr kr bb i h) (vT vr bb h d) (t.val % 8)).2.1
      ∧ (sAt2 V c t.castSucc).2.2 (ix3 h n d) = (run (sT qr kr bb i h) (vT vr bb h d) (t.val % 8)).2.2) :
    (sAt2 V c t.succ).1 (ix3 h n (0 : Fin 1)) = (run (sT qr kr bb i h) (vT vr bb h d) (t.val % 8 + 1)).1
      ∧ (sAt2 V c t.succ).2.1 (ix3 h n (0 : Fin 1)) = (run (sT qr kr bb i h) (vT vr bb h d) (t.val % 8 + 1)).2.1
      ∧ (sAt2 V c t.succ).2.2 (ix3 h n d) = (run (sT qr kr bb i h) (vT vr bb h d) (t.val % 8 + 1)).2.2 := by
  by_cases h8 : t.val % 8 = 0
  · rw [sAt2_succ_first V c t h8]
    have hr := reset2_apply h n d
    refine step_run _ _ _ _ (sT qr kr bb i h) (vT vr bb h d) (t.val % 8) h n d
      (fun k => tile_scores V c qr kr hq hk t h n bb i hb hi k) (fun k => tile_vals V c vr hv t h bb hb d k) ?_ ?_ ?_
    · rw [h8]; exact hr.1
    · rw [h8]; exact hr.2.1
    · rw [h8]; exact hr.2.2
  · rw [sAt2_succ_next V c t h8]
    obtain ⟨p1, p2, p3⟩ := hprev h8
    exact step_run _ _ _ _ (sT qr kr bb i h) (vT vr bb h d) (t.val % 8) h n d
      (fun k => tile_scores V c qr kr hq hk t h n bb i hb hi k) (fun k => tile_vals V c vr hv t h bb hb d k) p1 p2 p3

/-- Every point, by induction along the grid: after point m of a row (m % 8 tiles before it in the row) the scratch
    holds the recursion's state after m % 8 + 1 tiles. -/
theorem state_run (c : Dev nD) (qr kr vr : Fin 2 → Fin 2048 → Fin 16 → Fin 64 → ℝ)
    (hq : ∀ i, V c main_v64 i = ((qr (i 0) (i 1) (i 2) (i 3) : ℝ) : EReal))
    (hk : ∀ i, V c main_v65 i = ((kr (i 0) (i 1) (i 2) (i 3) : ℝ) : EReal))
    (hv : ∀ i, V c main_v66 i = ((vr (i 0) (i 1) (i 2) (i 3) : ℝ) : EReal)) :
    ∀ (m : ℕ) (hm : m < cfg2.N) (h : Fin 16) (n : Fin 256) (d : Fin 64) (bb : Fin 2) (i : Fin 2048),
      bb.val = m / 64 → i.val = 256 * (m / 8 % 8) + n.val →
      (sAt2 V c (⟨m, hm⟩ : Fin cfg2.N).succ).1 (ix3 h n (0 : Fin 1)) = (run (sT qr kr bb i h) (vT vr bb h d) (m % 8 + 1)).1
      ∧ (sAt2 V c (⟨m, hm⟩ : Fin cfg2.N).succ).2.1 (ix3 h n (0 : Fin 1)) = (run (sT qr kr bb i h) (vT vr bb h d) (m % 8 + 1)).2.1
      ∧ (sAt2 V c (⟨m, hm⟩ : Fin cfg2.N).succ).2.2 (ix3 h n d) = (run (sT qr kr bb i h) (vT vr bb h d) (m % 8 + 1)).2.2 := by
  intro m
  induction m with
  | zero =>
    intro hm h n d bb i hb hi
    exact state_step V c qr kr vr hq hk hv ⟨0, hm⟩ h n d bb i hb hi (fun h0 => absurd (Nat.zero_mod 8) h0)
  | succ m ih =>
    intro hm h n d bb i hb hi
    refine state_step V c qr kr vr hq hk hv ⟨m + 1, hm⟩ h n d bb i hb hi (fun h8 => ?_)
    have h8' : ¬(m + 1) % 8 = 0 := h8
    have hj : (m + 1) % 8 = m % 8 + 1 := by omega
    have hb' : bb.val = m / 64 := by have : bb.val = (m + 1) / 64 := hb; omega
    have hi' : i.val = 256 * (m / 8 % 8) + n.val := by have : i.val = 256 * ((m + 1) / 8 % 8) + n.val := hi; omega
    have := ih (Nat.lt_of_succ_lt hm) h n d bb i hb' hi'
    show (sAt2 V c (⟨m + 1, hm⟩ : Fin cfg2.N).castSucc).1 _ = (run _ _ ((m + 1) % 8)).1
      ∧ (sAt2 V c (⟨m + 1, hm⟩ : Fin cfg2.N).castSucc).2.1 _ = (run _ _ ((m + 1) % 8)).2.1
      ∧ (sAt2 V c (⟨m + 1, hm⟩ : Fin cfg2.N).castSucc).2.2 _ = (run _ _ ((m + 1) % 8)).2.2
    rw [hj]
    exact this

end Cert.KernelIdeal.Hand

end
-- ==== Proof.AttnFinal.lean ====
import proofs.«161176_j6906307412019_2_alg».proof.Proof.Region2
import proofs.«161176_j6906307412019_2_alg».proof.Proof.AttnIdx
import proofs.«161176_j6906307412019_2_alg».proof.Proof.AttnLaw
import proofs.«161176_j6906307412019_2_alg».proof.Proof.AttnState
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KSpec Cert.Lib.OnlineSoftmax

/-! # The attention output array

The last point of each (batch, query-tile) row stores `acc / l`, which is the plain softmax attention of the row's 256
query rows; the eight-by-two rows' blocks tile the output array. -/

variable (V : (c : Dev nD) → (b : Ref sig .tc) → Buf (Elt Ideal) ((c : Thread nD τ).loc b))

theorem idx2_3 : ∀ t : Fin cfg2.N, win2_3.index t (0 : Fin 4) = t.val / 64 ∧ win2_3.index t (1 : Fin 4) = t.val / 8 % 8
    ∧ win2_3.index t (2 : Fin 4) = 0 ∧ win2_3.index t (3 : Fin 4) = 0 :=
  (by decide +kernel : ∀ t : Fin grid2.N, win2_3.index t (0 : Fin 4) = t.val / 64 ∧ win2_3.index t (1 : Fin 4) = t.val / 8 % 8
    ∧ win2_3.index t (2 : Fin 4) = 0 ∧ win2_3.index t (3 : Fin 4) = 0)

/-- The array the region leaves: plain softmax attention, entry by entry. -/
def attnArr (qr kr vr : Fin 2 → Fin 2048 → Fin 16 → Fin 64 → ℝ) : S2x2048x16x64.Idx → EReal :=
  fun i => ((attnPlain qr kr vr (i 0) (i 1) (i 2) (i 3) : ℝ) : EReal)

/-- The block a row's last point stores, entry by entry. -/
theorem out_block_apply (c : Dev nD) (qr kr vr : Fin 2 → Fin 2048 → Fin 16 → Fin 64 → ℝ)
    (hq : ∀ i, V c main_v64 i = ((qr (i 0) (i 1) (i 2) (i 3) : ℝ) : EReal))
    (hk : ∀ i, V c main_v65 i = ((kr (i 0) (i 1) (i 2) (i 3) : ℝ) : EReal))
    (hv : ∀ i, V c main_v66 i = ((vr (i 0) (i 1) (i 2) (i 3) : ℝ) : EReal))
    (m : ℕ) (hm : m < cfg2.N) (h7 : m % 8 = 7) (z : Fin 1) (n : Fin 256) (h : Fin 16) (d : Fin 64) (bb : Fin 2) (i : Fin 2048)
    (hb : bb.val = m / 64) (hi : i.val = 256 * (m / 8 % 8) + n.val) :
    k2_pay4 (F := Ideal) (sAt2 V c (⟨m, hm⟩ : Fin cfg2.N).succ).2.2 (sAt2 V c (⟨m, hm⟩ : Fin cfg2.N).succ).2.1 (ix4 z n h d)
      = ((attnPlain qr kr vr bb i h d : ℝ) : EReal) := by
  obtain ⟨-, p2, p3⟩ := state_run V c qr kr vr hq hk hv m hm h n d bb i hb hi
  rw [pay4_apply, p2, p3, h7]
  exact flash_attn qr kr vr bb i h d

/-- What a row's last point writes back is its block of `attnArr`. -/
theorem flushed2_3_eq (c : Dev nD) (qr kr vr : Fin 2 → Fin 2048 → Fin 16 → Fin 64 → ℝ)
    (hq : ∀ i, V c main_v64 i = ((qr (i 0) (i 1) (i 2) (i 3) : ℝ) : EReal))
    (hk : ∀ i, V c main_v65 i = ((kr (i 0) (i 1) (i 2) (i 3) : ℝ) : EReal))
    (hv : ∀ i, V c main_v66 i = ((vr (i 0) (i 1) (i 2) (i 3) : ℝ) : EReal))
    (t : Fin cfg2.N) (hf : (cfg2.win 3).flush t = true) :
    (dat2 V c).flushed 3 t = ((cfg2.win 3).blk t).view.read (Elt Ideal) (attnArr qr kr vr) := by
  have h7 : t.val % 8 = 7 := (flush2_3 t).mp hf
  obtain ⟨m, hm⟩ := t
  have hN : m < 128 := lt_of_lt_of_eq hm N_2
  show (cfg2.win 3).cut (grid2.coords ⟨m, hm⟩) ((dat2 V c).after 3 ⟨m, hm⟩) = _
  rw [after2_3 V c ⟨m, hm⟩ h7]
  obtain ⟨e0, e1, e2, e3⟩ := idx2_3 ⟨m, hm⟩
  have key : ∀ y : S1x256x16x64.Idx,
      k2_pay4 (F := Ideal) (sAt2 V c (⟨m, hm⟩ : Fin cfg2.N).succ).2.2 (sAt2 V c (⟨m, hm⟩ : Fin cfg2.N).succ).2.1 y
        = attnArr qr kr vr (((cfg2.win 3).blk ⟨m, hm⟩).view.emb y) := by
    intro y
    obtain ⟨z, n, h, d, rfl⟩ : ∃ (z : Fin 1) (n : Fin 256) (h : Fin 16) (d : Fin 64), y = ix4 z n h d :=
      ⟨y 0, y 1, y 2, y 3, eq_ix4 y⟩
    have hz : z.val = 0 := by omega
    have hn := n.isLt
    have hemb : ((cfg2.win 3).blk ⟨m, hm⟩).view.emb (ix4 z n h d)
        = ix4 (⟨m / 64, by omega⟩ : Fin 2) (⟨256 * (m / 8 % 8) + n.val, by omega⟩ : Fin 2048) h d :=
      funext fun a => Fin.ext (by
        match a with
        | ⟨0, _⟩ => show win2_3.index ⟨m, hm⟩ 0 * 1 + 1 * z.val = m / 64; rw [e0, hz]; show m / 64 * 1 + 1 * 0 = m / 64; omega
        | ⟨1, _⟩ => show win2_3.index ⟨m, hm⟩ 1 * 256 + 1 * n.val = 256 * (m / 8 % 8) + n.val; rw [e1]; show m / 8 % 8 * 256 + 1 * n.val = _; omega
        | ⟨2, _⟩ => show win2_3.index ⟨m, hm⟩ 2 * 16 + 1 * h.val = h.val; rw [e2]; omega
        | ⟨3, _⟩ => show win2_3.index ⟨m, hm⟩ 3 * 64 + 1 * d.val = d.val; rw [e3]; omega)
    rw [hemb]
    exact out_block_apply V c qr kr vr hq hk hv m hm h7 z n h d _ _ rfl rfl
  refine funext fun y => ?_
  rw [View.read_apply]
  exact key y

/-- An index of the output array is in point `t`'s block iff each coordinate is in the block's range on its axis. -/
theorem mem_blk2_3 (t : Fin cfg2.N) (i : S2x2048x16x64.Idx) :
    i ∈ ((cfg2.win 3).blk t).view.set ↔ ∀ a : Fin 4, win2_3.index t a * S1x256x16x64.size a ≤ (i a).val
      ∧ (i a).val < win2_3.index t a * S1x256x16x64.size a + S1x256x16x64.size a := by
  show i ∈ ((View.whole main_v67).slice (win2_3.rect t)).set ↔ _
  rw [View.set_slice_whole, Rect.mem_set_unit]
  exact Iff.rfl

/-- Every index of the output array lies in the block of the last point of its (batch, query-tile) row. -/
theorem cover2_3 (i : S2x2048x16x64.Idx) :
    ∃ t : Fin cfg2.N, (cfg2.win 3).flush t = true ∧ i ∈ ((cfg2.win 3).blk t).view.set := by
  have h0 : (i 0).val < 2 := (i 0).isLt
  have h1 : (i 1).val < 2048 := (i 1).isLt
  have h2 : (i 2).val < 16 := (i 2).isLt
  have h3 : (i 3).val < 64 := (i 3).isLt
  have hN : cfg2.N = 128 := N_2
  have hlt : 64 * (i 0).val + 8 * ((i 1).val / 256) + 7 < cfg2.N := by rw [hN]; omega
  obtain ⟨e0, e1, e2, e3⟩ := idx2_3 ⟨64 * (i 0).val + 8 * ((i 1).val / 256) + 7, hlt⟩
  have e0' : win2_3.index ⟨64 * (i 0).val + 8 * ((i 1).val / 256) + 7, hlt⟩ (0 : Fin 4) = (64 * (i 0).val + 8 * ((i 1).val / 256) + 7) / 64 := e0
  have e1' : win2_3.index ⟨64 * (i 0).val + 8 * ((i 1).val / 256) + 7, hlt⟩ (1 : Fin 4) = (64 * (i 0).val + 8 * ((i 1).val / 256) + 7) / 8 % 8 := e1
  refine ⟨⟨64 * (i 0).val + 8 * ((i 1).val / 256) + 7, hlt⟩, (flush2_3 _).mpr ?_, ?_⟩
  · show (64 * (i 0).val + 8 * ((i 1).val / 256) + 7) % 8 = 7
    omega
  · rw [mem_blk2_3]
    intro a
    match a with
    | ⟨0, _⟩ =>
      show win2_3.index _ (0 : Fin 4) * 1 ≤ (i 0).val ∧ (i 0).val < win2_3.index _ (0 : Fin 4) * 1 + 1
      rw [e0']; omega
    | ⟨1, _⟩ =>
      show win2_3.index _ (1 : Fin 4) * 256 ≤ (i 1).val ∧ (i 1).val < win2_3.index _ (1 : Fin 4) * 256 + 256
      rw [e1']; omega
    | ⟨2, _⟩ =>
      show win2_3.index _ (2 : Fin 4) * 16 ≤ (i 2).val ∧ (i 2).val < win2_3.index _ (2 : Fin 4) * 16 + 16
      rw [e2]; omega
    | ⟨3, _⟩ =>
      show win2_3.index _ (3 : Fin 4) * 64 ≤ (i 3).val ∧ (i 3).val < win2_3.index _ (3 : Fin 4) * 64 + 64
      rw [e3]; omega

/-- THE ATTENTION OUTPUT: with the three arrays the region reads holding casts of reals, the array it writes ends
    holding, entry by entry, the plain softmax attention of those reals. -/
theorem final2 (V : (c : Dev nD) → (b : Ref sig .tc) → Buf (Elt Ideal) ((c : Thread nD τ).loc b)) (c : Dev nD)
    (qr kr vr : Fin 2 → Fin 2048 → Fin 16 → Fin 64 → ℝ)
    (hq : ∀ i, V c main_v64 i = ((qr (i 0) (i 1) (i 2) (i 3) : ℝ) : EReal))
    (hk : ∀ i, V c main_v65 i = ((kr (i 0) (i 1) (i 2) (i 3) : ℝ) : EReal))
    (hv : ∀ i, V c main_v66 i = ((vr (i 0) (i 1) (i 2) (i 3) : ℝ) : EReal)) :
    ∀ i, (dat2 (F := Ideal) V c).arrAt 3 cfg2.N i = ((Cert.KSpec.attnPlain qr kr vr (i 0) (i 1) (i 2) (i 3) : ℝ) : EReal) := by
  intro i
  rw [(dat2 (F := Ideal) V c).arrAt_eq_of_cover 3 (attnArr qr kr vr)
    (fun t hf => flushed2_3_eq V c qr kr vr hq hk hv t hf) cover2_3]
  rfl

end Cert.KernelIdeal.Hand

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefWeight.lean ====
/-
  The reference's weight quantisation is the specification's.

  For a weight matrix the reference computes, in this order: the absolute values; their sum over all 2²⁰ entries
  (from zero); the quotient by 2²⁰; the maximum with ε; the reciprocal `s`; entry by entry the product with `s`, the
  rounding to nearest-even, the maximum with −1, the minimum with 1, the quotient by `s`; and last the
  straight-through form `w + (q − w)`.  On a matrix of real numbers every one of these stages is the cast of the
  same real operation — the two divisors `max ε (…)` and `s` are positive — and `w + (q − w) = q` because `w` is
  finite.  So the stage is the cast of `Spec.wq`.  The program repeats the block verbatim for each of the four
  weight matrices: the three later copies are the first one, as functions.
-/
import proofs.«161176_j6906307412019_2_alg».proof.Proof.RefReadP
import proofs.«161176_j6906307412019_2_alg».proof.Proof.Spec
import proofs.«161176_j6906307412019_2_alg».proof.Proof.LibRealCast
import proofs.«161176_j6906307412019_2_alg».proof.Proof.Consts

noncomputable section

namespace Cert.ReferenceIdeal.RefValue

open Cert.ReferenceIdeal Cert.ReferenceIdeal.ReadP Idealize.ShloMosaic Idealize.ShloMosaic.ValueIdx
open Cert.Spec Cert.Lib.RealCast Cert.Consts

/-- The mean's divisor and the clamped mean are not zero. -/
theorem wden_ne_zero (m : ℝ) : max eps m ≠ 0 := (lt_max_of_lt_left eps_pos).ne'

theorem wscale_ne_zero (W : Fin 1024 → Fin 1024 → ℝ) : wscale W ≠ 0 := one_div_ne_zero (wden_ne_zero _)

/-- The scalar stages: the reciprocal of the clamped mean absolute value is the cast of `Spec.wscale`. -/
theorem weight_scale (W : Fin 1024 → Fin 1024 → ℝ) (x : (⟨S1024x1024, .f32⟩ : BufTy).Contents (Elt Ideal))
    (hx : ∀ i, x i = ((W (i 0) (i 1) : ℝ) : EReal)) (j : S_.Idx) :
    val_main_v4 (F := Ideal) x j = ((wscale W : ℝ) : EReal) := by
  rw [val_main_v4_apply, val_main_cst_2_apply, val_main_v3_apply, val_main_call0_v0_apply, val_main_cst_1_apply,
    val_main_v2_apply, val_main_cst_0_apply, val_main_v1_apply, val_main_cst_apply]
  simp only [val_main_v0_apply, hx, Ideal.ofBits_def, ofBits_zero, ofBits_one, ofBits_eps, ofBits_two_pow_20, hostAbsf_coe,
    sum_coe, ← EReal.coe_add]
  rw [hostDivf_coe _ (by norm_num : (2 ^ 20 : ℝ) ≠ 0), maximumf_coe, hostDivf_coe _ (wden_ne_zero _)]
  congr 1
  unfold wscale
  rw [zero_add, sum_idx2]

/-- The whole block, entry by entry. -/
theorem weight_block (W : Fin 1024 → Fin 1024 → ℝ) (x : (⟨S1024x1024, .f32⟩ : BufTy).Contents (Elt Ideal))
    (hx : ∀ i, x i = ((W (i 0) (i 1) : ℝ) : EReal)) (i : S1024x1024.Idx) :
    val_main_v12 (F := Ideal) x i = ((wq W (i 0) (i 1) : ℝ) : EReal) := by
  rw [val_main_v12_apply, val_main_v11_apply, hx i, addf_subf_cancel_coe]
  rw [val_main_v10_apply, val_main_v9_apply, weight_scale W x hx, val_main_v8_apply, val_main_call2_v4_apply,
    val_main_call2_v3_apply, val_main_cst_4_apply, val_main_call2_v2_apply, val_main_call2_v1_apply,
    val_main_call2_v0_apply, val_main_cst_3_apply, val_main_v7_apply, val_main_v6_apply, val_main_v5_apply,
    weight_scale W x hx, hx i]
  simp only [Ideal.ofBits_def, ofBits_one, ofBits_neg_one, mulf_coe, hostRoundeven_coe, maximumf_coe, minimumf_coe]
  rw [hostDivf_coe _ (wscale_ne_zero W)]
  rfl

/-- The block for the second, third and fourth weight matrix is the same function. -/
theorem val_main_v40_eq {F : FTy → Type} [FloatOps F] : val_main_v40 (F := F) = val_main_v12 (F := F) := rfl
theorem val_main_v68_eq {F : FTy → Type} [FloatOps F] : val_main_v68 (F := F) = val_main_v12 (F := F) := rfl
theorem val_main_v119_eq {F : FTy → Type} [FloatOps F] : val_main_v119 (F := F) = val_main_v12 (F := F) := rfl

end Cert.ReferenceIdeal.RefValue

end
-- ==== Proof.RefWeightQ.lean ====
import proofs.«161176_j6906307412019_2_alg».proof.Proof.RefWeight

noncomputable section

namespace Cert.ReferenceIdeal.RefValue

open Cert.ReferenceIdeal Cert.ReferenceIdeal.ReadP Idealize.ShloMosaic Idealize.ShloMosaic.ValueIdx
open Cert.Spec Cert.Lib.RealCast Cert.Consts

/-- The quantised matrix before the straight-through step — scaled, rounded, clamped to [−1, 1], divided by the scale —
    is, on a matrix of real numbers, the cast of the specification's ternary quantisation, entry by entry. -/
theorem weight_quant (W : Fin 1024 → Fin 1024 → ℝ) (x : (⟨S1024x1024, .f32⟩ : BufTy).Contents (Elt Ideal))
    (hx : ∀ i, x i = ((W (i 0) (i 1) : ℝ) : EReal)) (i : S1024x1024.Idx) :
    val_main_v10 (F := Ideal) x i = ((wq W (i 0) (i 1) : ℝ) : EReal) := by
  rw [val_main_v10_apply, val_main_v9_apply, weight_scale W x hx, val_main_v8_apply, val_main_call2_v4_apply,
    val_main_call2_v3_apply, val_main_cst_4_apply, val_main_call2_v2_apply, val_main_call2_v1_apply,
    val_main_call2_v0_apply, val_main_cst_3_apply, val_main_v7_apply, val_main_v6_apply, val_main_v5_apply,
    weight_scale W x hx, hx i]
  simp only [Ideal.ofBits_def, ofBits_one, ofBits_neg_one, mulf_coe, hostRoundeven_coe, maximumf_coe, minimumf_coe]
  rw [hostDivf_coe _ (wscale_ne_zero W)]
  rfl

end Cert.ReferenceIdeal.RefValue

end
-- ==== Proof.HostWeightsTail.lean ====
import proofs.«161176_j6906307412019_2_alg».proof.Proof.Gen.KernelIdeal.Regions
import Idealize.ShloMosaic.Lib.ValueIdx
import Idealize.ShloMosaic.Lib.ValueLayout
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-! # The end of a weight's host chain, read at an index -/

/-- The tail every weight chain ends with, over the quantised matrix `y`: times a broadcast constant, transposed,
    narrowed to the 16-bit format (the identity on extended reals). -/
def wtail (y : Vec Ideal S1024x1024 .f32) (cbits : BitVec 32) : Vec Ideal S1024x1024 .bf16 :=
  truncf (F := Ideal) .bf16 (transpose S1024x1024 [1, 0]
    (mulf (F := Ideal) y (broadcastInDim S1024x1024 ![] bcast_S_S1024x1024 (constant (F := Ideal) S_ .f32 cbits)))
    transposes_S1024x1024_S1024x1024_1_0) bitsLt_bf16_f32

/-- Entry (k, o) of the tail is entry (o, k) of the quantised matrix times the constant: the transposition is what
    hands the kernels the weights input-major. -/
theorem wtail_apply (y : Vec Ideal S1024x1024 .f32) (cbits : BitVec 32) (k o : Fin 1024) :
    wtail y cbits (ix2 k o) = y (ix2 o k) * Ideal.ofBits .f32 cbits := by
  unfold wtail
  rw [truncf_apply]
  refine (transpose_apply [1, 0] _ transposes_S1024x1024_S1024x1024_1_0 (ix2 k o) (ix2 o k) (fun b => ?_)).trans ?_
  · match b with
    | ⟨0, _⟩ => rfl
    | ⟨1, _⟩ => rfl
  rw [mulf_apply]
  refine congrArg (y (ix2 o k) * ·) ?_
  exact (broadcastInDim_apply (s := S_) ![] bcast_S_S1024x1024 (constant (F := Ideal) S_ .f32 cbits) (ix2 o k) ix0 (fun a => Fin.elim0 a)).trans rfl

end Cert.KernelIdeal.Hand

end
-- ==== Proof.HostWeightsA.lean ====
import proofs.«161176_j6906307412019_2_alg».proof.Proof.Gen.KernelIdeal.Regions
import proofs.«161176_j6906307412019_2_alg».proof.Proof.LibRunPieces
import proofs.«161176_j6906307412019_2_alg».proof.Proof.RefWeightQ
import proofs.«161176_j6906307412019_2_alg».proof.Proof.HostWeightsTail
import proofs.«161176_j6906307412019_2_alg».proof.Proof.Consts
import proofs.«161176_j6906307412019_2_alg».proof.Proof.Spec
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-! # The quantised weights the kernels read: the query and key projections

Before the first kernel the host quantises each weight matrix — mean absolute value, clamp, reciprocal scale, round,
clamp to [−1, 1], unscale —, multiplies by a constant (1/8 for the query weight, 1 for the others), transposes and
narrows. On a matrix of real numbers the result is the cast of the specification's quantisation, transposed. -/

variable (m : (ℓ : Loc nD τ sig) → Buf (Elt Ideal) ℓ)

set_option maxHeartbeats 1000000 in
/-- The operand the kernels read for this weight: the quantised matrix, through the tail. -/
theorem v14_eq (c : Dev nD) :
    V25 m c main_v14 = wtail (Cert.ReferenceIdeal.ReadP.val_main_v10 (F := Ideal) (m ((c : Thread nD τ).loc main_arg2))) 0x3E000000#32 := by
  show StableHlo.after hostOps0_24 (V24 m c) (Proc.devRef .tc main_v14) = _
  after_results
  simp only [Cert.Lib.RunPieces.ofBuf_toBuf, Cert.Lib.RunPieces.toBuf_ofBuf]
  rfl

set_option maxHeartbeats 1000000 in
/-- The operand the kernels read for this weight: the quantised matrix, through the tail. -/
theorem v29_eq (c : Dev nD) :
    V25 m c main_v29 = wtail (Cert.ReferenceIdeal.ReadP.val_main_v10 (F := Ideal) (m ((c : Thread nD τ).loc main_arg3))) 0x3F800000#32 := by
  show StableHlo.after hostOps0_24 (V24 m c) (Proc.devRef .tc main_v29) = _
  after_results
  simp only [Cert.Lib.RunPieces.ofBuf_toBuf, Cert.Lib.RunPieces.toBuf_ofBuf]
  rfl

/-- Entry (k, o) of the query projection's weight operand: the ternary quantisation of `Wq` at (o, k), with the
    attention's 1/8 folded in. -/
theorem w14_apply (c : Dev nD) (Wq : Fin 1024 → Fin 1024 → ℝ)
    (h : ∀ i, m ((c : Thread nD τ).loc main_arg2) i = ((Wq (i 0) (i 1) : ℝ) : EReal)) (k o : Fin 1024) :
    V25 m c main_v14 (ValueIdx.ix2 k o) = ((Cert.Spec.wq Wq o k * (1 / 8) : ℝ) : EReal) := by
  rw [v14_eq, wtail_apply, Cert.ReferenceIdeal.RefValue.weight_quant Wq _ h (ix2 o k), Cert.Consts.ofBits_eighth,
    ← EReal.coe_mul]

/-- Entry (k, o) of this projection's weight operand: the ternary quantisation of `Wk` at (o, k). -/
theorem w29_apply (c : Dev nD) (Wk : Fin 1024 → Fin 1024 → ℝ)
    (h : ∀ i, m ((c : Thread nD τ).loc main_arg3) i = ((Wk (i 0) (i 1) : ℝ) : EReal)) (k o : Fin 1024) :
    V25 m c main_v29 (ValueIdx.ix2 k o) = ((Cert.Spec.wq Wk o k : ℝ) : EReal) := by
  rw [v29_eq, wtail_apply, Cert.ReferenceIdeal.RefValue.weight_quant Wk _ h (ix2 o k), Cert.Consts.ofBits_one,
    ← EReal.coe_mul, mul_one]

end Cert.KernelIdeal.Hand

end
-- ==== Proof.HostWeightsO.lean ====
import proofs.«161176_j6906307412019_2_alg».proof.Proof.Gen.KernelIdeal.Regions
import proofs.«161176_j6906307412019_2_alg».proof.Proof.LibRunPieces
import proofs.«161176_j6906307412019_2_alg».proof.Proof.RefWeightQ
import proofs.«161176_j6906307412019_2_alg».proof.Proof.HostWeightsTail
import proofs.«161176_j6906307412019_2_alg».proof.Proof.Consts
import proofs.«161176_j6906307412019_2_alg».proof.Proof.Spec
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-! # The output projection's weight operand, stretch by stretch

The host quantises the output projection's weight matrix in seven stretches of host lines, the last of which also
multiplies by the constant 1, transposes and narrows. Each stretch is read on its own, over an arbitrary valuation of
the buffers it finds: given what the buffers it reads hold, the buffer it writes holds the next stage of the
quantisation (the stages are the reference program's, which quantises the same way). Between the stretches a buffer no
line writes is unchanged. -/

section Stretch
variable (U : Valuation τ sig (Elt Ideal)) (x : (⟨S1024x1024, .f32⟩ : BufTy).Contents (Elt Ideal))

set_option maxHeartbeats 1000000 in
/-- The mean absolute value: absolute values, their sum from zero, over 2²⁰. -/
theorem wo_mean (h5 : U (Proc.devRef .tc main_arg5) = x) :
    StableHlo.after hostOps0_18 U (Proc.devRef .tc main_v47) = Cert.ReferenceIdeal.ReadP.val_main_v2 (F := Ideal) x := by
  after_results
  rw [h5]
  rfl

set_option maxHeartbeats 1000000 in
/-- The floor `ε` is set in the same stretch. -/
theorem wo_eps : StableHlo.after hostOps0_18 U (Proc.devRef .tc main_cst_22) = Cert.ReferenceIdeal.ReadP.val_main_cst_1 (F := Ideal) := by
  after_results
  rfl

set_option maxHeartbeats 1000000 in
/-- The floored mean. -/
theorem wo_floor (h47 : U (Proc.devRef .tc main_v47) = Cert.ReferenceIdeal.ReadP.val_main_v2 (F := Ideal) x)
    (h22 : U (Proc.devRef .tc main_cst_22) = Cert.ReferenceIdeal.ReadP.val_main_cst_1 (F := Ideal)) :
    StableHlo.after hostOps0_19 U (Proc.devRef .tc main_v48) = Cert.ReferenceIdeal.ReadP.val_main_v3 (F := Ideal) x := by
  after_results
  rw [h47, h22]
  rfl

set_option maxHeartbeats 1000000 in
/-- The scale: one over the floored mean. -/
theorem wo_scale (h48 : U (Proc.devRef .tc main_v48) = Cert.ReferenceIdeal.ReadP.val_main_v3 (F := Ideal) x) :
    StableHlo.after hostOps0_20 U (Proc.devRef .tc main_v49) = Cert.ReferenceIdeal.ReadP.val_main_v4 (F := Ideal) x := by
  after_results
  rw [h48]
  rfl

set_option maxHeartbeats 1000000 in
/-- The scaled matrix. -/
theorem wo_scaled (h48 : U (Proc.devRef .tc main_v48) = Cert.ReferenceIdeal.ReadP.val_main_v3 (F := Ideal) x) (h5 : U (Proc.devRef .tc main_arg5) = x) :
    StableHlo.after hostOps0_20 U (Proc.devRef .tc main_v51) = Cert.ReferenceIdeal.ReadP.val_main_v6 (F := Ideal) x := by
  after_results
  rw [h48, h5]
  rfl

set_option maxHeartbeats 1000000 in
/-- Rounded to the nearest integer, ties to even. -/
theorem wo_round (h51 : U (Proc.devRef .tc main_v51) = Cert.ReferenceIdeal.ReadP.val_main_v6 (F := Ideal) x) :
    StableHlo.after hostOps0_21 U (Proc.devRef .tc main_v52) = Cert.ReferenceIdeal.ReadP.val_main_v7 (F := Ideal) x := by
  after_results
  rw [h51]
  rfl

set_option maxHeartbeats 1000000 in
/-- The clamp's bounds −1 and 1. -/
theorem wo_lo : StableHlo.after hostOps0_22 U (Proc.devRef .tc main_cst_24) = Cert.ReferenceIdeal.ReadP.val_main_cst_3 (F := Ideal) := by
  after_results
  rfl

set_option maxHeartbeats 1000000 in
theorem wo_hi : StableHlo.after hostOps0_22 U (Proc.devRef .tc main_cst_25) = Cert.ReferenceIdeal.ReadP.val_main_cst_4 (F := Ideal) := by
  after_results
  rfl

set_option maxHeartbeats 1000000 in
/-- Clamped to [−1, 1], from below first. -/
theorem wo_clamp (h24 : U (Proc.devRef .tc main_cst_24) = Cert.ReferenceIdeal.ReadP.val_main_cst_3 (F := Ideal))
    (h25 : U (Proc.devRef .tc main_cst_25) = Cert.ReferenceIdeal.ReadP.val_main_cst_4 (F := Ideal))
    (h52 : U (Proc.devRef .tc main_v52) = Cert.ReferenceIdeal.ReadP.val_main_v7 (F := Ideal) x) :
    StableHlo.after hostOps0_23 U (Proc.devRef .tc main_v53) = Cert.ReferenceIdeal.ReadP.val_main_v8 (F := Ideal) x := by
  after_results
  rw [h24, h25, h52]
  rfl

set_option maxHeartbeats 1000000 in
/-- Divided by the scale again, then the tail: times the constant 1, transposed, narrowed. -/
theorem wo_tail (h53 : U (Proc.devRef .tc main_v53) = Cert.ReferenceIdeal.ReadP.val_main_v8 (F := Ideal) x)
    (h49 : U (Proc.devRef .tc main_v49) = Cert.ReferenceIdeal.ReadP.val_main_v4 (F := Ideal) x) :
    StableHlo.after hostOps0_24 U (Proc.devRef .tc main_v59) = wtail (Cert.ReferenceIdeal.ReadP.val_main_v10 (F := Ideal) x) 0x3F800000#32 := by
  after_results
  rw [h53, h49]
  rfl

end Stretch

/-! ## The stretches in a row -/

variable (m : (ℓ : Loc nD τ sig) → Buf (Elt Ideal) ℓ)

/-- No host line before the weight's own chain writes the weight argument. -/
theorem wo_arg_kept (c : Dev nD) : V18 m c main_arg5 = m ((c : Thread nD τ).loc main_arg5) :=
  (V18_of m c main_arg5 (by decide)).trans <| (V17_of m c main_arg5 (by decide)).trans <|
  (V16_of m c main_arg5 (by decide)).trans <| (V15_of m c main_arg5 (by decide)).trans <|
  (V14_of m c main_arg5 (by decide)).trans <| (V13_of m c main_arg5 (by decide)).trans <|
  (V12_of m c main_arg5 (by decide)).trans <| (V11_of m c main_arg5 (by decide)).trans <|
  (V10_of m c main_arg5 (by decide)).trans <| (V9_of m c main_arg5 (by decide)).trans <|
  (V8_of m c main_arg5 (by decide)).trans <| (V7_of m c main_arg5 (by decide)).trans <|
  (V6_of m c main_arg5 (by decide)).trans <| (V5_of m c main_arg5 (by decide)).trans <|
  (V4_of m c main_arg5 (by decide)).trans <| (V3_of m c main_arg5 (by decide)).trans <|
  (V2_of m c main_arg5 (by decide)).trans <| (V1_of m c main_arg5 (by decide)).trans rfl

/-- The operand the last kernel reads for its weight: the quantised matrix, through the tail. -/
theorem wo_operand (c : Dev nD) :
    V25 m c main_v59
      = wtail (Cert.ReferenceIdeal.ReadP.val_main_v10 (F := Ideal) (m ((c : Thread nD τ).loc main_arg5))) 0x3F800000#32 := by
  have h5 := wo_arg_kept m c
  have a47 : V19 m c main_v47 = _ := wo_mean (V18 m c) _ h5
  have a22 : V19 m c main_cst_22 = _ := wo_eps (V18 m c)
  have a48 : V20 m c main_v48 = _ := wo_floor (V19 m c) _ a47 a22
  have h5' : V20 m c main_arg5 = m ((c : Thread nD τ).loc main_arg5) :=
    (V20_of m c main_arg5 (by decide)).trans ((V19_of m c main_arg5 (by decide)).trans h5)
  have a49 : V21 m c main_v49 = _ := wo_scale (V20 m c) _ a48
  have a51 : V21 m c main_v51 = _ := wo_scaled (V20 m c) _ a48 h5'
  have a52 : V22 m c main_v52 = _ := wo_round (V21 m c) _ a51
  have a24 : V23 m c main_cst_24 = _ := wo_lo (V22 m c)
  have a25 : V23 m c main_cst_25 = _ := wo_hi (V22 m c)
  have a52' : V23 m c main_v52 = _ := (V23_of m c main_v52 (by decide)).trans a52
  have a53 : V24 m c main_v53 = _ := wo_clamp (V23 m c) _ a24 a25 a52'
  have a49' : V24 m c main_v49 = _ :=
    (V24_of m c main_v49 (by decide)).trans ((V23_of m c main_v49 (by decide)).trans ((V22_of m c main_v49 (by decide)).trans a49))
  exact wo_tail (V24 m c) _ a53 a49'

/-- Entry (k, o) of the output projection's weight operand: the ternary quantisation of the weight at (o, k). -/
theorem w59_apply (c : Dev nD) (W : Fin 1024 → Fin 1024 → ℝ)
    (h : ∀ i, m ((c : Thread nD τ).loc main_arg5) i = ((W (i 0) (i 1) : ℝ) : EReal)) (k o : Fin 1024) :
    V25 m c main_v59 (ix2 k o) = ((Cert.Spec.wq W o k : ℝ) : EReal) := by
  rw [wo_operand, wtail_apply, Cert.ReferenceIdeal.RefValue.weight_quant W _ h (ix2 o k), Cert.Consts.ofBits_one,
    ← EReal.coe_mul, mul_one]

end Cert.KernelIdeal.Hand

end
-- ==== Proof.HostWeightsV.lean ====
import proofs.«161176_j6906307412019_2_alg».proof.Proof.Gen.KernelIdeal.Regions
import proofs.«161176_j6906307412019_2_alg».proof.Proof.LibRunPieces
import proofs.«161176_j6906307412019_2_alg».proof.Proof.RefWeightQ
import proofs.«161176_j6906307412019_2_alg».proof.Proof.HostWeightsTail
import proofs.«161176_j6906307412019_2_alg».proof.Proof.Consts
import proofs.«161176_j6906307412019_2_alg».proof.Proof.Spec
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-! # The value projection's weight operand, stretch by stretch

The host quantises the value projection's weight matrix in seven stretches of host lines, the last of which also multiplies by the
constant 1, transposes and narrows. Each stretch is read on its own, over an arbitrary valuation of the buffers it
finds: given what the buffers it reads hold, the buffer it writes holds the next stage of the quantisation (the stages
are the reference program's, which quantises the same way). Between the stretches, and after the last of them, a buffer
no line writes is unchanged. -/

section Stretch
variable (U : Valuation τ sig (Elt Ideal)) (x : (⟨S1024x1024, .f32⟩ : BufTy).Contents (Elt Ideal))

set_option maxHeartbeats 1000000 in
/-- The mean absolute value: absolute values, their sum from zero, over 2²⁰. -/
theorem wv_mean (h5 : U (Proc.devRef .tc main_arg4) = x) :
    StableHlo.after hostOps0_12 U (Proc.devRef .tc main_v32) = Cert.ReferenceIdeal.ReadP.val_main_v2 (F := Ideal) x := by
  after_results
  rw [h5]
  rfl

set_option maxHeartbeats 1000000 in
/-- The floor `ε` is set in the same stretch. -/
theorem wv_eps : StableHlo.after hostOps0_12 U (Proc.devRef .tc main_cst_15) = Cert.ReferenceIdeal.ReadP.val_main_cst_1 (F := Ideal) := by
  after_results
  rfl

set_option maxHeartbeats 1000000 in
/-- The floored mean. -/
theorem wv_floor (h47 : U (Proc.devRef .tc main_v32) = Cert.ReferenceIdeal.ReadP.val_main_v2 (F := Ideal) x)
    (h22 : U (Proc.devRef .tc main_cst_15) = Cert.ReferenceIdeal.ReadP.val_main_cst_1 (F := Ideal)) :
    StableHlo.after hostOps0_13 U (Proc.devRef .tc main_v33) = Cert.ReferenceIdeal.ReadP.val_main_v3 (F := Ideal) x := by
  after_results
  rw [h47, h22]
  rfl

set_option maxHeartbeats 1000000 in
/-- The scale: one over the floored mean. -/
theorem wv_scale (h48 : U (Proc.devRef .tc main_v33) = Cert.ReferenceIdeal.ReadP.val_main_v3 (F := Ideal) x) :
    StableHlo.after hostOps0_14 U (Proc.devRef .tc main_v34) = Cert.ReferenceIdeal.ReadP.val_main_v4 (F := Ideal) x := by
  after_results
  rw [h48]
  rfl

set_option maxHeartbeats 1000000 in
/-- The scaled matrix. -/
theorem wv_scaled (h48 : U (Proc.devRef .tc main_v33) = Cert.ReferenceIdeal.ReadP.val_main_v3 (F := Ideal) x) (h5 : U (Proc.devRef .tc main_arg4) = x) :
    StableHlo.after hostOps0_14 U (Proc.devRef .tc main_v36) = Cert.ReferenceIdeal.ReadP.val_main_v6 (F := Ideal) x := by
  after_results
  rw [h48, h5]
  rfl

set_option maxHeartbeats 1000000 in
/-- Rounded to the nearest integer, ties to even. -/
theorem wv_round (h51 : U (Proc.devRef .tc main_v36) = Cert.ReferenceIdeal.ReadP.val_main_v6 (F := Ideal) x) :
    StableHlo.after hostOps0_15 U (Proc.devRef .tc main_v37) = Cert.ReferenceIdeal.ReadP.val_main_v7 (F := Ideal) x := by
  after_results
  rw [h51]
  rfl

set_option maxHeartbeats 1000000 in
/-- The clamp's bounds −1 and 1. -/
theorem wv_lo : StableHlo.after hostOps0_16 U (Proc.devRef .tc main_cst_17) = Cert.ReferenceIdeal.ReadP.val_main_cst_3 (F := Ideal) := by
  after_results
  rfl

set_option maxHeartbeats 1000000 in
theorem wv_hi : StableHlo.after hostOps0_16 U (Proc.devRef .tc main_cst_18) = Cert.ReferenceIdeal.ReadP.val_main_cst_4 (F := Ideal) := by
  after_results
  rfl

set_option maxHeartbeats 1000000 in
/-- Clamped to [−1, 1], from below first. -/
theorem wv_clamp (h24 : U (Proc.devRef .tc main_cst_17) = Cert.ReferenceIdeal.ReadP.val_main_cst_3 (F := Ideal))
    (h25 : U (Proc.devRef .tc main_cst_18) = Cert.ReferenceIdeal.ReadP.val_main_cst_4 (F := Ideal))
    (h52 : U (Proc.devRef .tc main_v37) = Cert.ReferenceIdeal.ReadP.val_main_v7 (F := Ideal) x) :
    StableHlo.after hostOps0_17 U (Proc.devRef .tc main_v38) = Cert.ReferenceIdeal.ReadP.val_main_v8 (F := Ideal) x := by
  after_results
  rw [h24, h25, h52]
  rfl

set_option maxHeartbeats 1000000 in
/-- Divided by the scale again, then the tail: times the constant 1, transposed, narrowed. -/
theorem wv_tail (h53 : U (Proc.devRef .tc main_v38) = Cert.ReferenceIdeal.ReadP.val_main_v8 (F := Ideal) x)
    (h49 : U (Proc.devRef .tc main_v34) = Cert.ReferenceIdeal.ReadP.val_main_v4 (F := Ideal) x) :
    StableHlo.after hostOps0_18 U (Proc.devRef .tc main_v44) = wtail (Cert.ReferenceIdeal.ReadP.val_main_v10 (F := Ideal) x) 0x3F800000#32 := by
  after_results
  rw [h53, h49]
  rfl

end Stretch

/-! ## The stretches in a row -/

variable (m : (ℓ : Loc nD τ sig) → Buf (Elt Ideal) ℓ)

/-- No host line before the weight's own chain writes the weight argument. -/
theorem wv_arg_kept (c : Dev nD) : V12 m c main_arg4 = m ((c : Thread nD τ).loc main_arg4) :=
  (V12_of m c main_arg4 (by decide)).trans <| (V11_of m c main_arg4 (by decide)).trans <|
  (V10_of m c main_arg4 (by decide)).trans <| (V9_of m c main_arg4 (by decide)).trans <|
  (V8_of m c main_arg4 (by decide)).trans <| (V7_of m c main_arg4 (by decide)).trans <|
  (V6_of m c main_arg4 (by decide)).trans <| (V5_of m c main_arg4 (by decide)).trans <|
  (V4_of m c main_arg4 (by decide)).trans <| (V3_of m c main_arg4 (by decide)).trans <|
  (V2_of m c main_arg4 (by decide)).trans <| (V1_of m c main_arg4 (by decide)).trans rfl

/-- The operand the kernel reads for its weight: the quantised matrix, through the tail. -/
theorem wv_operand (c : Dev nD) :
    V25 m c main_v44
      = wtail (Cert.ReferenceIdeal.ReadP.val_main_v10 (F := Ideal) (m ((c : Thread nD τ).loc main_arg4))) 0x3F800000#32 := by
  have h5 := wv_arg_kept m c
  have a47 : V13 m c main_v32 = _ := wv_mean (V12 m c) _ h5
  have a22 : V13 m c main_cst_15 = _ := wv_eps (V12 m c)
  have a48 : V14 m c main_v33 = _ := wv_floor (V13 m c) _ a47 a22
  have h5' : V14 m c main_arg4 = m ((c : Thread nD τ).loc main_arg4) :=
    (V14_of m c main_arg4 (by decide)).trans ((V13_of m c main_arg4 (by decide)).trans h5)
  have a49 : V15 m c main_v34 = _ := wv_scale (V14 m c) _ a48
  have a51 : V15 m c main_v36 = _ := wv_scaled (V14 m c) _ a48 h5'
  have a52 : V16 m c main_v37 = _ := wv_round (V15 m c) _ a51
  have a24 : V17 m c main_cst_17 = _ := wv_lo (V16 m c)
  have a25 : V17 m c main_cst_18 = _ := wv_hi (V16 m c)
  have a52' : V17 m c main_v37 = _ := (V17_of m c main_v37 (by decide)).trans a52
  have a53 : V18 m c main_v38 = _ := wv_clamp (V17 m c) _ a24 a25 a52'
  have a49' : V18 m c main_v34 = _ :=
    (V18_of m c main_v34 (by decide)).trans ((V17_of m c main_v34 (by decide)).trans ((V16_of m c main_v34 (by decide)).trans a49))
  have aout : V19 m c main_v44 = _ := wv_tail (V18 m c) _ a53 a49'
  exact (V25_of m c main_v44 (by decide)).trans <| (V24_of m c main_v44 (by decide)).trans <| (V23_of m c main_v44 (by decide)).trans <| (V22_of m c main_v44 (by decide)).trans <| (V21_of m c main_v44 (by decide)).trans <| (V20_of m c main_v44 (by decide)).trans <| aout

/-- Entry (k, o) of the value projection's weight operand: the ternary quantisation of the weight at (o, k). -/
theorem w44_apply (c : Dev nD) (W : Fin 1024 → Fin 1024 → ℝ)
    (h : ∀ i, m ((c : Thread nD τ).loc main_arg4) i = ((W (i 0) (i 1) : ℝ) : EReal)) (k o : Fin 1024) :
    V25 m c main_v44 (ix2 k o) = ((Cert.Spec.wq W o k : ℝ) : EReal) := by
  rw [wv_operand, wtail_apply, Cert.ReferenceIdeal.RefValue.weight_quant W _ h (ix2 o k), Cert.Consts.ofBits_one,
    ← EReal.coe_mul, mul_one]

end Cert.KernelIdeal.Hand

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«161176_j6906307412019_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.Pay.lean ====
import proofs.«161176_j6906307412019_2_alg».proof.Proof.Gen.KernelIdeal.Skeleton
import proofs.«161176_j6906307412019_2_alg».proof.Proof.KSpec
import proofs.«161176_j6906307412019_2_alg».proof.Proof.LibRowMax
import proofs.«161176_j6906307412019_2_alg».proof.Proof.LibVecIx2
import proofs.«161176_j6906307412019_2_alg».proof.Proof.LibPlainDot
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-! # The quantised row block, and the products, at an entry

At the ideal instance a change of float format is the identity and every operation is the exact one, so the body's
arithmetic read at one entry is the specification's row function: the row's scale is a column (one value per row)
broadcast along the row, the row maximum is a fold from −∞, and the matrix product is the plain sum over the
contracted coordinate. -/

theorem roundeven_at {s : Shape} {φ : FTy} (a : FVec Ideal s φ) (i : s.Idx) :
    roundeven a i = Ideal.liftRound Ideal.roundHalfEven (a i) := rfl

theorem absf_at {s : Shape} {φ : FTy} (a : FVec Ideal s φ) (i : s.Idx) : absf a i = max (a i) (-(a i)) := rfl

/-- The row scales, one per row, broadcast along the rows: at (p, q) the scale of row p, whatever q. The broadcast
    reads the column at p, the column is 127 over the floored row maximum, and the row maximum of the absolute values
    is their fold from −∞. -/
theorem scale_at (v : FVec Ideal S512x1024 .f32) (hφ : FKind.Formats .f32)
    (hacc : (0xFF800000#32 : BitVec 32) = 0xFF800000#32) (p : Fin 512) (q : Fin 1024) :
    broadcastTo S512x1024
        (divf (broadcast S512x1 (FloatOps.ofBits (F := Ideal) .f32 0x42FE0000#32))
          (maximumf (broadcast S512x1 (FloatOps.ofBits (F := Ideal) .f32 0x3727C5AC#32))
            (shapeCast S512x1 (multiReduction .maximumf [1] S512 (absf v) 0xFF800000#32 reduces_S512x1024_S512 hφ hacc)
              shapeCasts_S512_S512x1)))
        broadcasts_S512x1_S512x1024 (ix2 p q)
      = Cert.KSpec.scaleE (fun k => v (ix2 p k)) := by
  rw [Cert.Lib.VecIx2.bcast_col, divf_apply, maximumf_apply, broadcast_apply, broadcast_apply,
    Cert.Lib.RowMax.rowmax_column (absf v) reduces_S512x1024_S512 hφ hacc shapeCasts_S512_S512x1 p (0 : Fin 1)]
  simp only [absf_at, Ideal.ofBits_def]
  rfl

/-- The quantised block at (p, k) is the quantisation of row p at k. -/
theorem quant_at (v0 : Vec Ideal S512x1024 .f32) (p : Fin 512) (k : Fin 1024) :
    k1_pay1 (F := Ideal) v0 (ix2 p k) = Cert.KSpec.aqE (fun k => v0 (ix2 p k)) k := by
  unfold k1_pay1
  dsimp only
  rw [truncf_apply, divf_apply, minimumf_apply, maximumf_apply, broadcast_apply, broadcast_apply, roundeven_at,
    mulf_apply, shapeCast_self, scale_at, Ideal.ofBits_def, Ideal.ofBits_def]
  rfl

/-- The matrix product's dimension numbers are the plain ones: rows by columns, no batch. -/
theorem dot_plain : dot_S512x1024_S1024x1024_S512x1024_1_0_0_1_n_n = DotDims.plain 512 1024 1024 := rfl

/-- The product of the quantised block with a 1024 × 1024 matrix, accumulated from zero: the body's term. -/
def qdot (x0 : Vec Ideal S512x1024 .f32) (w : Vec Ideal S1024x1024 .bf16) : FVec Ideal S512x1024 .f32 :=
  matmul dot_S512x1024_S1024x1024_S512x1024_1_0_0_1_n_n none (k1_pay1 (F := Ideal) x0)
    (shapeCast S1024x1024 w shapeCasts_S1024x1024_S1024x1024 : FVec Ideal S1024x1024 .bf16)
    (constant S512x1024 .f32 0x00000000#32 : FVec Ideal S512x1024 .f32)

/-- Its entry (p, q): the sum over `k` of the quantised row p at `k` times the matrix at (k, q). -/
theorem qdot_at (x0 : Vec Ideal S512x1024 .f32) (w : Vec Ideal S1024x1024 .bf16) (p : Fin 512) (q : Fin 1024) :
    qdot x0 w (ix2 p q) = ∑ k : Fin 1024, Cert.KSpec.aqE (fun k => x0 (ix2 p k)) k * w (ix2 k q) := by
  unfold qdot
  rw [shapeCast_self, dot_plain]
  refine (Cert.PlainDot.matmul_zero_plain_apply none (k1_pay1 (F := Ideal) x0) (w : FVec Ideal S1024x1024 .bf16) p q).trans ?_
  exact Finset.sum_congr rfl fun k _ => by rw [quant_at]

/-! ## The four stored payloads

Each is the product above: the four bodies spell the same operations, and at the ideal instance the closing change of
format is the identity. -/

theorem pay0_at (x0 : Vec Ideal S512x1024 .f32) (x1 : Vec Ideal S1024x1024 .bf16) (p : Fin 512) (q : Fin 1024) :
    k0_pay1 (F := Ideal) x0 x1 (ix2 p q) = ∑ k : Fin 1024, Cert.KSpec.aqE (fun k => x0 (ix2 p k)) k * x1 (ix2 k q) :=
  (show k0_pay1 (F := Ideal) x0 x1 (ix2 p q) = qdot x0 x1 (ix2 p q) from rfl).trans (qdot_at x0 x1 p q)

theorem pay3_at (x0 : Vec Ideal S512x1024 .f32) (x1 : Vec Ideal S1024x1024 .bf16) (p : Fin 512) (q : Fin 1024) :
    k3_pay1 (F := Ideal) x0 x1 (ix2 p q) = ∑ k : Fin 1024, Cert.KSpec.aqE (fun k => x0 (ix2 p k)) k * x1 (ix2 k q) :=
  (show k3_pay1 (F := Ideal) x0 x1 (ix2 p q) = qdot x0 x1 (ix2 p q) from rfl).trans (qdot_at x0 x1 p q)

theorem pay1_3_at (x0 : Vec Ideal S512x1024 .f32) (x1 : Vec Ideal S1024x1024 .bf16) (p : Fin 512) (q : Fin 1024) :
    k1_pay2 (F := Ideal) x0 x1 (ix2 p q) = ∑ k : Fin 1024, Cert.KSpec.aqE (fun k => x0 (ix2 p k)) k * x1 (ix2 k q) :=
  (show k1_pay2 (F := Ideal) x0 x1 (ix2 p q) = qdot x0 x1 (ix2 p q) from rfl).trans (qdot_at x0 x1 p q)

theorem pay1_4_at (x0 : Vec Ideal S512x1024 .f32) (x2 : Vec Ideal S1024x1024 .bf16) (p : Fin 512) (q : Fin 1024) :
    k1_pay3 (F := Ideal) x0 x2 (ix2 p q) = ∑ k : Fin 1024, Cert.KSpec.aqE (fun k => x0 (ix2 p k)) k * x2 (ix2 k q) :=
  (show k1_pay3 (F := Ideal) x0 x2 (ix2 p q) = qdot x0 x2 (ix2 p q) from rfl).trans (qdot_at x0 x2 p q)

end Cert.KernelIdeal.Hand

end
-- ==== Proof.Final0.lean ====
import proofs.«161176_j6906307412019_2_alg».proof.Proof.Region0
import proofs.«161176_j6906307412019_2_alg».proof.Proof.Pay
import proofs.«161176_j6906307412019_2_alg».proof.Proof.KSpec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 0: from the blocks to the array

Grid point `t` writes back rows 512·t … 512·t + 511 of the result, computed from the same rows of the activations
and from the whole weight matrix. Row by row that is the projection of the activations by the matrix, and the eight
blocks cover the result, so after the region the result array is the projection. -/

theorem hz0 : (![0, 0] : Fin 2 → Nat) = fun _ => 0 := funext fun a => by fin_cases a <;> rfl

/-- The index maps over the grid: the activations' and the result's block is block `t` of the rows, all the columns;
    the weights' block is the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t` is rows 512·t … of the activations' array. -/
theorem iblk0_0_apply (c : Dev nD) (t : Fin cfg0.N) (x : S512x1024.Idx) (k : S4096x1024.Idx)
    (hk0 : (k 0).val = 512 * t.val + (x 0).val) (hk1 : (k 1).val = (x 1).val) :
    (iblk0 V c 0 t : Vec Ideal S512x1024 .f32) x = (V c main_v60 : S4096x1024.Idx → EReal) k := by
  obtain ⟨e0, e1, -⟩ := idx0 t
  unfold iblk0
  rw [View.read_apply]
  show V c main_v60 _ = V c main_v60 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weights' block at every point is the weight matrix. -/
theorem iblk0_1_apply (c : Dev nD) (t : Fin cfg0.N) (x : S1024x1024.Idx) :
    (iblk0 V c 1 t : Vec Ideal S1024x1024 .bf16) x = (V c main_v14 : S1024x1024.Idx → EReal) x := by
  obtain ⟨-, -, e2, e3, -⟩ := idx0 t
  unfold iblk0
  rw [View.read_apply]
  show V c main_v14 _ = V c main_v14 _
  congr 1
  funext a
  apply Fin.ext
  match a with
  | ⟨0, _⟩ => show win0_1.index t 0 * 1024 + 1 * (x 0).val = (x 0).val; rw [e2]; omega
  | ⟨1, _⟩ => show win0_1.index t 1 * 1024 + 1 * (x 1).val = (x 1).val; rw [e3]; omega

/-- What point `t` writes back is block `t` of the projection of the arrays as the region finds them. -/
theorem flushed0_eq (c : Dev nD) (t : Fin cfg0.N) :
    (dat0 (F := Ideal) V c).flushed 2 t
      = ((cfg0.win 2).blk t).view.read (Elt Ideal) (Cert.KSpec.projE (V c main_v60) (V c main_v14)) := by
  show (cfg0.win 2).cut (grid0.coords t) ((dat0 (F := Ideal) V c).after 2 t) = _
  rw [after0_2]
  unfold out0_2
  rw [View.canon_unit_zero hz0]
  simp only [View.ld_unit_zero (S := S512x1024) hz0, View.ld_unit_zero (S := S1024x1024) hz0]
  obtain ⟨-, -, -, -, e4, e5⟩ := idx0 t
  funext j
  obtain ⟨p, q, rfl⟩ : ∃ (p : Fin 512) (q : Fin 1024), j = ix2 p q := ⟨j 0, j 1, eq_ix2 j⟩
  rw [View.read_apply]
  show k0_pay1 (F := Ideal) (iblk0 V c 0 t) (iblk0 V c 1 t) (ix2 p q)
    = Cert.KSpec.projE (V c main_v60) (V c main_v14) (((cfg0.win 2).blk t).view.emb (ix2 p q))
  have hr : ((((cfg0.win 2).blk t).view.emb (ix2 p q)) 0).val = 512 * t.val + p.val := by
    show win0_2.index t 0 * 512 + 1 * p.val = _; rw [e4]; omega
  have hc : ((((cfg0.win 2).blk t).view.emb (ix2 p q)) 1).val = q.val := by
    show win0_2.index t 1 * 1024 + 1 * q.val = _; rw [e5]; omega
  refine (pay0_at (iblk0 V c 0 t) (iblk0 V c 1 t) p q).trans ?_
  unfold Cert.KSpec.projE
  have hrow : (fun k : Fin 1024 => (iblk0 V c 0 t : Vec Ideal S512x1024 .f32) (ix2 p k))
      = fun k : Fin 1024 => (V c main_v60 : S4096x1024.Idx → EReal)
          (ix2 (n0 := 4096) (n1 := 1024) ((((cfg0.win 2).blk t).view.emb (ix2 p q)) 0) k) :=
    funext fun k => iblk0_0_apply V c t (ix2 p k) _ hr rfl
  rw [hrow]
  refine Finset.sum_congr rfl fun k _ => ?_
  have hw : (iblk0 V c 1 t : Vec Ideal S1024x1024 .bf16) (ix2 k q)
      = (V c main_v14 : S1024x1024.Idx → EReal)
          (ix2 (n0 := 1024) (n1 := 1024) k ((((cfg0.win 2).blk t).view.emb (ix2 p q)) 1)) :=
    (iblk0_1_apply V c t (ix2 k q)).trans
      (congrArg (V c main_v14 : S1024x1024.Idx → EReal) (funext fun a => Fin.ext (by
        match a with
        | ⟨0, _⟩ => rfl
        | ⟨1, _⟩ => exact hc.symm)))
  rw [hw]

/-- An index of the result array is in point `t`'s block iff each coordinate is in the block's range on its axis. -/
theorem mem_blk0 (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v62).slice (win0_2.rect t)).set ↔ _
  rw [View.set_slice_whole, Rect.mem_set_unit]
  exact Iff.rfl

/-- Every row of the result is in the block of the point numbered by the row's block. -/
theorem cover0 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_2 _, ?_⟩
  rw [mem_blk0]
  obtain ⟨-, -, -, -, e4, e5⟩ := idx0 ⟨(i 0).val / 512, by rw [hN]; omega⟩
  intro a
  match a with
  | ⟨0, _⟩ =>
    show win0_2.index _ 0 * 512 ≤ (i 0).val ∧ (i 0).val < win0_2.index _ 0 * 512 + 512
    rw [e4]; show (i 0).val / 512 * 512 ≤ (i 0).val ∧ (i 0).val < (i 0).val / 512 * 512 + 512; omega
  | ⟨1, _⟩ =>
    show win0_2.index _ 1 * 1024 ≤ (i 1).val ∧ (i 1).val < win0_2.index _ 1 * 1024 + 1024
    rw [e5]; omega

/-- After the region the result array is the projection of the activations by the weight matrix. -/
theorem final0 (c : Dev nD) :
    (dat0 (F := Ideal) V c).arrAt 2 cfg0.N = Cert.KSpec.projE (V c main_v60) (V c main_v14) :=
  (dat0 (F := Ideal) V c).arrAt_eq_of_cover 2 (Cert.KSpec.projE (V c main_v60) (V c main_v14))
    (fun t _ => flushed0_eq V c t) (cover0)

end Cert.KernelIdeal.Hand

end
-- ==== Proof.Final3.lean ====
import proofs.«161176_j6906307412019_2_alg».proof.Proof.Region3
import proofs.«161176_j6906307412019_2_alg».proof.Proof.Pay
import proofs.«161176_j6906307412019_2_alg».proof.Proof.KSpec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 3: from the blocks to the array

Grid point `t` writes back rows 512·t … 512·t + 511 of the result, computed from the same rows of the activations
and from the whole weight matrix. Row by row that is the projection of the activations by the matrix, and the eight
blocks cover the result, so after the region the result array is the projection. -/

theorem hzero3 : (![0, 0] : Fin 2 → Nat) = fun _ => 0 := funext fun a => by fin_cases a <;> rfl

/-- The index maps over the grid: the activations' and the result's block is block `t` of the rows, all the columns;
    the weights' block is the whole matrix. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The activations' block at point `t` is rows 512·t … of the activations' array. -/
theorem iblk3_0_apply (c : Dev nD) (t : Fin cfg3.N) (x : S512x1024.Idx) (k : S4096x1024.Idx)
    (hk0 : (k 0).val = 512 * t.val + (x 0).val) (hk1 : (k 1).val = (x 1).val) :
    (iblk3 V c 0 t : Vec Ideal S512x1024 .f32) x = (V c main_v68 : S4096x1024.Idx → EReal) k := by
  obtain ⟨e0, e1, -⟩ := idx3 t
  unfold iblk3
  rw [View.read_apply]
  show V c main_v68 _ = V c main_v68 _
  congr 1
  funext a
  apply Fin.ext
  match a with
  | ⟨0, _⟩ => show win3_0.index t 0 * 512 + 1 * (x 0).val = (k 0).val; rw [e0, hk0]; omega
  | ⟨1, _⟩ => show win3_0.index t 1 * 1024 + 1 * (x 1).val = (k 1).val; rw [e1, hk1]; omega

/-- The weights' block at every point is the weight matrix. -/
theorem iblk3_1_apply (c : Dev nD) (t : Fin cfg3.N) (x : S1024x1024.Idx) :
    (iblk3 V c 1 t : Vec Ideal S1024x1024 .bf16) x = (V c main_v59 : S1024x1024.Idx → EReal) x := by
  obtain ⟨-, -, e2, e3, -⟩ := idx3 t
  unfold iblk3
  rw [View.read_apply]
  show V c main_v59 _ = V c main_v59 _
  congr 1
  funext a
  apply Fin.ext
  match a with
  | ⟨0, _⟩ => show win3_1.index t 0 * 1024 + 1 * (x 0).val = (x 0).val; rw [e2]; omega
  | ⟨1, _⟩ => show win3_1.index t 1 * 1024 + 1 * (x 1).val = (x 1).val; rw [e3]; omega

/-- What point `t` writes back is block `t` of the projection of the arrays as the region finds them. -/
theorem flushed3_eq (c : Dev nD) (t : Fin cfg3.N) :
    (dat3 (F := Ideal) V c).flushed 2 t
      = ((cfg3.win 2).blk t).view.read (Elt Ideal) (Cert.KSpec.projE (V c main_v68) (V c main_v59)) := by
  show (cfg3.win 2).cut (grid3.coords t) ((dat3 (F := Ideal) V c).after 2 t) = _
  rw [after3_2]
  unfold out3_2
  rw [View.canon_unit_zero hzero3]
  simp only [View.ld_unit_zero (S := S512x1024) hzero3, View.ld_unit_zero (S := S1024x1024) hzero3]
  obtain ⟨-, -, -, -, e4, e5⟩ := idx3 t
  funext j
  obtain ⟨p, q, rfl⟩ : ∃ (p : Fin 512) (q : Fin 1024), j = ix2 p q := ⟨j 0, j 1, eq_ix2 j⟩
  rw [View.read_apply]
  show k3_pay1 (F := Ideal) (iblk3 V c 0 t) (iblk3 V c 1 t) (ix2 p q)
    = Cert.KSpec.projE (V c main_v68) (V c main_v59) (((cfg3.win 2).blk t).view.emb (ix2 p q))
  have hr : ((((cfg3.win 2).blk t).view.emb (ix2 p q)) 0).val = 512 * t.val + p.val := by
    show win3_2.index t 0 * 512 + 1 * p.val = _; rw [e4]; omega
  have hc : ((((cfg3.win 2).blk t).view.emb (ix2 p q)) 1).val = q.val := by
    show win3_2.index t 1 * 1024 + 1 * q.val = _; rw [e5]; omega
  refine (pay3_at (iblk3 V c 0 t) (iblk3 V c 1 t) p q).trans ?_
  unfold Cert.KSpec.projE
  have hrow : (fun k : Fin 1024 => (iblk3 V c 0 t : Vec Ideal S512x1024 .f32) (ix2 p k))
      = fun k : Fin 1024 => (V c main_v68 : S4096x1024.Idx → EReal)
          (ix2 (n0 := 4096) (n1 := 1024) ((((cfg3.win 2).blk t).view.emb (ix2 p q)) 0) k) :=
    funext fun k => iblk3_0_apply V c t (ix2 p k) _ hr rfl
  rw [hrow]
  refine Finset.sum_congr rfl fun k _ => ?_
  have hw : (iblk3 V c 1 t : Vec Ideal S1024x1024 .bf16) (ix2 k q)
      = (V c main_v59 : S1024x1024.Idx → EReal)
          (ix2 (n0 := 1024) (n1 := 1024) k ((((cfg3.win 2).blk t).view.emb (ix2 p q)) 1)) :=
    (iblk3_1_apply V c t (ix2 k q)).trans
      (congrArg (V c main_v59 : S1024x1024.Idx → EReal) (funext fun a => Fin.ext (by
        match a with
        | ⟨0, _⟩ => rfl
        | ⟨1, _⟩ => exact hc.symm)))
  rw [hw]

/-- An index of the result array is in point `t`'s block iff each coordinate is in the block's range on its axis. -/
theorem mem_blk3 (t : Fin cfg3.N) (i : S4096x1024.Idx) :
    i ∈ ((cfg3.win 2).blk t).view.set ↔ ∀ a : Fin 2, win3_2.index t a * S512x1024.size a ≤ (i a).val
      ∧ (i a).val < win3_2.index t a * S512x1024.size a + S512x1024.size a := by
  show i ∈ ((View.whole main_v69).slice (win3_2.rect t)).set ↔ _
  rw [View.set_slice_whole, Rect.mem_set_unit]
  exact Iff.rfl

/-- Every row of the result is in the block of the point numbered by the row's block. -/
theorem cover3 (i : S4096x1024.Idx) :
    ∃ t : Fin cfg3.N, (cfg3.win 2).flush t = true ∧ i ∈ ((cfg3.win 2).blk t).view.set := by
  have hi0 : (i 0).val < 4096 := (i 0).isLt
  have hi1 : (i 1).val < 1024 := (i 1).isLt
  have hN : cfg3.N = 8 := N_3
  refine ⟨⟨(i 0).val / 512, by rw [hN]; omega⟩, flush3_2 _, ?_⟩
  rw [mem_blk3]
  obtain ⟨-, -, -, -, e4, e5⟩ := idx3 ⟨(i 0).val / 512, by rw [hN]; omega⟩
  intro a
  match a with
  | ⟨0, _⟩ =>
    show win3_2.index _ 0 * 512 ≤ (i 0).val ∧ (i 0).val < win3_2.index _ 0 * 512 + 512
    rw [e4]; show (i 0).val / 512 * 512 ≤ (i 0).val ∧ (i 0).val < (i 0).val / 512 * 512 + 512; omega
  | ⟨1, _⟩ =>
    show win3_2.index _ 1 * 1024 ≤ (i 1).val ∧ (i 1).val < win3_2.index _ 1 * 1024 + 1024
    rw [e5]; omega

/-- After the region the result array is the projection of the activations by the weight matrix. -/
theorem final3 (c : Dev nD) :
    (dat3 (F := Ideal) V c).arrAt 2 cfg3.N = Cert.KSpec.projE (V c main_v68) (V c main_v59) :=
  (dat3 (F := Ideal) V c).arrAt_eq_of_cover 2 (Cert.KSpec.projE (V c main_v68) (V c main_v59))
    (fun t _ => flushed3_eq V c t) (cover3)

end Cert.KernelIdeal.Hand

end
-- ==== Proof.Final1.lean ====
import proofs.«161176_j6906307412019_2_alg».proof.Proof.Region1
import proofs.«161176_j6906307412019_2_alg».proof.Proof.Pay
import proofs.«161176_j6906307412019_2_alg».proof.Proof.KSpec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 1: from the blocks to the two arrays

Grid point `t` writes back rows 512·t … 512·t + 511 of each of the two results, computed from the same rows of the
context activations and from the whole of that result's weight matrix. Row by row that is the projection of the
activations by the matrix, and the eight blocks cover each result, so after the region each result array is its
projection. -/

theorem hz1 : (![0, 0] : Fin 2 → Nat) = fun _ => 0 := funext fun a => by fin_cases a <;> rfl

/-- The index maps over the grid: the activations' and the results' block is block `t` of the rows, all the columns;
    each weight matrix's block is the whole matrix. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The activations' block at point `t` is rows 512·t … of the activations' array. -/
theorem iblk1_0_apply (c : Dev nD) (t : Fin cfg1.N) (x : S512x1024.Idx) (k : S4096x1024.Idx)
    (hk0 : (k 0).val = 512 * t.val + (x 0).val) (hk1 : (k 1).val = (x 1).val) :
    (iblk1 V c 0 t : Vec Ideal S512x1024 .f32) x = (V c main_v61 : S4096x1024.Idx → EReal) k := by
  obtain ⟨e0, e1, -⟩ := idx1 t
  unfold iblk1
  rw [View.read_apply]
  show V c main_v61 _ = V c main_v61 _
  congr 1
  funext a
  apply Fin.ext
  match a with
  | ⟨0, _⟩ => show win1_0.index t 0 * 512 + 1 * (x 0).val = (k 0).val; rw [e0, hk0]; omega
  | ⟨1, _⟩ => show win1_0.index t 1 * 1024 + 1 * (x 1).val = (k 1).val; rw [e1, hk1]; omega

/-- Each weight matrix's block at every point is the matrix. -/
theorem iblk1_1_apply (c : Dev nD) (t : Fin cfg1.N) (x : S1024x1024.Idx) :
    (iblk1 V c 1 t : Vec Ideal S1024x1024 .bf16) x = (V c main_v29 : S1024x1024.Idx → EReal) x := by
  obtain ⟨-, -, e2, e3, -⟩ := idx1 t
  unfold iblk1
  rw [View.read_apply]
  show V c main_v29 _ = V c main_v29 _
  congr 1
  funext a
  apply Fin.ext
  match a with
  | ⟨0, _⟩ => show win1_1.index t 0 * 1024 + 1 * (x 0).val = (x 0).val; rw [e2]; omega
  | ⟨1, _⟩ => show win1_1.index t 1 * 1024 + 1 * (x 1).val = (x 1).val; rw [e3]; omega

theorem iblk1_2_apply (c : Dev nD) (t : Fin cfg1.N) (x : S1024x1024.Idx) :
    (iblk1 V c 2 t : Vec Ideal S1024x1024 .bf16) x = (V c main_v44 : S1024x1024.Idx → EReal) x := by
  obtain ⟨-, -, -, -, e2, e3, -⟩ := idx1 t
  unfold iblk1
  rw [View.read_apply]
  show V c main_v44 _ = V c main_v44 _
  congr 1
  funext a
  apply Fin.ext
  match a with
  | ⟨0, _⟩ => show win1_2.index t 0 * 1024 + 1 * (x 0).val = (x 0).val; rw [e2]; omega
  | ⟨1, _⟩ => show win1_2.index t 1 * 1024 + 1 * (x 1).val = (x 1).val; rw [e3]; omega

/-- What point `t` writes back through window 3 is block `t` of the projection by the first matrix. -/
theorem flushed1_3_eq (c : Dev nD) (t : Fin cfg1.N) :
    (dat1 (F := Ideal) V c).flushed 3 t
      = ((cfg1.win 3).blk t).view.read (Elt Ideal) (Cert.KSpec.projE (V c main_v61) (V c main_v29)) := by
  show (cfg1.win 3).cut (grid1.coords t) ((dat1 (F := Ideal) V c).after 3 t) = _
  rw [after1_3]
  unfold out1_3
  rw [View.canon_unit_zero hz1]
  simp only [View.ld_unit_zero (S := S512x1024) hz1, View.ld_unit_zero (S := S1024x1024) hz1]
  obtain ⟨-, -, -, -, -, -, e3, e3', e4, e4'⟩ := idx1 t
  funext j
  obtain ⟨p, q, rfl⟩ : ∃ (p : Fin 512) (q : Fin 1024), j = ix2 p q := ⟨j 0, j 1, eq_ix2 j⟩
  rw [View.read_apply]
  show k1_pay2 (F := Ideal) (iblk1 V c 0 t) (iblk1 V c 1 t) (ix2 p q)
    = Cert.KSpec.projE (V c main_v61) (V c main_v29) (((cfg1.win 3).blk t).view.emb (ix2 p q))
  have hr : ((((cfg1.win 3).blk t).view.emb (ix2 p q)) 0).val = 512 * t.val + p.val := by
    show win1_3.index t 0 * 512 + 1 * p.val = _; rw [e3]; omega
  have hc : ((((cfg1.win 3).blk t).view.emb (ix2 p q)) 1).val = q.val := by
    show win1_3.index t 1 * 1024 + 1 * q.val = _; rw [e3']; omega
  refine (pay1_3_at (iblk1 V c 0 t) (iblk1 V c 1 t) p q).trans ?_
  unfold Cert.KSpec.projE
  have hrow : (fun k : Fin 1024 => (iblk1 V c 0 t : Vec Ideal S512x1024 .f32) (ix2 p k))
      = fun k : Fin 1024 => (V c main_v61 : S4096x1024.Idx → EReal)
          (ix2 (n0 := 4096) (n1 := 1024) ((((cfg1.win 3).blk t).view.emb (ix2 p q)) 0) k) :=
    funext fun k => iblk1_0_apply V c t (ix2 p k) _ hr rfl
  rw [hrow]
  refine Finset.sum_congr rfl fun k _ => ?_
  have hw : (iblk1 V c 1 t : Vec Ideal S1024x1024 .bf16) (ix2 k q)
      = (V c main_v29 : S1024x1024.Idx → EReal)
          (ix2 (n0 := 1024) (n1 := 1024) k ((((cfg1.win 3).blk t).view.emb (ix2 p q)) 1)) :=
    (iblk1_1_apply V c t (ix2 k q)).trans
      (congrArg (V c main_v29 : S1024x1024.Idx → EReal) (funext fun a => Fin.ext (by
        match a with
        | ⟨0, _⟩ => rfl
        | ⟨1, _⟩ => exact hc.symm)))
  rw [hw]

/-- An index of that result array is in point `t`'s block iff each coordinate is in the block's range on its axis. -/
theorem mem_blk1_3 (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v63_0).slice (win1_3.rect t)).set ↔ _
  rw [View.set_slice_whole, Rect.mem_set_unit]
  exact Iff.rfl

/-- Every row of that result is in the block of the point numbered by the row's block. -/
theorem cover1_3 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  refine ⟨⟨(i 0).val / 512, by rw [hN]; omega⟩, flush1_3 _, ?_⟩
  rw [mem_blk1_3]
  obtain ⟨-, -, -, -, -, -, e3, e3', e4, e4'⟩ := idx1 ⟨(i 0).val / 512, by rw [hN]; omega⟩
  intro a
  match a with
  | ⟨0, _⟩ =>
    show win1_3.index _ 0 * 512 ≤ (i 0).val ∧ (i 0).val < win1_3.index _ 0 * 512 + 512
    rw [e3]; show (i 0).val / 512 * 512 ≤ (i 0).val ∧ (i 0).val < (i 0).val / 512 * 512 + 512; omega
  | ⟨1, _⟩ =>
    show win1_3.index _ 1 * 1024 ≤ (i 1).val ∧ (i 1).val < win1_3.index _ 1 * 1024 + 1024
    rw [e3']; omega

/-- After the region that result array is the projection of the activations by its weight matrix. -/
theorem final1_3 (c : Dev nD) :
    (dat1 (F := Ideal) V c).arrAt 3 cfg1.N = Cert.KSpec.projE (V c main_v61) (V c main_v29) :=
  (dat1 (F := Ideal) V c).arrAt_eq_of_cover 3 (Cert.KSpec.projE (V c main_v61) (V c main_v29))
    (fun t _ => flushed1_3_eq V c t) (cover1_3)

/-- What point `t` writes back through window 4 is block `t` of the projection by the second matrix. -/
theorem flushed1_4_eq (c : Dev nD) (t : Fin cfg1.N) :
    (dat1 (F := Ideal) V c).flushed 4 t
      = ((cfg1.win 4).blk t).view.read (Elt Ideal) (Cert.KSpec.projE (V c main_v61) (V c main_v44)) := by
  show (cfg1.win 4).cut (grid1.coords t) ((dat1 (F := Ideal) V c).after 4 t) = _
  rw [after1_4]
  unfold out1_4
  rw [View.canon_unit_zero hz1]
  simp only [View.ld_unit_zero (S := S512x1024) hz1, View.ld_unit_zero (S := S1024x1024) hz1]
  obtain ⟨-, -, -, -, -, -, e3, e3', e4, e4'⟩ := idx1 t
  funext j
  obtain ⟨p, q, rfl⟩ : ∃ (p : Fin 512) (q : Fin 1024), j = ix2 p q := ⟨j 0, j 1, eq_ix2 j⟩
  rw [View.read_apply]
  show k1_pay3 (F := Ideal) (iblk1 V c 0 t) (iblk1 V c 2 t) (ix2 p q)
    = Cert.KSpec.projE (V c main_v61) (V c main_v44) (((cfg1.win 4).blk t).view.emb (ix2 p q))
  have hr : ((((cfg1.win 4).blk t).view.emb (ix2 p q)) 0).val = 512 * t.val + p.val := by
    show win1_4.index t 0 * 512 + 1 * p.val = _; rw [e4]; omega
  have hc : ((((cfg1.win 4).blk t).view.emb (ix2 p q)) 1).val = q.val := by
    show win1_4.index t 1 * 1024 + 1 * q.val = _; rw [e4']; omega
  refine (pay1_4_at (iblk1 V c 0 t) (iblk1 V c 2 t) p q).trans ?_
  unfold Cert.KSpec.projE
  have hrow : (fun k : Fin 1024 => (iblk1 V c 0 t : Vec Ideal S512x1024 .f32) (ix2 p k))
      = fun k : Fin 1024 => (V c main_v61 : S4096x1024.Idx → EReal)
          (ix2 (n0 := 4096) (n1 := 1024) ((((cfg1.win 4).blk t).view.emb (ix2 p q)) 0) k) :=
    funext fun k => iblk1_0_apply V c t (ix2 p k) _ hr rfl
  rw [hrow]
  refine Finset.sum_congr rfl fun k _ => ?_
  have hw : (iblk1 V c 2 t : Vec Ideal S1024x1024 .bf16) (ix2 k q)
      = (V c main_v44 : S1024x1024.Idx → EReal)
          (ix2 (n0 := 1024) (n1 := 1024) k ((((cfg1.win 4).blk t).view.emb (ix2 p q)) 1)) :=
    (iblk1_2_apply V c t (ix2 k q)).trans
      (congrArg (V c main_v44 : S1024x1024.Idx → EReal) (funext fun a => Fin.ext (by
        match a with
        | ⟨0, _⟩ => rfl
        | ⟨1, _⟩ => exact hc.symm)))
  rw [hw]

/-- An index of that result array is in point `t`'s block iff each coordinate is in the block's range on its axis. -/
theorem mem_blk1_4 (t : Fin cfg1.N) (i : S4096x1024.Idx) :
    i ∈ ((cfg1.win 4).blk t).view.set ↔ ∀ a : Fin 2, win1_4.index t a * S512x1024.size a ≤ (i a).val
      ∧ (i a).val < win1_4.index t a * S512x1024.size a + S512x1024.size a := by
  show i ∈ ((View.whole main_v63_1).slice (win1_4.rect t)).set ↔ _
  rw [View.set_slice_whole, Rect.mem_set_unit]
  exact Iff.rfl

/-- Every row of that result is in the block of the point numbered by the row's block. -/
theorem cover1_4 (i : S4096x1024.Idx) :
    ∃ t : Fin cfg1.N, (cfg1.win 4).flush t = true ∧ i ∈ ((cfg1.win 4).blk t).view.set := by
  have hi0 : (i 0).val < 4096 := (i 0).isLt
  have hi1 : (i 1).val < 1024 := (i 1).isLt
  have hN : cfg1.N = 8 := N_1
  refine ⟨⟨(i 0).val / 512, by rw [hN]; omega⟩, flush1_4 _, ?_⟩
  rw [mem_blk1_4]
  obtain ⟨-, -, -, -, -, -, e3, e3', e4, e4'⟩ := idx1 ⟨(i 0).val / 512, by rw [hN]; omega⟩
  intro a
  match a with
  | ⟨0, _⟩ =>
    show win1_4.index _ 0 * 512 ≤ (i 0).val ∧ (i 0).val < win1_4.index _ 0 * 512 + 512
    rw [e4]; show (i 0).val / 512 * 512 ≤ (i 0).val ∧ (i 0).val < (i 0).val / 512 * 512 + 512; omega
  | ⟨1, _⟩ =>
    show win1_4.index _ 1 * 1024 ≤ (i 1).val ∧ (i 1).val < win1_4.index _ 1 * 1024 + 1024
    rw [e4']; omega

/-- After the region that result array is the projection of the activations by its weight matrix. -/
theorem final1_4 (c : Dev nD) :
    (dat1 (F := Ideal) V c).arrAt 4 cfg1.N = Cert.KSpec.projE (V c main_v61) (V c main_v44) :=
  (dat1 (F := Ideal) V c).arrAt_eq_of_cover 4 (Cert.KSpec.projE (V c main_v61) (V c main_v44))
    (fun t _ => flushed1_4_eq V c t) (cover1_4)

end Cert.KernelIdeal.Hand

end
-- ==== Proof.Final.lean ====
/-
  The three projection regions' result arrays after their runs, gathered: each is the quantised projection of the
  region's activations by its weight matrix (the statements are in the three imported modules).
-/
import proofs.«161176_j6906307412019_2_alg».proof.Proof.Final0
import proofs.«161176_j6906307412019_2_alg».proof.Proof.Final3
import proofs.«161176_j6906307412019_2_alg».proof.Proof.Final1
-- ==== Proof.Compose.lean ====
/-
  The idealized kernel's result, entry by entry, on real inputs.

  Walk the program's items from the launch: the two activation arrays flattened to 4096 rows; the first kernel's output
  (the scaled queries), the second's two outputs (keys and values), each the quantised rows against the quantised
  weight; their columns split into heads; the attention kernel's output, the plain softmax attention of those; its
  heads merged; the last kernel's output; its rows split into batches.  Each step holds the cast of a real array, and
  the real arrays compose to the kernel's arrangement `Cert.KSpec.KR`, which is the specification.
-/
import proofs.«161176_j6906307412019_2_alg».proof.Proof.Facts
import proofs.«161176_j6906307412019_2_alg».proof.Proof.Boundaries
import proofs.«161176_j6906307412019_2_alg».proof.Proof.HostShapes
import proofs.«161176_j6906307412019_2_alg».proof.Proof.KAlgebra
import proofs.«161176_j6906307412019_2_alg».proof.Proof.KSpecCast
import proofs.«161176_j6906307412019_2_alg».proof.Proof.AttnFinal
import proofs.«161176_j6906307412019_2_alg».proof.Proof.HostWeightsA
import proofs.«161176_j6906307412019_2_alg».proof.Proof.HostWeightsO
import proofs.«161176_j6906307412019_2_alg».proof.Proof.HostWeightsV
import proofs.«161176_j6906307412019_2_alg».proof.Proof.Final

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.KSpec Cert.Spec

/-- The four regions' proof data at the ideal instance. -/
abbrev K0 : Contents Ideal → (c : Dev nD) → Pipeline.Dat τ (Elt Ideal) Unit ℕ (UR sig nD τ) ℕ cfg0 c := fun V c => dat0 V c
abbrev K1 : Contents Ideal → (c : Dev nD) → Pipeline.Dat τ (Elt Ideal) Unit ℕ (UR sig nD τ) ℕ cfg1 c := fun V c => dat1 V c
abbrev K2 : Contents Ideal → (c : Dev nD) → Pipeline.Dat τ (Elt Ideal) Unit ℕ (UR sig nD τ) ℕ cfg2 c := fun V c => dat2 V c
abbrev K3 : Contents Ideal → (c : Dev nD) → Pipeline.Dat τ (Elt Ideal) Unit ℕ (UR sig nD τ) ℕ cfg3 c := fun V c => dat3 V c

section Chain

variable (m : (ℓ : Loc nD τ sig) → Buf (Elt Ideal) ℓ) (c : Dev nD)
variable (x ctx : Fin 2 → Fin 2048 → Fin 1024 → ℝ) (Wq Wk Wv Wo : Fin 1024 → Fin 1024 → ℝ)
variable (h0 : ∀ i, m ((c : Thread nD τ).loc main_arg0) i = ((x (i 0) (i 1) (i 2) : ℝ) : EReal))
  (h1 : ∀ i, m ((c : Thread nD τ).loc main_arg1) i = ((ctx (i 0) (i 1) (i 2) : ℝ) : EReal))
  (h2 : ∀ i, m ((c : Thread nD τ).loc main_arg2) i = ((Wq (i 0) (i 1) : ℝ) : EReal))
  (h3 : ∀ i, m ((c : Thread nD τ).loc main_arg3) i = ((Wk (i 0) (i 1) : ℝ) : EReal))
  (h4 : ∀ i, m ((c : Thread nD τ).loc main_arg4) i = ((Wv (i 0) (i 1) : ℝ) : EReal))
  (h5 : ∀ i, m ((c : Thread nD τ).loc main_arg5) i = ((Wo (i 0) (i 1) : ℝ) : EReal))

/-- The weight operands, in the kernels' (input column, output column) order. -/
abbrev wQ : Fin 1024 → Fin 1024 → ℝ := fun k o => wq Wq o k * (1 / 8)
abbrev wK : Fin 1024 → Fin 1024 → ℝ := fun k o => wq Wk o k
abbrev wV : Fin 1024 → Fin 1024 → ℝ := fun k o => wq Wv o k
abbrev wO : Fin 1024 → Fin 1024 → ℝ := fun k o => wq Wo o k

include h0 in
/-- The first activation array, flattened. -/
theorem v60_real (i : S4096x1024.Idx) : V25 m c main_v60 i = ((flat x (i 0) (i 1) : ℝ) : EReal) := by
  obtain ⟨r, k, rfl⟩ : ∃ (r : Fin 4096) (k : Fin 1024), i = ix2 r k := ⟨i 0, i 1, eq_ix2 i⟩
  rw [v60_apply m c r (bOf r) (nOf r) k (by simp only [bOf, nOf]; omega), h0]
  rfl
include h1 in
/-- The second. -/
theorem v61_real (i : S4096x1024.Idx) : V25 m c main_v61 i = ((flat ctx (i 0) (i 1) : ℝ) : EReal) := by
  obtain ⟨r, k, rfl⟩ : ∃ (r : Fin 4096) (k : Fin 1024), i = ix2 r k := ⟨i 0, i 1, eq_ix2 i⟩
  rw [v61_apply m c r (bOf r) (nOf r) k (by simp only [bOf, nOf]; omega), h1]
  rfl

include h2 in
theorem w14_real (j : S1024x1024.Idx) : V25 m c main_v14 j = ((wQ Wq (j 0) (j 1) : ℝ) : EReal) := by
  obtain ⟨k, o, rfl⟩ : ∃ (k o : Fin 1024), j = ix2 k o := ⟨j 0, j 1, eq_ix2 j⟩
  exact w14_apply m c Wq h2 k o
include h3 in
theorem w29_real (j : S1024x1024.Idx) : V25 m c main_v29 j = ((wK Wk (j 0) (j 1) : ℝ) : EReal) := by
  obtain ⟨k, o, rfl⟩ : ∃ (k o : Fin 1024), j = ix2 k o := ⟨j 0, j 1, eq_ix2 j⟩
  exact w29_apply m c Wk h3 k o
include h4 in
theorem w44_real (j : S1024x1024.Idx) : V25 m c main_v44 j = ((wV Wv (j 0) (j 1) : ℝ) : EReal) := by
  obtain ⟨k, o, rfl⟩ : ∃ (k o : Fin 1024), j = ix2 k o := ⟨j 0, j 1, eq_ix2 j⟩
  exact w44_apply m c Wv h4 k o
include h5 in
theorem w59_real (j : S1024x1024.Idx) : V25 m c main_v59 j = ((wO Wo (j 0) (j 1) : ℝ) : EReal) := by
  obtain ⟨k, o, rfl⟩ : ∃ (k o : Fin 1024), j = ix2 k o := ⟨j 0, j 1, eq_ix2 j⟩
  exact w59_apply m c Wo h5 k o

include h0 h2 in
/-- Region 0: the scaled queries, flat. -/
theorem q2_real (i : S4096x1024.Idx) :
    W26 m K0 c main_v62 i = ((projK (flat x) (wQ Wq) (i 0) (i 1) : ℝ) : EReal) := by
  rw [W26_v62, final0]
  exact projE_coe (flat x) (wQ Wq) _ _ (v60_real m c x h0) (w14_real m c Wq h2) i

include h1 h3 in
/-- Region 1, first output: the keys, flat. -/
theorem k2_real (i : S4096x1024.Idx) :
    W27 m K0 K1 c main_v63_0 i = ((projK (flat ctx) (wK Wk) (i 0) (i 1) : ℝ) : EReal) := by
  rw [W27_v63_0, final1_3]
  refine projE_coe (flat ctx) (wK Wk) _ _ (fun j => ?_) (fun j => ?_) i
  · show W26 m K0 c main_v61 j = _
    rw [W26_of m K0 c main_v61 (by decide)]; exact v61_real m c ctx h1 j
  · show W26 m K0 c main_v29 j = _
    rw [W26_of m K0 c main_v29 (by decide)]; exact w29_real m c Wk h3 j
include h1 h4 in
/-- Region 1, second output: the values, flat. -/
theorem v2_real (i : S4096x1024.Idx) :
    W27 m K0 K1 c main_v63_1 i = ((projK (flat ctx) (wV Wv) (i 0) (i 1) : ℝ) : EReal) := by
  rw [W27_v63_1, final1_4]
  refine projE_coe (flat ctx) (wV Wv) _ _ (fun j => ?_) (fun j => ?_) i
  · show W26 m K0 c main_v61 j = _
    rw [W26_of m K0 c main_v61 (by decide)]; exact v61_real m c ctx h1 j
  · show W26 m K0 c main_v44 j = _
    rw [W26_of m K0 c main_v44 (by decide)]; exact w44_real m c Wv h4 j

include h0 h2 in
/-- The queries by heads. -/
theorem qr_real (i : S2x2048x16x64.Idx) :
    W28 m K0 K1 c main_v64 i = ((heads (projK (flat x) (wQ Wq)) (i 0) (i 1) (i 2) (i 3) : ℝ) : EReal) := by
  obtain ⟨b, n, h, d, rfl⟩ : ∃ (b : Fin 2) (n : Fin 2048) (h : Fin 16) (d : Fin 64), i = ix4 b n h d := ⟨i 0, i 1, i 2, i 3, eq_ix4 i⟩
  rw [W28_v64]
  show shapeCast S2x2048x16x64 _ _ (ix4 b n h d) = _
  rw [split_heads_apply _ _ b n h d (rowOf b n) (colOf h d) rfl rfl, W27_of m K0 K1 c main_v62 (by decide) (by decide),
    q2_real m c x Wq h0 h2]
  rfl
include h1 h3 in
/-- The keys by heads. -/
theorem kr_real (i : S2x2048x16x64.Idx) :
    W28 m K0 K1 c main_v65 i = ((heads (projK (flat ctx) (wK Wk)) (i 0) (i 1) (i 2) (i 3) : ℝ) : EReal) := by
  obtain ⟨b, n, h, d, rfl⟩ : ∃ (b : Fin 2) (n : Fin 2048) (h : Fin 16) (d : Fin 64), i = ix4 b n h d := ⟨i 0, i 1, i 2, i 3, eq_ix4 i⟩
  rw [W28_v65]
  show shapeCast S2x2048x16x64 _ _ (ix4 b n h d) = _
  rw [split_heads_apply _ _ b n h d (rowOf b n) (colOf h d) rfl rfl, k2_real m c ctx Wk h1 h3]
  rfl
include h1 h4 in
/-- The values by heads. -/
theorem vr_real (i : S2x2048x16x64.Idx) :
    W28 m K0 K1 c main_v66 i = ((heads (projK (flat ctx) (wV Wv)) (i 0) (i 1) (i 2) (i 3) : ℝ) : EReal) := by
  obtain ⟨b, n, h, d, rfl⟩ : ∃ (b : Fin 2) (n : Fin 2048) (h : Fin 16) (d : Fin 64), i = ix4 b n h d := ⟨i 0, i 1, i 2, i 3, eq_ix4 i⟩
  rw [W28_v66]
  show shapeCast S2x2048x16x64 _ _ (ix4 b n h d) = _
  rw [split_heads_apply _ _ b n h d (rowOf b n) (colOf h d) rfl rfl, v2_real m c ctx Wv h1 h4]
  rfl

/-- The attention of the kernel's queries, keys and values. -/
abbrev attnK : Fin 2 → Fin 2048 → Fin 16 → Fin 64 → ℝ :=
  attnPlain (heads (projK (flat x) (wQ Wq))) (heads (projK (flat ctx) (wK Wk))) (heads (projK (flat ctx) (wV Wv)))

include h0 h1 h2 h3 h4 in
/-- Region 2: the attention output by heads. -/
theorem a_real (i : S2x2048x16x64.Idx) :
    W29 m K0 K1 K2 c main_v67 i = ((attnK x ctx Wq Wk Wv (i 0) (i 1) (i 2) (i 3) : ℝ) : EReal) := by
  rw [W29_v67]
  exact final2 (fun c b => W28 m K0 K1 c b) c _ _ _ (qr_real m c x Wq h0 h2) (kr_real m c ctx Wk h1 h3) (vr_real m c ctx Wv h1 h4) i

include h0 h1 h2 h3 h4 in
/-- The attention output with its heads merged. -/
theorem a2_real (i : S4096x1024.Idx) :
    W30 m K0 K1 K2 c main_v68 i = ((unheads (attnK x ctx Wq Wk Wv) (i 0) (i 1) : ℝ) : EReal) := by
  obtain ⟨r, k, rfl⟩ : ∃ (r : Fin 4096) (k : Fin 1024), i = ix2 r k := ⟨i 0, i 1, eq_ix2 i⟩
  rw [W30_v68]
  show shapeCast S4096x1024 _ _ (ix2 r k) = _
  rw [merge_heads_apply _ _ (bOf r) (nOf r) (hOf k) (dOf k) r k (by simp only [bOf, nOf]; omega) (by simp only [hOf, dOf]; omega),
    a_real m c x ctx Wq Wk Wv h0 h1 h2 h3 h4]
  rfl

include h0 h1 h2 h3 h4 h5 in
/-- Region 3: the last projection, flat. -/
theorem f2_real (i : S4096x1024.Idx) :
    W31 m K0 K1 K2 K3 c main_v69 i = ((projK (unheads (attnK x ctx Wq Wk Wv)) (wO Wo) (i 0) (i 1) : ℝ) : EReal) := by
  rw [W31_v69, final3]
  refine projE_coe (unheads (attnK x ctx Wq Wk Wv)) (wO Wo) _ _ (a2_real m c x ctx Wq Wk Wv h0 h1 h2 h3 h4) (fun j => ?_) i
  show W30 m K0 K1 K2 c main_v59 j = _
  rw [W30_of m K0 K1 K2 c main_v59 (by decide), W29_of m K0 K1 K2 c main_v59 (by decide), W28_of m K0 K1 c main_v59 (by decide),
    W27_of m K0 K1 c main_v59 (by decide) (by decide), W26_of m K0 c main_v59 (by decide)]
  exact w59_real m c Wo h5 j

include h0 h1 h2 h3 h4 h5 in
/-- THE RESULT: the buffer @main returns holds, entry by entry, the cast of the specification. -/
theorem out_real (i : S2x2048x1024.Idx) :
    V32 m (outs m K0 K1 K2 K3) c main_v70 i = ((GR x ctx Wq Wk Wv Wo (i 0) (i 1) (i 2) : ℝ) : EReal) := by
  obtain ⟨b, n, o, rfl⟩ : ∃ (b : Fin 2) (n : Fin 2048) (o : Fin 1024), i = ix3 b n o := ⟨i 0, i 1, i 2, eq_ix3 i⟩
  rw [V32_v70]
  show shapeCast S2x2048x1024 _ _ (ix3 b n o) = _
  rw [Cert.LibLayout.shapeCast_mc_abc_apply _ _ (rowOf b n) b n o rfl, f2_real m c x ctx Wq Wk Wv Wo h0 h1 h2 h3 h4 h5,
    ← KR_eq_GR]
  rfl

end Chain

end Cert.KernelIdeal.Hand

end
-- ==== Proof.RunCond.lean ====
/-
  The run of @main with its result readable.  Under the same hypotheses as the program's conditional frame — a segment
  record per kernel region, entered from and left at the boundary contents — every weakly fair execution terminates,
  faults nowhere, and in the final memory EVERY unscoped buffer holds what the last boundary's contents say: the
  launch contents pushed through the host stretches and updated, at each region's output arrays, by what that region
  leaves.  The argument is the conditional frame's, with the final read taken at every buffer instead of the six
  arguments.
-/
import proofs.«161176_j6906307412019_2_alg».proof.Proof.Gen.KernelIdeal.Regions

set_option maxRecDepth 1148

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The run with every unscoped buffer read at the end, given the regions' records. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V25 m c) ∗ E 0 c) ⊢ R0.pre c)
    (hpost0 : ∀ c : Dev nD, R0.post c ⊢ iprop(StableHlo.held (c : Thread nD τ) (Pipeline.ucRefs τ sig) (V26 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V26 m outs c) ∗ E 1 c) ⊢ R1.pre c)
    (hpost1 : ∀ c : Dev nD, R1.post c ⊢ iprop(StableHlo.held (c : Thread nD τ) (Pipeline.ucRefs τ sig) (V27 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V28 m outs c) ∗ E 2 c) ⊢ R2.pre c)
    (hpost2 : ∀ c : Dev nD, R2.post c ⊢ iprop(StableHlo.held (c : Thread nD τ) (Pipeline.ucRefs τ sig) (V29 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V30 m outs c) ∗ E 3 c) ⊢ R3.pre c)
    (hpost3 : ∀ c : Dev nD, R3.post c ⊢ iprop(StableHlo.held (c : Thread nD τ) (Pipeline.ucRefs τ sig) (V31 m outs c) ∗ E 4 c)) :    θ_run defs (onTc (τ := τ) (main (F := F))) ⟨m, fun _ => 0, ρ⟩ (fun r => ∀ c : Dev nD,
      ∀ b ∈ Pipeline.ucRefs τ sig, r.2.mem (((c : Thread nD τ)).1, b) = V32 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, hpre2 c, hpost2 c, hpre3 c, hpost3 c, sep_mono .rfl (hE4 c)⟩)
    (hinit := ?_) (QY := fun c s => ∀ b ∈ Pipeline.ucRefs τ sig, s.mem (((c : Thread nD τ)).1, b) = V32 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V32 m outs c) s') $$ [Hh HSI]
    · isplitl [Hh] <;> iassumption
    icases Hr with ⟨%h, HSI⟩
    imodintro
    isplitr
    · ipureintro
      exact h
    · iexact HSI

end Cert.KernelIdeal.Hand

end
-- ==== Proof.RunAll.lean ====
/-
  The idealized kernel's run with its result readable: the four regions' segments, instantiated as for the frame, under
  the run theorem that reads every unscoped buffer at the end.
-/
import proofs.«161176_j6906307412019_2_alg».proof.Proof.Glue
import proofs.«161176_j6906307412019_2_alg».proof.Proof.RunCond

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run with every unscoped buffer readable, from the four regions' facts -/

section RunAll

variable (m : (ℓ : Loc nD τ sig) → Buf (Elt F) ℓ) (ρ : Dev nD → PrngReg)
variable (D0 : Contents F → (c : Dev nD) → Dat τ (Elt F) Unit ℕ (UR sig nD τ) ℕ cfg0 c)
  (D1 : Contents F → (c : Dev nD) → Dat τ (Elt F) Unit ℕ (UR sig nD τ) ℕ cfg1 c)
  (D2 : Contents F → (c : Dev nD) → Dat τ (Elt F) Unit ℕ (UR sig nD τ) ℕ cfg2 c)
  (D3 : Contents F → (c : Dev nD) → Dat τ (Elt F) Unit ℕ (UR sig nD τ) ℕ cfg3 c)

-- the run theorem's implicit arguments are found by unifying its conclusion with this one, which takes unfolding plain
-- definitions in a metavariable's type
set_option backward.isDefEq.respectTransparency.types false in
/-- Every weakly fair execution of @main terminates, faults nowhere, and every unscoped buffer ends at the last
    boundary's contents: the same segments as for the frame, the final read taken at every buffer. -/
theorem run_of_facts (h0 : RegionFacts cfg0 D0) (h1 : RegionFacts cfg1 D1) (h2 : RegionFacts cfg2 D2) (h3 : RegionFacts cfg3 D3) :
    θ_run defs (onTc (τ := τ) (main (F := F))) ⟨m, fun _ => 0, ρ⟩ (fun r => ∀ c : Dev nD,
      ∀ b ∈ Pipeline.ucRefs τ sig, r.2.mem (((c : Thread nD τ)).1, b) = V32 m (outs m D0 D1 D2 D3) c b) :=
  run_cond (F := F) m (Ix := Unit) (U := UR sig nD τ) (Lvl := ℕ) emb₁ () Variants.none L lv (fun _ _ => rfl) ρ
    (outs m D0 D1 D2 D3) (pdats m D0 D1 D2 D3)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m D0 D1 D2 D3 h0) (hpre0 := fun c => .rfl)
    (hpost0 := fun c => by rw [V26_eq]; exact .rfl)
    (R1 := reg1 m D0 D1 D2 D3 h1) (hpre1 := fun c => by rw [V26_eq]; exact .rfl)
    (hpost1 := fun c => by rw [V27_eq]; exact .rfl)
    (R2 := reg2 m D0 D1 D2 D3 h2) (hpre2 := fun c => by rw [V28_eq]; exact .rfl)
    (hpost2 := fun c => by rw [V29_eq]; exact .rfl)
    (R3 := reg3 m D0 D1 D2 D3 h3) (hpre3 := fun c => by rw [V30_eq]; exact .rfl)
    (hpost3 := fun c => by rw [V31_eq]; exact .rfl)

end RunAll

end Cert.KernelIdeal.Hand

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«161176_j6906307412019_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.FiniteInputs.lean ====
/-
  The precondition read back: every entry of every argument array is a real number.

  The precondition tests each of the six argument arrays entry by entry (`|a i| < +∞`), folds each array's tests
  into one bit by "and", and joins the six bits by "and".  If the result is 1, each of the six bits is 1, hence
  every test is, hence every entry is neither infinity: it is the cast of a real number.
-/
import proofs.«161176_j6906307412019_2_alg».proof.Pre_finite_inputs
import proofs.«161176_j6906307412019_2_alg».proof.Proof.LibAllFinite

noncomputable section

namespace Cert.FiniteInputs

open Idealize.ShloMosaic Idealize.ShloMosaic.ValueIdx Cert.Pre_finite_inputs Cert.Pre_finite_inputs.Facts

variable [Cert.Pre_finite_inputs.Facts]

/-- Under the precondition each of the six argument arrays has only real entries. -/
theorem real_inputs (a0 a1 : FVec Ideal S2x2048x1024 .f32) (a2 a3 a4 a5 : FVec Ideal S1024x1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨Cert.Lib.AllFinite.entry_of_all a0 _ _ _ _ e0, Cert.Lib.AllFinite.entry_of_all a1 _ _ _ _ e1,
    Cert.Lib.AllFinite.entry_of_all a2 _ _ _ _ e2, Cert.Lib.AllFinite.entry_of_all a3 _ _ _ _ e3,
    Cert.Lib.AllFinite.entry_of_all a4 _ _ _ _ e4, Cert.Lib.AllFinite.entry_of_all a5 _ _ _ _ e5⟩

end Cert.FiniteInputs

end
-- ==== Proof.RefAct.lean ====
/-
  The reference's activation quantisation is the specification's.

  For an activation array of rows of 1024 entries the reference computes: the absolute values; per row their
  maximum, folded from −∞; the maximum of that with ε; the row scale `t = 127 / (…)`; entry by entry the product
  with the row's `t`, the rounding to nearest-even, the maximum with −128, the minimum with 127, the quotient by
  `t`; and last the straight-through form `x + (q − x)`.  On an array of real numbers the row maximum is the cast of
  the largest absolute value of the row (the row is not empty), the divisors `max ε (…)` and `t` are positive, and
  `x + (q − x) = q` because `x` is finite: the stage is the cast of `Spec.aq`.  The program repeats the block
  verbatim for the key and value projections' input and for the attention output.
-/
import proofs.«161176_j6906307412019_2_alg».proof.Proof.RefReadP
import proofs.«161176_j6906307412019_2_alg».proof.Proof.Spec
import proofs.«161176_j6906307412019_2_alg».proof.Proof.LibRealCast
import proofs.«161176_j6906307412019_2_alg».proof.Proof.Consts

noncomputable section

namespace Cert.ReferenceIdeal.RefValue

open Cert.ReferenceIdeal Cert.ReferenceIdeal.Gen Cert.ReferenceIdeal.ReadP Idealize.ShloMosaic Idealize.ShloMosaic.ValueIdx
open Cert.Spec Cert.Lib.RealCast Cert.Consts

/-- The clamped row maximum and the row scale are not zero. -/
theorem aden_ne_zero (m : ℝ) : max eps m ≠ 0 := (lt_max_of_lt_left eps_pos).ne'

theorem ascale_ne_zero (x : Fin 1024 → ℝ) : ascale x ≠ 0 := div_ne_zero (by norm_num) (aden_ne_zero _)

/-- Row `(b, n)` with the column `k` put back on the reduced axis is the entry `(b, n, k)`. -/
theorem lift_row (h : S2x2048x1024.Reduces [2] S2x2048) (b : Fin 2) (n : Fin 2048) (k : Fin 1024) :
    h.lift (ix2 b n) k = ix3 b n k := by
  funext c; apply Fin.ext; fin_cases c <;> rfl

/-- The row maximum of the absolute values, folded from −∞, is the cast of `Spec.absmax` of the row. -/
theorem act_rowmax (X : Fin 2 → Fin 2048 → Fin 1024 → ℝ) (x : (⟨S2x2048x1024, .f32⟩ : BufTy).Contents (Elt Ideal))
    (hx : ∀ b n c, x (ix3 b n c) = ((X b n c : ℝ) : EReal)) (b : Fin 2) (n : Fin 2048) :
    val_main_v14 (F := Ideal) x (ix2 b n) = ((absmax (X b n) : ℝ) : EReal) := by
  have h : S2x2048x1024.Reduces [2] S2x2048 := by decide
  have key : val_main_v14 (F := Ideal) x (ix2 b n)
      = Finset.fold (FloatOps.maximumf (F := Ideal) (φ := .f32)) (val_main_cst_5 (F := Ideal) (Shape.Idx.first h_S_))
          (fun k : Fin 1024 => val_main_v13 (F := Ideal) x (h.lift (ix2 b n) k)) (Finset.univ : Finset (Fin 1024)) :=
    Host.reduce_eq_fold_single (α := EReal) (s := S2x2048x1024) (t := S2x2048) (u := S_)
      (FloatOps.maximumf (F := Ideal) (φ := .f32)) (val_main_v13 (F := Ideal) x) (val_main_cst_5 (F := Ideal))
      reducesTo_S2x2048x1024_S2x2048_d2 h h_S_ (ix2 b n)
  have hf : (fun k : Fin 1024 => val_main_v13 (F := Ideal) x (h.lift (ix2 b n) k))
      = fun k : Fin 1024 => ((|X b n k| : ℝ) : EReal) := by
    funext k
    rw [lift_row h b n k, val_main_v13_apply, hx, hostAbsf_coe]
  rw [key, val_main_cst_5_apply, Ideal.ofBits_def, ofBits_neg_inf, hf]
  exact fold_maximumf_bot_coe Finset.univ Finset.univ_nonempty _

/-- The row scale is the cast of `Spec.ascale` of the row. -/
theorem act_scale (X : Fin 2 → Fin 2048 → Fin 1024 → ℝ) (x : (⟨S2x2048x1024, .f32⟩ : BufTy).Contents (Elt Ideal))
    (hx : ∀ b n c, x (ix3 b n c) = ((X b n c : ℝ) : EReal)) (b : Fin 2) (n : Fin 2048) (k : S2x2048x1.Idx)
    (h0 : (k 0).val = b.val) (h1 : (k 1).val = n.val) :
    val_main_v18 (F := Ideal) x k = ((ascale (X b n) : ℝ) : EReal) := by
  have hk : idx_main_v15 k = ix2 b n :=
    funext fun a => Fin.ext (by match a with | ⟨0, _⟩ => exact h0 | ⟨1, _⟩ => exact h1)
  rw [val_main_v18_apply, val_main_v17_apply, val_main_cst_7_apply, val_main_v16_apply, val_main_call3_v1_apply,
    val_main_call3_v0_apply, val_main_cst_6_apply, val_main_v15_apply, hk, act_rowmax X x hx b n]
  simp only [Ideal.ofBits_def, ofBits_127, ofBits_eps, maximumf_coe]
  rw [hostDivf_coe _ (aden_ne_zero _)]
  rfl

/-- The whole block, entry by entry. -/
theorem act_block (X : Fin 2 → Fin 2048 → Fin 1024 → ℝ) (x : (⟨S2x2048x1024, .f32⟩ : BufTy).Contents (Elt Ideal))
    (hx : ∀ b n c, x (ix3 b n c) = ((X b n c : ℝ) : EReal)) (b : Fin 2) (n : Fin 2048) (c : Fin 1024) :
    val_main_v26 (F := Ideal) x (ix3 b n c)
      = ((aq (fun (r : Fin 2 × Fin 2048) c => X r.1 r.2 c) (b, n) c : ℝ) : EReal) := by
  rw [val_main_v26_apply, val_main_v25_apply, hx b n c, addf_subf_cancel_coe]
  rw [val_main_v24_apply, val_main_v23_apply, act_scale X x hx b n (idx_main_v23 (ix3 b n c)) rfl rfl, val_main_v22_apply,
    val_main_call5_v4_apply, val_main_call5_v3_apply, val_main_cst_9_apply, val_main_call5_v2_apply,
    val_main_call5_v1_apply, val_main_call5_v0_apply, val_main_cst_8_apply, val_main_v21_apply, val_main_v20_apply,
    val_main_v19_apply, act_scale X x hx b n (idx_main_v19 (ix3 b n c)) rfl rfl, hx b n c]
  simp only [Ideal.ofBits_def, ofBits_127, ofBits_neg_128, mulf_coe, hostRoundeven_coe, maximumf_coe, minimumf_coe]
  rw [hostDivf_coe _ (ascale_ne_zero _)]
  rfl

/-- The block for the key and value inputs is the same function, and the last block is it on the attention output. -/
theorem val_main_v54_eq {F : FTy → Type} [FloatOps F] : val_main_v54 (F := F) = val_main_v26 (F := F) := rfl
theorem val_main_v82_eq {F : FTy → Type} [FloatOps F] : val_main_v82 (F := F) = val_main_v26 (F := F) := rfl
theorem val_main_v133_eq {F : FTy → Type} [FloatOps F] (x0 x1 : (⟨S2x2048x1024, .f32⟩ : BufTy).Contents (Elt F))
    (x2 x3 x4 : (⟨S1024x1024, .f32⟩ : BufTy).Contents (Elt F)) :
    val_main_v133 (F := F) x0 x1 x2 x3 x4 = val_main_v26 (F := F) (val_main_v106 (F := F) x0 x1 x2 x3 x4) := rfl

end Cert.ReferenceIdeal.RefValue

end
-- ==== Proof.RefProj.lean ====
/-
  The reference's projections are the specification's.

  A projection is the host matrix product of a quantised activation array (rows `(b, n)`, 1024 columns) with the
  transpose of a quantised weight matrix: entry `(b, n, o)` is the sum over the 1024 columns `c` of the
  activation's entry `(b, n, c)` times the weight's entry `(o, c)`.  Both factors are casts of reals, so the sum is
  the cast of `Spec.proj`.  The four projections of the program are one function applied to different arrays.
-/
import proofs.«161176_j6906307412019_2_alg».proof.Proof.RefWeight
import proofs.«161176_j6906307412019_2_alg».proof.Proof.RefAct

noncomputable section

namespace Cert.ReferenceIdeal.RefValue

open Cert.ReferenceIdeal Cert.ReferenceIdeal.Gen Cert.ReferenceIdeal.ReadP Idealize.ShloMosaic Idealize.ShloMosaic.ValueIdx
open Cert.Spec Cert.Lib.RealCast Cert.Consts

/-- One projection, entry by entry: on an array of reals `X` and a matrix of reals `W` it is `Spec.proj`. -/
theorem proj_block (X : Fin 2 → Fin 2048 → Fin 1024 → ℝ) (W : Fin 1024 → Fin 1024 → ℝ)
    (x : (⟨S2x2048x1024, .f32⟩ : BufTy).Contents (Elt Ideal)) (w : (⟨S1024x1024, .f32⟩ : BufTy).Contents (Elt Ideal))
    (hx : ∀ b n c, x (ix3 b n c) = ((X b n c : ℝ) : EReal)) (hw : ∀ i, w i = ((W (i 0) (i 1) : ℝ) : EReal))
    (b : Fin 2) (n : Fin 2048) (o : Fin 1024) :
    val_main_v27 (F := Ideal) x w (ix3 b n o)
      = ((proj (fun (r : Fin 2 × Fin 2048) c => X r.1 r.2 c) W (b, n) o : ℝ) : EReal) := by
  have hl : ∀ k : Fin 1024, lidx_main_v27 (ix3 b n o) k = ix3 b n k := fun k =>
    funext fun a => Fin.ext (by match a with | ⟨0, _⟩ => rfl | ⟨1, _⟩ => rfl | ⟨2, _⟩ => rfl)
  have hr : ∀ k : Fin 1024, ridx_main_v27 (ix3 b n o) k = ix2 o k := fun k =>
    funext fun a => Fin.ext (by match a with | ⟨0, _⟩ => rfl | ⟨1, _⟩ => rfl)
  rw [val_main_v27_apply]
  refine (Finset.sum_congr rfl fun k _ => ?_).trans
    (sum_coe Finset.univ fun k => aq (fun (r : Fin 2 × Fin 2048) c => X r.1 r.2 c) (b, n) k * wq W o k)
  rw [hl k, hr k, act_block X x hx b n k, weight_block W w hw (ix2 o k)]
  exact (EReal.coe_mul _ _).symm

/-- The key and value projections are the same function as the query projection, and the last projection is it on
    the attention output and the fourth weight matrix. -/
theorem val_main_v55_eq {F : FTy → Type} [FloatOps F] : val_main_v55 (F := F) = val_main_v27 (F := F) := rfl
theorem val_main_v83_eq {F : FTy → Type} [FloatOps F] : val_main_v83 (F := F) = val_main_v27 (F := F) := rfl
theorem val_main_v134_eq_proj {F : FTy → Type} [FloatOps F] (x0 x1 : (⟨S2x2048x1024, .f32⟩ : BufTy).Contents (Elt F))
    (x2 x3 x4 x5 : (⟨S1024x1024, .f32⟩ : BufTy).Contents (Elt F)) :
    val_main_v134 (F := F) x0 x1 x2 x3 x4 x5 = val_main_v27 (F := F) (val_main_v106 (F := F) x0 x1 x2 x3 x4) x5 := rfl

end Cert.ReferenceIdeal.RefValue

end
-- ==== Proof.RefAttn.lean ====
/-
  The reference's attention stages are the specification's softmax attention.

  The three projections `q`, `k`, `v` (arrays of reals, by the projection stages) are cut into sixteen heads of
  sixty-four columns: entry `(b, h, i, d)` of a head array is entry `(b, i, 64h + d)` of the projection.  Per head
  the scores are the sum over `d` of `q · k`, times `1/8`; a row of scores has its maximum (folded from −∞, and
  once more compared with −∞) subtracted, is exponentiated, summed, and divided by the sum — the sum is positive,
  being a sum of exponentials over a nonempty row; the weights multiply `v` and are summed over the keys; and the
  heads are laid side by side again, column `o` coming from head `o / 64` at lane `o % 64`.  Every stage is the
  cast of the real operation, so the attention output is the cast of `Spec.attn` — in particular it is finite.
-/
import proofs.«161176_j6906307412019_2_alg».proof.Proof.RefReadP
import proofs.«161176_j6906307412019_2_alg».proof.Proof.Spec
import proofs.«161176_j6906307412019_2_alg».proof.Proof.LibRealCast
import proofs.«161176_j6906307412019_2_alg».proof.Proof.Consts

noncomputable section

namespace Cert.ReferenceIdeal.RefValue

open Cert.ReferenceIdeal Cert.ReferenceIdeal.Gen Cert.ReferenceIdeal.ReadP Idealize.ShloMosaic Idealize.ShloMosaic.ValueIdx
open Cert.Spec Cert.Lib.RealCast Cert.Consts

/-- The lane of column `o` inside its head. -/
def lane (o : Fin 1024) : Fin 64 := ⟨o.val % 64, Nat.mod_lt _ (by norm_num)⟩

/-- Column `o` is lane `o % 64` of head `o / 64`. -/
theorem col_hd_lane (o : Fin 1024) : col (hd o) (lane o) = o :=
  Fin.ext (by show 64 * (o.val / 64) + o.val % 64 = o.val; omega)

/-- The maximum with `−∞` changes nothing. -/
theorem maximumf_bot_coe (m : ℝ) :
    FloatOps.maximumf (F := Ideal) (φ := .f32) (⊥ : EReal) ((m : ℝ) : EReal) = ((m : ℝ) : EReal) := max_bot_left _

/-- The key and value head arrays are cut the same way as the query's. -/
theorem val_main_v87_eq {F : FTy → Type} [FloatOps F] : val_main_v87 (F := F) = val_main_v85 (F := F) := rfl
theorem val_main_v89_eq {F : FTy → Type} [FloatOps F] : val_main_v89 (F := F) = val_main_v85 (F := F) := rfl

/-- Entry `(b, h, i, d)` of a head array is entry `(b, i, 64h + d)` of the projection. -/
theorem heads (P : Fin 2 → Fin 2048 → Fin 1024 → ℝ) (x : (⟨S2x2048x1024, .f32⟩ : BufTy).Contents (Elt Ideal)) (w : (⟨S1024x1024, .f32⟩ : BufTy).Contents (Elt Ideal))
    (hP : ∀ b n o, val_main_v27 (F := Ideal) x w (ix3 b n o) = ((P b n o : ℝ) : EReal))
    (b : Fin 2) (h : Fin 16) (i : Fin 2048) (d : Fin 64) :
    val_main_v85 (F := Ideal) x w (ix4 b h i d) = ((P b i (col h d) : ℝ) : EReal) := by
  have e : idx_main_v84 (idx_main_v85 (ix4 b h i d)) = ix3 b i (col h d) := by
    have hb := b.isLt; have hh := h.isLt; have hi := i.isLt; have hd := d.isLt
    funext a; apply Fin.ext
    match a with
    | ⟨0, _⟩ => show (((b.val * 2048 + i.val) * 16 + h.val) * 64 + d.val) / 2097152 = b.val; omega
    | ⟨1, _⟩ => show (((b.val * 2048 + i.val) * 16 + h.val) * 64 + d.val) / 1024 % 2048 = i.val; omega
    | ⟨2, _⟩ => show (((b.val * 2048 + i.val) * 16 + h.val) * 64 + d.val) % 1024 = 64 * h.val + d.val; omega
  rw [val_main_v85_apply, val_main_v84_apply, e, hP]

section Scores

variable (q k : Fin 2 → Fin 2048 → Fin 1024 → ℝ)
  (x0 x1 : (⟨S2x2048x1024, .f32⟩ : BufTy).Contents (Elt Ideal)) (x2 x3 : (⟨S1024x1024, .f32⟩ : BufTy).Contents (Elt Ideal))
    (hq : ∀ b n o, val_main_v27 (F := Ideal) x0 x2 (ix3 b n o) = ((q b n o : ℝ) : EReal))
    (hk : ∀ b n o, val_main_v27 (F := Ideal) x1 x3 (ix3 b n o) = ((k b n o : ℝ) : EReal))

include hq hk

/-- The scaled scores. -/
theorem scores (b : Fin 2) (h : Fin 16) (i j : Fin 2048) :
    val_main_v92 (F := Ideal) x0 x1 x2 x3 (ix4 b h i j) = ((dots q k b h i j : ℝ) : EReal) := by
  have hl : ∀ d : Fin 64, lidx_main_v90 (ix4 b h i j) d = ix4 b h i d := fun d =>
    funext fun a => Fin.ext (by match a with | ⟨0, _⟩ => rfl | ⟨1, _⟩ => rfl | ⟨2, _⟩ => rfl | ⟨3, _⟩ => rfl)
  have hr : ∀ d : Fin 64, ridx_main_v90 (ix4 b h i j) d = ix4 b h j d := fun d =>
    funext fun a => Fin.ext (by match a with | ⟨0, _⟩ => rfl | ⟨1, _⟩ => rfl | ⟨2, _⟩ => rfl | ⟨3, _⟩ => rfl)
  have hs : val_main_v90 (F := Ideal) x0 x1 x2 x3 (ix4 b h i j)
      = ((∑ d : Fin 64, q b i (col h d) * k b j (col h d) : ℝ) : EReal) := by
    rw [val_main_v90_apply]
    refine (Finset.sum_congr rfl fun d _ => ?_).trans
      (sum_coe Finset.univ fun d : Fin 64 => q b i (col h d) * k b j (col h d))
    rw [hl d, hr d, heads q x0 x2 hq b h i d, val_main_v87_eq, heads k x1 x3 hk b h j d]
    exact (EReal.coe_mul _ _).symm
  rw [val_main_v92_apply, hs, val_main_v91_apply, val_main_cst_32_apply, Ideal.ofBits_def, ofBits_eighth, mulf_coe]
  rfl

/-- Row `(b, h, i)` of the scores with the key `j` put back on the reduced axis is the entry `(b, h, i, j)`. -/
theorem lift_scores (hR : S2x16x2048x2048.Reduces [3] S2x16x2048) (b : Fin 2) (h : Fin 16) (i j : Fin 2048) :
    hR.lift (ix3 b h i) j = ix4 b h i j := by
  funext c; apply Fin.ext; fin_cases c <;> rfl

/-- The row maximum of the scores, folded from −∞. -/
theorem scores_rowmax (b : Fin 2) (h : Fin 16) (i : Fin 2048) :
    val_main_v93 (F := Ideal) x0 x1 x2 x3 (ix3 b h i) = ((rowmax (dots q k b h i) : ℝ) : EReal) := by
  have hR : S2x16x2048x2048.Reduces [3] S2x16x2048 := by decide
  have key : val_main_v93 (F := Ideal) x0 x1 x2 x3 (ix3 b h i)
      = Finset.fold (FloatOps.maximumf (F := Ideal) (φ := .f32)) (val_main_cst_33 (F := Ideal) (Shape.Idx.first h_S_))
          (fun j : Fin 2048 => val_main_v92 (F := Ideal) x0 x1 x2 x3 (hR.lift (ix3 b h i) j))
          (Finset.univ : Finset (Fin 2048)) :=
    Host.reduce_eq_fold_single (α := EReal) (s := S2x16x2048x2048) (t := S2x16x2048) (u := S_)
      (FloatOps.maximumf (F := Ideal) (φ := .f32)) (val_main_v92 (F := Ideal) x0 x1 x2 x3) (val_main_cst_33 (F := Ideal))
      reducesTo_S2x16x2048x2048_S2x16x2048_d3 hR h_S_ (ix3 b h i)
  have hf : (fun j : Fin 2048 => val_main_v92 (F := Ideal) x0 x1 x2 x3 (hR.lift (ix3 b h i) j))
      = fun j : Fin 2048 => ((dots q k b h i j : ℝ) : EReal) := by
    funext j
    rw [lift_scores q k x0 x1 x2 x3 hq hk hR b h i j, scores q k x0 x1 x2 x3 hq hk b h i j]
  rw [key, val_main_cst_33_apply, Ideal.ofBits_def, ofBits_neg_inf, hf]
  exact fold_maximumf_bot_coe Finset.univ Finset.univ_nonempty _

/-- The exponentials of the scores less their row maximum. -/
theorem expo (b : Fin 2) (h : Fin 16) (i j : Fin 2048) :
    val_main_v99 (F := Ideal) x0 x1 x2 x3 (ix4 b h i j)
      = ((Real.exp (dots q k b h i j - rowmax (dots q k b h i)) : ℝ) : EReal) := by
  have e : idx_main_v96 (idx_main_v97 (ix4 b h i j)) = ix3 b h i :=
    funext fun a => Fin.ext (by match a with | ⟨0, _⟩ => rfl | ⟨1, _⟩ => rfl | ⟨2, _⟩ => rfl)
  rw [val_main_v99_apply, val_main_v98_apply, scores q k x0 x1 x2 x3 hq hk b h i j, val_main_v97_apply,
    val_main_v96_apply, e, val_main_v95_apply, scores_rowmax q k x0 x1 x2 x3 hq hk b h i, val_main_v94_apply,
    val_main_cst_34_apply, Ideal.ofBits_def, ofBits_neg_inf, maximumf_bot_coe, subf_coe, hostExp_coe]

/-- Their sum over the keys. -/
theorem expsum (b : Fin 2) (h : Fin 16) (i : Fin 2048) :
    val_main_v100 (F := Ideal) x0 x1 x2 x3 (ix3 b h i)
      = ((∑ j, Real.exp (dots q k b h i j - rowmax (dots q k b h i)) : ℝ) : EReal) := by
  have hi : ∀ j : Fin 2048, idx_main_v100 (ix3 b h i) j = ix4 b h i j := fun j =>
    funext fun a => Fin.ext (by match a with | ⟨0, _⟩ => rfl | ⟨1, _⟩ => rfl | ⟨2, _⟩ => rfl | ⟨3, _⟩ => rfl)
  have hs : (∑ j : Fin 2048, val_main_v99 (F := Ideal) x0 x1 x2 x3 (idx_main_v100 (ix3 b h i) j))
      = ((∑ j, Real.exp (dots q k b h i j - rowmax (dots q k b h i)) : ℝ) : EReal) :=
    (Finset.sum_congr rfl fun j _ => by rw [hi j, expo q k x0 x1 x2 x3 hq hk b h i j]).trans
      (sum_coe Finset.univ fun j => Real.exp (dots q k b h i j - rowmax (dots q k b h i)))
  rw [val_main_v100_apply, hs, val_main_cst_35_apply, Ideal.ofBits_def, ofBits_zero, ← EReal.coe_add, zero_add]

/-- The attention weights: the softmax of the row of scores. -/
theorem weights (b : Fin 2) (h : Fin 16) (i j : Fin 2048) :
    val_main_v103 (F := Ideal) x0 x1 x2 x3 (ix4 b h i j) = ((softmax (dots q k b h i) j : ℝ) : EReal) := by
  have e : idx_main_v101 (idx_main_v102 (ix4 b h i j)) = ix3 b h i :=
    funext fun a => Fin.ext (by match a with | ⟨0, _⟩ => rfl | ⟨1, _⟩ => rfl | ⟨2, _⟩ => rfl)
  rw [val_main_v103_apply, expo q k x0 x1 x2 x3 hq hk b h i j, val_main_v102_apply, val_main_v101_apply, e,
    expsum q k x0 x1 x2 x3 hq hk b h i,
    hostDivf_coe _ (Finset.sum_pos (fun j _ => Real.exp_pos _) Finset.univ_nonempty).ne']
  rfl

end Scores

/-- The attention output, heads side by side: the cast of `Spec.attn`. -/
theorem attn_out (q k v : Fin 2 → Fin 2048 → Fin 1024 → ℝ)
    (x0 x1 : (⟨S2x2048x1024, .f32⟩ : BufTy).Contents (Elt Ideal)) (x2 x3 x4 : (⟨S1024x1024, .f32⟩ : BufTy).Contents (Elt Ideal))
    (hq : ∀ b n o, val_main_v27 (F := Ideal) x0 x2 (ix3 b n o) = ((q b n o : ℝ) : EReal))
    (hk : ∀ b n o, val_main_v27 (F := Ideal) x1 x3 (ix3 b n o) = ((k b n o : ℝ) : EReal))
    (hv : ∀ b n o, val_main_v27 (F := Ideal) x1 x4 (ix3 b n o) = ((v b n o : ℝ) : EReal))
    (b : Fin 2) (i : Fin 2048) (o : Fin 1024) :
    val_main_v106 (F := Ideal) x0 x1 x2 x3 x4 (ix3 b i o) = ((attn q k v b i o : ℝ) : EReal) := by
  have e : idx_main_v105 (idx_main_v106 (ix3 b i o)) = ix4 b (hd o) i (lane o) := by
    have hb := b.isLt; have hi := i.isLt; have ho := o.isLt
    funext a; apply Fin.ext
    match a with
    | ⟨0, _⟩ => show ((b.val * 2048 + i.val) * 1024 + o.val) / 2097152 = b.val; omega
    | ⟨1, _⟩ => show ((b.val * 2048 + i.val) * 1024 + o.val) / 64 % 16 = o.val / 64; omega
    | ⟨2, _⟩ => show ((b.val * 2048 + i.val) * 1024 + o.val) / 1024 % 2048 = i.val; omega
    | ⟨3, _⟩ => show ((b.val * 2048 + i.val) * 1024 + o.val) % 64 = o.val % 64; omega
  have hl : ∀ j : Fin 2048, lidx_main_v104 (ix4 b (hd o) i (lane o)) j = ix4 b (hd o) i j := fun j =>
    funext fun a => Fin.ext (by match a with | ⟨0, _⟩ => rfl | ⟨1, _⟩ => rfl | ⟨2, _⟩ => rfl | ⟨3, _⟩ => rfl)
  have hr : ∀ j : Fin 2048, ridx_main_v104 (ix4 b (hd o) i (lane o)) j = ix4 b (hd o) j (lane o) := fun j =>
    funext fun a => Fin.ext (by match a with | ⟨0, _⟩ => rfl | ⟨1, _⟩ => rfl | ⟨2, _⟩ => rfl | ⟨3, _⟩ => rfl)
  rw [val_main_v106_apply, val_main_v105_apply, e, val_main_v104_apply]
  refine (Finset.sum_congr rfl fun j _ => ?_).trans
    (sum_coe Finset.univ fun j => softmax (dots q k b (hd o) i) j * v b j o)
  rw [hl j, hr j, weights q k x0 x1 x2 x3 hq hk b (hd o) i j, val_main_v89_eq, heads v x1 x4 hv b (hd o) j (lane o),
    col_hd_lane]
  exact (EReal.coe_mul _ _).symm

end Cert.ReferenceIdeal.RefValue

end
-- ==== Proof.RefSpec.lean ====
/-
  The reference program computes the specification.

  On argument arrays of real numbers the reference's result is, entry by entry, the cast of `Spec.GR`: the query,
  key and value projections are `Spec.proj` of the inputs; the attention stages give `Spec.attn` of those, a real
  array; and the last projection is `Spec.proj` of that array by the fourth weight matrix.
-/
import proofs.«161176_j6906307412019_2_alg».proof.Proof.RefProj
import proofs.«161176_j6906307412019_2_alg».proof.Proof.RefAttn

noncomputable section

namespace Cert.ReferenceIdeal.RefValue

open Cert.ReferenceIdeal Cert.ReferenceIdeal.Gen Cert.ReferenceIdeal.ReadP Idealize.ShloMosaic Idealize.ShloMosaic.ValueIdx
open Cert.Spec

theorem ref_eq_spec (x ctx : Fin 2 → Fin 2048 → Fin 1024 → ℝ) (Wq Wk Wv Wo : Fin 1024 → Fin 1024 → ℝ) :
    Cert.ReferenceIdeal.ReadP.val_main_v134 (F := Ideal)
        (fun i => ((x (i 0) (i 1) (i 2) : ℝ) : EReal)) (fun i => ((ctx (i 0) (i 1) (i 2) : ℝ) : EReal))
        (fun i => ((Wq (i 0) (i 1) : ℝ) : EReal)) (fun i => ((Wk (i 0) (i 1) : ℝ) : EReal))
        (fun i => ((Wv (i 0) (i 1) : ℝ) : EReal)) (fun i => ((Wo (i 0) (i 1) : ℝ) : EReal))
      = fun i => ((Cert.Spec.GR x ctx Wq Wk Wv Wo (i 0) (i 1) (i 2) : ℝ) : EReal) := by
  funext i
  obtain ⟨b, n, o, rfl⟩ : ∃ (b : Fin 2) (n : Fin 2048) (o : Fin 1024), i = ix3 b n o := ⟨i 0, i 1, i 2, eq_ix3 i⟩
  generalize hx0 : (fun i : S2x2048x1024.Idx => ((x (i 0) (i 1) (i 2) : ℝ) : EReal)) = x0
  generalize hx1 : (fun i : S2x2048x1024.Idx => ((ctx (i 0) (i 1) (i 2) : ℝ) : EReal)) = x1
  generalize hx2 : (fun i : S1024x1024.Idx => ((Wq (i 0) (i 1) : ℝ) : EReal)) = x2
  generalize hx3 : (fun i : S1024x1024.Idx => ((Wk (i 0) (i 1) : ℝ) : EReal)) = x3
  generalize hx4 : (fun i : S1024x1024.Idx => ((Wv (i 0) (i 1) : ℝ) : EReal)) = x4
  generalize hx5 : (fun i : S1024x1024.Idx => ((Wo (i 0) (i 1) : ℝ) : EReal)) = x5
  have e0 : ∀ b n c, x0 (ix3 b n c) = ((x b n c : ℝ) : EReal) := fun b n c => by rw [← hx0]
  have e1 : ∀ b n c, x1 (ix3 b n c) = ((ctx b n c : ℝ) : EReal) := fun b n c => by rw [← hx1]
  have e2 : ∀ i, x2 i = ((Wq (i 0) (i 1) : ℝ) : EReal) := fun i => by rw [← hx2]
  have e3 : ∀ i, x3 i = ((Wk (i 0) (i 1) : ℝ) : EReal) := fun i => by rw [← hx3]
  have e4 : ∀ i, x4 i = ((Wv (i 0) (i 1) : ℝ) : EReal) := fun i => by rw [← hx4]
  have e5 : ∀ i, x5 i = ((Wo (i 0) (i 1) : ℝ) : EReal) := fun i => by rw [← hx5]
  rw [val_main_v134_eq_proj]
  exact proj_block
    (fun b n c => attn (fun b n => proj (fun (r : Fin 2 × Fin 2048) c => x r.1 r.2 c) Wq (b, n))
      (fun b n => proj (fun (r : Fin 2 × Fin 2048) c => ctx r.1 r.2 c) Wk (b, n))
      (fun b n => proj (fun (r : Fin 2 × Fin 2048) c => ctx r.1 r.2 c) Wv (b, n)) b n c)
    Wo (val_main_v106 (F := Ideal) x0 x1 x2 x3 x4) x5
    (attn_out _ _ _ x0 x1 x2 x3 x4 (proj_block x Wq x0 x2 e0 e2) (proj_block ctx Wk x1 x3 e1 e3)
      (proj_block ctx Wv x1 x4 e1 e4))
    e5 b n o

end Cert.ReferenceIdeal.RefValue

end
-- ==== Proof.RefRunArgs.lean ====
/-
  The reference's run leaves the argument arrays alone.

  None of the 235 operations writes an argument buffer, so after the whole line each argument buffer holds what it
  held before: every operation's result at a buffer other than the one it writes is the contents that were there.
-/
import proofs.«161176_j6906307412019_2_alg».proof.Proof.RefRunP

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option Elab.async false

set_option maxRecDepth 8192 in
set_option maxHeartbeats 94000000 in
theorem after_ops_args (V : Valuation τ sig (Elt F)) :
    after (Cert.ReferenceIdeal.ValueP.ops (F := F)) V (Proc.devRef .tc main_arg0) = V (Proc.devRef .tc main_arg0)
      ∧ after (Cert.ReferenceIdeal.ValueP.ops (F := F)) V (Proc.devRef .tc main_arg1) = V (Proc.devRef .tc main_arg1)
      ∧ after (Cert.ReferenceIdeal.ValueP.ops (F := F)) V (Proc.devRef .tc main_arg2) = V (Proc.devRef .tc main_arg2)
      ∧ after (Cert.ReferenceIdeal.ValueP.ops (F := F)) V (Proc.devRef .tc main_arg3) = V (Proc.devRef .tc main_arg3)
      ∧ after (Cert.ReferenceIdeal.ValueP.ops (F := F)) V (Proc.devRef .tc main_arg4) = V (Proc.devRef .tc main_arg4)
      ∧ after (Cert.ReferenceIdeal.ValueP.ops (F := F)) V (Proc.devRef .tc main_arg5) = V (Proc.devRef .tc main_arg5) := by
  refine ⟨?_, ?_, ?_, ?_, ?_, ?_⟩ <;> after_results_simp

end Cert.ReferenceIdeal.RefValue

end
-- ==== Proof.RefRunPieces1.lean ====
/-
  The reference's run, read in pieces: the three projections.

  The reference program is a straight line of 235 host operations.  The buffer contents after a stretch of the line
  are a fold of the operations' results; read at the buffer the stretch ends in, the fold is the composition of the
  operations' functions, which is the stage function of that buffer.  Here: the first fifty-two operations (the
  query projection, from the first activation array and the first weight matrix), the next fifty-two (the key
  projection) and the next fifty-two (the value projection), each read at its last buffer from ANY contents, and
  the buffers each stretch leaves alone.
  A called function's operations (the clips and roundings) are listed here at the buffers' own types: the same
  operations as the program's typed-reference forms, whose carryings along a type equation are identities.
-/
import proofs.«161176_j6906307412019_2_alg».proof.Proof.RefReadP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option Elab.async false

/-- Operations 1–52: the query projection. -/
abbrev opsQ : List (HloOp τ sig (Elt F)) :=
  [ unary main_arg2 main_v0 (Host.absf : (⟨S1024x1024, .f32⟩ : BufTy).Contents (Elt F) → (⟨S1024x1024, .f32⟩ : BufTy).Contents (Elt F)),
    nullary main_cst (constant S_ .f32 0x00000000#32),
    binary main_v0 main_cst main_v1 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_0 (constant S_ .f32 0x49800000#32),
    binary main_v1 main_cst_0 main_v2 (Host.divf : (⟨S_, .f32⟩ : BufTy).Contents (Elt F) → (⟨S_, .f32⟩ : BufTy).Contents (Elt F) → (⟨S_, .f32⟩ : BufTy).Contents (Elt F)),
    nullary main_cst_1 (constant S_ .f32 0x3727C5AC#32),
    unary main_cst_1 main_call0_v0 (id : (⟨S_, .f32⟩ : BufTy).Contents (Elt F) → (⟨S_, .f32⟩ : BufTy).Contents (Elt F)),
    binary main_call0_v0 main_v2 main_v3 (maximumf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    binary main_cst_2 main_v3 main_v4 (Host.divf : (⟨S_, .f32⟩ : BufTy).Contents (Elt F) → (⟨S_, .f32⟩ : BufTy).Contents (Elt F) → (⟨S_, .f32⟩ : BufTy).Contents (Elt F)),
    unary main_v4 main_v5 (broadcastInDim S1024x1024 ![] bcast_S_S1024x1024 : (⟨S_, .f32⟩ : BufTy).Contents (Elt F) → (⟨S1024x1024, .f32⟩ : BufTy).Contents (Elt F)),
    binary main_arg2 main_v5 main_v6 (mulf : (⟨S1024x1024, .f32⟩ : BufTy).Contents (Elt F) → (⟨S1024x1024, .f32⟩ : BufTy).Contents (Elt F) → (⟨S1024x1024, .f32⟩ : BufTy).Contents (Elt F)),
    unary main_v6 main_v7 (Host.roundeven : (⟨S1024x1024, .f32⟩ : BufTy).Contents (Elt F) → (⟨S1024x1024, .f32⟩ : BufTy).Contents (Elt F)),
    nullary main_cst_3 (constant S_ .f32 0xBF800000#32),
    nullary main_cst_4 (constant S_ .f32 0x3F800000#32),
    unary main_cst_3 main_call2_v0 (id : (⟨S_, .f32⟩ : BufTy).Contents (Elt F) → (⟨S_, .f32⟩ : BufTy).Contents (Elt F)),
    unary main_call2_v0 main_call2_v1 ((broadcastInDim S1024x1024 ![] bcast_S_S1024x1024) : (⟨S_, .f32⟩ : BufTy).Contents (Elt F) → (⟨S1024x1024, .f32⟩ : BufTy).Contents (Elt F)),
    binary main_call2_v1 main_v7 main_call2_v2 (maximumf : (⟨S1024x1024, .f32⟩ : BufTy).Contents (Elt F) → (⟨S1024x1024, .f32⟩ : BufTy).Contents (Elt F) → (⟨S1024x1024, .f32⟩ : BufTy).Contents (Elt F)),
    unary main_cst_4 main_call2_v3 (id : (⟨S_, .f32⟩ : BufTy).Contents (Elt F) → (⟨S_, .f32⟩ : BufTy).Contents (Elt F)),
    unary main_call2_v3 main_call2_v4 ((broadcastInDim S1024x1024 ![] bcast_S_S1024x1024) : (⟨S_, .f32⟩ : BufTy).Contents (Elt F) → (⟨S1024x1024, .f32⟩ : BufTy).Contents (Elt F)),
    binary main_call2_v4 main_call2_v2 main_v8 (minimumf : (⟨S1024x1024, .f32⟩ : BufTy).Contents (Elt F) → (⟨S1024x1024, .f32⟩ : BufTy).Contents (Elt F) → (⟨S1024x1024, .f32⟩ : BufTy).Contents (Elt F)),
    unary main_v4 main_v9 (broadcastInDim S1024x1024 ![] bcast_S_S1024x1024 : (⟨S_, .f32⟩ : BufTy).Contents (Elt F) → (⟨S1024x1024, .f32⟩ : BufTy).Contents (Elt F)),
    binary main_v8 main_v9 main_v10 (Host.divf : (⟨S1024x1024, .f32⟩ : BufTy).Contents (Elt F) → (⟨S1024x1024, .f32⟩ : BufTy).Contents (Elt F) → (⟨S1024x1024, .f32⟩ : BufTy).Contents (Elt F)),
    binary main_v10 main_arg2 main_v11 (subf : (⟨S1024x1024, .f32⟩ : BufTy).Contents (Elt F) → (⟨S1024x1024, .f32⟩ : BufTy).Contents (Elt F) → (⟨S1024x1024, .f32⟩ : BufTy).Contents (Elt F)),
    binary main_arg2 main_v11 main_v12 (addf : (⟨S1024x1024, .f32⟩ : BufTy).Contents (Elt F) → (⟨S1024x1024, .f32⟩ : BufTy).Contents (Elt F) → (⟨S1024x1024, .f32⟩ : BufTy).Contents (Elt F)),
    unary main_arg0 main_v13 (Host.absf : (⟨S2x2048x1024, .f32⟩ : BufTy).Contents (Elt F) → (⟨S2x2048x1024, .f32⟩ : BufTy).Contents (Elt F)),
    nullary main_cst_5 (constant S_ .f32 0xFF800000#32),
    binary main_v13 main_cst_5 main_v14 ((fun x v => Host.reduce FloatOps.maximumf x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v14 main_v15 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    unary main_call3_v0 main_call3_v1 ((broadcastInDim S2x2048x1 ![] bcast_S_S2x2048x1) : (⟨S_, .f32⟩ : BufTy).Contents (Elt F) → (⟨S2x2048x1, .f32⟩ : BufTy).Contents (Elt F)),
    binary main_call3_v1 main_v15 main_v16 (maximumf : (⟨S2x2048x1, .f32⟩ : BufTy).Contents (Elt F) → (⟨S2x2048x1, .f32⟩ : BufTy).Contents (Elt F) → (⟨S2x2048x1, .f32⟩ : BufTy).Contents (Elt F)),
    nullary main_cst_7 (constant S_ .f32 0x42FE0000#32),
    unary main_cst_7 main_v17 (broadcastInDim S2x2048x1 ![] bcast_S_S2x2048x1 : (⟨S_, .f32⟩ : BufTy).Contents (Elt F) → (⟨S2x2048x1, .f32⟩ : BufTy).Contents (Elt F)),
    binary main_v17 main_v16 main_v18 (Host.divf : (⟨S2x2048x1, .f32⟩ : BufTy).Contents (Elt F) → (⟨S2x2048x1, .f32⟩ : BufTy).Contents (Elt F) → (⟨S2x2048x1, .f32⟩ : BufTy).Contents (Elt F)),
    unary main_v18 main_v19 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_arg0 main_v19 main_v20 (mulf : (⟨S2x2048x1024, .f32⟩ : BufTy).Contents (Elt F) → (⟨S2x2048x1024, .f32⟩ : BufTy).Contents (Elt F) → (⟨S2x2048x1024, .f32⟩ : BufTy).Contents (Elt F)),
    unary main_v20 main_v21 (Host.roundeven : (⟨S2x2048x1024, .f32⟩ : BufTy).Contents (Elt F) → (⟨S2x2048x1024, .f32⟩ : BufTy).Contents (Elt F)),
    nullary main_cst_8 (constant S_ .f32 0xC3000000#32),
    nullary main_cst_9 (constant S_ .f32 0x42FE0000#32),
    unary main_cst_8 main_call5_v0 (id : (⟨S_, .f32⟩ : BufTy).Contents (Elt F) → (⟨S_, .f32⟩ : BufTy).Contents (Elt F)),
    unary main_call5_v0 main_call5_v1 ((broadcastInDim S2x2048x1024 ![] bcast_S_S2x2048x1024) : (⟨S_, .f32⟩ : BufTy).Contents (Elt F) → (⟨S2x2048x1024, .f32⟩ : BufTy).Contents (Elt F)),
    binary main_call5_v1 main_v21 main_call5_v2 (maximumf : (⟨S2x2048x1024, .f32⟩ : BufTy).Contents (Elt F) → (⟨S2x2048x1024, .f32⟩ : BufTy).Contents (Elt F) → (⟨S2x2048x1024, .f32⟩ : BufTy).Contents (Elt F)),
    unary main_cst_9 main_call5_v3 (id : (⟨S_, .f32⟩ : BufTy).Contents (Elt F) → (⟨S_, .f32⟩ : BufTy).Contents (Elt F)),
    unary main_call5_v3 main_call5_v4 ((broadcastInDim S2x2048x1024 ![] bcast_S_S2x2048x1024) : (⟨S_, .f32⟩ : BufTy).Contents (Elt F) → (⟨S2x2048x1024, .f32⟩ : BufTy).Contents (Elt F)),
    binary main_call5_v4 main_call5_v2 main_v22 (minimumf : (⟨S2x2048x1024, .f32⟩ : BufTy).Contents (Elt F) → (⟨S2x2048x1024, .f32⟩ : BufTy).Contents (Elt F) → (⟨S2x2048x1024, .f32⟩ : BufTy).Contents (Elt F)),
    unary main_v18 main_v23 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v22 main_v23 main_v24 (Host.divf : (⟨S2x2048x1024, .f32⟩ : BufTy).Contents (Elt F) → (⟨S2x2048x1024, .f32⟩ : BufTy).Contents (Elt F) → (⟨S2x2048x1024, .f32⟩ : BufTy).Contents (Elt F)),
    binary main_v24 main_arg0 main_v25 (subf : (⟨S2x2048x1024, .f32⟩ : BufTy).Contents (Elt F) → (⟨S2x2048x1024, .f32⟩ : BufTy).Contents (Elt F) → (⟨S2x2048x1024, .f32⟩ : BufTy).Contents (Elt F)),
    binary main_arg0 main_v25 main_v26 (addf : (⟨S2x2048x1024, .f32⟩ : BufTy).Contents (Elt F) → (⟨S2x2048x1024, .f32⟩ : BufTy).Contents (Elt F) → (⟨S2x2048x1024, .f32⟩ : BufTy).Contents (Elt F)),
    binary main_v26 main_v12 main_v27 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)) ]

/-- Operations 53–104: the key projection. -/
abbrev opsK : List (HloOp τ sig (Elt F)) :=
  [ unary main_arg3 main_v28 (Host.absf : (⟨S1024x1024, .f32⟩ : BufTy).Contents (Elt F) → (⟨S1024x1024, .f32⟩ : BufTy).Contents (Elt F)),
    nullary main_cst_10 (constant S_ .f32 0x00000000#32),
    binary main_v28 main_cst_10 main_v29 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_11 (constant S_ .f32 0x49800000#32),
    binary main_v29 main_cst_11 main_v30 (Host.divf : (⟨S_, .f32⟩ : BufTy).Contents (Elt F) → (⟨S_, .f32⟩ : BufTy).Contents (Elt F) → (⟨S_, .f32⟩ : BufTy).Contents (Elt F)),
    nullary main_cst_12 (constant S_ .f32 0x3727C5AC#32),
    unary main_cst_12 main_call6_v0 (id : (⟨S_, .f32⟩ : BufTy).Contents (Elt F) → (⟨S_, .f32⟩ : BufTy).Contents (Elt F)),
    binary main_call6_v0 main_v30 main_v31 (maximumf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    binary main_cst_13 main_v31 main_v32 (Host.divf : (⟨S_, .f32⟩ : BufTy).Contents (Elt F) → (⟨S_, .f32⟩ : BufTy).Contents (Elt F) → (⟨S_, .f32⟩ : BufTy).Contents (Elt F)),
    unary main_v32 main_v33 (broadcastInDim S1024x1024 ![] bcast_S_S1024x1024 : (⟨S_, .f32⟩ : BufTy).Contents (Elt F) → (⟨S1024x1024, .f32⟩ : BufTy).Contents (Elt F)),
    binary main_arg3 main_v33 main_v34 (mulf : (⟨S1024x1024, .f32⟩ : BufTy).Contents (Elt F) → (⟨S1024x1024, .f32⟩ : BufTy).Contents (Elt F) → (⟨S1024x1024, .f32⟩ : BufTy).Contents (Elt F)),
    unary main_v34 main_v35 (Host.roundeven : (⟨S1024x1024, .f32⟩ : BufTy).Contents (Elt F) → (⟨S1024x1024, .f32⟩ : BufTy).Contents (Elt F)),
    nullary main_cst_14 (constant S_ .f32 0xBF800000#32),
    nullary main_cst_15 (constant S_ .f32 0x3F800000#32),
    unary main_cst_14 main_call8_v0 (id : (⟨S_, .f32⟩ : BufTy).Contents (Elt F) → (⟨S_, .f32⟩ : BufTy).Contents (Elt F)),
    unary main_call8_v0 main_call8_v1 ((broadcastInDim S1024x1024 ![] bcast_S_S1024x1024) : (⟨S_, .f32⟩ : BufTy).Contents (Elt F) → (⟨S1024x1024, .f32⟩ : BufTy).Contents (Elt F)),
    binary main_call8_v1 main_v35 main_call8_v2 (maximumf : (⟨S1024x1024, .f32⟩ : BufTy).Contents (Elt F) → (⟨S1024x1024, .f32⟩ : BufTy).Contents (Elt F) → (⟨S1024x1024, .f32⟩ : BufTy).Contents (Elt F)),
    unary main_cst_15 main_call8_v3 (id : (⟨S_, .f32⟩ : BufTy).Contents (Elt F) → (⟨S_, .f32⟩ : BufTy).Contents (Elt F)),
    unary main_call8_v3 main_call8_v4 ((broadcastInDim S1024x1024 ![] bcast_S_S1024x1024) : (⟨S_, .f32⟩ : BufTy).Contents (Elt F) → (⟨S1024x1024, .f32⟩ : BufTy).Contents (Elt F)),
    binary main_call8_v4 main_call8_v2 main_v36 (minimumf : (⟨S1024x1024, .f32⟩ : BufTy).Contents (Elt F) → (⟨S1024x1024, .f32⟩ : BufTy).Contents (Elt F) → (⟨S1024x1024, .f32⟩ : BufTy).Contents (Elt F)),
    unary main_v32 main_v37 (broadcastInDim S1024x1024 ![] bcast_S_S1024x1024 : (⟨S_, .f32⟩ : BufTy).Contents (Elt F) → (⟨S1024x1024, .f32⟩ : BufTy).Contents (Elt F)),
    binary main_v36 main_v37 main_v38 (Host.divf : (⟨S1024x1024, .f32⟩ : BufTy).Contents (Elt F) → (⟨S1024x1024, .f32⟩ : BufTy).Contents (Elt F) → (⟨S1024x1024, .f32⟩ : BufTy).Contents (Elt F)),
    binary main_v38 main_arg3 main_v39 (subf : (⟨S1024x1024, .f32⟩ : BufTy).Contents (Elt F) → (⟨S1024x1024, .f32⟩ : BufTy).Contents (Elt F) → (⟨S1024x1024, .f32⟩ : BufTy).Contents (Elt F)),
    binary main_arg3 main_v39 main_v40 (addf : (⟨S1024x1024, .f32⟩ : BufTy).Contents (Elt F) → (⟨S1024x1024, .f32⟩ : BufTy).Contents (Elt F) → (⟨S1024x1024, .f32⟩ : BufTy).Contents (Elt F)),
    unary main_arg1 main_v41 (Host.absf : (⟨S2x2048x1024, .f32⟩ : BufTy).Contents (Elt F) → (⟨S2x2048x1024, .f32⟩ : BufTy).Contents (Elt F)),
    nullary main_cst_16 (constant S_ .f32 0xFF800000#32),
    binary main_v41 main_cst_16 main_v42 ((fun x v => Host.reduce FloatOps.maximumf x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v42 main_v43 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_17 (constant S_ .f32 0x3727C5AC#32),
    unary main_cst_17 main_call9_v0 (id : (⟨S_, .f32⟩ : BufTy).Contents (Elt F) → (⟨S_, .f32⟩ : BufTy).Contents (Elt F)),
    unary main_call9_v0 main_call9_v1 ((broadcastInDim S2x2048x1 ![] bcast_S_S2x2048x1) : (⟨S_, .f32⟩ : BufTy).Contents (Elt F) → (⟨S2x2048x1, .f32⟩ : BufTy).Contents (Elt F)),
    binary main_call9_v1 main_v43 main_v44 (maximumf : (⟨S2x2048x1, .f32⟩ : BufTy).Contents (Elt F) → (⟨S2x2048x1, .f32⟩ : BufTy).Contents (Elt F) → (⟨S2x2048x1, .f32⟩ : BufTy).Contents (Elt F)),
    nullary main_cst_18 (constant S_ .f32 0x42FE0000#32),
    unary main_cst_18 main_v45 (broadcastInDim S2x2048x1 ![] bcast_S_S2x2048x1 : (⟨S_, .f32⟩ : BufTy).Contents (Elt F) → (⟨S2x2048x1, .f32⟩ : BufTy).Contents (Elt F)),
    binary main_v45 main_v44 main_v46 (Host.divf : (⟨S2x2048x1, .f32⟩ : BufTy).Contents (Elt F) → (⟨S2x2048x1, .f32⟩ : BufTy).Contents (Elt F) → (⟨S2x2048x1, .f32⟩ : BufTy).Contents (Elt F)),
    unary main_v46 main_v47 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_arg1 main_v47 main_v48 (mulf : (⟨S2x2048x1024, .f32⟩ : BufTy).Contents (Elt F) → (⟨S2x2048x1024, .f32⟩ : BufTy).Contents (Elt F) → (⟨S2x2048x1024, .f32⟩ : BufTy).Contents (Elt F)),
    unary main_v48 main_v49 (Host.roundeven : (⟨S2x2048x1024, .f32⟩ : BufTy).Contents (Elt F) → (⟨S2x2048x1024, .f32⟩ : BufTy).Contents (Elt F)),
    nullary main_cst_19 (constant S_ .f32 0xC3000000#32),
    nullary main_cst_20 (constant S_ .f32 0x42FE0000#32),
    unary main_cst_19 main_call11_v0 (id : (⟨S_, .f32⟩ : BufTy).Contents (Elt F) → (⟨S_, .f32⟩ : BufTy).Contents (Elt F)),
    unary main_call11_v0 main_call11_v1 ((broadcastInDim S2x2048x1024 ![] bcast_S_S2x2048x1024) : (⟨S_, .f32⟩ : BufTy).Contents (Elt F) → (⟨S2x2048x1024, .f32⟩ : BufTy).Contents (Elt F)),
    binary main_call11_v1 main_v49 main_call11_v2 (maximumf : (⟨S2x2048x1024, .f32⟩ : BufTy).Contents (Elt F) → (⟨S2x2048x1024, .f32⟩ : BufTy).Contents (Elt F) → (⟨S2x2048x1024, .f32⟩ : BufTy).Contents (Elt F)),
    unary main_cst_20 main_call11_v3 (id : (⟨S_, .f32⟩ : BufTy).Contents (Elt F) → (⟨S_, .f32⟩ : BufTy).Contents (Elt F)),
    unary main_call11_v3 main_call11_v4 ((broadcastInDim S2x2048x1024 ![] bcast_S_S2x2048x1024) : (⟨S_, .f32⟩ : BufTy).Contents (Elt F) → (⟨S2x2048x1024, .f32⟩ : BufTy).Contents (Elt F)),
    binary main_call11_v4 main_call11_v2 main_v50 (minimumf : (⟨S2x2048x1024, .f32⟩ : BufTy).Contents (Elt F) → (⟨S2x2048x1024, .f32⟩ : BufTy).Contents (Elt F) → (⟨S2x2048x1024, .f32⟩ : BufTy).Contents (Elt F)),
    unary main_v46 main_v51 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v50 main_v51 main_v52 (Host.divf : (⟨S2x2048x1024, .f32⟩ : BufTy).Contents (Elt F) → (⟨S2x2048x1024, .f32⟩ : BufTy).Contents (Elt F) → (⟨S2x2048x1024, .f32⟩ : BufTy).Contents (Elt F)),
    binary main_v52 main_arg1 main_v53 (subf : (⟨S2x2048x1024, .f32⟩ : BufTy).Contents (Elt F) → (⟨S2x2048x1024, .f32⟩ : BufTy).Contents (Elt F) → (⟨S2x2048x1024, .f32⟩ : BufTy).Contents (Elt F)),
    binary main_arg1 main_v53 main_v54 (addf : (⟨S2x2048x1024, .f32⟩ : BufTy).Contents (Elt F) → (⟨S2x2048x1024, .f32⟩ : BufTy).Contents (Elt F) → (⟨S2x2048x1024, .f32⟩ : BufTy).Contents (Elt F)),
    binary main_v54 main_v40 main_v55 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)) ]

/-- Operations 105–156: the value projection. -/
abbrev opsV : List (HloOp τ sig (Elt F)) :=
  [ unary main_arg4 main_v56 (Host.absf : (⟨S1024x1024, .f32⟩ : BufTy).Contents (Elt F) → (⟨S1024x1024, .f32⟩ : BufTy).Contents (Elt F)),
    nullary main_cst_21 (constant S_ .f32 0x00000000#32),
    binary main_v56 main_cst_21 main_v57 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_22 (constant S_ .f32 0x49800000#32),
    binary main_v57 main_cst_22 main_v58 (Host.divf : (⟨S_, .f32⟩ : BufTy).Contents (Elt F) → (⟨S_, .f32⟩ : BufTy).Contents (Elt F) → (⟨S_, .f32⟩ : BufTy).Contents (Elt F)),
    nullary main_cst_23 (constant S_ .f32 0x3727C5AC#32),
    unary main_cst_23 main_call12_v0 (id : (⟨S_, .f32⟩ : BufTy).Contents (Elt F) → (⟨S_, .f32⟩ : BufTy).Contents (Elt F)),
    binary main_call12_v0 main_v58 main_v59 (maximumf : (⟨S_, .f32⟩ : BufTy).Contents (Elt F) → (⟨S_, .f32⟩ : BufTy).Contents (Elt F) → (⟨S_, .f32⟩ : BufTy).Contents (Elt F)),
    nullary main_cst_24 (constant S_ .f32 0x3F800000#32),
    binary main_cst_24 main_v59 main_v60 (Host.divf : (⟨S_, .f32⟩ : BufTy).Contents (Elt F) → (⟨S_, .f32⟩ : BufTy).Contents (Elt F) → (⟨S_, .f32⟩ : BufTy).Contents (Elt F)),
    unary main_v60 main_v61 (broadcastInDim S1024x1024 ![] bcast_S_S1024x1024 : (⟨S_, .f32⟩ : BufTy).Contents (Elt F) → (⟨S1024x1024, .f32⟩ : BufTy).Contents (Elt F)),
    binary main_arg4 main_v61 main_v62 (mulf : (⟨S1024x1024, .f32⟩ : BufTy).Contents (Elt F) → (⟨S1024x1024, .f32⟩ : BufTy).Contents (Elt F) → (⟨S1024x1024, .f32⟩ : BufTy).Contents (Elt F)),
    unary main_v62 main_v63 (Host.roundeven : (⟨S1024x1024, .f32⟩ : BufTy).Contents (Elt F) → (⟨S1024x1024, .f32⟩ : BufTy).Contents (Elt F)),
    nullary main_cst_25 (constant S_ .f32 0xBF800000#32),
    nullary main_cst_26 (constant S_ .f32 0x3F800000#32),
    unary main_cst_25 main_call14_v0 (id : (⟨S_, .f32⟩ : BufTy).Contents (Elt F) → (⟨S_, .f32⟩ : BufTy).Contents (Elt F)),
    unary main_call14_v0 main_call14_v1 ((broadcastInDim S1024x1024 ![] bcast_S_S1024x1024) : (⟨S_, .f32⟩ : BufTy).Contents (Elt F) → (⟨S1024x1024, .f32⟩ : BufTy).Contents (Elt F)),
    binary main_call14_v1 main_v63 main_call14_v2 (maximumf : (⟨S1024x1024, .f32⟩ : BufTy).Contents (Elt F) → (⟨S1024x1024, .f32⟩ : BufTy).Contents (Elt F) → (⟨S1024x1024, .f32⟩ : BufTy).Contents (Elt F)),
    unary main_cst_26 main_call14_v3 (id : (⟨S_, .f32⟩ : BufTy).Contents (Elt F) → (⟨S_, .f32⟩ : BufTy).Contents (Elt F)),
    unary main_call14_v3 main_call14_v4 ((broadcastInDim S1024x1024 ![] bcast_S_S1024x1024) : (⟨S_, .f32⟩ : BufTy).Contents (Elt F) → (⟨S1024x1024, .f32⟩ : BufTy).Contents (Elt F)),
    binary main_call14_v4 main_call14_v2 main_v64 (minimumf : (⟨S1024x1024, .f32⟩ : BufTy).Contents (Elt F) → (⟨S1024x1024, .f32⟩ : BufTy).Contents (Elt F) → (⟨S1024x1024, .f32⟩ : BufTy).Contents (Elt F)),
    unary main_v60 main_v65 (broadcastInDim S1024x1024 ![] bcast_S_S1024x1024 : (⟨S_, .f32⟩ : BufTy).Contents (Elt F) → (⟨S1024x1024, .f32⟩ : BufTy).Contents (Elt F)),
    binary main_v64 main_v65 main_v66 (Host.divf : (⟨S1024x1024, .f32⟩ : BufTy).Contents (Elt F) → (⟨S1024x1024, .f32⟩ : BufTy).Contents (Elt F) → (⟨S1024x1024, .f32⟩ : BufTy).Contents (Elt F)),
    binary main_v66 main_arg4 main_v67 (subf : (⟨S1024x1024, .f32⟩ : BufTy).Contents (Elt F) → (⟨S1024x1024, .f32⟩ : BufTy).Contents (Elt F) → (⟨S1024x1024, .f32⟩ : BufTy).Contents (Elt F)),
    binary main_arg4 main_v67 main_v68 (addf : (⟨S1024x1024, .f32⟩ : BufTy).Contents (Elt F) → (⟨S1024x1024, .f32⟩ : BufTy).Contents (Elt F) → (⟨S1024x1024, .f32⟩ : BufTy).Contents (Elt F)),
    unary main_arg1 main_v69 (Host.absf : (⟨S2x2048x1024, .f32⟩ : BufTy).Contents (Elt F) → (⟨S2x2048x1024, .f32⟩ : BufTy).Contents (Elt F)),
    nullary main_cst_27 (constant S_ .f32 0xFF800000#32),
    binary main_v69 main_cst_27 main_v70 ((fun x v => Host.reduce FloatOps.maximumf x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v70 main_v71 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_28 (constant S_ .f32 0x3727C5AC#32),
    unary main_cst_28 main_call15_v0 (id : (⟨S_, .f32⟩ : BufTy).Contents (Elt F) → (⟨S_, .f32⟩ : BufTy).Contents (Elt F)),
    unary main_call15_v0 main_call15_v1 ((broadcastInDim S2x2048x1 ![] bcast_S_S2x2048x1) : (⟨S_, .f32⟩ : BufTy).Contents (Elt F) → (⟨S2x2048x1, .f32⟩ : BufTy).Contents (Elt F)),
    binary main_call15_v1 main_v71 main_v72 (maximumf : (⟨S2x2048x1, .f32⟩ : BufTy).Contents (Elt F) → (⟨S2x2048x1, .f32⟩ : BufTy).Contents (Elt F) → (⟨S2x2048x1, .f32⟩ : BufTy).Contents (Elt F)),
    nullary main_cst_29 (constant S_ .f32 0x42FE0000#32),
    unary main_cst_29 main_v73 (broadcastInDim S2x2048x1 ![] bcast_S_S2x2048x1 : (⟨S_, .f32⟩ : BufTy).Contents (Elt F) → (⟨S2x2048x1, .f32⟩ : BufTy).Contents (Elt F)),
    binary main_v73 main_v72 main_v74 (Host.divf : (⟨S2x2048x1, .f32⟩ : BufTy).Contents (Elt F) → (⟨S2x2048x1, .f32⟩ : BufTy).Contents (Elt F) → (⟨S2x2048x1, .f32⟩ : BufTy).Contents (Elt F)),
    unary main_v74 main_v75 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_arg1 main_v75 main_v76 (mulf : (⟨S2x2048x1024, .f32⟩ : BufTy).Contents (Elt F) → (⟨S2x2048x1024, .f32⟩ : BufTy).Contents (Elt F) → (⟨S2x2048x1024, .f32⟩ : BufTy).Contents (Elt F)),
    unary main_v76 main_v77 (Host.roundeven : (⟨S2x2048x1024, .f32⟩ : BufTy).Contents (Elt F) → (⟨S2x2048x1024, .f32⟩ : BufTy).Contents (Elt F)),
    nullary main_cst_30 (constant S_ .f32 0xC3000000#32),
    nullary main_cst_31 (constant S_ .f32 0x42FE0000#32),
    unary main_cst_30 main_call17_v0 (id : (⟨S_, .f32⟩ : BufTy).Contents (Elt F) → (⟨S_, .f32⟩ : BufTy).Contents (Elt F)),
    unary main_call17_v0 main_call17_v1 ((broadcastInDim S2x2048x1024 ![] bcast_S_S2x2048x1024) : (⟨S_, .f32⟩ : BufTy).Contents (Elt F) → (⟨S2x2048x1024, .f32⟩ : BufTy).Contents (Elt F)),
    binary main_call17_v1 main_v77 main_call17_v2 (maximumf : (⟨S2x2048x1024, .f32⟩ : BufTy).Contents (Elt F) → (⟨S2x2048x1024, .f32⟩ : BufTy).Contents (Elt F) → (⟨S2x2048x1024, .f32⟩ : BufTy).Contents (Elt F)),
    unary main_cst_31 main_call17_v3 (id : (⟨S_, .f32⟩ : BufTy).Contents (Elt F) → (⟨S_, .f32⟩ : BufTy).Contents (Elt F)),
    unary main_call17_v3 main_call17_v4 ((broadcastInDim S2x2048x1024 ![] bcast_S_S2x2048x1024) : (⟨S_, .f32⟩ : BufTy).Contents (Elt F) → (⟨S2x2048x1024, .f32⟩ : BufTy).Contents (Elt F)),
    binary main_call17_v4 main_call17_v2 main_v78 (minimumf : (⟨S2x2048x1024, .f32⟩ : BufTy).Contents (Elt F) → (⟨S2x2048x1024, .f32⟩ : BufTy).Contents (Elt F) → (⟨S2x2048x1024, .f32⟩ : BufTy).Contents (Elt F)),
    unary main_v74 main_v79 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v78 main_v79 main_v80 (Host.divf : (⟨S2x2048x1024, .f32⟩ : BufTy).Contents (Elt F) → (⟨S2x2048x1024, .f32⟩ : BufTy).Contents (Elt F) → (⟨S2x2048x1024, .f32⟩ : BufTy).Contents (Elt F)),
    binary main_v80 main_arg1 main_v81 (subf : (⟨S2x2048x1024, .f32⟩ : BufTy).Contents (Elt F) → (⟨S2x2048x1024, .f32⟩ : BufTy).Contents (Elt F) → (⟨S2x2048x1024, .f32⟩ : BufTy).Contents (Elt F)),
    binary main_arg1 main_v81 main_v82 (addf : (⟨S2x2048x1024, .f32⟩ : BufTy).Contents (Elt F) → (⟨S2x2048x1024, .f32⟩ : BufTy).Contents (Elt F) → (⟨S2x2048x1024, .f32⟩ : BufTy).Contents (Elt F)),
    binary main_v82 main_v68 main_v83 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)) ]

theorem after_opsQ (W : Valuation τ sig (Elt F)) :
    after (opsQ (F := F)) W (Proc.devRef .tc main_v27)
      = val_main_v27 (F := F) (W (Proc.devRef .tc main_arg0)) (W (Proc.devRef .tc main_arg2)) := by
  after_results_simp
  rfl

theorem after_opsK (W : Valuation τ sig (Elt F)) :
    after (opsK (F := F)) W (Proc.devRef .tc main_v55)
      = val_main_v55 (F := F) (W (Proc.devRef .tc main_arg1)) (W (Proc.devRef .tc main_arg3)) := by
  after_results_simp
  rfl

theorem after_opsV (W : Valuation τ sig (Elt F)) :
    after (opsV (F := F)) W (Proc.devRef .tc main_v83)
      = val_main_v83 (F := F) (W (Proc.devRef .tc main_arg1)) (W (Proc.devRef .tc main_arg4)) := by
  after_results_simp
  rfl

/-- The query stretch writes none of the later stretches' arguments. -/
theorem keep_opsQ (W : Valuation τ sig (Elt F)) :
    after (opsQ (F := F)) W (Proc.devRef .tc main_arg1) = W (Proc.devRef .tc main_arg1)
      ∧ after (opsQ (F := F)) W (Proc.devRef .tc main_arg3) = W (Proc.devRef .tc main_arg3)
      ∧ after (opsQ (F := F)) W (Proc.devRef .tc main_arg4) = W (Proc.devRef .tc main_arg4)
      ∧ after (opsQ (F := F)) W (Proc.devRef .tc main_arg5) = W (Proc.devRef .tc main_arg5) := by
  refine ⟨?_, ?_, ?_, ?_⟩ <;> after_results_simp

/-- The key stretch leaves the query projection and the later arguments alone. -/
theorem keep_opsK (W : Valuation τ sig (Elt F)) :
    after (opsK (F := F)) W (Proc.devRef .tc main_v27) = W (Proc.devRef .tc main_v27)
      ∧ after (opsK (F := F)) W (Proc.devRef .tc main_arg1) = W (Proc.devRef .tc main_arg1)
      ∧ after (opsK (F := F)) W (Proc.devRef .tc main_arg4) = W (Proc.devRef .tc main_arg4)
      ∧ after (opsK (F := F)) W (Proc.devRef .tc main_arg5) = W (Proc.devRef .tc main_arg5) := by
  refine ⟨?_, ?_, ?_, ?_⟩ <;> after_results_simp

/-- The value stretch leaves the two earlier projections and the last weight matrix alone. -/
theorem keep_opsV (W : Valuation τ sig (Elt F)) :
    after (opsV (F := F)) W (Proc.devRef .tc main_v27) = W (Proc.devRef .tc main_v27)
      ∧ after (opsV (F := F)) W (Proc.devRef .tc main_v55) = W (Proc.devRef .tc main_v55)
      ∧ after (opsV (F := F)) W (Proc.devRef .tc main_arg5) = W (Proc.devRef .tc main_arg5) := by
  refine ⟨?_, ?_, ?_⟩ <;> after_results_simp

end Cert.ReferenceIdeal.RefValue

end
-- ==== Proof.RefRunPieces2.lean ====
/-
  The reference's run, read in pieces: the attention stages and the last projection.

  Operations 157–183 cut the three projections into heads and compute the softmax attention; operations 184–208
  quantise the fourth weight matrix; operations 209–235 quantise the attention output and project it.  Each stretch is
  read at its last buffer from any contents that hold, at the buffers it reads, the stage functions of the
  arguments; and the buffers the weight stretch leaves alone.
  A called function's operations (the clips and roundings) are listed here at the buffers' own types: the same
  operations as the program's typed-reference forms, whose carryings along a type equation are identities.
-/
import proofs.«161176_j6906307412019_2_alg».proof.Proof.RefReadP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option Elab.async false

/-- Operations 157–183: the attention stages. -/
abbrev opsA : List (HloOp τ sig (Elt F)) :=
  [ reshape main_v27 main_v84 rfl shapeCasts_S2x2048x1024_S2x2048x16x64,
    unary main_v84 main_v85 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    reshape main_v55 main_v86 rfl shapeCasts_S2x2048x1024_S2x2048x16x64,
    unary main_v86 main_v87 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    reshape main_v83 main_v88 rfl shapeCasts_S2x2048x1024_S2x2048x16x64,
    unary main_v88 main_v89 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    binary main_v85 main_v87 main_v90 ((fun l r => Host.dotGeneral dot_S2x16x2048x64_S2x16x2048x64_S2x16x2048x2048_3_3_2_2_01_01 none l r) : (⟨S2x16x2048x64, .f32⟩ : BufTy).Contents (Elt F) → (⟨S2x16x2048x64, .f32⟩ : BufTy).Contents (Elt F) → (⟨S2x16x2048x2048, .f32⟩ : BufTy).Contents (Elt F)),
    nullary main_cst_32 (constant S_ .f32 0x3E000000#32),
    unary main_cst_32 main_v91 (broadcastInDim S2x16x2048x2048 ![] bcast_S_S2x16x2048x2048 : (⟨S_, .f32⟩ : BufTy).Contents (Elt F) → (⟨S2x16x2048x2048, .f32⟩ : BufTy).Contents (Elt F)),
    binary main_v90 main_v91 main_v92 (mulf : (⟨S2x16x2048x2048, .f32⟩ : BufTy).Contents (Elt F) → (⟨S2x16x2048x2048, .f32⟩ : BufTy).Contents (Elt F) → (⟨S2x16x2048x2048, .f32⟩ : BufTy).Contents (Elt F)),
    nullary main_cst_33 (constant S_ .f32 0xFF800000#32),
    binary main_v92 main_cst_33 main_v93 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    nullary main_cst_34 (constant S_ .f32 0xFF800000#32),
    unary main_cst_34 main_v94 (broadcastInDim S2x16x2048 ![] bcast_S_S2x16x2048 : (⟨S_, .f32⟩ : BufTy).Contents (Elt F) → (⟨S2x16x2048, .f32⟩ : BufTy).Contents (Elt F)),
    binary main_v94 main_v93 main_v95 (maximumf : (⟨S2x16x2048, .f32⟩ : BufTy).Contents (Elt F) → (⟨S2x16x2048, .f32⟩ : BufTy).Contents (Elt F) → (⟨S2x16x2048, .f32⟩ : BufTy).Contents (Elt F)),
    unary main_v95 main_v96 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v96 main_v97 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v92 main_v97 main_v98 (subf : (⟨S2x16x2048x2048, .f32⟩ : BufTy).Contents (Elt F) → (⟨S2x16x2048x2048, .f32⟩ : BufTy).Contents (Elt F) → (⟨S2x16x2048x2048, .f32⟩ : BufTy).Contents (Elt F)),
    unary main_v98 main_v99 (Host.exp : (⟨S2x16x2048x2048, .f32⟩ : BufTy).Contents (Elt F) → (⟨S2x16x2048x2048, .f32⟩ : BufTy).Contents (Elt F)),
    nullary main_cst_35 (constant S_ .f32 0x00000000#32),
    binary main_v99 main_cst_35 main_v100 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    unary main_v100 main_v101 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v101 main_v102 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v99 main_v102 main_v103 (Host.divf : (⟨S2x16x2048x2048, .f32⟩ : BufTy).Contents (Elt F) → (⟨S2x16x2048x2048, .f32⟩ : BufTy).Contents (Elt F) → (⟨S2x16x2048x2048, .f32⟩ : BufTy).Contents (Elt F)),
    binary main_v103 main_v89 main_v104 ((fun l r => Host.dotGeneral dot_S2x16x2048x2048_S2x16x2048x64_S2x16x2048x64_3_2_2_3_01_01 none l r) : (⟨S2x16x2048x2048, .f32⟩ : BufTy).Contents (Elt F) → (⟨S2x16x2048x64, .f32⟩ : BufTy).Contents (Elt F) → (⟨S2x16x2048x64, .f32⟩ : BufTy).Contents (Elt F)),
    unary main_v104 main_v105 ((transpose S2x2048x16x64 [0, 2, 1, 3] · transposes_S2x16x2048x64_S2x2048x16x64_0_2_1_3) : (⟨S2x16x2048x64, .f32⟩ : BufTy).Contents (Elt F) → (⟨S2x2048x16x64, .f32⟩ : BufTy).Contents (Elt F)),
    reshape main_v105 main_v106 rfl shapeCasts_S2x2048x16x64_S2x2048x1024 ]

/-- Operations 184–208: the fourth weight matrix's quantisation. -/
abbrev opsW : List (HloOp τ sig (Elt F)) :=
  [ unary main_arg5 main_v107 (Host.absf : (⟨S1024x1024, .f32⟩ : BufTy).Contents (Elt F) → (⟨S1024x1024, .f32⟩ : BufTy).Contents (Elt F)),
    nullary main_cst_36 (constant S_ .f32 0x00000000#32),
    binary main_v107 main_cst_36 main_v108 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_37 (constant S_ .f32 0x49800000#32),
    binary main_v108 main_cst_37 main_v109 (Host.divf : (⟨S_, .f32⟩ : BufTy).Contents (Elt F) → (⟨S_, .f32⟩ : BufTy).Contents (Elt F) → (⟨S_, .f32⟩ : BufTy).Contents (Elt F)),
    nullary main_cst_38 (constant S_ .f32 0x3727C5AC#32),
    unary main_cst_38 main_call18_v0 (id : (⟨S_, .f32⟩ : BufTy).Contents (Elt F) → (⟨S_, .f32⟩ : BufTy).Contents (Elt F)),
    binary main_call18_v0 main_v109 main_v110 (maximumf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v110 main_v111 (Host.divf : (⟨S_, .f32⟩ : BufTy).Contents (Elt F) → (⟨S_, .f32⟩ : BufTy).Contents (Elt F) → (⟨S_, .f32⟩ : BufTy).Contents (Elt F)),
    unary main_v111 main_v112 (broadcastInDim S1024x1024 ![] bcast_S_S1024x1024 : (⟨S_, .f32⟩ : BufTy).Contents (Elt F) → (⟨S1024x1024, .f32⟩ : BufTy).Contents (Elt F)),
    binary main_arg5 main_v112 main_v113 (mulf : (⟨S1024x1024, .f32⟩ : BufTy).Contents (Elt F) → (⟨S1024x1024, .f32⟩ : BufTy).Contents (Elt F) → (⟨S1024x1024, .f32⟩ : BufTy).Contents (Elt F)),
    unary main_v113 main_v114 (Host.roundeven : (⟨S1024x1024, .f32⟩ : BufTy).Contents (Elt F) → (⟨S1024x1024, .f32⟩ : BufTy).Contents (Elt F)),
    nullary main_cst_40 (constant S_ .f32 0xBF800000#32),
    nullary main_cst_41 (constant S_ .f32 0x3F800000#32),
    unary main_cst_40 main_call20_v0 (id : (⟨S_, .f32⟩ : BufTy).Contents (Elt F) → (⟨S_, .f32⟩ : BufTy).Contents (Elt F)),
    unary main_call20_v0 main_call20_v1 ((broadcastInDim S1024x1024 ![] bcast_S_S1024x1024) : (⟨S_, .f32⟩ : BufTy).Contents (Elt F) → (⟨S1024x1024, .f32⟩ : BufTy).Contents (Elt F)),
    binary main_call20_v1 main_v114 main_call20_v2 (maximumf : (⟨S1024x1024, .f32⟩ : BufTy).Contents (Elt F) → (⟨S1024x1024, .f32⟩ : BufTy).Contents (Elt F) → (⟨S1024x1024, .f32⟩ : BufTy).Contents (Elt F)),
    unary main_cst_41 main_call20_v3 (id : (⟨S_, .f32⟩ : BufTy).Contents (Elt F) → (⟨S_, .f32⟩ : BufTy).Contents (Elt F)),
    unary main_call20_v3 main_call20_v4 ((broadcastInDim S1024x1024 ![] bcast_S_S1024x1024) : (⟨S_, .f32⟩ : BufTy).Contents (Elt F) → (⟨S1024x1024, .f32⟩ : BufTy).Contents (Elt F)),
    binary main_call20_v4 main_call20_v2 main_v115 (minimumf : (⟨S1024x1024, .f32⟩ : BufTy).Contents (Elt F) → (⟨S1024x1024, .f32⟩ : BufTy).Contents (Elt F) → (⟨S1024x1024, .f32⟩ : BufTy).Contents (Elt F)),
    unary main_v111 main_v116 (broadcastInDim S1024x1024 ![] bcast_S_S1024x1024 : (⟨S_, .f32⟩ : BufTy).Contents (Elt F) → (⟨S1024x1024, .f32⟩ : BufTy).Contents (Elt F)),
    binary main_v115 main_v116 main_v117 (Host.divf : (⟨S1024x1024, .f32⟩ : BufTy).Contents (Elt F) → (⟨S1024x1024, .f32⟩ : BufTy).Contents (Elt F) → (⟨S1024x1024, .f32⟩ : BufTy).Contents (Elt F)),
    binary main_v117 main_arg5 main_v118 (subf : (⟨S1024x1024, .f32⟩ : BufTy).Contents (Elt F) → (⟨S1024x1024, .f32⟩ : BufTy).Contents (Elt F) → (⟨S1024x1024, .f32⟩ : BufTy).Contents (Elt F)),
    binary main_arg5 main_v118 main_v119 (addf : (⟨S1024x1024, .f32⟩ : BufTy).Contents (Elt F) → (⟨S1024x1024, .f32⟩ : BufTy).Contents (Elt F) → (⟨S1024x1024, .f32⟩ : BufTy).Contents (Elt F)) ]

/-- Operations 209–235: the attention output's quantisation and the last projection. -/
abbrev opsO : List (HloOp τ sig (Elt F)) :=
  [ unary main_v106 main_v120 (Host.absf : (⟨S2x2048x1024, .f32⟩ : BufTy).Contents (Elt F) → (⟨S2x2048x1024, .f32⟩ : BufTy).Contents (Elt F)),
    nullary main_cst_42 (constant S_ .f32 0xFF800000#32),
    binary main_v120 main_cst_42 main_v121 ((fun x v => Host.reduce FloatOps.maximumf x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v121 main_v122 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_43 (constant S_ .f32 0x3727C5AC#32),
    unary main_cst_43 main_call21_v0 (id : (⟨S_, .f32⟩ : BufTy).Contents (Elt F) → (⟨S_, .f32⟩ : BufTy).Contents (Elt F)),
    unary main_call21_v0 main_call21_v1 ((broadcastInDim S2x2048x1 ![] bcast_S_S2x2048x1) : (⟨S_, .f32⟩ : BufTy).Contents (Elt F) → (⟨S2x2048x1, .f32⟩ : BufTy).Contents (Elt F)),
    binary main_call21_v1 main_v122 main_v123 (maximumf : (⟨S2x2048x1, .f32⟩ : BufTy).Contents (Elt F) → (⟨S2x2048x1, .f32⟩ : BufTy).Contents (Elt F) → (⟨S2x2048x1, .f32⟩ : BufTy).Contents (Elt F)),
    nullary main_cst_44 (constant S_ .f32 0x42FE0000#32),
    unary main_cst_44 main_v124 (broadcastInDim S2x2048x1 ![] bcast_S_S2x2048x1 : (⟨S_, .f32⟩ : BufTy).Contents (Elt F) → (⟨S2x2048x1, .f32⟩ : BufTy).Contents (Elt F)),
    binary main_v124 main_v123 main_v125 (Host.divf : (⟨S2x2048x1, .f32⟩ : BufTy).Contents (Elt F) → (⟨S2x2048x1, .f32⟩ : BufTy).Contents (Elt F) → (⟨S2x2048x1, .f32⟩ : BufTy).Contents (Elt F)),
    unary main_v125 main_v126 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v106 main_v126 main_v127 (mulf : (⟨S2x2048x1024, .f32⟩ : BufTy).Contents (Elt F) → (⟨S2x2048x1024, .f32⟩ : BufTy).Contents (Elt F) → (⟨S2x2048x1024, .f32⟩ : BufTy).Contents (Elt F)),
    unary main_v127 main_v128 (Host.roundeven : (⟨S2x2048x1024, .f32⟩ : BufTy).Contents (Elt F) → (⟨S2x2048x1024, .f32⟩ : BufTy).Contents (Elt F)),
    nullary main_cst_45 (constant S_ .f32 0xC3000000#32),
    nullary main_cst_46 (constant S_ .f32 0x42FE0000#32),
    unary main_cst_45 main_call23_v0 (id : (⟨S_, .f32⟩ : BufTy).Contents (Elt F) → (⟨S_, .f32⟩ : BufTy).Contents (Elt F)),
    unary main_call23_v0 main_call23_v1 ((broadcastInDim S2x2048x1024 ![] bcast_S_S2x2048x1024) : (⟨S_, .f32⟩ : BufTy).Contents (Elt F) → (⟨S2x2048x1024, .f32⟩ : BufTy).Contents (Elt F)),
    binary main_call23_v1 main_v128 main_call23_v2 (maximumf : (⟨S2x2048x1024, .f32⟩ : BufTy).Contents (Elt F) → (⟨S2x2048x1024, .f32⟩ : BufTy).Contents (Elt F) → (⟨S2x2048x1024, .f32⟩ : BufTy).Contents (Elt F)),
    unary main_cst_46 main_call23_v3 (id : (⟨S_, .f32⟩ : BufTy).Contents (Elt F) → (⟨S_, .f32⟩ : BufTy).Contents (Elt F)),
    unary main_call23_v3 main_call23_v4 ((broadcastInDim S2x2048x1024 ![] bcast_S_S2x2048x1024) : (⟨S_, .f32⟩ : BufTy).Contents (Elt F) → (⟨S2x2048x1024, .f32⟩ : BufTy).Contents (Elt F)),
    binary main_call23_v4 main_call23_v2 main_v129 (minimumf : (⟨S2x2048x1024, .f32⟩ : BufTy).Contents (Elt F) → (⟨S2x2048x1024, .f32⟩ : BufTy).Contents (Elt F) → (⟨S2x2048x1024, .f32⟩ : BufTy).Contents (Elt F)),
    unary main_v125 main_v130 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v129 main_v130 main_v131 (Host.divf : (⟨S2x2048x1024, .f32⟩ : BufTy).Contents (Elt F) → (⟨S2x2048x1024, .f32⟩ : BufTy).Contents (Elt F) → (⟨S2x2048x1024, .f32⟩ : BufTy).Contents (Elt F)),
    binary main_v131 main_v106 main_v132 (subf : (⟨S2x2048x1024, .f32⟩ : BufTy).Contents (Elt F) → (⟨S2x2048x1024, .f32⟩ : BufTy).Contents (Elt F) → (⟨S2x2048x1024, .f32⟩ : BufTy).Contents (Elt F)),
    binary main_v106 main_v132 main_v133 (addf : (⟨S2x2048x1024, .f32⟩ : BufTy).Contents (Elt F) → (⟨S2x2048x1024, .f32⟩ : BufTy).Contents (Elt F) → (⟨S2x2048x1024, .f32⟩ : BufTy).Contents (Elt F)),
    binary main_v133 main_v119 main_v134 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)) ]

theorem after_opsA (W : Valuation τ sig (Elt F)) (x0 x1 : (⟨S2x2048x1024, .f32⟩ : BufTy).Contents (Elt F)) (x2 x3 x4 : (⟨S1024x1024, .f32⟩ : BufTy).Contents (Elt F))
    (hq : W (Proc.devRef .tc main_v27) = val_main_v27 (F := F) x0 x2) (hk : W (Proc.devRef .tc main_v55) = val_main_v55 (F := F) x1 x3)
    (hv : W (Proc.devRef .tc main_v83) = val_main_v83 (F := F) x1 x4) :
    after (opsA (F := F)) W (Proc.devRef .tc main_v106) = val_main_v106 (F := F) x0 x1 x2 x3 x4 := by
  after_results_simp
  rw [hq, hk, hv]
  rfl

theorem after_opsW (W : Valuation τ sig (Elt F)) :
    after (opsW (F := F)) W (Proc.devRef .tc main_v119) = val_main_v119 (F := F) (W (Proc.devRef .tc main_arg5)) := by
  after_results_simp
  rfl

theorem after_opsO (W : Valuation τ sig (Elt F)) (x0 x1 : (⟨S2x2048x1024, .f32⟩ : BufTy).Contents (Elt F)) (x2 x3 x4 x5 : (⟨S1024x1024, .f32⟩ : BufTy).Contents (Elt F))
    (ha : W (Proc.devRef .tc main_v106) = val_main_v106 (F := F) x0 x1 x2 x3 x4)
    (hw : W (Proc.devRef .tc main_v119) = val_main_v119 (F := F) x5) :
    after (opsO (F := F)) W (Proc.devRef .tc main_v134) = val_main_v134 (F := F) x0 x1 x2 x3 x4 x5 := by
  after_results_simp
  rw [ha, hw]
  rfl

/-- The attention stretch leaves the last weight matrix alone. -/
theorem keep_opsA (W : Valuation τ sig (Elt F)) :
    after (opsA (F := F)) W (Proc.devRef .tc main_arg5) = W (Proc.devRef .tc main_arg5) := by
  after_results_simp

/-- The weight stretch leaves the attention output alone. -/
theorem keep_opsW (W : Valuation τ sig (Elt F)) :
    after (opsW (F := F)) W (Proc.devRef .tc main_v106) = W (Proc.devRef .tc main_v106) := by
  after_results_simp

end Cert.ReferenceIdeal.RefValue

end
-- ==== Proof.RefRun.lean ====
/-
  The reference's run.

  Every weakly fair execution of the reference program terminates, with its result buffer at the stage function of
  the six argument arrays and the arguments unchanged.  The 235 operations are read in six stretches (three
  projections, the attention stages, the fourth weight matrix, the last projection): after each stretch the buffer it
  ends in holds its stage function of the arguments, and the buffers read later are untouched in between.
-/
import proofs.«161176_j6906307412019_2_alg».proof.Proof.RefRunP
import proofs.«161176_j6906307412019_2_alg».proof.Proof.RefRunArgs
import proofs.«161176_j6906307412019_2_alg».proof.Proof.RefRunPieces1
import proofs.«161176_j6906307412019_2_alg».proof.Proof.RefRunPieces2

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operation list is the six stretches in order. -/
theorem ops_split : Cert.ReferenceIdeal.ValueP.ops (F := F) = opsQ ++ opsK ++ opsV ++ opsA ++ opsW ++ opsO := rfl

/-- After the whole line, from any contents, the result buffer holds the last stage function of the arguments. -/
theorem after_ops (V : Valuation τ sig (Elt F)) :
    after (Cert.ReferenceIdeal.ValueP.ops (F := F)) V (Proc.devRef .tc main_v134)
      = val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split]
  simp only [StableHlo.after_append]
  -- the query projection
  have q1 := after_opsQ (F := F) V
  obtain ⟨k1a1, k1a3, k1a4, k1a5⟩ := keep_opsQ (F := F) V
  generalize after (opsQ (F := F)) V = V1 at q1 k1a1 k1a3 k1a4 k1a5 ⊢
  -- the key projection
  have q2 := after_opsK (F := F) V1
  obtain ⟨k2q, k2a1, k2a4, k2a5⟩ := keep_opsK (F := F) V1
  rw [k1a1, k1a3] at q2
  generalize after (opsK (F := F)) V1 = V2 at q2 k2q k2a1 k2a4 k2a5 ⊢
  -- the value projection
  have q3 := after_opsV (F := F) V2
  obtain ⟨k3q, k3k, k3a5⟩ := keep_opsV (F := F) V2
  rw [k2a1, k1a1, k2a4, k1a4] at q3
  generalize after (opsV (F := F)) V2 = V3 at q3 k3q k3k k3a5 ⊢
  -- the attention stages
  have q4 := after_opsA (F := F) V3 (V (Proc.devRef .tc main_arg0)) (V (Proc.devRef .tc main_arg1)) (V (Proc.devRef .tc main_arg2)) (V (Proc.devRef .tc main_arg3)) (V (Proc.devRef .tc main_arg4))
    (k3q.trans (k2q.trans q1)) (k3k.trans q2) q3
  have k4a5 := keep_opsA (F := F) V3
  generalize after (opsA (F := F)) V3 = V4 at q4 k4a5 ⊢
  -- the fourth weight matrix
  have q5 := after_opsW (F := F) V4
  have k5 := keep_opsW (F := F) V4
  rw [k4a5, k3a5, k2a5, k1a5] at q5
  generalize after (opsW (F := F)) V4 = V5 at q5 k5 ⊢
  -- the last projection
  exact after_opsO (F := F) V5 _ _ _ _ _ _ (k5.trans q4) q5

/-- On every device, for any float values, from any memory with zero counters: every weakly fair execution of
    @main terminates with the result at the last stage function of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v134)
          = val_main_v134 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v134).trans (after_ops (F := F) (launchContents m c)),
      (h c main_arg0).trans (after_ops_args (F := F) (launchContents m c)).1,
      (h c main_arg1).trans (after_ops_args (F := F) (launchContents m c)).2.1,
      (h c main_arg2).trans (after_ops_args (F := F) (launchContents m c)).2.2.1,
      (h c main_arg3).trans (after_ops_args (F := F) (launchContents m c)).2.2.2.1,
      (h c main_arg4).trans (after_ops_args (F := F) (launchContents m c)).2.2.2.2.1,
      (h c main_arg5).trans (after_ops_args (F := F) (launchContents m c)).2.2.2.2.2⟩)
    (run_seq Cert.ReferenceIdeal.ValueP.scopedRefs_eq Cert.ReferenceIdeal.ValueP.scopedSems_eq defs main
      (fun _ => Cert.ReferenceIdeal.ValueP.ops) Cert.ReferenceIdeal.ValueP.main_eq
      (fun _ => Cert.ReferenceIdeal.ValueP.ops_sub) m ρ)

end Cert.ReferenceIdeal.RefValue

end
-- ==== Proof.Alg.lean ====
/-
  The two remaining claims.  The reference's frame is its run with the result dropped.  The algebraic claim: under the
  precondition every input entry is the cast of a real; on such inputs the idealized kernel's result buffer holds the
  cast of the specification entry by entry (the walk through @main's items), and so does the reference's (its composed
  term read stage by stage); the two memories agree on the inputs, so the two results are equal as extended reals.
-/
import proofs.«161176_j6906307412019_2_alg».proof.Defs
import proofs.«161176_j6906307412019_2_alg».proof.Proof.Gen.Kernel
import proofs.«161176_j6906307412019_2_alg».proof.Proof.Gen.KernelIdeal
import proofs.«161176_j6906307412019_2_alg».proof.Proof.Gen.ReferenceIdeal
import proofs.«161176_j6906307412019_2_alg».proof.Proof.Gen.Pre_finite_inputs
import proofs.«161176_j6906307412019_2_alg».proof.Proof.Compose
import proofs.«161176_j6906307412019_2_alg».proof.Proof.RunAll
import proofs.«161176_j6906307412019_2_alg».proof.Proof.FiniteInputs
import proofs.«161176_j6906307412019_2_alg».proof.Proof.RefSpec
import proofs.«161176_j6906307412019_2_alg».proof.Proof.RefRun

set_option maxRecDepth 16384

noncomputable section

namespace Cert.Proof

open Idealize.ShloMosaic Idealize.ShloMosaic.TcCoe Idealize.ShloMosaic.ValueIdx Idealize.SL.Sem

/-- The reference runs to the end, faults nowhere and leaves its arguments as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run (F := Ideal) m ρ)

/-- An unscoped TensorCore reference of the kernel program is among those the run reads at the end. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- A real array on [2, 2048, 1024] indices, read by coordinates. -/
abbrev arr3 (f : (⟨3, ![2, 2048, 1024]⟩ : Shape).Idx → ℝ) : Fin 2 → Fin 2048 → Fin 1024 → ℝ := fun b n k => f (ix3 b n k)
/-- A real array on [1024, 1024] indices, read by coordinates. -/
abbrev arr2 (f : (⟨2, ![1024, 1024]⟩ : Shape).Idx → ℝ) : Fin 1024 → Fin 1024 → ℝ := fun o k => f (ix2 o k)
theorem arr3_at (f : (⟨3, ![2, 2048, 1024]⟩ : Shape).Idx → ℝ) (i : (⟨3, ![2, 2048, 1024]⟩ : Shape).Idx) :
    ((f i : ℝ) : EReal) = ((arr3 f (i 0) (i 1) (i 2) : ℝ) : EReal) := congrArg (fun j => ((f j : ℝ) : EReal)) (eq_ix3 i)
theorem arr2_at (f : (⟨2, ![1024, 1024]⟩ : Shape).Idx → ℝ) (i : (⟨2, ![1024, 1024]⟩ : Shape).Idx) :
    ((f i : ℝ) : EReal) = ((arr2 f (i 0) (i 1) : ℝ) : EReal) := congrArg (fun j => ((f j : ℝ) : EReal)) (eq_ix2 i)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- every input entry is the cast of a real, on every core
  have hr := fun c => @Cert.FiniteInputs.real_inputs Cert.Pre_finite_inputs.Gen.facts _ _ _ _ _ _ (hpre c)
  choose x0 hx0 using fun c => (hr c).1
  choose x1 hx1 using fun c => (hr c).2.1
  choose x2 hx2 using fun c => (hr c).2.2.1
  choose x3 hx3 using fun c => (hr c).2.2.2.1
  choose x4 hx4 using fun c => (hr c).2.2.2.2.1
  choose x5 hx5 using fun c => (hr c).2.2.2.2.2
  -- the same facts with the arrays read by coordinates
  have h0 : ∀ (c : Dev Cert.KernelIdeal.nD) (i : Cert.KernelIdeal.S2x2048x1024.Idx), m ((c.tc : Thread Cert.KernelIdeal.nD Cert.KernelIdeal.τ).loc Cert.KernelIdeal.main_arg0) i = ((arr3 (x0 c) (i 0) (i 1) (i 2) : ℝ) : EReal) :=
    fun c i => (hx0 c i).trans (arr3_at (x0 c) i)
  have h1 : ∀ (c : Dev Cert.KernelIdeal.nD) (i : Cert.KernelIdeal.S2x2048x1024.Idx), m ((c.tc : Thread Cert.KernelIdeal.nD Cert.KernelIdeal.τ).loc Cert.KernelIdeal.main_arg1) i = ((arr3 (x1 c) (i 0) (i 1) (i 2) : ℝ) : EReal) :=
    fun c i => (hx1 c i).trans (arr3_at (x1 c) i)
  have h2 : ∀ (c : Dev Cert.KernelIdeal.nD) (i : Cert.KernelIdeal.S1024x1024.Idx), m ((c.tc : Thread Cert.KernelIdeal.nD Cert.KernelIdeal.τ).loc Cert.KernelIdeal.main_arg2) i = ((arr2 (x2 c) (i 0) (i 1) : ℝ) : EReal) :=
    fun c i => (hx2 c i).trans (arr2_at (x2 c) i)
  have h3 : ∀ (c : Dev Cert.KernelIdeal.nD) (i : Cert.KernelIdeal.S1024x1024.Idx), m ((c.tc : Thread Cert.KernelIdeal.nD Cert.KernelIdeal.τ).loc Cert.KernelIdeal.main_arg3) i = ((arr2 (x3 c) (i 0) (i 1) : ℝ) : EReal) :=
    fun c i => (hx3 c i).trans (arr2_at (x3 c) i)
  have h4 : ∀ (c : Dev Cert.KernelIdeal.nD) (i : Cert.KernelIdeal.S1024x1024.Idx), m ((c.tc : Thread Cert.KernelIdeal.nD Cert.KernelIdeal.τ).loc Cert.KernelIdeal.main_arg4) i = ((arr2 (x4 c) (i 0) (i 1) : ℝ) : EReal) :=
    fun c i => (hx4 c i).trans (arr2_at (x4 c) i)
  have h5 : ∀ (c : Dev Cert.KernelIdeal.nD) (i : Cert.KernelIdeal.S1024x1024.Idx), m ((c.tc : Thread Cert.KernelIdeal.nD Cert.KernelIdeal.τ).loc Cert.KernelIdeal.main_arg5) i = ((arr2 (x5 c) (i 0) (i 1) : ℝ) : EReal) :=
    fun c i => (hx5 c i).trans (arr2_at (x5 c) i)
  refine ⟨fun c => fun i => ((Cert.Spec.GR (arr3 (x0 c)) (arr3 (x1 c)) (arr2 (x2 c)) (arr2 (x3 c)) (arr2 (x4 c)) (arr2 (x5 c)) (i 0) (i 1) (i 2) : ℝ) : EReal), ?_, ?_⟩
  · -- the idealized kernel: its run reads every unscoped buffer at the last boundary's contents
    refine (θ_run Cert.KernelIdeal.defs _ _).mono (fun r h c => ⟨?_, ?_, ?_, ?_, ?_, ?_, ?_⟩)
      (Cert.KernelIdeal.Hand.run_of_facts (F := Ideal) m ρ _ _ _ _ Cert.KernelIdeal.Hand.facts0 Cert.KernelIdeal.Hand.facts1
        Cert.KernelIdeal.Hand.facts2 Cert.KernelIdeal.Hand.facts3)
    · exact (h c _ (mem_uc Cert.KernelIdeal.main_v70 (by decide))).trans
        (funext (Cert.KernelIdeal.Hand.out_real m c (arr3 (x0 c)) (arr3 (x1 c)) (arr2 (x2 c)) (arr2 (x3 c)) (arr2 (x4 c)) (arr2 (x5 c)) (h0 c) (h1 c) (h2 c) (h3 c) (h4 c) (h5 c)))
    · exact (h c _ (mem_uc Cert.KernelIdeal.main_arg0 (by decide))).trans (Cert.KernelIdeal.Gen.V32_main_arg0 m _ c)
    · exact (h c _ (mem_uc Cert.KernelIdeal.main_arg1 (by decide))).trans (Cert.KernelIdeal.Gen.V32_main_arg1 m _ c)
    · exact (h c _ (mem_uc Cert.KernelIdeal.main_arg2 (by decide))).trans (Cert.KernelIdeal.Gen.V32_main_arg2 m _ c)
    · exact (h c _ (mem_uc Cert.KernelIdeal.main_arg3 (by decide))).trans (Cert.KernelIdeal.Gen.V32_main_arg3 m _ c)
    · exact (h c _ (mem_uc Cert.KernelIdeal.main_arg4 (by decide))).trans (Cert.KernelIdeal.Gen.V32_main_arg4 m _ c)
    · exact (h c _ (mem_uc Cert.KernelIdeal.main_arg5 (by decide))).trans (Cert.KernelIdeal.Gen.V32_main_arg5 m _ c)
  · -- the reference: its composed term on casts of reals is the cast of the specification
    refine (θ_run Cert.ReferenceIdeal.defs _ _).mono (fun r h c => ⟨(h c).1.trans ?_, (h c).2⟩)
      (Cert.ReferenceIdeal.RefValue.ref_run (F := Ideal) m' ρ')
    rw [(hagree c).1, (hagree c).2.1, (hagree c).2.2.1, (hagree c).2.2.2.1, (hagree c).2.2.2.2.1,
      (hagree c).2.2.2.2.2, funext (h0 c), funext (h1 c), funext (h2 c), funext (h3 c), funext (h4 c), funext (h5 c)]
    exact Cert.ReferenceIdeal.RefValue.ref_eq_spec (arr3 (x0 c)) (arr3 (x1 c)) (arr2 (x2 c)) (arr2 (x3 c)) (arr2 (x4 c)) (arr2 (x5 c))

end Cert.Proof

end
-- ==== Proof.lean ====
/-
  A cross-attention block with eight-bit activation quantisation and ternary weight quantisation: four TPU kernels
  (the query projection; the key and value projections; a streaming-softmax attention that carries a running maximum,
  normaliser and weighted sum across the key tiles; the output projection) against a plain reference that quantises
  with straight-through terms x + (q(x) − x), scales the scores by 1/8 and normalises a whole softmax row at once.

  The three frames: each kernel region of @main is a segment of the run — its windows' arrays split out of the unscoped
  buffers, the body obligation at every grid point (for the attention kernel with an invariant that pins its three
  scratch buffers point by point), the arrays put back — chained with the host stretches; the reference's frame is its
  run with the result dropped.  The idealization rewrote nothing, so `preserves` is `True`.

  The algebraic claim, at the extended reals: under the precondition every input entry is the cast of a real.  On real
  inputs the kernel's result is, entry by entry, the cast of one real-valued specification: the quantised projections
  are products of real matrices, the streaming softmax is the plain softmax-weighted sum, 1/8 moves from the query
  weight to the scores, and heads are column ranges.  The reference's result is the cast of the same specification:
  x + (q(x) − x) = q(x) for a finite x — which needs the attention output finite, as it is.
-/
import proofs.«161176_j6906307412019_2_alg».proof.Defs
import proofs.«161176_j6906307412019_2_alg».proof.Proof.Gen.Kernel
import proofs.«161176_j6906307412019_2_alg».proof.Proof.Gen.KernelIdeal
import proofs.«161176_j6906307412019_2_alg».proof.Proof.Gen.ReferenceIdeal
import proofs.«161176_j6906307412019_2_alg».proof.Proof.Gen.Pre_finite_inputs
import proofs.«161176_j6906307412019_2_alg».proof.Proof.Facts
import proofs.«161176_j6906307412019_2_alg».proof.Proof.KFacts
import proofs.«161176_j6906307412019_2_alg».proof.Proof.Alg

noncomputable section

namespace Cert.Proof

open Idealize.ShloMosaic Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
